-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v124) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1200000 : Shape := ⟨1, ![1200000]⟩
abbrev S100000x64 : Shape := ⟨2, ![100000, 64]⟩
abbrev S50000x384 : Shape := ⟨2, ![50000, 384]⟩
abbrev S3x64 : Shape := ⟨2, ![3, 64]⟩
abbrev S64x384 : Shape := ⟨2, ![64, 384]⟩
abbrev S64 : Shape := ⟨1, ![64]⟩
abbrev S_ : Shape := ⟨0, ![]⟩

class Facts : Prop where
  bcast_S_S1200000 : S_.BroadcastsInDim S1200000 (![] : Fin 0 → Fin S1200000.rank)
  reducesTo_S1200000_S_d0 : S1200000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S50000x384 : S_.BroadcastsInDim S50000x384 (![] : Fin 0 → Fin S50000x384.rank)
  reducesTo_S50000x384_S_d0_1 : S50000x384.ReducesTo [0, 1] S_
  bcast_S_S3x64 : S_.BroadcastsInDim S3x64 (![] : Fin 0 → Fin S3x64.rank)
  reducesTo_S3x64_S_d0_1 : S3x64.ReducesTo [0, 1] S_
  bcast_S_S64x384 : S_.BroadcastsInDim S64x384 (![] : Fin 0 → Fin S64x384.rank)
  reducesTo_S64x384_S_d0_1 : S64x384.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S3x64 .f32) (main_arg7 : FVec F S64x384 .f32) (main_arg8 : FVec F S64 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S64x384 .f32 := Host.absf main_arg7
  let main_cst_8 : FVec F S_ .f32 := constant S_ .f32 0x7F800000#32
  let main_v25 : FVec F S64x384 .f32 := broadcastInDim S64x384 ![] bcast_S_S64x384 main_cst_8
  let main_v26 : IVec S64x384 1 := cmpf .olt main_v24 main_v25
  let main_c_9 : IVec S_ 1 := constantI S_ 1 1#1
  let main_v27 : IVec S_ 1 := (fun x v => Host.reduce IntOp.andi x v reducesTo_S64x384_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : IVec S1200000 32) (main_arg1 : IVec S1200000 32) (main_arg2 : FVec F S1200000 .f32) (main_arg3 : FVec F S100000x64 .f32) (main_arg4 : FVec F S50000x384 .f32) (main_arg5 : FVec F S3x64 .f32) (main_arg6 : FVec F S3x64 .f32) (main_arg7 : FVec F S64x384 .f32) (main_arg8 : FVec F S64 .f32) : IVec S_ 1 :=
  let main_v0 : FVec F S1200000 .f32 := Host.absf main_arg2
  let main_cst : FVec F S_ .f32 := constant S_ .f32 0x7F800000#32
  let main_v1 : FVec F S1200000 .f32 := broadcastInDim S1200000 ![] bcast_S_S1200000 main_cst
  let main_v2 : IVec S1200000 1 := cmpf .olt main_v0 main_v1
  let main_c : IVec S_ 1 := constantI S_ 1 1#1
  let main_v3 : IVec S_ 1 := (fun x v => Host.reduce IntOp.andi x v reducesTo_S1200000_S_d0 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S50000x384 .f32 := Host.absf main_arg4
  let main_cst_2 : FVec F S_ .f32 := constant S_ .f32 0x7F800000#32
  let main_v10 : FVec F S50000x384 .f32 := broadcastInDim S50000x384 ![] bcast_S_S50000x384 main_cst_2
  let main_v11 : IVec S50000x384 1 := cmpf .olt main_v9 main_v10
  let main_c_3 : IVec S_ 1 := constantI S_ 1 1#1
  let main_v12 : IVec S_ 1 := (fun x v => Host.reduce IntOp.andi x v reducesTo_S50000x384_S_d0_1 h_S_) main_v11 main_c_3
  let main_v13 : IVec S_ 1 := andi main_v8 main_v12
  let main_v14 : FVec F S3x64 .f32 := Host.absf main_arg5
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg6 main_arg7 main_arg8 main_v13 main_v16
-- ==== Kernel.lean ====
abbrev S1200000 : Shape := ⟨1, ![1200000]⟩
abbrev S100000x64 : Shape := ⟨2, ![100000, 64]⟩
abbrev S50000x384 : Shape := ⟨2, ![50000, 384]⟩
abbrev S3x64 : Shape := ⟨2, ![3, 64]⟩
abbrev S64x384 : Shape := ⟨2, ![64, 384]⟩
abbrev S64 : Shape := ⟨1, ![64]⟩
abbrev S_ : Shape := ⟨0, ![]⟩
abbrev S1x64 : Shape := ⟨2, ![1, 64]⟩
abbrev S10000x64 : Shape := ⟨2, ![10000, 64]⟩
abbrev S384x64 : Shape := ⟨2, ![384, 64]⟩
abbrev S50000x64 : Shape := ⟨2, ![50000, 64]⟩
abbrev S10000x384 : Shape := ⟨2, ![10000, 384]⟩
abbrev S150000x64 : Shape := ⟨2, ![150000, 64]⟩
abbrev S1200000x1 : Shape := ⟨2, ![1200000, 1]⟩
abbrev S1200000x64 : Shape := ⟨2, ![1200000, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 96
  | .vmem => 52
  | .smem => 0
  | _ => 0

abbrev bufTy : (tb : Table) → Fin (tcTables nBuf tb) → BufTy
  | .hbm, ⟨0, _⟩ => ⟨S1200000, .i32⟩
  | .hbm, ⟨1, _⟩ => ⟨S1200000, .i32⟩
  | .hbm, ⟨2, _⟩ => ⟨S1200000, .f32⟩
  | .hbm, ⟨3, _⟩ => ⟨S100000x64, .f32⟩
  | .hbm, ⟨4, _⟩ => ⟨S50000x384, .f32⟩
  | .hbm, ⟨5, _⟩ => ⟨S3x64, .f32⟩
  | .hbm, ⟨6, _⟩ => ⟨S3x64, .f32⟩
  | .hbm, ⟨7, _⟩ => ⟨S64x384, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S1x64, .f32⟩
  | .hbm, ⟨14, _⟩ => ⟨S100000x64, .f32⟩
  | .hbm, ⟨15, _⟩ => ⟨S50000x384, .bf16⟩
  | .hbm, ⟨16, _⟩ => ⟨S384x64, .f32⟩
  | .hbm, ⟨17, _⟩ => ⟨S384x64, .bf16⟩
  | .hbm, ⟨18, _⟩ => ⟨S1x64, .f32⟩
  | .hbm, ⟨19, _⟩ => ⟨S1x64, .f32⟩
  | .hbm, ⟨20, _⟩ => ⟨S50000x64, .f32⟩
  | .hbm, ⟨21, _⟩ => ⟨S150000x64, .f32⟩
  | .hbm, ⟨22, _⟩ => ⟨S1200000x1, .f32⟩
  | .hbm, ⟨23, _⟩ => ⟨S_, .i32⟩
  | .hbm, ⟨24, _⟩ => ⟨S1200000, .i32⟩
  | .hbm, ⟨25, _⟩ => ⟨S1200000, .i1⟩
  | .hbm, ⟨26, _⟩ => ⟨S_, .i32⟩
  | .hbm, ⟨27, _⟩ => ⟨S1200000, .i32⟩
  | .hbm, ⟨28, _⟩ => ⟨S1200000, .i32⟩
  | .hbm, ⟨29, _⟩ => ⟨S1200000, .i32⟩
  | .hbm, ⟨30, _⟩ => ⟨S1200000x1, .i32⟩
  | .hbm, ⟨31, _⟩ => ⟨S1200000x64, .f32⟩
  | .hbm, ⟨32, _⟩ => ⟨S1200000x64, .f32⟩
  | .hbm, ⟨33, _⟩ => ⟨S1200000x64, .f32⟩
  | .hbm, ⟨34, _⟩ => ⟨S_, .f32⟩
  | .hbm, ⟨35, _⟩ => ⟨S150000x64, .f32⟩
  | .hbm, ⟨36, _⟩ => ⟨S1200000x1, .i32⟩
  | .hbm, ⟨37, _⟩ => ⟨S150000x64, .f32⟩
  | .hbm, ⟨38, _⟩ => ⟨S150000x64, .f32⟩
  | .hbm, ⟨39, _⟩ => ⟨S150000x64, .f32⟩
  | .hbm, ⟨40, _⟩ => ⟨S1200000x1, .f32⟩
  | .hbm, ⟨41, _⟩ => ⟨S_, .i32⟩
  | .hbm, ⟨42, _⟩ => ⟨S1200000, .i32⟩
  | .hbm, ⟨43, _⟩ => ⟨S1200000, .i1⟩
  | .hbm, ⟨44, _⟩ => ⟨S_, .i32⟩
  | .hbm, ⟨45, _⟩ => ⟨S1200000, .i32⟩
  | .hbm, ⟨46, _⟩ => ⟨S1200000, .i32⟩
  | .hbm, ⟨47, _⟩ => ⟨S1200000, .i32⟩
  | .hbm, ⟨48, _⟩ => ⟨S1200000x1, .i32⟩
  | .hbm, ⟨49, _⟩ => ⟨S1200000x64, .f32⟩
  | .hbm, ⟨50, _⟩ => ⟨S1200000x64, .f32⟩
  | .hbm, ⟨51, _⟩ => ⟨S1200000x64, .f32⟩
  | .hbm, ⟨52, _⟩ => ⟨S_, .f32⟩
  | .hbm, ⟨53, _⟩ => ⟨S150000x64, .f32⟩
  | .hbm, ⟨54, _⟩ => ⟨S1200000x1, .i32⟩
  | .hbm, ⟨55, _⟩ => ⟨S150000x64, .f32⟩
  | .hbm, ⟨56, _⟩ => ⟨S150000x64, .f32⟩
  | .hbm, ⟨57, _⟩ => ⟨S150000x64, .f32⟩
  | .hbm, ⟨58, _⟩ => ⟨S1200000x1, .f32⟩
  | .hbm, ⟨59, _⟩ => ⟨S_, .i32⟩
  | .hbm, ⟨60, _⟩ => ⟨S1200000, .i32⟩
  | .hbm, ⟨61, _⟩ => ⟨S1200000, .i1⟩
  | .hbm, ⟨62, _⟩ => ⟨S_, .i32⟩
  | .hbm, ⟨63, _⟩ => ⟨S1200000, .i32⟩
  | .hbm, ⟨64, _⟩ => ⟨S1200000, .i32⟩
  | .hbm, ⟨65, _⟩ => ⟨S1200000, .i32⟩
  | .hbm, ⟨66, _⟩ => ⟨S1200000x1, .i32⟩
  | .hbm, ⟨67, _⟩ => ⟨S1200000x64, .f32⟩
  | .hbm, ⟨68, _⟩ => ⟨S1200000x64, .f32⟩
  | .hbm, ⟨69, _⟩ => ⟨S1200000x64, .f32⟩
  | .hbm, ⟨70, _⟩ => ⟨S_, .f32⟩
  | .hbm, ⟨71, _⟩ => ⟨S150000x64, .f32⟩
  | .hbm, ⟨72, _⟩ => ⟨S1200000x1, .i32⟩
  | .hbm, ⟨73, _⟩ => ⟨S150000x64, .f32⟩
  | .hbm, ⟨74, _⟩ => ⟨S150000x64, .f32⟩
  | .hbm, ⟨75, _⟩ => ⟨S150000x64, .f32⟩
  | .hbm, ⟨76, _⟩ => ⟨S1200000x1, .f32⟩
  | .hbm, ⟨77, _⟩ => ⟨S_, .i32⟩
  | .hbm, ⟨78, _⟩ => ⟨S1200000, .i32⟩
  | .hbm, ⟨79, _⟩ => ⟨S1200000, .i1⟩
  | .hbm, ⟨80, _⟩ => ⟨S_, .i32⟩
  | .hbm, ⟨81, _⟩ => ⟨S1200000, .i32⟩
  | .hbm, ⟨82, _⟩ => ⟨S1200000, .i32⟩
  | .hbm, ⟨83, _⟩ => ⟨S1200000, .i32⟩
  | .hbm, ⟨84, _⟩ => ⟨S1200000x1, .i32⟩
  | .hbm, ⟨85, _⟩ => ⟨S1200000x64, .f32⟩
  | .hbm, ⟨86, _⟩ => ⟨S1200000x64, .f32⟩
  | .hbm, ⟨87, _⟩ => ⟨S1200000x64, .f32⟩
  | .hbm, ⟨88, _⟩ => ⟨S_, .f32⟩
  | .hbm, ⟨89, _⟩ => ⟨S150000x64, .f32⟩
  | .hbm, ⟨90, _⟩ => ⟨S1200000x1, .i32⟩
  | .hbm, ⟨91, _⟩ => ⟨S150000x64, .f32⟩
  | .hbm, ⟨92, _⟩ => ⟨S150000x64, .f32⟩
  | .hbm, ⟨93, _⟩ => ⟨S150000x64, .f32⟩
  | .hbm, ⟨94, _⟩ => ⟨S100000x64, .f32⟩
  | .hbm, ⟨95, _⟩ => ⟨S50000x64, .f32⟩
  | .local _ .vmem, ⟨0, _⟩ => ⟨S10000x64, .f32⟩
  | .local _ .vmem, ⟨1, _⟩ => ⟨S10000x64, .f32⟩
  | .local _ .vmem, ⟨2, _⟩ => ⟨S1x64, .f32⟩
  | .local _ .vmem, ⟨3, _⟩ => ⟨S10000x64, .f32⟩
  | .local _ .vmem, ⟨4, _⟩ => ⟨S10000x64, .f32⟩
  | .local _ .vmem, ⟨5, _⟩ => ⟨S10000x384, .bf16⟩
  | .local _ .vmem, ⟨6, _⟩ => ⟨S10000x384, .bf16⟩
  | .local _ .vmem, ⟨7, _⟩ => ⟨S384x64, .bf16⟩
  | .local _ .vmem, ⟨8, _⟩ => ⟨S1x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | _, _ => ⟨S1200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24_0 : Ref sig .tc := ⟨.hbm, 38, rfl⟩
abbrev main_v24_1 : Ref sig .tc := ⟨.hbm, 39, rfl⟩
abbrev main_v25 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38_0 : Ref sig .tc := ⟨.hbm, 56, rfl⟩
abbrev main_v38_1 : Ref sig .tc := ⟨.hbm, 57, rfl⟩
abbrev main_v39 : Ref sig .tc := ⟨.hbm, 58, rfl⟩
abbrev main_c_6 : Ref sig .tc := ⟨.hbm, 59, rfl⟩
abbrev main_v40 : Ref sig .tc := ⟨.hbm, 60, rfl⟩
abbrev main_v41 : Ref sig .tc := ⟨.hbm, 61, rfl⟩
abbrev main_c_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_8 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52_0 : Ref sig .tc := ⟨.hbm, 74, rfl⟩
abbrev main_v52_1 : Ref sig .tc := ⟨.hbm, 75, rfl⟩
abbrev main_v53 : Ref sig .tc := ⟨.hbm, 76, rfl⟩
abbrev main_c_9 : Ref sig .tc := ⟨.hbm, 77, rfl⟩
abbrev main_v54 : Ref sig .tc := ⟨.hbm, 78, rfl⟩
abbrev main_v55 : Ref sig .tc := ⟨.hbm, 79, rfl⟩
abbrev main_c_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_11 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66_0 : Ref sig .tc := ⟨.hbm, 92, rfl⟩
abbrev main_v66_1 : Ref sig .tc := ⟨.hbm, 93, rfl⟩
abbrev main_v67 : Ref sig .tc := ⟨.hbm, 94, rfl⟩
abbrev main_v68 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg3_1 : Ref sig .tc := ⟨.vmem, 39, rfl⟩
abbrev cc4_stg4_0 : Ref sig .tc := ⟨.vmem, 40, rfl⟩
abbrev cc4_stg4_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc5_stg3_0 : Ref sig .tc := ⟨.vmem, 48, rfl⟩
abbrev cc5_stg3_1 : Ref sig .tc := ⟨.vmem, 49, rfl⟩
abbrev cc5_stg4_0 : Ref sig .tc := ⟨.vmem, 50, rfl⟩
abbrev cc5_stg4_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39
abbrev cc4_sem4_0 : DmaSem sig := 40
abbrev cc4_sem4_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem2_1 : DmaSem sig := 47
abbrev cc5_sem3_0 : DmaSem sig := 48
abbrev cc5_sem3_1 : DmaSem sig := 49
abbrev cc5_sem4_0 : DmaSem sig := 50
abbrev cc5_sem4_1 : DmaSem sig := 51

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x384 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S384x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![30], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![30], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![30], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![30], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  reducesTo_S3x64_S64_d0 : S3x64.ReducesTo [0] S64
  h_S_ : 0 < S_.numel
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bitsLt_bf16_f32 : FTy.bits .bf16 < FTy.bits .f32
  transposes_S64x384_S384x64_1_0 : S64x384.Transposes [1, 0] S384x64
  inb_S10000x384_S10000x384_0_0 : ∀ a, (![0, 0] : Fin 2 → Nat) a + S10000x384.size a ≤ S10000x384.size a
  h_S10000x384 : 0 < S10000x384.numel
  shapeCasts_S10000x384_S10000x384 : S10000x384.ShapeCasts S10000x384
  inb_S384x64_S384x64_0_0 : ∀ a, (![0, 0] : Fin 2 → Nat) a + S384x64.size a ≤ S384x64.size a
  h_S384x64 : 0 < S384x64.numel
  shapeCasts_S384x64_S384x64 : S384x64.ShapeCasts S384x64
  concatenates_S100000x64_S50000x64_S150000x64_d0 : Shape.Concatenates [S100000x64, S50000x64] S150000x64 0
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  bcast_S_S150000x64 : S_.BroadcastsInDim S150000x64 (![] : Fin 0 → Fin S150000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  reduces_S5000x64_S5000 : S5000x64.Reduces [1] S5000
  shapeCasts_S5000_S5000x1 : S5000.ShapeCasts S5000x1
  broadcasts_S5000x1_S5000x64 : S5000x1.Broadcasts S5000x64
  slices_S150000x64_S100000x64_0_0 : S150000x64.Slices ![0, 0] S100000x64
  slices_S150000x64_S50000x64_100000_0 : S150000x64.Slices ![100000, 0] S50000x64
  dot_S10000x384_S384x64_S10000x64_1_0_0_1_n_n_wf : DotDims.WF S10000x384 S384x64 S10000x64 [1] [0] [0] [1] [] []
  gather_S150000x64_S1200000x1_S1200000x64_1_0_n_n_0_1_164_wf : GatherDims.WF S150000x64 S1200000x1 S1200000x64 [1] [0] [] [0] [] 1 ![1, 64]
  scatter_S150000x64_S1200000x1_S1200000x64_1_0_0_1_wf : ScatterDims.WF S150000x64 S1200000x1 S1200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x384.size a ≤ S50000x384.size a
  hwx1_0 : ∀ i : grid1.Coords, EltTy.bits .bf16 = 32 ∨ (Rect.block (s := S50000x384) S10000x384.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S384x64.size a ≤ S384x64.size a
  hwx1_1 : ∀ i : grid1.Coords, EltTy.bits .bf16 = 32 ∨ (Rect.block (s := S384x64) S384x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S50000x64.size a
  hwx1_4 : ∀ i : grid1.Coords, EltTy.bits .f32 = 32 ∨ (Rect.block (s := S50000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S150000x64.size a
  hwx2_0 : ∀ i : grid2.Coords, EltTy.bits .f32 = 32 ∨ (Rect.block (s := S150000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S150000x64.size a
  hwx2_1 : ∀ i : grid2.Coords, EltTy.bits .f32 = 32 ∨ (Rect.block (s := S150000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S150000x64.size a
  hwx2_2 : ∀ i : grid2.Coords, EltTy.bits .f32 = 32 ∨ (Rect.block (s := S150000x64) S5000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S150000x64.size a
  hwx2_3 : ∀ i : grid2.Coords, EltTy.bits .f32 = 32 ∨ (Rect.block (s := S150000x64) S5000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S150000x64.size a
  hwx2_4 : ∀ i : grid2.Coords, EltTy.bits .f32 = 32 ∨ (Rect.block (s := S150000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S150000x64.size a
  hwx3_0 : ∀ i : grid3.Coords, EltTy.bits .f32 = 32 ∨ (Rect.block (s := S150000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S150000x64.size a
  hwx3_1 : ∀ i : grid3.Coords, EltTy.bits .f32 = 32 ∨ (Rect.block (s := S150000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S150000x64.size a
  hwx3_2 : ∀ i : grid3.Coords, EltTy.bits .f32 = 32 ∨ (Rect.block (s := S150000x64) S5000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S150000x64.size a
  hwx3_3 : ∀ i : grid3.Coords, EltTy.bits .f32 = 32 ∨ (Rect.block (s := S150000x64) S5000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S150000x64.size a
  hwx3_4 : ∀ i : grid3.Coords, EltTy.bits .f32 = 32 ∨ (Rect.block (s := S150000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S150000x64.size a
  hwx4_0 : ∀ i : grid4.Coords, EltTy.bits .f32 = 32 ∨ (Rect.block (s := S150000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S150000x64.size a
  hwx4_1 : ∀ i : grid4.Coords, EltTy.bits .f32 = 32 ∨ (Rect.block (s := S150000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S150000x64.size a
  hwx4_2 : ∀ i : grid4.Coords, EltTy.bits .f32 = 32 ∨ (Rect.block (s := S150000x64) S5000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S150000x64.size a
  hwx4_3 : ∀ i : grid4.Coords, EltTy.bits .f32 = 32 ∨ (Rect.block (s := S150000x64) S5000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S150000x64.size a
  hwx4_4 : ∀ i : grid4.Coords, EltTy.bits .f32 = 32 ∨ (Rect.block (s := S150000x64) S5000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S150000x64.size a
  hwx5_0 : ∀ i : grid5.Coords, EltTy.bits .f32 = 32 ∨ (Rect.block (s := S150000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S150000x64.size a
  hwx5_1 : ∀ i : grid5.Coords, EltTy.bits .f32 = 32 ∨ (Rect.block (s := S150000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S150000x64.size a
  hwx5_2 : ∀ i : grid5.Coords, EltTy.bits .f32 = 32 ∨ (Rect.block (s := S150000x64) S5000x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S150000x64.size a
  hwx5_3 : ∀ i : grid5.Coords, EltTy.bits .f32 = 32 ∨ (Rect.block (s := S150000x64) S5000x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S150000x64.size a
  hwx5_4 : ∀ i : grid5.Coords, EltTy.bits .f32 = 32 ∨ (Rect.block (s := S150000x64) S5000x64.size (cc5_transform_4 i) (hinb5_4 i)).WholeWords (EltTy.packing .f32)

variable [Facts₀]

def dot_S10000x384_S384x64_S10000x64_1_0_0_1_n_n : DotDims S10000x384 S384x64 S10000x64 where
  lhsContracting := [1]
  rhsContracting := [0]
  lhsNonContracting := [0]
  rhsNonContracting := [1]
  lhsBatch := []
  rhsBatch := []
  wf := dot_S10000x384_S384x64_S10000x64_1_0_0_1_n_n_wf
def gather_S150000x64_S1200000x1_S1200000x64_1_0_n_n_0_1_164 : GatherDims S150000x64 S1200000x1 S1200000x64 where
  offsetDims := [1]
  collapsedSliceDims := [0]
  operandBatchingDims := []
  startIndicesBatchingDims := []
  startIndexMap := [0]
  indexVectorDim := 1
  sliceSizes := ![1, 64]
  wf := gather_S150000x64_S1200000x1_S1200000x64_1_0_n_n_0_1_164_wf
def scatter_S150000x64_S1200000x1_S1200000x64_1_0_0_1 : ScatterDims S150000x64 S1200000x1 S1200000x64 where
  updateWindowDims := [1]
  insertedWindowDims := [0]
  scatterDimsToOperandDims := [0]
  indexVectorDim := 1
  wf := scatter_S150000x64_S1200000x1_S1200000x64_1_0_0_1_wf

abbrev win0_0 : Pipeline.Window sig grid0 :=
  Pipeline.Window.ofSpec (Memref.whole main_arg3) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S10000x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S384x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v23) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v24_0) S5000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v24_1) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v37) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v24_1) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v38_0) S5000x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v38_1) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v51) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v10) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v38_1) S5000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v52_0) S5000x64.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v52_1) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v65) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v10) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v52_1) S5000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v66_0) S5000x64.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v66_1) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S1200000 : Shape := ⟨1, ![1200000]⟩
abbrev S100000x64 : Shape := ⟨2, ![100000, 64]⟩
abbrev S50000x384 : Shape := ⟨2, ![50000, 384]⟩
abbrev S3x64 : Shape := ⟨2, ![3, 64]⟩
abbrev S64x384 : Shape := ⟨2, ![64, 384]⟩
abbrev S64 : Shape := ⟨1, ![64]⟩
abbrev S_ : Shape := ⟨0, ![]⟩
abbrev S1x64 : Shape := ⟨2, ![1, 64]⟩
abbrev S384x64 : Shape := ⟨2, ![384, 64]⟩
abbrev S50000x64 : Shape := ⟨2, ![50000, 64]⟩
abbrev S150000x64 : Shape := ⟨2, ![150000, 64]⟩
abbrev S1200000x1 : Shape := ⟨2, ![1200000, 1]⟩
abbrev S1200000x64 : Shape := ⟨2, ![1200000, 64]⟩
abbrev S150000 : Shape := ⟨1, ![150000]⟩
abbrev S150000x1 : Shape := ⟨2, ![150000, 1]⟩

abbrev nBuf : Space → Nat
  | .hbm => 184
  | .vmem => 0
  | .smem => 0
  | _ => 0

abbrev hbmTy0_0 (i : Nat) : BufTy := match i % 128 with
  | 0 => ⟨S1200000, .i32⟩
  | 1 => ⟨S1200000, .i32⟩
  | 2 => ⟨S1200000, .f32⟩
  | 3 => ⟨S100000x64, .f32⟩
  | 4 => ⟨S50000x384, .f32⟩
  | 5 => ⟨S3x64, .f32⟩
  | 6 => ⟨S3x64, .f32⟩
  | 7 => ⟨S64x384, .f32⟩
  | 8 => ⟨S64, .f32⟩
  | 9 => ⟨S_, .f32⟩
  | 10 => ⟨S64, .f32⟩
  | 11 => ⟨S1x64, .f32⟩
  | 12 => ⟨S100000x64, .f32⟩
  | 13 => ⟨S100000x64, .f32⟩
  | 14 => ⟨S384x64, .f32⟩
  | 15 => ⟨S50000x64, .f32⟩
  | 16 => ⟨S1x64, .f32⟩
  | 17 => ⟨S50000x64, .f32⟩
  | 18 => ⟨S50000x64, .f32⟩
  | 19 => ⟨S50000x64, .f32⟩
  | 20 => ⟨S_, .f32⟩
  | 21 => ⟨S64, .f32⟩
  | 22 => ⟨S1x64, .f32⟩
  | 23 => ⟨S50000x64, .f32⟩
  | 24 => ⟨S50000x64, .f32⟩
  | 25 => ⟨S150000x64, .f32⟩
  | 26 => ⟨S1200000x1, .f32⟩
  | 27 => ⟨S_, .i32⟩
  | 28 => ⟨S1200000, .i32⟩
  | 29 => ⟨S1200000, .i1⟩
  | 30 => ⟨S_, .i32⟩
  | 31 => ⟨S1200000, .i32⟩
  | 32 => ⟨S1200000, .i32⟩
  | 33 => ⟨S1200000, .i32⟩
  | 34 => ⟨S1200000x1, .i32⟩
  | 35 => ⟨S1200000x64, .f32⟩
  | 36 => ⟨S1200000x64, .f32⟩
  | 37 => ⟨S1200000x64, .f32⟩
  | 38 => ⟨S_, .f32⟩
  | 39 => ⟨S150000x64, .f32⟩
  | 40 => ⟨S1200000x1, .i32⟩
  | 41 => ⟨S150000x64, .f32⟩
  | 42 => ⟨S150000x64, .f32⟩
  | 43 => ⟨S_, .f32⟩
  | 44 => ⟨S150000, .f32⟩
  | 45 => ⟨S150000, .f32⟩
  | 46 => ⟨S_, .f32⟩
  | 47 => ⟨S150000, .f32⟩
  | 48 => ⟨S150000, .f32⟩
  | 49 => ⟨S150000x64, .f32⟩
  | 50 => ⟨S_, .f32⟩
  | 51 => ⟨S150000, .f32⟩
  | 52 => ⟨S150000, .f32⟩
  | 53 => ⟨S_, .f32⟩
  | 54 => ⟨S150000, .f32⟩
  | 55 => ⟨S150000, .f32⟩
  | 56 => ⟨S150000x64, .f32⟩
  | 57 => ⟨S_, .f32⟩
  | 58 => ⟨S150000, .f32⟩
  | 59 => ⟨S150000, .f32⟩
  | 60 => ⟨S150000, .f32⟩
  | 61 => ⟨S150000x1, .f32⟩
  | 62 => ⟨S150000x64, .f32⟩
  | 63 => ⟨S150000x64, .f32⟩
  | 64 => ⟨S150000x64, .f32⟩
  | 65 => ⟨S1200000x1, .f32⟩
  | 66 => ⟨S_, .i32⟩
  | 67 => ⟨S1200000, .i32⟩
  | 68 => ⟨S1200000, .i1⟩
  | 69 => ⟨S_, .i32⟩
  | 70 => ⟨S1200000, .i32⟩
  | 71 => ⟨S1200000, .i32⟩
  | 72 => ⟨S1200000, .i32⟩
  | 73 => ⟨S1200000x1, .i32⟩
  | 74 => ⟨S1200000x64, .f32⟩
  | 75 => ⟨S1200000x64, .f32⟩
  | 76 => ⟨S1200000x64, .f32⟩
  | 77 => ⟨S_, .f32⟩
  | 78 => ⟨S150000x64, .f32⟩
  | 79 => ⟨S1200000x1, .i32⟩
  | 80 => ⟨S150000x64, .f32⟩
  | 81 => ⟨S150000x64, .f32⟩
  | 82 => ⟨S_, .f32⟩
  | 83 => ⟨S150000, .f32⟩
  | 84 => ⟨S150000, .f32⟩
  | 85 => ⟨S_, .f32⟩
  | 86 => ⟨S150000, .f32⟩
  | 87 => ⟨S150000, .f32⟩
  | 88 => ⟨S150000x64, .f32⟩
  | 89 => ⟨S_, .f32⟩
  | 90 => ⟨S150000, .f32⟩
  | 91 => ⟨S150000, .f32⟩
  | 92 => ⟨S_, .f32⟩
  | 93 => ⟨S150000, .f32⟩
  | 94 => ⟨S150000, .f32⟩
  | 95 => ⟨S150000x64, .f32⟩
  | 96 => ⟨S_, .f32⟩
  | 97 => ⟨S150000, .f32⟩
  | 98 => ⟨S150000, .f32⟩
  | 99 => ⟨S150000, .f32⟩
  | 100 => ⟨S150000x1, .f32⟩
  | 101 => ⟨S150000x64, .f32⟩
  | 102 => ⟨S150000x64, .f32⟩
  | 103 => ⟨S150000x64, .f32⟩
  | 104 => ⟨S1200000x1, .f32⟩
  | 105 => ⟨S_, .i32⟩
  | 106 => ⟨S1200000, .i32⟩
  | 107 => ⟨S1200000, .i1⟩
  | 108 => ⟨S_, .i32⟩
  | 109 => ⟨S1200000, .i32⟩
  | 110 => ⟨S1200000, .i32⟩
  | 111 => ⟨S1200000, .i32⟩
  | 112 => ⟨S1200000x1, .i32⟩
  | 113 => ⟨S1200000x64, .f32⟩
  | 114 => ⟨S1200000x64, .f32⟩
  | 115 => ⟨S1200000x64, .f32⟩
  | 116 => ⟨S_, .f32⟩
  | 117 => ⟨S150000x64, .f32⟩
  | 118 => ⟨S1200000x1, .i32⟩
  | 119 => ⟨S150000x64, .f32⟩
  | 120 => ⟨S150000x64, .f32⟩
  | 121 => ⟨S_, .f32⟩
  | 122 => ⟨S150000, .f32⟩
  | 123 => ⟨S150000, .f32⟩
  | 124 => ⟨S_, .f32⟩
  | 125 => ⟨S150000, .f32⟩
  | 126 => ⟨S150000, .f32⟩
  | 127 => ⟨S150000x64, .f32⟩
  | _ => ⟨S1200000, .i32⟩

abbrev hbmTy0_1 (i : Nat) : BufTy := match i % 128 with
  | 0 => ⟨S_, .f32⟩
  | 1 => ⟨S150000, .f32⟩
  | 2 => ⟨S150000, .f32⟩
  | 3 => ⟨S_, .f32⟩
  | 4 => ⟨S150000, .f32⟩
  | 5 => ⟨S150000, .f32⟩
  | 6 => ⟨S150000x64, .f32⟩
  | 7 => ⟨S_, .f32⟩
  | 8 => ⟨S150000, .f32⟩
  | 9 => ⟨S150000, .f32⟩
  | 10 => ⟨S150000, .f32⟩
  | 11 => ⟨S150000x1, .f32⟩
  | 12 => ⟨S150000x64, .f32⟩
  | 13 => ⟨S150000x64, .f32⟩
  | 14 => ⟨S150000x64, .f32⟩
  | 15 => ⟨S1200000x1, .f32⟩
  | 16 => ⟨S_, .i32⟩
  | 17 => ⟨S1200000, .i32⟩
  | 18 => ⟨S1200000, .i1⟩
  | 19 => ⟨S_, .i32⟩
  | 20 => ⟨S1200000, .i32⟩
  | 21 => ⟨S1200000, .i32⟩
  | 22 => ⟨S1200000, .i32⟩
  | 23 => ⟨S1200000x1, .i32⟩
  | 24 => ⟨S1200000x64, .f32⟩
  | 25 => ⟨S1200000x64, .f32⟩
  | 26 => ⟨S1200000x64, .f32⟩
  | 27 => ⟨S_, .f32⟩
  | 28 => ⟨S150000x64, .f32⟩
  | 29 => ⟨S1200000x1, .i32⟩
  | 30 => ⟨S150000x64, .f32⟩
  | 31 => ⟨S150000x64, .f32⟩
  | 32 => ⟨S_, .f32⟩
  | 33 => ⟨S150000, .f32⟩
  | 34 => ⟨S150000, .f32⟩
  | 35 => ⟨S_, .f32⟩
  | 36 => ⟨S150000, .f32⟩
  | 37 => ⟨S150000, .f32⟩
  | 38 => ⟨S150000x64, .f32⟩
  | 39 => ⟨S_, .f32⟩
  | 40 => ⟨S150000, .f32⟩
  | 41 => ⟨S150000, .f32⟩
  | 42 => ⟨S_, .f32⟩
  | 43 => ⟨S150000, .f32⟩
  | 44 => ⟨S150000, .f32⟩
  | 45 => ⟨S150000x64, .f32⟩
  | 46 => ⟨S_, .f32⟩
  | 47 => ⟨S150000, .f32⟩
  | 48 => ⟨S150000, .f32⟩
  | 49 => ⟨S150000, .f32⟩
  | 50 => ⟨S150000x1, .f32⟩
  | 51 => ⟨S150000x64, .f32⟩
  | 52 => ⟨S150000x64, .f32⟩
  | 53 => ⟨S150000x64, .f32⟩
  | 54 => ⟨S100000x64, .f32⟩
  | 55 => ⟨S50000x64, .f32⟩
  | _ => ⟨S1200000, .i32⟩

abbrev hbmTy (i : Nat) : BufTy := match i / 128 with
  | 0 => hbmTy0_0 i
  | 1 => hbmTy0_1 i
  | _ => ⟨S1200000, .i32⟩

abbrev bufTy : (tb : Table) → Fin (tcTables nBuf tb) → BufTy
  | .hbm, ⟨i, _⟩ => hbmTy i
  | _, _ => ⟨S1200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_v0 : Ref sig .tc := ⟨.hbm, 42, rfl⟩
abbrev main_call0_cst : Ref sig .tc := ⟨.hbm, 43, rfl⟩
abbrev main_call0_v1 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_call1_v0 : Ref sig .tc := ⟨.hbm, 49, rfl⟩
abbrev main_call1_cst : Ref sig .tc := ⟨.hbm, 50, rfl⟩
abbrev main_call1_v1 : Ref sig .tc := ⟨.hbm, 51, rfl⟩
abbrev main_v31 : Ref sig .tc := ⟨.hbm, 52, rfl⟩
abbrev main_cst_4 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_5 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_6 : Ref sig .tc := ⟨.hbm, 66, rfl⟩
abbrev main_v43 : Ref sig .tc := ⟨.hbm, 67, rfl⟩
abbrev main_v44 : Ref sig .tc := ⟨.hbm, 68, rfl⟩
abbrev main_c_7 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_8 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call2_v0 : Ref sig .tc := ⟨.hbm, 81, rfl⟩
abbrev main_call2_cst : Ref sig .tc := ⟨.hbm, 82, rfl⟩
abbrev main_call2_v1 : Ref sig .tc := ⟨.hbm, 83, rfl⟩
abbrev main_v55 : Ref sig .tc := ⟨.hbm, 84, rfl⟩
abbrev main_cst_9 : Ref sig .tc := ⟨.hbm, 85, rfl⟩
abbrev main_v56 : Ref sig .tc := ⟨.hbm, 86, rfl⟩
abbrev main_v57 : Ref sig .tc := ⟨.hbm, 87, rfl⟩
abbrev main_call3_v0 : Ref sig .tc := ⟨.hbm, 88, rfl⟩
abbrev main_call3_cst : Ref sig .tc := ⟨.hbm, 89, rfl⟩
abbrev main_call3_v1 : Ref sig .tc := ⟨.hbm, 90, rfl⟩
abbrev main_v58 : Ref sig .tc := ⟨.hbm, 91, rfl⟩
abbrev main_cst_10 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_11 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_c_12 : Ref sig .tc := ⟨.hbm, 105, rfl⟩
abbrev main_v70 : Ref sig .tc := ⟨.hbm, 106, rfl⟩
abbrev main_v71 : Ref sig .tc := ⟨.hbm, 107, rfl⟩
abbrev main_c_13 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_14 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_call4_v0 : Ref sig .tc := ⟨.hbm, 120, rfl⟩
abbrev main_call4_cst : Ref sig .tc := ⟨.hbm, 121, rfl⟩
abbrev main_call4_v1 : Ref sig .tc := ⟨.hbm, 122, rfl⟩
abbrev main_v82 : Ref sig .tc := ⟨.hbm, 123, rfl⟩
abbrev main_cst_15 : Ref sig .tc := ⟨.hbm, 124, rfl⟩
abbrev main_v83 : Ref sig .tc := ⟨.hbm, 125, rfl⟩
abbrev main_v84 : Ref sig .tc := ⟨.hbm, 126, rfl⟩
abbrev main_call5_v0 : Ref sig .tc := ⟨.hbm, 127, rfl⟩
abbrev main_call5_cst : Ref sig .tc := ⟨.hbm, 128, rfl⟩
abbrev main_call5_v1 : Ref sig .tc := ⟨.hbm, 129, rfl⟩
abbrev main_v85 : Ref sig .tc := ⟨.hbm, 130, rfl⟩
abbrev main_cst_16 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_cst_17 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_c_18 : Ref sig .tc := ⟨.hbm, 144, rfl⟩
abbrev main_v97 : Ref sig .tc := ⟨.hbm, 145, rfl⟩
abbrev main_v98 : Ref sig .tc := ⟨.hbm, 146, rfl⟩
abbrev main_c_19 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_cst_20 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_call6_v0 : Ref sig .tc := ⟨.hbm, 159, rfl⟩
abbrev main_call6_cst : Ref sig .tc := ⟨.hbm, 160, rfl⟩
abbrev main_call6_v1 : Ref sig .tc := ⟨.hbm, 161, rfl⟩
abbrev main_v109 : Ref sig .tc := ⟨.hbm, 162, rfl⟩
abbrev main_cst_21 : Ref sig .tc := ⟨.hbm, 163, rfl⟩
abbrev main_v110 : Ref sig .tc := ⟨.hbm, 164, rfl⟩
abbrev main_v111 : Ref sig .tc := ⟨.hbm, 165, rfl⟩
abbrev main_call7_v0 : Ref sig .tc := ⟨.hbm, 166, rfl⟩
abbrev main_call7_cst : Ref sig .tc := ⟨.hbm, 167, rfl⟩
abbrev main_call7_v1 : Ref sig .tc := ⟨.hbm, 168, rfl⟩
abbrev main_v112 : Ref sig .tc := ⟨.hbm, 169, rfl⟩
abbrev main_cst_22 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_cst_23 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩

abbrev nD : Nat := 1
abbrev τ : Topo := Topo.v7x

variable {F : FTy → Type} [FloatOps F]

class Facts₀ : Prop where
  reducesTo_S3x64_S64_d0 : S3x64.ReducesTo [0] S64
  h_S_ : 0 < S_.numel
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S64x384_S384x64_1_0 : S64x384.Transposes [1, 0] S384x64
  bcast_S1x64_S50000x64_0_1 : S1x64.BroadcastsInDim S50000x64 (![0, 1] : Fin 2 → Fin S50000x64.rank)
  concatenates_S100000x64_S50000x64_S150000x64_d0 : Shape.Concatenates [S100000x64, S50000x64] S150000x64 0
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  bcast_S_S150000x64 : S_.BroadcastsInDim S150000x64 (![] : Fin 0 → Fin S150000x64.rank)
  reducesTo_S150000x64_S150000_d1 : S150000x64.ReducesTo [1] S150000
  bcast_S_S150000 : S_.BroadcastsInDim S150000 (![] : Fin 0 → Fin S150000.rank)
  bcast_S150000_S150000x1_0 : S150000.BroadcastsInDim S150000x1 (![0] : Fin 1 → Fin S150000x1.rank)
  bcast_S150000x1_S150000x64_0_1 : S150000x1.BroadcastsInDim S150000x64 (![0, 1] : Fin 2 → Fin S150000x64.rank)
  slices_S150000x64_S100000x64_0_0 : S150000x64.Slices ![0, 0] S100000x64
  slices_S150000x64_S50000x64_100000_0 : S150000x64.Slices ![100000, 0] S50000x64
  dot_S50000x384_S384x64_S50000x64_1_0_0_1_n_n_wf : DotDims.WF S50000x384 S384x64 S50000x64 [1] [0] [0] [1] [] []
  gather_S150000x64_S1200000x1_S1200000x64_1_0_n_n_0_1_164_wf : GatherDims.WF S150000x64 S1200000x1 S1200000x64 [1] [0] [] [0] [] 1 ![1, 64]
  scatter_S150000x64_S1200000x1_S1200000x64_1_0_0_1_wf : ScatterDims.WF S150000x64 S1200000x1 S1200000x64 [1] [0] [0] 1

variable [Facts₀]

def dot_S50000x384_S384x64_S50000x64_1_0_0_1_n_n : DotDims S50000x384 S384x64 S50000x64 where
  lhsContracting := [1]
  rhsContracting := [0]
  lhsNonContracting := [0]
  rhsNonContracting := [1]
  lhsBatch := []
  rhsBatch := []
  wf := dot_S50000x384_S384x64_S50000x64_1_0_0_1_n_n_wf
def gather_S150000x64_S1200000x1_S1200000x64_1_0_n_n_0_1_164 : GatherDims S150000x64 S1200000x1 S1200000x64 where
  offsetDims := [1]
  collapsedSliceDims := [0]
  operandBatchingDims := []
  startIndicesBatchingDims := []
  startIndexMap := [0]
  indexVectorDim := 1
  sliceSizes := ![1, 64]
  wf := gather_S150000x64_S1200000x1_S1200000x64_1_0_n_n_0_1_164_wf
def scatter_S150000x64_S1200000x1_S1200000x64_1_0_0_1 : ScatterDims S150000x64 S1200000x1 S1200000x64 where
  updateWindowDims := [1]
  insertedWindowDims := [0]
  scatterDimsToOperandDims := [0]
  indexVectorDim := 1
  wf := scatter_S150000x64_S1200000x1_S1200000x64_1_0_0_1_wf

class Facts : Prop extends Facts₀ where

variable [Facts]
-- ==== Proof.K.Reg0.lean ====
import proofs.«124407_j40681930228297_2_alg».proof.Proof.Gen.Kernel.Launch
import proofs.«124407_j40681930228297_2_alg».proof.Proof.Gen.Kernel.Skeleton
import proofs.«124407_j40681930228297_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 of @main (custom_call 0, `cc0__user_add_kernel`) at a parameter `V`

Everything here is stated at a parameter `V`: the TensorCore's buffer contents when the region is entered.
Per window its block at a grid point, per output window the buffer contents the body leaves as a function of
the input blocks, the body's triple, the pipeline's proof data and the body obligation. -/

-- membership in a rectangle of large extents: the structural check recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the window is not
    fetched its block index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): where the window is not
    fetched its block index has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S10000x64 := Rect.unit (s := S10000x64) ![0, 0] S10000x64.size inb_S10000x64_S10000x64_0_0
abbrev r0_1 : Rect S1x64 := Rect.unit (s := S1x64) ![0, 0] S1x64.size inb_S1x64_S1x64_0_0

/-! ## What the body leaves in each output window's buffer -/

/-- Window 2's staging buffer after the body, from the input windows' blocks: its 1 store as pieces, last
    first (the payloads are the skeleton's). -/
def out0_2 (x0 : Vec F S10000x64 .f32) (x1 : Vec F S1x64 .f32) : Vec F S10000x64 .f32 :=
  View.canon [⟨r0_0, k0_pay1 (View.ld x0 r0_0) (View.ld x1 r0_1)⟩]

/-- Its stores tile the buffer (checked by evaluation), so they cover it. -/
theorem cover0_2 (p0 : Vec F S10000x64 .f32) (y : S10000x64.Idx) :
    ∃ pc ∈ ([⟨r0_0, p0⟩] : List (View.Piece (Elt F) S10000x64 .f32)), y ∈ pc.1.set :=
  View.cover_of_tiled [⟨r0_0, p0⟩] S10000x64.size (by rfl) y

/-! ## The body's triple -/

set_option maxHeartbeats 1000000 in
/-- The kernel body on whole staging memrefs, the inputs' at read contents `xW` and the outputs' at anything, runs to
    the continuation holding the inputs' as they were and each output's at `out0_W` of the inputs': the printed function
    is its skeleton, which is run one memory operation at a time. -/
theorem sound_kernel0 (c : Dev nD) (E : Set ℕ) (i : grid0.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__user_add_kernel i arg1 harg1 arg2 harg2 arg3 harg3) K := by
  simp only [cc0__user_add_kernel_eq_skeleton]; unfold cc0__user_add_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and each output's at `out0_W` of the input blocks; the invariant
    is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.K.Reg1.lean ====
import proofs.«124407_j40681930228297_2_alg».proof.Proof.Gen.Kernel.Launch
import proofs.«124407_j40681930228297_2_alg».proof.Proof.Gen.Kernel.Skeleton
import proofs.«124407_j40681930228297_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 of @main (custom_call 1, `cc1__item_kernel`) at a parameter `V`

Everything here is stated at a parameter `V`: the TensorCore's buffer contents when the region is entered.
Per window its block at a grid point, per output window the buffer contents the body leaves as a function of
the input blocks, the body's triple, the pipeline's proof data and the body obligation. -/

-- membership in a rectangle of large extents: the structural check recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is not
    fetched its block index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): where the window is not
    fetched its block index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): where the window is not
    fetched its block index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): where the window is not
    fetched its block index has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S10000x384 := Rect.unit (s := S10000x384) ![0, 0] S10000x384.size inb_S10000x384_S10000x384_0_0
abbrev r1_1 : Rect S384x64 := Rect.unit (s := S384x64) ![0, 0] S384x64.size inb_S384x64_S384x64_0_0
abbrev r1_2 : Rect S1x64 := Rect.unit (s := S1x64) ![0, 0] S1x64.size inb_S1x64_S1x64_0_0
abbrev r1_3 : Rect S10000x64 := Rect.unit (s := S10000x64) ![0, 0] S10000x64.size inb_S10000x64_S10000x64_0_0

/-! ## What the body leaves in each output window's buffer -/

/-- Window 4's staging buffer after the body, from the input windows' blocks: its 1 store as pieces, last
    first (the payloads are the skeleton's). -/
def out1_4 (x0 : Vec F S10000x384 .bf16) (x1 : Vec F S384x64 .bf16) (x2 : Vec F S1x64 .f32) (x3 : Vec F S1x64 .f32) : Vec F S10000x64 .f32 :=
  View.canon [⟨r1_3, k1_pay1 (View.ld x0 r1_0) (View.ld x1 r1_1) (View.ld x2 r1_2) (View.ld x3 r1_2)⟩]

/-- Its stores tile the buffer (checked by evaluation), so they cover it. -/
theorem cover1_4 (p0 : Vec F S10000x64 .f32) (y : S10000x64.Idx) :
    ∃ pc ∈ ([⟨r1_3, p0⟩] : List (View.Piece (Elt F) S10000x64 .f32)), y ∈ pc.1.set :=
  View.cover_of_tiled [⟨r1_3, p0⟩] S10000x64.size (by rfl) y

/-! ## The body's triple -/

set_option maxHeartbeats 1000000 in
/-- The kernel body on whole staging memrefs, the inputs' at read contents `xW` and the outputs' at anything, runs to
    the continuation holding the inputs' as they were and each output's at `out1_W` of the inputs': the printed function
    is its skeleton, which is run one memory operation at a time. -/
theorem sound_kernel1 (c : Dev nD) (E : Set ℕ) (i : grid1.Coords) (arg1 : Memref sig .tc .vmem S10000x384 .bf16) (harg1 : arg1.IsWhole) (arg2 : Memref sig .tc .vmem S384x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S10000x64 .f32) (harg5 : arg5.IsWhole)
    (x0 : Vec F S10000x384 .bf16) (x1 : Vec F S384x64 .bf16) (x2 : Vec F S1x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__item_kernel i arg1 harg1 arg2 harg2 arg3 harg3 arg4 harg4 arg5 harg5) K := by
  simp only [cc1__item_kernel_eq_skeleton]; unfold cc1__item_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays as the region finds them (`V`); after the body at
    point `t` each input's buffer at its block and each output's at `out1_W` of the input blocks; the invariant
    is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.K.Share2.lean ====
/-
  How the one array that two input windows of the third pallas_call read (the layer-0 call is handed the
  embedding table both as `ego` and as the running sum) is dealt between them: a half share each, every
  other window's array at the full share.
-/
import proofs.«124407_j40681930228297_2_alg».proof.Proof.Gen.Kernel.Launch
import Idealize.ShloMosaic.Lib.Pipeline.FrameBody

noncomputable section

namespace Cert.Kernel.Gen

open Idealize.ShloMosaic Idealize.ShloMosaic.TcCoe
open Idealize.SL Idealize.SL.RA Idealize.SL.BI

/-- The share at which each input window of the third call holds its array: windows 1 and 2 read the same
    array, a half each. -/
def q2 : Fin cfg2.W → PosShare TreeShare
  | ⟨1, _⟩ => fullShare.left
  | ⟨2, _⟩ => fullShare.right
  | _ => fullShare

end Cert.Kernel.Gen

end
-- ==== Proof.K.Reg2.lean ====
import proofs.«124407_j40681930228297_2_alg».proof.Proof.Gen.Kernel.Launch
import proofs.«124407_j40681930228297_2_alg».proof.Proof.Gen.Kernel.Skeleton
import proofs.«124407_j40681930228297_2_alg».proof.Proof.Gen.Kernel.Points
import proofs.«124407_j40681930228297_2_alg».proof.Proof.K.Share2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main (custom_call 2, `cc2__reweight_kernel`) at a parameter `V`

Everything here is stated at a parameter `V`: the TensorCore's buffer contents when the region is entered.
Per window its block at a grid point, per output window the buffer contents the body leaves as a function of
the input blocks, the body's triple, the pipeline's proof data and the body obligation. -/

-- membership in a rectangle of large extents: the structural check recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): where the window is not
    fetched its block index has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): where the window is not
    fetched its block index has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): where the window is not
    fetched its block index has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S5000x64 := Rect.unit (s := S5000x64) ![0, 0] S5000x64.size inb_S5000x64_S5000x64_0_0

/-! ## What the body leaves in each output window's buffer -/

/-- Window 3's staging buffer after the body, from the input windows' blocks: its 1 store as pieces, last
    first (the payloads are the skeleton's). -/
def out2_3 (x0 : Vec F S5000x64 .f32) (x1 : Vec F S5000x64 .f32) (x2 : Vec F S5000x64 .f32) : Vec F S5000x64 .f32 :=
  View.canon [⟨r2_0, k2_pay1 (View.ld x0 r2_0) (View.ld x1 r2_0)⟩]

/-- Its stores tile the buffer (checked by evaluation), so they cover it. -/
theorem cover2_3 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

/-- Window 4's staging buffer after the body, from the input windows' blocks: its 1 store as pieces, last
    first (the payloads are the skeleton's). -/
def out2_4 (x0 : Vec F S5000x64 .f32) (x1 : Vec F S5000x64 .f32) (x2 : Vec F S5000x64 .f32) : Vec F S5000x64 .f32 :=
  View.canon [⟨r2_0, k2_pay2 (View.ld x0 r2_0) (View.ld x1 r2_0) (View.ld x2 r2_0)⟩]

/-- Its stores tile the buffer (checked by evaluation), so they cover it. -/
theorem cover2_4 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

/-! ## The body's triple -/

set_option maxHeartbeats 1000000 in
/-- The kernel body on whole staging memrefs, the inputs' at read contents `xW` and the outputs' at anything, runs to
    the continuation holding the inputs' as they were and each output's at `out2_W` of the inputs': the printed function
    is its skeleton, which is run one memory operation at a time. -/
theorem sound_kernel2 (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S5000x64 .f32) (harg5 : arg5.IsWhole)
    (x0 : Vec F S5000x64 .f32) (x1 : Vec F S5000x64 .f32) (x2 : Vec F S5000x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2) ∗ owns (c : Thread nD τ) arg5 fullShare (out2_4 x0 x1 x2)) -∗ K ⟨⟩))
      ⊢ wp frame (wpE (defs₀ (F := F)) Variants.none c none) E (cc2__reweight_kernel i arg1 harg1 arg2 harg2 arg3 harg3 arg4 harg4 arg5 harg5) K := by
  simp only [cc2__reweight_kernel_eq_skeleton]; unfold cc2__reweight_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover2_3 _)
  iexists _; isplitr
  swap; · iexact H4
  ipureintro
  exact View.read_writes_eq_canon _ _ _ (cover2_4 _)

/-! ## The pipeline's proof data -/

/-- The proof data of pipeline 2 on core `c`: the arrays as the region finds them (`V`); after the body at
    point `t` each input's buffer at its block and each output's at `out2_W` of the input blocks; the invariant
    is the scoped rest and the generator register, untouched; nothing owed; the shares of the input arrays are `q2`'s. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
    | ⟨4, _⟩ => out2_4 (iblk2 V c 0 t) (iblk2 V c 1 t) (iblk2 V c 2 t)
  Φ _ := Pipeline.ΦA spec2 c
  q w := q2 w
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]
theorem after2_4 (c : Dev nD) (t : Fin cfg2.N) : (dat2 V c).after 4 t = out2_4 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Gen

end
-- ==== Proof.K.Reg3.lean ====
import proofs.«124407_j40681930228297_2_alg».proof.Proof.Gen.Kernel.Launch
import proofs.«124407_j40681930228297_2_alg».proof.Proof.Gen.Kernel.Skeleton
import proofs.«124407_j40681930228297_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3 of @main (custom_call 3, `cc3__reweight_kernel`) at a parameter `V`

Everything here is stated at a parameter `V`: the TensorCore's buffer contents when the region is entered.
Per window its block at a grid point, per output window the buffer contents the body leaves as a function of
the input blocks, the body's triple, the pipeline's proof data and the body obligation. -/

-- membership in a rectangle of large extents: the structural check recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): where the window is not
    fetched its block index has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s (`hA`) and whose body leaves the block in place (`hafter`): where the window is not
    fetched its block index has not moved; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s (`hA`) and whose body leaves the block in place (`hafter`): where the window is not
    fetched its block index has not moved; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S5000x64 := Rect.unit (s := S5000x64) ![0, 0] S5000x64.size inb_S5000x64_S5000x64_0_0

/-! ## What the body leaves in each output window's buffer -/

/-- Window 3's staging buffer after the body, from the input windows' blocks: its 1 store as pieces, last
    first (the payloads are the skeleton's). -/
def out3_3 (x0 : Vec F S5000x64 .f32) (x1 : Vec F S5000x64 .f32) (x2 : Vec F S5000x64 .f32) : Vec F S5000x64 .f32 :=
  View.canon [⟨r3_0, k3_pay1 (View.ld x0 r3_0) (View.ld x1 r3_0)⟩]

/-- Its stores tile the buffer (checked by evaluation), so they cover it. -/
theorem cover3_3 (p0 : Vec F S5000x64 .f32) (y : S5000x64.Idx) :
    ∃ pc ∈ ([⟨r3_0, p0⟩] : List (View.Piece (Elt F) S5000x64 .f32)), y ∈ pc.1.set :=
  View.cover_of_tiled [⟨r3_0, p0⟩] S5000x64.size (by rfl) y

/-- Window 4's staging buffer after the body, from the input windows' blocks: its 1 store as pieces, last
    first (the payloads are the skeleton's). -/
def out3_4 (x0 : Vec F S5000x64 .f32) (x1 : Vec F S5000x64 .f32) (x2 : Vec F S5000x64 .f32) : Vec F S5000x64 .f32 :=
  View.canon [⟨r3_0, k3_pay2 (View.ld x0 r3_0) (View.ld x1 r3_0) (View.ld x2 r3_0)⟩]

/-- Its stores tile the buffer (checked by evaluation), so they cover it. -/
theorem cover3_4 (p0 : Vec F S5000x64 .f32) (y : S5000x64.Idx) :
    ∃ pc ∈ ([⟨r3_0, p0⟩] : List (View.Piece (Elt F) S5000x64 .f32)), y ∈ pc.1.set :=
  View.cover_of_tiled [⟨r3_0, p0⟩] S5000x64.size (by rfl) y

/-! ## The body's triple -/

set_option maxHeartbeats 1000000 in
/-- The kernel body on whole staging memrefs, the inputs' at read contents `xW` and the outputs' at anything, runs to
    the continuation holding the inputs' as they were and each output's at `out3_W` of the inputs': the printed function
    is its skeleton, which is run one memory operation at a time. -/
theorem sound_kernel3 (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S5000x64 .f32) (harg5 : arg5.IsWhole)
    (x0 : Vec F S5000x64 .f32) (x1 : Vec F S5000x64 .f32) (x2 : Vec F S5000x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2) ∗ owns (c : Thread nD τ) arg5 fullShare (out3_4 x0 x1 x2)) -∗ K ⟨⟩))
      ⊢ wp frame (wpE (defs₀ (F := F)) Variants.none c none) E (cc3__reweight_kernel i arg1 harg1 arg2 harg2 arg3 harg3 arg4 harg4 arg5 harg5) K := by
  simp only [cc3__reweight_kernel_eq_skeleton]; unfold cc3__reweight_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3_3 _)
  iexists _; isplitr
  swap; · iexact H4
  ipureintro
  exact View.read_writes_eq_canon _ _ _ (cover3_4 _)

/-! ## The pipeline's proof data -/

/-- The proof data of pipeline 3 on core `c`: the arrays as the region finds them (`V`); after the body at
    point `t` each input's buffer at its block and each output's at `out3_W` of the input blocks; the invariant
    is the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
    | ⟨4, _⟩ => out3_4 (iblk3 V c 0 t) (iblk3 V c 1 t) (iblk3 V c 2 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]
theorem after3_4 (c : Dev nD) (t : Fin cfg3.N) : (dat3 V c).after 4 t = out3_4 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t` (the obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Gen

end
-- ==== Proof.K.Reg4.lean ====
import proofs.«124407_j40681930228297_2_alg».proof.Proof.Gen.Kernel.Launch
import proofs.«124407_j40681930228297_2_alg».proof.Proof.Gen.Kernel.Skeleton
import proofs.«124407_j40681930228297_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 4 of @main (custom_call 4, `cc4__reweight_kernel`) at a parameter `V`

Everything here is stated at a parameter `V`: the TensorCore's buffer contents when the region is entered.
Per window its block at a grid point, per output window the buffer contents the body leaves as a function of
the input blocks, the body's triple, the pipeline's proof data and the body obligation. -/

-- membership in a rectangle of large extents: the structural check recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): where the window is not
    fetched its block index has not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s (`hA`) and whose body leaves the block in place (`hafter`): where the window is not
    fetched its block index has not moved; the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is `V`'s (`hA`) and whose body leaves the block in place (`hafter`): where the window is not
    fetched its block index has not moved; the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S5000x64 := Rect.unit (s := S5000x64) ![0, 0] S5000x64.size inb_S5000x64_S5000x64_0_0

/-! ## What the body leaves in each output window's buffer -/

/-- Window 3's staging buffer after the body, from the input windows' blocks: its 1 store as pieces, last
    first (the payloads are the skeleton's). -/
def out4_3 (x0 : Vec F S5000x64 .f32) (x1 : Vec F S5000x64 .f32) (x2 : Vec F S5000x64 .f32) : Vec F S5000x64 .f32 :=
  View.canon [⟨r4_0, k4_pay1 (View.ld x0 r4_0) (View.ld x1 r4_0)⟩]

/-- Its stores tile the buffer (checked by evaluation), so they cover it. -/
theorem cover4_3 (p0 : Vec F S5000x64 .f32) (y : S5000x64.Idx) :
    ∃ pc ∈ ([⟨r4_0, p0⟩] : List (View.Piece (Elt F) S5000x64 .f32)), y ∈ pc.1.set :=
  View.cover_of_tiled [⟨r4_0, p0⟩] S5000x64.size (by rfl) y

/-- Window 4's staging buffer after the body, from the input windows' blocks: its 1 store as pieces, last
    first (the payloads are the skeleton's). -/
def out4_4 (x0 : Vec F S5000x64 .f32) (x1 : Vec F S5000x64 .f32) (x2 : Vec F S5000x64 .f32) : Vec F S5000x64 .f32 :=
  View.canon [⟨r4_0, k4_pay2 (View.ld x0 r4_0) (View.ld x1 r4_0) (View.ld x2 r4_0)⟩]

/-- Its stores tile the buffer (checked by evaluation), so they cover it. -/
theorem cover4_4 (p0 : Vec F S5000x64 .f32) (y : S5000x64.Idx) :
    ∃ pc ∈ ([⟨r4_0, p0⟩] : List (View.Piece (Elt F) S5000x64 .f32)), y ∈ pc.1.set :=
  View.cover_of_tiled [⟨r4_0, p0⟩] S5000x64.size (by rfl) y

/-! ## The body's triple -/

set_option maxHeartbeats 1000000 in
/-- The kernel body on whole staging memrefs, the inputs' at read contents `xW` and the outputs' at anything, runs to
    the continuation holding the inputs' as they were and each output's at `out4_W` of the inputs': the printed function
    is its skeleton, which is run one memory operation at a time. -/
theorem sound_kernel4 (c : Dev nD) (E : Set ℕ) (i : grid4.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S5000x64 .f32) (harg5 : arg5.IsWhole)
    (x0 : Vec F S5000x64 .f32) (x1 : Vec F S5000x64 .f32) (x2 : Vec F S5000x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2) ∗ owns (c : Thread nD τ) arg5 fullShare (out4_4 x0 x1 x2)) -∗ K ⟨⟩))
      ⊢ wp frame (wpE (defs₀ (F := F)) Variants.none c none) E (cc4__reweight_kernel i arg1 harg1 arg2 harg2 arg3 harg3 arg4 harg4 arg5 harg5) K := by
  simp only [cc4__reweight_kernel_eq_skeleton]; unfold cc4__reweight_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover4_3 _)
  iexists _; isplitr
  swap; · iexact H4
  ipureintro
  exact View.read_writes_eq_canon _ _ _ (cover4_4 _)

/-! ## The pipeline's proof data -/

/-- The proof data of pipeline 4 on core `c`: the arrays as the region finds them (`V`); after the body at
    point `t` each input's buffer at its block and each output's at `out4_W` of the input blocks; the invariant
    is the scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
    | ⟨4, _⟩ => out4_4 (iblk4 V c 0 t) (iblk4 V c 1 t) (iblk4 V c 2 t)
  Φ _ := Pipeline.ΦA spec4 c
  q _ := fullShare
  owed _ := 0

/-- The proof data's arrays are the region-entry contents (the definition projected). -/
theorem A_eq4 (c : Dev nD) (w : Fin cfg4.W) : (dat4 V c).A w = V c (Pipeline.arrRef spec4 w) := by
  dsimp only [dat4]

/-- What the body leaves, window by window (the proof data's `match` reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]
theorem after4_4 (c : Dev nD) (t : Fin cfg4.N) : (dat4 V c).after 4 t = out4_4 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t` (the obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks (`before4_W`), so `sound_kernel4` applies; the invariant and
    the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Gen

end
-- ==== Proof.K.Reg5.lean ====
import proofs.«124407_j40681930228297_2_alg».proof.Proof.Gen.Kernel.Launch
import proofs.«124407_j40681930228297_2_alg».proof.Proof.Gen.Kernel.Skeleton
import proofs.«124407_j40681930228297_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 5 of @main (custom_call 5, `cc5__reweight_kernel`) at a parameter `V`

Everything here is stated at a parameter `V`: the TensorCore's buffer contents when the region is entered.
Per window its block at a grid point, per output window the buffer contents the body leaves as a function of
the input blocks, the body's triple, the pipeline's proof data and the body obligation. -/

-- membership in a rectangle of large extents: the structural check recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): where the window is not
    fetched its block index has not moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): where the window is not
    fetched its block index has not moved; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): where the window is not
    fetched its block index has not moved; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S5000x64 := Rect.unit (s := S5000x64) ![0, 0] S5000x64.size inb_S5000x64_S5000x64_0_0

/-! ## What the body leaves in each output window's buffer -/

/-- Window 3's staging buffer after the body, from the input windows' blocks: its 1 store as pieces, last
    first (the payloads are the skeleton's). -/
def out5_3 (x0 : Vec F S5000x64 .f32) (x1 : Vec F S5000x64 .f32) (x2 : Vec F S5000x64 .f32) : Vec F S5000x64 .f32 :=
  View.canon [⟨r5_0, k5_pay1 (View.ld x0 r5_0) (View.ld x1 r5_0)⟩]

/-- Its stores tile the buffer (checked by evaluation), so they cover it. -/
theorem cover5_3 (p0 : Vec F S5000x64 .f32) (y : S5000x64.Idx) :
    ∃ pc ∈ ([⟨r5_0, p0⟩] : List (View.Piece (Elt F) S5000x64 .f32)), y ∈ pc.1.set :=
  View.cover_of_tiled [⟨r5_0, p0⟩] S5000x64.size (by rfl) y

/-- Window 4's staging buffer after the body, from the input windows' blocks: its 1 store as pieces, last
    first (the payloads are the skeleton's). -/
def out5_4 (x0 : Vec F S5000x64 .f32) (x1 : Vec F S5000x64 .f32) (x2 : Vec F S5000x64 .f32) : Vec F S5000x64 .f32 :=
  View.canon [⟨r5_0, k5_pay2 (View.ld x0 r5_0) (View.ld x1 r5_0) (View.ld x2 r5_0)⟩]

/-- Its stores tile the buffer (checked by evaluation), so they cover it. -/
theorem cover5_4 (p0 : Vec F S5000x64 .f32) (y : S5000x64.Idx) :
    ∃ pc ∈ ([⟨r5_0, p0⟩] : List (View.Piece (Elt F) S5000x64 .f32)), y ∈ pc.1.set :=
  View.cover_of_tiled [⟨r5_0, p0⟩] S5000x64.size (by rfl) y

/-! ## The body's triple -/

set_option maxHeartbeats 1000000 in
/-- The kernel body on whole staging memrefs, the inputs' at read contents `xW` and the outputs' at anything, runs to
    the continuation holding the inputs' as they were and each output's at `out5_W` of the inputs': the printed function
    is its skeleton, which is run one memory operation at a time. -/
theorem sound_kernel5 (c : Dev nD) (E : Set ℕ) (i : grid5.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S5000x64 .f32) (harg5 : arg5.IsWhole)
    (x0 : Vec F S5000x64 .f32) (x1 : Vec F S5000x64 .f32) (x2 : Vec F S5000x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2) ∗ owns (c : Thread nD τ) arg5 fullShare (out5_4 x0 x1 x2)) -∗ K ⟨⟩))
      ⊢ wp frame (wpE (defs₀ (F := F)) Variants.none c none) E (cc5__reweight_kernel i arg1 harg1 arg2 harg2 arg3 harg3 arg4 harg4 arg5 harg5) K := by
  simp only [cc5__reweight_kernel_eq_skeleton]; unfold cc5__reweight_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover5_3 _)
  iexists _; isplitr
  swap; · iexact H4
  ipureintro
  exact View.read_writes_eq_canon _ _ _ (cover5_4 _)

/-! ## The pipeline's proof data -/

/-- The proof data of pipeline 5 on core `c`: the arrays as the region finds them (`V`); after the body at
    point `t` each input's buffer at its block and each output's at `out5_W` of the input blocks; the invariant
    is the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
    | ⟨4, _⟩ => out5_4 (iblk5 V c 0 t) (iblk5 V c 1 t) (iblk5 V c 2 t)
  Φ _ := Pipeline.ΦA spec5 c
  q _ := fullShare
  owed _ := 0

/-- The proof data's arrays are the region-entry contents (the definition projected). -/
theorem A_eq5 (c : Dev nD) (w : Fin cfg5.W) : (dat5 V c).A w = V c (Pipeline.arrRef spec5 w) := by
  dsimp only [dat5]

/-- What the body leaves, window by window (the proof data's `match` reduced). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]
theorem after5_4 (c : Dev nD) (t : Fin cfg5.N) : (dat5 V c).after 4 t = out5_4 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t` (the obligation's precondition, the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' memrefs hold their blocks (`before5_W`), so `sound_kernel5` applies; the invariant and
    the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ (grid5.coords t) _ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Gen

end
-- ==== Proof.K.Arr2.lean ====
/-
  The third pallas_call is handed one array through two of its input windows. Its four distinct arrays, each
  held whole, are the five windows' arrays at the shares `q2` deals: the shared array's full share is the two
  half shares of the windows that read it, and back.
-/
import proofs.«124407_j40681930228297_2_alg».proof.Proof.Gen.Kernel.Launch
import proofs.«124407_j40681930228297_2_alg».proof.Proof.Gen.Kernel.Skeleton
import proofs.«124407_j40681930228297_2_alg».proof.Proof.Gen.Kernel.Points
import proofs.«124407_j40681930228297_2_alg».proof.Proof.K.Share2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The distinct arrays behind the five windows of the third call. -/
theorem arrRefs2 : Finset.univ.image (Pipeline.arrRef spec2) = ({main_v23, main_v10, main_v24_0, main_v24_1} : Finset (Ref sig .tc)) := by
  decide

/-- A core's unscoped buffers are the buffers behind the third call's arrays and the rest. -/
theorem bufs2_split (c : Dev nD) (V : (b : Ref sig .tc) → Buf (Elt F) ((c : Thread nD τ).loc b)) :
    (unscopedBufs c V : sProp 𝕄) = iprop(Pipeline.arrBufs spec2 c V ∗ Pipeline.unscopedRest spec2 c V) := by
  classical
  have hA : Finset.univ.image (Pipeline.arrRef spec2) ⊆ Finset.univ.filter fun b : Ref sig .tc => ¬ b.isScoped := by
    rw [arrRefs2]; decide
  unfold unscopedBufs Pipeline.unscopedRest Pipeline.arrBufs
  rw [bigSep_sdiff_split hA]
  rfl

theorem arrays2_iff (c : Dev nD) (dat : Dat τ (Elt F) Unit ℕ (UR sig nD τ) ℕ cfg2 c) (hq : dat.q = q2)
    (V : (b : Ref sig .tc) → Buf (Elt F) ((c : Thread nD τ).loc b))
    (A : (w : Fin cfg2.W) → Buf (Elt F) ((cfg2.win w).arr.view.loc (c : Thread nD τ)))
    (hA : ∀ w, A w = V (Pipeline.arrRef spec2 w)) :
    (Pipeline.arrBufs spec2 c V : sProp 𝕄) ⊣⊢ dat.arrays A := by
  obtain rfl : A = fun w => V (Pipeline.arrRef spec2 w) := funext hA
  have hgen : dat.arrays (fun w => V (Pipeline.arrRef spec2 w)) = bigSep Finset.univ fun w => ((((c : Thread nD τ).loc (Pipeline.arrRef spec2 w)) ↦{dat.share w} V (Pipeline.arrRef spec2 w)) : sProp 𝕄) := by
    unfold Dat.arrays
    exact bigSep_congr fun w _ => by rw [(arr_whole2 w).set_eq_univ]
  rw [hgen]
  unfold Pipeline.arrBufs
  rw [arrRefs2, bigSep_W2, BI.bigSep_insert (by decide), BI.bigSep_insert (by decide), BI.bigSep_insert (by decide), BI.bigSep_singleton]
  have s0 : dat.share 0 = fullShare := by unfold Dat.share; rw [hq]; rfl
  have s1 : dat.share 1 = fullShare.left := by unfold Dat.share; rw [hq]; rfl
  have s2 : dat.share 2 = fullShare.right := by unfold Dat.share; rw [hq]; rfl
  have s3 : dat.share 3 = fullShare := by unfold Dat.share; rfl
  have s4 : dat.share 4 = fullShare := by unfold Dat.share; rfl
  rw [s0, s1, s2, s3, s4]
  show iprop((((c : Thread nD τ).loc main_v23) ↦{fullShare} V main_v23) ∗ (((c : Thread nD τ).loc main_v10) ↦{fullShare} V main_v10)
      ∗ (((c : Thread nD τ).loc main_v24_0) ↦{fullShare} V main_v24_0) ∗ (((c : Thread nD τ).loc main_v24_1) ↦{fullShare} V main_v24_1))
    ⊣⊢ (iprop((((c : Thread nD τ).loc main_v23) ↦{fullShare} V main_v23) ∗ (((c : Thread nD τ).loc main_v10) ↦{fullShare.left} V main_v10)
      ∗ (((c : Thread nD τ).loc main_v10) ↦{fullShare.right} V main_v10)
      ∗ (((c : Thread nD τ).loc main_v24_0) ↦{fullShare} V main_v24_0) ∗ (((c : Thread nD τ).loc main_v24_1) ↦{fullShare} V main_v24_1)) : sProp 𝕄)
  constructor
  · iintro ⟨H0, H1, H3, H4⟩
    ihave H1' := (pointsTo_share (PosShare.mem_left_op_right fullShare)).1 $$ H1
    icases H1' with ⟨H1, H2⟩
    isplitl [H0]; · iexact H0
    isplitl [H1]; · iexact H1
    isplitl [H2]; · iexact H2
    isplitl [H3]; · iexact H3
    iexact H4
  · iintro ⟨H0, H1, H2, H3, H4⟩
    ihave H1' := (pointsTo_share (PosShare.mem_left_op_right fullShare)).2 $$ [H1 H2]
    · isplitl [H1]; · iexact H1
      iexact H2
    isplitl [H0]; · iexact H0
    isplitl [H1']; · iexact H1'
    isplitl [H3]; · iexact H3
    iexact H4

end Cert.Kernel.Gen

end
-- ==== Proof.K.Run.lean ====
/-
  The run of the whole program: @main is seven stretches of host operations around six pallas_calls. The
  buffers' contents at every boundary are a fold from the launch memory — a host stretch applies its operations,
  a pallas_call leaves its output arrays at what its grid points' write-backs make of them and every other buffer
  as it found it — and every weakly fair execution terminates with every unscoped buffer at the fold's last
  valuation. The arguments are read back through the fold to their launch contents.
-/
import proofs.«124407_j40681930228297_2_alg».proof.Proof.Gen.Kernel.Launch
import proofs.«124407_j40681930228297_2_alg».proof.Proof.Gen.Kernel.Skeleton
import proofs.«124407_j40681930228297_2_alg».proof.Proof.Gen.Kernel.Points
import proofs.«124407_j40681930228297_2_alg».proof.Proof.K.Reg0
import proofs.«124407_j40681930228297_2_alg».proof.Proof.K.Reg1
import proofs.«124407_j40681930228297_2_alg».proof.Proof.K.Reg2
import proofs.«124407_j40681930228297_2_alg».proof.Proof.K.Reg3
import proofs.«124407_j40681930228297_2_alg».proof.Proof.K.Reg4
import proofs.«124407_j40681930228297_2_alg».proof.Proof.K.Reg5
import proofs.«124407_j40681930228297_2_alg».proof.Proof.K.Arr2
import proofs.«124407_j40681930228297_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)

/-- After the host stretch `hostOps0`: what region 0 is entered from. -/
abbrev W1 : Dev nD → Valuation τ sig (Elt F) := fun c => StableHlo.after hostOps0 (W0 m ρ c)
/-- The same read at the TensorCore's references. -/
abbrev U1 : (c : Dev nD) → (b : Ref sig .tc) → Buf (Elt F) ((c : Thread nD τ).loc b) := fun c b => W1 m ρ c b
/-- At region 0's exit: its arrays at what the write-backs leave, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the host stretch `hostOps1`: what region 1 is entered from. -/
abbrev W3 : Dev nD → Valuation τ sig (Elt F) := fun c => StableHlo.after hostOps1 (W2 m ρ c)
/-- The same read at the TensorCore's references. -/
abbrev U3 : (c : Dev nD) → (b : Ref sig .tc) → Buf (Elt F) ((c : Thread nD τ).loc b) := fun c b => W3 m ρ c b
/-- At region 1's exit: its arrays at what the write-backs leave, every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After the host stretch `hostOps2`: what region 2 is entered from. -/
abbrev W5 : Dev nD → Valuation τ sig (Elt F) := fun c => StableHlo.after hostOps2 (W4 m ρ c)
/-- The same read at the TensorCore's references. -/
abbrev U5 : (c : Dev nD) → (b : Ref sig .tc) → Buf (Elt F) ((c : Thread nD τ).loc b) := fun c b => W5 m ρ c b
/-- At region 2's exit: its two output arrays at what the write-backs leave, every other buffer as entered (two of
    its input windows read ONE array, so the exit contents are spelt at the two outputs directly). -/
def W6 (c : Dev nD) : Valuation τ sig (Elt F) :=
  Function.update (Function.update (W5 m ρ c) (Proc.devRef .tc main_v24_0) ((dat2 (U5 m ρ) c).arrAt 3 cfg2.N))
    (Proc.devRef .tc main_v24_1) ((dat2 (U5 m ρ) c).arrAt 4 cfg2.N)
theorem W6_of_ne (c : Dev nD) (b : Ref sig .tc) (h0 : b ≠ main_v24_0) (h1 : b ≠ main_v24_1) :
    W6 m ρ c (Proc.devRef .tc b) = W5 m ρ c (Proc.devRef .tc b) := by
  unfold W6
  rw [Function.update_of_ne (StableHlo.devRef_ne_of_ne h1), Function.update_of_ne (StableHlo.devRef_ne_of_ne h0)]
abbrev U6 : (c : Dev nD) → (b : Ref sig .tc) → Buf (Elt F) ((c : Thread nD τ).loc b) := fun c b => W6 m ρ c b
theorem hF2 (c : Dev nD) : ∀ w : Fin cfg2.W, (dat2 (U5 m ρ) c).arrAt w cfg2.N = U6 m ρ c (Pipeline.arrRef spec2 w)
  | ⟨0, _⟩ => (((dat2 (U5 m ρ) c).arrAt_in 0 rfl _).trans (A_eq2 (U5 m ρ) c 0)).trans (W6_of_ne m ρ c main_v23 (by decide) (by decide)).symm
  | ⟨1, _⟩ => (((dat2 (U5 m ρ) c).arrAt_in 1 rfl _).trans (A_eq2 (U5 m ρ) c 1)).trans (W6_of_ne m ρ c main_v10 (by decide) (by decide)).symm
  | ⟨2, _⟩ => (((dat2 (U5 m ρ) c).arrAt_in 2 rfl _).trans (A_eq2 (U5 m ρ) c 2)).trans (W6_of_ne m ρ c main_v10 (by decide) (by decide)).symm
  | ⟨3, _⟩ => by
    show _ = W6 m ρ c (Proc.devRef .tc main_v24_0)
    unfold W6
    rw [Function.update_of_ne (StableHlo.devRef_ne_of_ne (by decide : main_v24_0 ≠ main_v24_1)), Function.update_self]
    rfl
  | ⟨4, _⟩ => by
    show _ = W6 m ρ c (Proc.devRef .tc main_v24_1)
    unfold W6
    rw [Function.update_self]
    rfl
theorem hrest2 (c : Dev nD) : ∀ b, b ∉ Finset.univ.image (Pipeline.arrRef spec2) → U6 m ρ c b = U5 m ρ c b :=
  fun b hb => W6_of_ne m ρ c b (fun e => hb (by rw [arrRefs2, e]; decide)) (fun e => hb (by rw [arrRefs2, e]; decide))

/-- After the host stretch `hostOps3`: what region 3 is entered from. -/
abbrev W7 : Dev nD → Valuation τ sig (Elt F) := fun c => StableHlo.after hostOps3 (W6 m ρ c)
/-- The same read at the TensorCore's references. -/
abbrev U7 : (c : Dev nD) → (b : Ref sig .tc) → Buf (Elt F) ((c : Thread nD τ).loc b) := fun c b => W7 m ρ c b
/-- At region 3's exit: its arrays at what the write-backs leave, every other buffer as entered. -/
def W8 (c : Dev nD) : Valuation τ sig (Elt F) :=
  Pipeline.withArrays spec3 c (W7 m ρ c) fun w => (dat3 (U7 m ρ) c).arrAt w cfg3.N
theorem W8_arr (c : Dev nD) (w : Fin cfg3.W) :
    W8 m ρ c (Proc.devRef .tc (Pipeline.arrRef spec3 w)) = (dat3 (U7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev U8 : (c : Dev nD) → (b : Ref sig .tc) → Buf (Elt F) ((c : Thread nD τ).loc b) := fun c b => W8 m ρ c b
theorem hF3 (c : Dev nD) (w : Fin cfg3.W) : (dat3 (U7 m ρ) c).arrAt w cfg3.N = U8 m ρ c (Pipeline.arrRef spec3 w) :=
  (W8_arr m ρ c w).symm
theorem hrest3 (c : Dev nD) : ∀ b, b ∉ Finset.univ.image (Pipeline.arrRef spec3) → U8 m ρ c b = U7 m ρ c b :=
  fun b hb => W8_of_ne m ρ c b fun w e => hb (Finset.mem_image.mpr ⟨w, Finset.mem_univ _, e⟩)

/-- After the host stretch `hostOps4`: what region 4 is entered from. -/
abbrev W9 : Dev nD → Valuation τ sig (Elt F) := fun c => StableHlo.after hostOps4 (W8 m ρ c)
/-- The same read at the TensorCore's references. -/
abbrev U9 : (c : Dev nD) → (b : Ref sig .tc) → Buf (Elt F) ((c : Thread nD τ).loc b) := fun c b => W9 m ρ c b
/-- At region 4's exit: its arrays at what the write-backs leave, every other buffer as entered. -/
def W10 (c : Dev nD) : Valuation τ sig (Elt F) :=
  Pipeline.withArrays spec4 c (W9 m ρ c) fun w => (dat4 (U9 m ρ) c).arrAt w cfg4.N
theorem W10_arr (c : Dev nD) (w : Fin cfg4.W) :
    W10 m ρ c (Proc.devRef .tc (Pipeline.arrRef spec4 w)) = (dat4 (U9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev U10 : (c : Dev nD) → (b : Ref sig .tc) → Buf (Elt F) ((c : Thread nD τ).loc b) := fun c b => W10 m ρ c b
theorem hF4 (c : Dev nD) (w : Fin cfg4.W) : (dat4 (U9 m ρ) c).arrAt w cfg4.N = U10 m ρ c (Pipeline.arrRef spec4 w) :=
  (W10_arr m ρ c w).symm
theorem hrest4 (c : Dev nD) : ∀ b, b ∉ Finset.univ.image (Pipeline.arrRef spec4) → U10 m ρ c b = U9 m ρ c b :=
  fun b hb => W10_of_ne m ρ c b fun w e => hb (Finset.mem_image.mpr ⟨w, Finset.mem_univ _, e⟩)

/-- After the host stretch `hostOps5`: what region 5 is entered from. -/
abbrev W11 : Dev nD → Valuation τ sig (Elt F) := fun c => StableHlo.after hostOps5 (W10 m ρ c)
/-- The same read at the TensorCore's references. -/
abbrev U11 : (c : Dev nD) → (b : Ref sig .tc) → Buf (Elt F) ((c : Thread nD τ).loc b) := fun c b => W11 m ρ c b
/-- At region 5's exit: its arrays at what the write-backs leave, every other buffer as entered. -/
def W12 (c : Dev nD) : Valuation τ sig (Elt F) :=
  Pipeline.withArrays spec5 c (W11 m ρ c) fun w => (dat5 (U11 m ρ) c).arrAt w cfg5.N
theorem W12_arr (c : Dev nD) (w : Fin cfg5.W) :
    W12 m ρ c (Proc.devRef .tc (Pipeline.arrRef spec5 w)) = (dat5 (U11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev U12 : (c : Dev nD) → (b : Ref sig .tc) → Buf (Elt F) ((c : Thread nD τ).loc b) := fun c b => W12 m ρ c b
theorem hF5 (c : Dev nD) (w : Fin cfg5.W) : (dat5 (U11 m ρ) c).arrAt w cfg5.N = U12 m ρ c (Pipeline.arrRef spec5 w) :=
  (W12_arr m ρ c w).symm
theorem hrest5 (c : Dev nD) : ∀ b, b ∉ Finset.univ.image (Pipeline.arrRef spec5) → U12 m ρ c b = U11 m ρ c b :=
  fun b hb => W12_of_ne m ρ c b fun w e => hb (Finset.mem_image.mpr ⟨w, Finset.mem_univ _, e⟩)

/-- After the last host stretch: the two results are sliced out. -/
abbrev W13 : Dev nD → Valuation τ sig (Elt F) := fun c => StableHlo.after hostOps6 (W12 m ρ c)

/-! ## No stretch and no call writes an argument -/

theorem W13_main_arg0 (c : Dev nD) : W13 m ρ c (Proc.devRef .tc main_arg0) = m ((c : Thread nD τ).loc main_arg0) :=
  calc W13 m ρ c (Proc.devRef .tc main_arg0)
    _ = W12 m ρ c (Proc.devRef .tc main_arg0) := StableHlo.after_of_writes_sub hostOps6 _ hostOps6_writes (by decide)
    _ = W11 m ρ c (Proc.devRef .tc main_arg0) := W12_of_ne m ρ c main_arg0 (by decide)
    _ = W10 m ρ c (Proc.devRef .tc main_arg0) := StableHlo.after_of_writes_sub hostOps5 _ hostOps5_writes (by decide)
    _ = W9 m ρ c (Proc.devRef .tc main_arg0) := W10_of_ne m ρ c main_arg0 (by decide)
    _ = W8 m ρ c (Proc.devRef .tc main_arg0) := StableHlo.after_of_writes_sub hostOps4 _ hostOps4_writes (by decide)
    _ = W7 m ρ c (Proc.devRef .tc main_arg0) := W8_of_ne m ρ c main_arg0 (by decide)
    _ = W6 m ρ c (Proc.devRef .tc main_arg0) := StableHlo.after_of_writes_sub hostOps3 _ hostOps3_writes (by decide)
    _ = W5 m ρ c (Proc.devRef .tc main_arg0) := W6_of_ne m ρ c main_arg0 (by decide) (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W13_main_arg1 (c : Dev nD) : W13 m ρ c (Proc.devRef .tc main_arg1) = m ((c : Thread nD τ).loc main_arg1) :=
  calc W13 m ρ c (Proc.devRef .tc main_arg1)
    _ = W12 m ρ c (Proc.devRef .tc main_arg1) := StableHlo.after_of_writes_sub hostOps6 _ hostOps6_writes (by decide)
    _ = W11 m ρ c (Proc.devRef .tc main_arg1) := W12_of_ne m ρ c main_arg1 (by decide)
    _ = W10 m ρ c (Proc.devRef .tc main_arg1) := StableHlo.after_of_writes_sub hostOps5 _ hostOps5_writes (by decide)
    _ = W9 m ρ c (Proc.devRef .tc main_arg1) := W10_of_ne m ρ c main_arg1 (by decide)
    _ = W8 m ρ c (Proc.devRef .tc main_arg1) := StableHlo.after_of_writes_sub hostOps4 _ hostOps4_writes (by decide)
    _ = W7 m ρ c (Proc.devRef .tc main_arg1) := W8_of_ne m ρ c main_arg1 (by decide)
    _ = W6 m ρ c (Proc.devRef .tc main_arg1) := StableHlo.after_of_writes_sub hostOps3 _ hostOps3_writes (by decide)
    _ = W5 m ρ c (Proc.devRef .tc main_arg1) := W6_of_ne m ρ c main_arg1 (by decide) (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W13_main_arg2 (c : Dev nD) : W13 m ρ c (Proc.devRef .tc main_arg2) = m ((c : Thread nD τ).loc main_arg2) :=
  calc W13 m ρ c (Proc.devRef .tc main_arg2)
    _ = W12 m ρ c (Proc.devRef .tc main_arg2) := StableHlo.after_of_writes_sub hostOps6 _ hostOps6_writes (by decide)
    _ = W11 m ρ c (Proc.devRef .tc main_arg2) := W12_of_ne m ρ c main_arg2 (by decide)
    _ = W10 m ρ c (Proc.devRef .tc main_arg2) := StableHlo.after_of_writes_sub hostOps5 _ hostOps5_writes (by decide)
    _ = W9 m ρ c (Proc.devRef .tc main_arg2) := W10_of_ne m ρ c main_arg2 (by decide)
    _ = W8 m ρ c (Proc.devRef .tc main_arg2) := StableHlo.after_of_writes_sub hostOps4 _ hostOps4_writes (by decide)
    _ = W7 m ρ c (Proc.devRef .tc main_arg2) := W8_of_ne m ρ c main_arg2 (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide) (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W13_main_arg3 (c : Dev nD) : W13 m ρ c (Proc.devRef .tc main_arg3) = m ((c : Thread nD τ).loc main_arg3) :=
  calc W13 m ρ c (Proc.devRef .tc main_arg3)
    _ = W12 m ρ c (Proc.devRef .tc main_arg3) := StableHlo.after_of_writes_sub hostOps6 _ hostOps6_writes (by decide)
    _ = W11 m ρ c (Proc.devRef .tc main_arg3) := W12_of_ne m ρ c main_arg3 (by decide)
    _ = W10 m ρ c (Proc.devRef .tc main_arg3) := StableHlo.after_of_writes_sub hostOps5 _ hostOps5_writes (by decide)
    _ = W9 m ρ c (Proc.devRef .tc main_arg3) := W10_of_ne m ρ c main_arg3 (by decide)
    _ = W8 m ρ c (Proc.devRef .tc main_arg3) := StableHlo.after_of_writes_sub hostOps4 _ hostOps4_writes (by decide)
    _ = W7 m ρ c (Proc.devRef .tc main_arg3) := W8_of_ne m ρ c main_arg3 (by decide)
    _ = W6 m ρ c (Proc.devRef .tc main_arg3) := StableHlo.after_of_writes_sub hostOps3 _ hostOps3_writes (by decide)
    _ = W5 m ρ c (Proc.devRef .tc main_arg3) := W6_of_ne m ρ c main_arg3 (by decide) (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 0).trans (((dat0 (U1 m ρ) c).arrAt_in 0 rfl _).trans (A_eq0 (U1 m ρ) c 0))
    _ = W0 m ρ c (Proc.devRef .tc main_arg3) := StableHlo.after_of_writes_sub hostOps0 _ hostOps0_writes (by decide)
    _ = m ((c : Thread nD τ).loc main_arg3) := rfl

theorem W13_main_arg4 (c : Dev nD) : W13 m ρ c (Proc.devRef .tc main_arg4) = m ((c : Thread nD τ).loc main_arg4) :=
  calc W13 m ρ c (Proc.devRef .tc main_arg4)
    _ = W12 m ρ c (Proc.devRef .tc main_arg4) := StableHlo.after_of_writes_sub hostOps6 _ hostOps6_writes (by decide)
    _ = W11 m ρ c (Proc.devRef .tc main_arg4) := W12_of_ne m ρ c main_arg4 (by decide)
    _ = W10 m ρ c (Proc.devRef .tc main_arg4) := StableHlo.after_of_writes_sub hostOps5 _ hostOps5_writes (by decide)
    _ = W9 m ρ c (Proc.devRef .tc main_arg4) := W10_of_ne m ρ c main_arg4 (by decide)
    _ = W8 m ρ c (Proc.devRef .tc main_arg4) := StableHlo.after_of_writes_sub hostOps4 _ hostOps4_writes (by decide)
    _ = W7 m ρ c (Proc.devRef .tc main_arg4) := W8_of_ne m ρ c main_arg4 (by decide)
    _ = W6 m ρ c (Proc.devRef .tc main_arg4) := StableHlo.after_of_writes_sub hostOps3 _ hostOps3_writes (by decide)
    _ = W5 m ρ c (Proc.devRef .tc main_arg4) := W6_of_ne m ρ c main_arg4 (by decide) (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W13_main_arg5 (c : Dev nD) : W13 m ρ c (Proc.devRef .tc main_arg5) = m ((c : Thread nD τ).loc main_arg5) :=
  calc W13 m ρ c (Proc.devRef .tc main_arg5)
    _ = W12 m ρ c (Proc.devRef .tc main_arg5) := StableHlo.after_of_writes_sub hostOps6 _ hostOps6_writes (by decide)
    _ = W11 m ρ c (Proc.devRef .tc main_arg5) := W12_of_ne m ρ c main_arg5 (by decide)
    _ = W10 m ρ c (Proc.devRef .tc main_arg5) := StableHlo.after_of_writes_sub hostOps5 _ hostOps5_writes (by decide)
    _ = W9 m ρ c (Proc.devRef .tc main_arg5) := W10_of_ne m ρ c main_arg5 (by decide)
    _ = W8 m ρ c (Proc.devRef .tc main_arg5) := StableHlo.after_of_writes_sub hostOps4 _ hostOps4_writes (by decide)
    _ = W7 m ρ c (Proc.devRef .tc main_arg5) := W8_of_ne m ρ c main_arg5 (by decide)
    _ = W6 m ρ c (Proc.devRef .tc main_arg5) := StableHlo.after_of_writes_sub hostOps3 _ hostOps3_writes (by decide)
    _ = W5 m ρ c (Proc.devRef .tc main_arg5) := W6_of_ne m ρ c main_arg5 (by decide) (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W13_main_arg6 (c : Dev nD) : W13 m ρ c (Proc.devRef .tc main_arg6) = m ((c : Thread nD τ).loc main_arg6) :=
  calc W13 m ρ c (Proc.devRef .tc main_arg6)
    _ = W12 m ρ c (Proc.devRef .tc main_arg6) := StableHlo.after_of_writes_sub hostOps6 _ hostOps6_writes (by decide)
    _ = W11 m ρ c (Proc.devRef .tc main_arg6) := W12_of_ne m ρ c main_arg6 (by decide)
    _ = W10 m ρ c (Proc.devRef .tc main_arg6) := StableHlo.after_of_writes_sub hostOps5 _ hostOps5_writes (by decide)
    _ = W9 m ρ c (Proc.devRef .tc main_arg6) := W10_of_ne m ρ c main_arg6 (by decide)
    _ = W8 m ρ c (Proc.devRef .tc main_arg6) := StableHlo.after_of_writes_sub hostOps4 _ hostOps4_writes (by decide)
    _ = W7 m ρ c (Proc.devRef .tc main_arg6) := W8_of_ne m ρ c main_arg6 (by decide)
    _ = W6 m ρ c (Proc.devRef .tc main_arg6) := StableHlo.after_of_writes_sub hostOps3 _ hostOps3_writes (by decide)
    _ = W5 m ρ c (Proc.devRef .tc main_arg6) := W6_of_ne m ρ c main_arg6 (by decide) (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W13_main_arg7 (c : Dev nD) : W13 m ρ c (Proc.devRef .tc main_arg7) = m ((c : Thread nD τ).loc main_arg7) :=
  calc W13 m ρ c (Proc.devRef .tc main_arg7)
    _ = W12 m ρ c (Proc.devRef .tc main_arg7) := StableHlo.after_of_writes_sub hostOps6 _ hostOps6_writes (by decide)
    _ = W11 m ρ c (Proc.devRef .tc main_arg7) := W12_of_ne m ρ c main_arg7 (by decide)
    _ = W10 m ρ c (Proc.devRef .tc main_arg7) := StableHlo.after_of_writes_sub hostOps5 _ hostOps5_writes (by decide)
    _ = W9 m ρ c (Proc.devRef .tc main_arg7) := W10_of_ne m ρ c main_arg7 (by decide)
    _ = W8 m ρ c (Proc.devRef .tc main_arg7) := StableHlo.after_of_writes_sub hostOps4 _ hostOps4_writes (by decide)
    _ = W7 m ρ c (Proc.devRef .tc main_arg7) := W8_of_ne m ρ c main_arg7 (by decide)
    _ = W6 m ρ c (Proc.devRef .tc main_arg7) := StableHlo.after_of_writes_sub hostOps3 _ hostOps3_writes (by decide)
    _ = W5 m ρ c (Proc.devRef .tc main_arg7) := W6_of_ne m ρ c main_arg7 (by decide) (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W13_main_arg8 (c : Dev nD) : W13 m ρ c (Proc.devRef .tc main_arg8) = m ((c : Thread nD τ).loc main_arg8) :=
  calc W13 m ρ c (Proc.devRef .tc main_arg8)
    _ = W12 m ρ c (Proc.devRef .tc main_arg8) := StableHlo.after_of_writes_sub hostOps6 _ hostOps6_writes (by decide)
    _ = W11 m ρ c (Proc.devRef .tc main_arg8) := W12_of_ne m ρ c main_arg8 (by decide)
    _ = W10 m ρ c (Proc.devRef .tc main_arg8) := StableHlo.after_of_writes_sub hostOps5 _ hostOps5_writes (by decide)
    _ = W9 m ρ c (Proc.devRef .tc main_arg8) := W10_of_ne m ρ c main_arg8 (by decide)
    _ = W8 m ρ c (Proc.devRef .tc main_arg8) := StableHlo.after_of_writes_sub hostOps4 _ hostOps4_writes (by decide)
    _ = W7 m ρ c (Proc.devRef .tc main_arg8) := W8_of_ne m ρ c main_arg8 (by decide)
    _ = W6 m ρ c (Proc.devRef .tc main_arg8) := StableHlo.after_of_writes_sub hostOps3 _ hostOps3_writes (by decide)
    _ = W5 m ρ c (Proc.devRef .tc main_arg8) := W6_of_ne m ρ c main_arg8 (by decide) (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-! ## The proof data family and the thread state -/

/-- No pallas_call has a prefetched table. -/
abbrev adm : (p : Fin 6) → (pcfgs (F := F) p).Adm := fun p => (cfgs p).toPCfg_adm
/-- Every call's proof data at its entry contents, a literal match on the call's number. -/
def pdats : (p : Fin 6) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U5 m ρ) c
  | ⟨3, _⟩ => fun c => dat3 (U7 m ρ) c
  | ⟨4, _⟩ => fun c => dat4 (U9 m ρ) c
  | ⟨5, _⟩ => fun c => dat5 (U11 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev Rest (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W13 m ρ c) ∗ ∃ r, prngReg c r)

/-! ## The pallas_calls as segments -/

-- a library lemma stated over the pinned configuration unifies with the printed one only when unification may
-- unfold plain definitions in a metavariable's type
set_option backward.isDefEq.respectTransparency.types false in
/-- Region 0 over the thread state: entered with every unscoped buffer at `W1`, left with them at `W2`. Its arrays
    are split out of the unscoped buffers at entry and put back at the exit contents; the generator register goes
    into the region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ Rest c)
  post c := iprop(StableHlo.held (c : Thread nD τ) (Pipeline.ucRefs τ sig) (W2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 over the thread state: entered with every unscoped buffer at `W3`, left with them at `W4`. Its arrays
    are split out of the unscoped buffers at entry and put back at the exit contents; the generator register goes
    into the region's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ Rest c)
  post c := iprop(StableHlo.held (c : Thread nD τ) (Pipeline.ucRefs τ sig) (W4 m ρ c) ∗ Rest c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 2 over the thread state: entered with every unscoped buffer at `W5`, left with them at `W6`. Its arrays
    are split out of the unscoped buffers at entry and put back at the exit contents; the generator register goes
    into the region's invariant and comes out; nothing is owed; the kernel has no semaphore of its own. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (U5 m ρ) c).loose
  hwaits := Pipeline.hwaits_of_owed_zero _ _ _ _ L lv 2 fun _ _ => rfl
  pre c := iprop(StableHlo.held (c : Thread nD τ) (Pipeline.ucRefs τ sig) (W5 m ρ c) ∗ Rest c)
  post c := iprop(StableHlo.held (c : Thread nD τ) (Pipeline.ucRefs τ sig) (W6 m ρ c) ∗ Rest c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit : (unscopedBufs c (U5 m ρ c) : sProp 𝕄) ⊢ iprop((pdats m ρ 2 c).arrays ((pdats m ρ 2 c).arrAt · 0) ∗ Pipeline.unscopedRest spec2 c (U5 m ρ c)) := by
      rw [bufs2_split]
      exact sep_mono (arrays2_iff c (pdats m ρ 2 c) rfl (U5 m ρ c) _ fun _ => rfl).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · cfg2.N) ∗ Pipeline.unscopedRest spec2 c (U5 m ρ c)) ⊢ (unscopedBufs c (U6 m ρ c) : sProp 𝕄) := by
      rw [bufs2_split]
      refine sep_mono (arrays2_iff c (pdats m ρ 2 c) rfl (U6 m ρ c) _ (hF2 m ρ c)).2 (Entails.of_eq ?_)
      unfold Pipeline.unscopedRest
      exact bigSep_congr fun b hb => by rw [hrest2 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 3 over the thread state: entered with every unscoped buffer at `W7`, left with them at `W8`. Its arrays
    are split out of the unscoped buffers at entry and put back at the exit contents; the generator register goes
    into the region's invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U7 m ρ) c).loose
  hwaits := Pipeline.hwaits_of_owed_zero _ _ _ _ L lv 3 fun _ _ => rfl
  pre c := iprop(StableHlo.held (c : Thread nD τ) (Pipeline.ucRefs τ sig) (W7 m ρ c) ∗ Rest c)
  post c := iprop(StableHlo.held (c : Thread nD τ) (Pipeline.ucRefs τ sig) (W8 m ρ c) ∗ Rest c)
  X c := iprop(∃ r, prngReg c r)
  Y c := iprop(∃ r, prngReg c r)
  Z c := Pipeline.unscopedRest (Ix := Unit) (Name := ℕ) (U := UR sig nD τ) (Lvl := ℕ) spec3 c (U7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (U7 m ρ c) (U8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 4 over the thread state: entered with every unscoped buffer at `W9`, left with them at `W10`. Its arrays
    are split out of the unscoped buffers at entry and put back at the exit contents; the generator register goes
    into the region's invariant and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U9 m ρ) c).loose
  hwaits := Pipeline.hwaits_of_owed_zero _ _ _ _ L lv 4 fun _ _ => rfl
  pre c := iprop(StableHlo.held (c : Thread nD τ) (Pipeline.ucRefs τ sig) (W9 m ρ c) ∗ Rest c)
  post c := iprop(StableHlo.held (c : Thread nD τ) (Pipeline.ucRefs τ sig) (W10 m ρ c) ∗ Rest c)
  X c := iprop(∃ r, prngReg c r)
  Y c := iprop(∃ r, prngReg c r)
  Z c := Pipeline.unscopedRest (Ix := Unit) (Name := ℕ) (U := UR sig nD τ) (Lvl := ℕ) spec4 c (U9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (U9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (U9 m ρ c) (U10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 5 over the thread state: entered with every unscoped buffer at `W11`, left with them at `W12`. Its arrays
    are split out of the unscoped buffers at entry and put back at the exit contents; the generator register goes
    into the region's invariant and comes out; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (U11 m ρ) c).loose
  hwaits := Pipeline.hwaits_of_owed_zero _ _ _ _ L lv 5 fun _ _ => rfl
  pre c := iprop(StableHlo.held (c : Thread nD τ) (Pipeline.ucRefs τ sig) (W11 m ρ c) ∗ Rest c)
  post c := iprop(StableHlo.held (c : Thread nD τ) (Pipeline.ucRefs τ sig) (W12 m ρ c) ∗ Rest c)
  X c := iprop(∃ r, prngReg c r)
  Y c := iprop(∃ r, prngReg c r)
  Z c := Pipeline.unscopedRest (Ix := Unit) (Name := ℕ) (U := UR sig nD τ) (Lvl := ℕ) spec5 c (U11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (U11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (U11 m ρ c) (U12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)) ]

theorem main_run (c : Dev nD) : main (F := F) c = Pipeline.Seg.run (segs m ρ) := (main_chain c).trans (by chain_rfl)

set_option backward.isDefEq.respectTransparency.types false in
/-- Every weakly fair execution of @main from memory `m` with zero counters terminates, nothing faulting, and the
    final memory holds every unscoped buffer at the fold's last valuation. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rest c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
    (h c _ (mem_uc main_arg0 (by decide))).trans (W13_main_arg0 m ρ c),
    (h c _ (mem_uc main_arg1 (by decide))).trans (W13_main_arg1 m ρ c),
    (h c _ (mem_uc main_arg2 (by decide))).trans (W13_main_arg2 m ρ c),
    (h c _ (mem_uc main_arg3 (by decide))).trans (W13_main_arg3 m ρ c),
    (h c _ (mem_uc main_arg4 (by decide))).trans (W13_main_arg4 m ρ c),
    (h c _ (mem_uc main_arg5 (by decide))).trans (W13_main_arg5 m ρ c),
    (h c _ (mem_uc main_arg6 (by decide))).trans (W13_main_arg6 m ρ c),
    (h c _ (mem_uc main_arg7 (by decide))).trans (W13_main_arg7 m ρ c),
    (h c _ (mem_uc main_arg8 (by decide))).trans (W13_main_arg8 m ρ c)⟩) (run_all m ρ)

end Cert.Kernel.Run

end
-- ==== Proof.KI.Reg0.lean ====
import proofs.«124407_j40681930228297_2_alg».proof.Proof.Gen.KernelIdeal.Launch
import proofs.«124407_j40681930228297_2_alg».proof.Proof.Gen.KernelIdeal.Skeleton
import proofs.«124407_j40681930228297_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 of @main (custom_call 0, `cc0__user_add_kernel`) at a parameter `V`

Everything here is stated at a parameter `V`: the TensorCore's buffer contents when the region is entered.
Per window its block at a grid point, per output window the buffer contents the body leaves as a function of
the input blocks, the body's triple, the pipeline's proof data and the body obligation. -/

-- membership in a rectangle of large extents: the structural check recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the window is not
    fetched its block index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): where the window is not
    fetched its block index has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S10000x64 := Rect.unit (s := S10000x64) ![0, 0] S10000x64.size inb_S10000x64_S10000x64_0_0
abbrev r0_1 : Rect S1x64 := Rect.unit (s := S1x64) ![0, 0] S1x64.size inb_S1x64_S1x64_0_0

/-! ## What the body leaves in each output window's buffer -/

/-- Window 2's staging buffer after the body, from the input windows' blocks: its 1 store as pieces, last
    first (the payloads are the skeleton's). -/
def out0_2 (x0 : Vec F S10000x64 .f32) (x1 : Vec F S1x64 .f32) : Vec F S10000x64 .f32 :=
  View.canon [⟨r0_0, k0_pay1 (View.ld x0 r0_0) (View.ld x1 r0_1)⟩]

/-- Its stores tile the buffer (checked by evaluation), so they cover it. -/
theorem cover0_2 (p0 : Vec F S10000x64 .f32) (y : S10000x64.Idx) :
    ∃ pc ∈ ([⟨r0_0, p0⟩] : List (View.Piece (Elt F) S10000x64 .f32)), y ∈ pc.1.set :=
  View.cover_of_tiled [⟨r0_0, p0⟩] S10000x64.size (by rfl) y

/-! ## The body's triple -/

set_option maxHeartbeats 1000000 in
/-- The kernel body on whole staging memrefs, the inputs' at read contents `xW` and the outputs' at anything, runs to
    the continuation holding the inputs' as they were and each output's at `out0_W` of the inputs': the printed function
    is its skeleton, which is run one memory operation at a time. -/
theorem sound_kernel0 (c : Dev nD) (E : Set ℕ) (i : grid0.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__user_add_kernel i arg1 harg1 arg2 harg2 arg3 harg3) K := by
  simp only [cc0__user_add_kernel_eq_skeleton]; unfold cc0__user_add_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and each output's at `out0_W` of the input blocks; the invariant
    is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.KI.Reg1.lean ====
import proofs.«124407_j40681930228297_2_alg».proof.Proof.Gen.KernelIdeal.Launch
import proofs.«124407_j40681930228297_2_alg».proof.Proof.Gen.KernelIdeal.Skeleton
import proofs.«124407_j40681930228297_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 of @main (custom_call 1, `cc1__item_kernel`) at a parameter `V`

Everything here is stated at a parameter `V`: the TensorCore's buffer contents when the region is entered.
Per window its block at a grid point, per output window the buffer contents the body leaves as a function of
the input blocks, the body's triple, the pipeline's proof data and the body obligation. -/

-- membership in a rectangle of large extents: the structural check recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is not
    fetched its block index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): where the window is not
    fetched its block index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): where the window is not
    fetched its block index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): where the window is not
    fetched its block index has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S10000x384 := Rect.unit (s := S10000x384) ![0, 0] S10000x384.size inb_S10000x384_S10000x384_0_0
abbrev r1_1 : Rect S384x64 := Rect.unit (s := S384x64) ![0, 0] S384x64.size inb_S384x64_S384x64_0_0
abbrev r1_2 : Rect S1x64 := Rect.unit (s := S1x64) ![0, 0] S1x64.size inb_S1x64_S1x64_0_0
abbrev r1_3 : Rect S10000x64 := Rect.unit (s := S10000x64) ![0, 0] S10000x64.size inb_S10000x64_S10000x64_0_0

/-! ## What the body leaves in each output window's buffer -/

/-- Window 4's staging buffer after the body, from the input windows' blocks: its 1 store as pieces, last
    first (the payloads are the skeleton's). -/
def out1_4 (x0 : Vec F S10000x384 .bf16) (x1 : Vec F S384x64 .bf16) (x2 : Vec F S1x64 .f32) (x3 : Vec F S1x64 .f32) : Vec F S10000x64 .f32 :=
  View.canon [⟨r1_3, k1_pay1 (View.ld x0 r1_0) (View.ld x1 r1_1) (View.ld x2 r1_2) (View.ld x3 r1_2)⟩]

/-- Its stores tile the buffer (checked by evaluation), so they cover it. -/
theorem cover1_4 (p0 : Vec F S10000x64 .f32) (y : S10000x64.Idx) :
    ∃ pc ∈ ([⟨r1_3, p0⟩] : List (View.Piece (Elt F) S10000x64 .f32)), y ∈ pc.1.set :=
  View.cover_of_tiled [⟨r1_3, p0⟩] S10000x64.size (by rfl) y

/-! ## The body's triple -/

set_option maxHeartbeats 1000000 in
/-- The kernel body on whole staging memrefs, the inputs' at read contents `xW` and the outputs' at anything, runs to
    the continuation holding the inputs' as they were and each output's at `out1_W` of the inputs': the printed function
    is its skeleton, which is run one memory operation at a time. -/
theorem sound_kernel1 (c : Dev nD) (E : Set ℕ) (i : grid1.Coords) (arg1 : Memref sig .tc .vmem S10000x384 .bf16) (harg1 : arg1.IsWhole) (arg2 : Memref sig .tc .vmem S384x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S10000x64 .f32) (harg5 : arg5.IsWhole)
    (x0 : Vec F S10000x384 .bf16) (x1 : Vec F S384x64 .bf16) (x2 : Vec F S1x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__item_kernel i arg1 harg1 arg2 harg2 arg3 harg3 arg4 harg4 arg5 harg5) K := by
  simp only [cc1__item_kernel_eq_skeleton]; unfold cc1__item_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays as the region finds them (`V`); after the body at
    point `t` each input's buffer at its block and each output's at `out1_W` of the input blocks; the invariant
    is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.KI.Share2.lean ====
/-
  How the one array that two input windows of the third pallas_call read (the layer-0 call is handed the
  embedding table both as `ego` and as the running sum) is dealt between them: a half share each, every
  other window's array at the full share.
-/
import proofs.«124407_j40681930228297_2_alg».proof.Proof.Gen.KernelIdeal.Launch
import Idealize.ShloMosaic.Lib.Pipeline.FrameBody

noncomputable section

namespace Cert.KernelIdeal.Gen

open Idealize.ShloMosaic Idealize.ShloMosaic.TcCoe
open Idealize.SL Idealize.SL.RA Idealize.SL.BI

/-- The share at which each input window of the third call holds its array: windows 1 and 2 read the same
    array, a half each. -/
def q2 : Fin cfg2.W → PosShare TreeShare
  | ⟨1, _⟩ => fullShare.left
  | ⟨2, _⟩ => fullShare.right
  | _ => fullShare

end Cert.KernelIdeal.Gen

end
-- ==== Proof.KI.Reg2.lean ====
import proofs.«124407_j40681930228297_2_alg».proof.Proof.Gen.KernelIdeal.Launch
import proofs.«124407_j40681930228297_2_alg».proof.Proof.Gen.KernelIdeal.Skeleton
import proofs.«124407_j40681930228297_2_alg».proof.Proof.Gen.KernelIdeal.Points
import proofs.«124407_j40681930228297_2_alg».proof.Proof.KI.Share2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main (custom_call 2, `cc2__reweight_kernel`) at a parameter `V`

Everything here is stated at a parameter `V`: the TensorCore's buffer contents when the region is entered.
Per window its block at a grid point, per output window the buffer contents the body leaves as a function of
the input blocks, the body's triple, the pipeline's proof data and the body obligation. -/

-- membership in a rectangle of large extents: the structural check recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): where the window is not
    fetched its block index has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): where the window is not
    fetched its block index has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): where the window is not
    fetched its block index has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S5000x64 := Rect.unit (s := S5000x64) ![0, 0] S5000x64.size inb_S5000x64_S5000x64_0_0

/-! ## What the body leaves in each output window's buffer -/

/-- Window 3's staging buffer after the body, from the input windows' blocks: its 1 store as pieces, last
    first (the payloads are the skeleton's). -/
def out2_3 (x0 : Vec F S5000x64 .f32) (x1 : Vec F S5000x64 .f32) (x2 : Vec F S5000x64 .f32) : Vec F S5000x64 .f32 :=
  View.canon [⟨r2_0, k2_pay1 (View.ld x0 r2_0) (View.ld x1 r2_0)⟩]

/-- Its stores tile the buffer (checked by evaluation), so they cover it. -/
theorem cover2_3 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

/-- Window 4's staging buffer after the body, from the input windows' blocks: its 1 store as pieces, last
    first (the payloads are the skeleton's). -/
def out2_4 (x0 : Vec F S5000x64 .f32) (x1 : Vec F S5000x64 .f32) (x2 : Vec F S5000x64 .f32) : Vec F S5000x64 .f32 :=
  View.canon [⟨r2_0, k2_pay2 (View.ld x0 r2_0) (View.ld x1 r2_0) (View.ld x2 r2_0)⟩]

/-- Its stores tile the buffer (checked by evaluation), so they cover it. -/
theorem cover2_4 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

/-! ## The body's triple -/

set_option maxHeartbeats 1000000 in
/-- The kernel body on whole staging memrefs, the inputs' at read contents `xW` and the outputs' at anything, runs to
    the continuation holding the inputs' as they were and each output's at `out2_W` of the inputs': the printed function
    is its skeleton, which is run one memory operation at a time. -/
theorem sound_kernel2 (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S5000x64 .f32) (harg5 : arg5.IsWhole)
    (x0 : Vec F S5000x64 .f32) (x1 : Vec F S5000x64 .f32) (x2 : Vec F S5000x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2) ∗ owns (c : Thread nD τ) arg5 fullShare (out2_4 x0 x1 x2)) -∗ K ⟨⟩))
      ⊢ wp frame (wpE (defs₀ (F := F)) Variants.none c none) E (cc2__reweight_kernel i arg1 harg1 arg2 harg2 arg3 harg3 arg4 harg4 arg5 harg5) K := by
  simp only [cc2__reweight_kernel_eq_skeleton]; unfold cc2__reweight_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover2_3 _)
  iexists _; isplitr
  swap; · iexact H4
  ipureintro
  exact View.read_writes_eq_canon _ _ _ (cover2_4 _)

/-! ## The pipeline's proof data -/

/-- The proof data of pipeline 2 on core `c`: the arrays as the region finds them (`V`); after the body at
    point `t` each input's buffer at its block and each output's at `out2_W` of the input blocks; the invariant
    is the scoped rest and the generator register, untouched; nothing owed; the shares of the input arrays are `q2`'s. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
    | ⟨4, _⟩ => out2_4 (iblk2 V c 0 t) (iblk2 V c 1 t) (iblk2 V c 2 t)
  Φ _ := Pipeline.ΦA spec2 c
  q w := q2 w
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]
theorem after2_4 (c : Dev nD) (t : Fin cfg2.N) : (dat2 V c).after 4 t = out2_4 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Gen

end
-- ==== Proof.KI.Reg3.lean ====
import proofs.«124407_j40681930228297_2_alg».proof.Proof.Gen.KernelIdeal.Launch
import proofs.«124407_j40681930228297_2_alg».proof.Proof.Gen.KernelIdeal.Skeleton
import proofs.«124407_j40681930228297_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3 of @main (custom_call 3, `cc3__reweight_kernel`) at a parameter `V`

Everything here is stated at a parameter `V`: the TensorCore's buffer contents when the region is entered.
Per window its block at a grid point, per output window the buffer contents the body leaves as a function of
the input blocks, the body's triple, the pipeline's proof data and the body obligation. -/

-- membership in a rectangle of large extents: the structural check recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): where the window is not
    fetched its block index has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s (`hA`) and whose body leaves the block in place (`hafter`): where the window is not
    fetched its block index has not moved; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s (`hA`) and whose body leaves the block in place (`hafter`): where the window is not
    fetched its block index has not moved; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S5000x64 := Rect.unit (s := S5000x64) ![0, 0] S5000x64.size inb_S5000x64_S5000x64_0_0

/-! ## What the body leaves in each output window's buffer -/

/-- Window 3's staging buffer after the body, from the input windows' blocks: its 1 store as pieces, last
    first (the payloads are the skeleton's). -/
def out3_3 (x0 : Vec F S5000x64 .f32) (x1 : Vec F S5000x64 .f32) (x2 : Vec F S5000x64 .f32) : Vec F S5000x64 .f32 :=
  View.canon [⟨r3_0, k3_pay1 (View.ld x0 r3_0) (View.ld x1 r3_0)⟩]

/-- Its stores tile the buffer (checked by evaluation), so they cover it. -/
theorem cover3_3 (p0 : Vec F S5000x64 .f32) (y : S5000x64.Idx) :
    ∃ pc ∈ ([⟨r3_0, p0⟩] : List (View.Piece (Elt F) S5000x64 .f32)), y ∈ pc.1.set :=
  View.cover_of_tiled [⟨r3_0, p0⟩] S5000x64.size (by rfl) y

/-- Window 4's staging buffer after the body, from the input windows' blocks: its 1 store as pieces, last
    first (the payloads are the skeleton's). -/
def out3_4 (x0 : Vec F S5000x64 .f32) (x1 : Vec F S5000x64 .f32) (x2 : Vec F S5000x64 .f32) : Vec F S5000x64 .f32 :=
  View.canon [⟨r3_0, k3_pay2 (View.ld x0 r3_0) (View.ld x1 r3_0) (View.ld x2 r3_0)⟩]

/-- Its stores tile the buffer (checked by evaluation), so they cover it. -/
theorem cover3_4 (p0 : Vec F S5000x64 .f32) (y : S5000x64.Idx) :
    ∃ pc ∈ ([⟨r3_0, p0⟩] : List (View.Piece (Elt F) S5000x64 .f32)), y ∈ pc.1.set :=
  View.cover_of_tiled [⟨r3_0, p0⟩] S5000x64.size (by rfl) y

/-! ## The body's triple -/

set_option maxHeartbeats 1000000 in
/-- The kernel body on whole staging memrefs, the inputs' at read contents `xW` and the outputs' at anything, runs to
    the continuation holding the inputs' as they were and each output's at `out3_W` of the inputs': the printed function
    is its skeleton, which is run one memory operation at a time. -/
theorem sound_kernel3 (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S5000x64 .f32) (harg5 : arg5.IsWhole)
    (x0 : Vec F S5000x64 .f32) (x1 : Vec F S5000x64 .f32) (x2 : Vec F S5000x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2) ∗ owns (c : Thread nD τ) arg5 fullShare (out3_4 x0 x1 x2)) -∗ K ⟨⟩))
      ⊢ wp frame (wpE (defs₀ (F := F)) Variants.none c none) E (cc3__reweight_kernel i arg1 harg1 arg2 harg2 arg3 harg3 arg4 harg4 arg5 harg5) K := by
  simp only [cc3__reweight_kernel_eq_skeleton]; unfold cc3__reweight_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3_3 _)
  iexists _; isplitr
  swap; · iexact H4
  ipureintro
  exact View.read_writes_eq_canon _ _ _ (cover3_4 _)

/-! ## The pipeline's proof data -/

/-- The proof data of pipeline 3 on core `c`: the arrays as the region finds them (`V`); after the body at
    point `t` each input's buffer at its block and each output's at `out3_W` of the input blocks; the invariant
    is the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
    | ⟨4, _⟩ => out3_4 (iblk3 V c 0 t) (iblk3 V c 1 t) (iblk3 V c 2 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]
theorem after3_4 (c : Dev nD) (t : Fin cfg3.N) : (dat3 V c).after 4 t = out3_4 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t` (the obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Gen

end
-- ==== Proof.KI.Reg4.lean ====
import proofs.«124407_j40681930228297_2_alg».proof.Proof.Gen.KernelIdeal.Launch
import proofs.«124407_j40681930228297_2_alg».proof.Proof.Gen.KernelIdeal.Skeleton
import proofs.«124407_j40681930228297_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 4 of @main (custom_call 4, `cc4__reweight_kernel`) at a parameter `V`

Everything here is stated at a parameter `V`: the TensorCore's buffer contents when the region is entered.
Per window its block at a grid point, per output window the buffer contents the body leaves as a function of
the input blocks, the body's triple, the pipeline's proof data and the body obligation. -/

-- membership in a rectangle of large extents: the structural check recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): where the window is not
    fetched its block index has not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s (`hA`) and whose body leaves the block in place (`hafter`): where the window is not
    fetched its block index has not moved; the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is `V`'s (`hA`) and whose body leaves the block in place (`hafter`): where the window is not
    fetched its block index has not moved; the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S5000x64 := Rect.unit (s := S5000x64) ![0, 0] S5000x64.size inb_S5000x64_S5000x64_0_0

/-! ## What the body leaves in each output window's buffer -/

/-- Window 3's staging buffer after the body, from the input windows' blocks: its 1 store as pieces, last
    first (the payloads are the skeleton's). -/
def out4_3 (x0 : Vec F S5000x64 .f32) (x1 : Vec F S5000x64 .f32) (x2 : Vec F S5000x64 .f32) : Vec F S5000x64 .f32 :=
  View.canon [⟨r4_0, k4_pay1 (View.ld x0 r4_0) (View.ld x1 r4_0)⟩]

/-- Its stores tile the buffer (checked by evaluation), so they cover it. -/
theorem cover4_3 (p0 : Vec F S5000x64 .f32) (y : S5000x64.Idx) :
    ∃ pc ∈ ([⟨r4_0, p0⟩] : List (View.Piece (Elt F) S5000x64 .f32)), y ∈ pc.1.set :=
  View.cover_of_tiled [⟨r4_0, p0⟩] S5000x64.size (by rfl) y

/-- Window 4's staging buffer after the body, from the input windows' blocks: its 1 store as pieces, last
    first (the payloads are the skeleton's). -/
def out4_4 (x0 : Vec F S5000x64 .f32) (x1 : Vec F S5000x64 .f32) (x2 : Vec F S5000x64 .f32) : Vec F S5000x64 .f32 :=
  View.canon [⟨r4_0, k4_pay2 (View.ld x0 r4_0) (View.ld x1 r4_0) (View.ld x2 r4_0)⟩]

/-- Its stores tile the buffer (checked by evaluation), so they cover it. -/
theorem cover4_4 (p0 : Vec F S5000x64 .f32) (y : S5000x64.Idx) :
    ∃ pc ∈ ([⟨r4_0, p0⟩] : List (View.Piece (Elt F) S5000x64 .f32)), y ∈ pc.1.set :=
  View.cover_of_tiled [⟨r4_0, p0⟩] S5000x64.size (by rfl) y

/-! ## The body's triple -/

set_option maxHeartbeats 1000000 in
/-- The kernel body on whole staging memrefs, the inputs' at read contents `xW` and the outputs' at anything, runs to
    the continuation holding the inputs' as they were and each output's at `out4_W` of the inputs': the printed function
    is its skeleton, which is run one memory operation at a time. -/
theorem sound_kernel4 (c : Dev nD) (E : Set ℕ) (i : grid4.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S5000x64 .f32) (harg5 : arg5.IsWhole)
    (x0 : Vec F S5000x64 .f32) (x1 : Vec F S5000x64 .f32) (x2 : Vec F S5000x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2) ∗ owns (c : Thread nD τ) arg5 fullShare (out4_4 x0 x1 x2)) -∗ K ⟨⟩))
      ⊢ wp frame (wpE (defs₀ (F := F)) Variants.none c none) E (cc4__reweight_kernel i arg1 harg1 arg2 harg2 arg3 harg3 arg4 harg4 arg5 harg5) K := by
  simp only [cc4__reweight_kernel_eq_skeleton]; unfold cc4__reweight_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover4_3 _)
  iexists _; isplitr
  swap; · iexact H4
  ipureintro
  exact View.read_writes_eq_canon _ _ _ (cover4_4 _)

/-! ## The pipeline's proof data -/

/-- The proof data of pipeline 4 on core `c`: the arrays as the region finds them (`V`); after the body at
    point `t` each input's buffer at its block and each output's at `out4_W` of the input blocks; the invariant
    is the scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
    | ⟨4, _⟩ => out4_4 (iblk4 V c 0 t) (iblk4 V c 1 t) (iblk4 V c 2 t)
  Φ _ := Pipeline.ΦA spec4 c
  q _ := fullShare
  owed _ := 0

/-- The proof data's arrays are the region-entry contents (the definition projected). -/
theorem A_eq4 (c : Dev nD) (w : Fin cfg4.W) : (dat4 V c).A w = V c (Pipeline.arrRef spec4 w) := by
  dsimp only [dat4]

/-- What the body leaves, window by window (the proof data's `match` reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]
theorem after4_4 (c : Dev nD) (t : Fin cfg4.N) : (dat4 V c).after 4 t = out4_4 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t` (the obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks (`before4_W`), so `sound_kernel4` applies; the invariant and
    the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Gen

end
-- ==== Proof.KI.Reg5.lean ====
import proofs.«124407_j40681930228297_2_alg».proof.Proof.Gen.KernelIdeal.Launch
import proofs.«124407_j40681930228297_2_alg».proof.Proof.Gen.KernelIdeal.Skeleton
import proofs.«124407_j40681930228297_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 5 of @main (custom_call 5, `cc5__reweight_kernel`) at a parameter `V`

Everything here is stated at a parameter `V`: the TensorCore's buffer contents when the region is entered.
Per window its block at a grid point, per output window the buffer contents the body leaves as a function of
the input blocks, the body's triple, the pipeline's proof data and the body obligation. -/

-- membership in a rectangle of large extents: the structural check recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): where the window is not
    fetched its block index has not moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): where the window is not
    fetched its block index has not moved; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): where the window is not
    fetched its block index has not moved; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S5000x64 := Rect.unit (s := S5000x64) ![0, 0] S5000x64.size inb_S5000x64_S5000x64_0_0

/-! ## What the body leaves in each output window's buffer -/

/-- Window 3's staging buffer after the body, from the input windows' blocks: its 1 store as pieces, last
    first (the payloads are the skeleton's). -/
def out5_3 (x0 : Vec F S5000x64 .f32) (x1 : Vec F S5000x64 .f32) (x2 : Vec F S5000x64 .f32) : Vec F S5000x64 .f32 :=
  View.canon [⟨r5_0, k5_pay1 (View.ld x0 r5_0) (View.ld x1 r5_0)⟩]

/-- Its stores tile the buffer (checked by evaluation), so they cover it. -/
theorem cover5_3 (p0 : Vec F S5000x64 .f32) (y : S5000x64.Idx) :
    ∃ pc ∈ ([⟨r5_0, p0⟩] : List (View.Piece (Elt F) S5000x64 .f32)), y ∈ pc.1.set :=
  View.cover_of_tiled [⟨r5_0, p0⟩] S5000x64.size (by rfl) y

/-- Window 4's staging buffer after the body, from the input windows' blocks: its 1 store as pieces, last
    first (the payloads are the skeleton's). -/
def out5_4 (x0 : Vec F S5000x64 .f32) (x1 : Vec F S5000x64 .f32) (x2 : Vec F S5000x64 .f32) : Vec F S5000x64 .f32 :=
  View.canon [⟨r5_0, k5_pay2 (View.ld x0 r5_0) (View.ld x1 r5_0) (View.ld x2 r5_0)⟩]

/-- Its stores tile the buffer (checked by evaluation), so they cover it. -/
theorem cover5_4 (p0 : Vec F S5000x64 .f32) (y : S5000x64.Idx) :
    ∃ pc ∈ ([⟨r5_0, p0⟩] : List (View.Piece (Elt F) S5000x64 .f32)), y ∈ pc.1.set :=
  View.cover_of_tiled [⟨r5_0, p0⟩] S5000x64.size (by rfl) y

/-! ## The body's triple -/

set_option maxHeartbeats 1000000 in
/-- The kernel body on whole staging memrefs, the inputs' at read contents `xW` and the outputs' at anything, runs to
    the continuation holding the inputs' as they were and each output's at `out5_W` of the inputs': the printed function
    is its skeleton, which is run one memory operation at a time. -/
theorem sound_kernel5 (c : Dev nD) (E : Set ℕ) (i : grid5.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S5000x64 .f32) (harg5 : arg5.IsWhole)
    (x0 : Vec F S5000x64 .f32) (x1 : Vec F S5000x64 .f32) (x2 : Vec F S5000x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2) ∗ owns (c : Thread nD τ) arg5 fullShare (out5_4 x0 x1 x2)) -∗ K ⟨⟩))
      ⊢ wp frame (wpE (defs₀ (F := F)) Variants.none c none) E (cc5__reweight_kernel i arg1 harg1 arg2 harg2 arg3 harg3 arg4 harg4 arg5 harg5) K := by
  simp only [cc5__reweight_kernel_eq_skeleton]; unfold cc5__reweight_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover5_3 _)
  iexists _; isplitr
  swap; · iexact H4
  ipureintro
  exact View.read_writes_eq_canon _ _ _ (cover5_4 _)

/-! ## The pipeline's proof data -/

/-- The proof data of pipeline 5 on core `c`: the arrays as the region finds them (`V`); after the body at
    point `t` each input's buffer at its block and each output's at `out5_W` of the input blocks; the invariant
    is the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
    | ⟨4, _⟩ => out5_4 (iblk5 V c 0 t) (iblk5 V c 1 t) (iblk5 V c 2 t)
  Φ _ := Pipeline.ΦA spec5 c
  q _ := fullShare
  owed _ := 0

/-- The proof data's arrays are the region-entry contents (the definition projected). -/
theorem A_eq5 (c : Dev nD) (w : Fin cfg5.W) : (dat5 V c).A w = V c (Pipeline.arrRef spec5 w) := by
  dsimp only [dat5]

/-- What the body leaves, window by window (the proof data's `match` reduced). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]
theorem after5_4 (c : Dev nD) (t : Fin cfg5.N) : (dat5 V c).after 4 t = out5_4 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t` (the obligation's precondition, the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' memrefs hold their blocks (`before5_W`), so `sound_kernel5` applies; the invariant and
    the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ (grid5.coords t) _ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Gen

end
-- ==== Proof.KI.Arr2.lean ====
/-
  The third pallas_call is handed one array through two of its input windows. Its four distinct arrays, each
  held whole, are the five windows' arrays at the shares `q2` deals: the shared array's full share is the two
  half shares of the windows that read it, and back.
-/
import proofs.«124407_j40681930228297_2_alg».proof.Proof.Gen.KernelIdeal.Launch
import proofs.«124407_j40681930228297_2_alg».proof.Proof.Gen.KernelIdeal.Skeleton
import proofs.«124407_j40681930228297_2_alg».proof.Proof.Gen.KernelIdeal.Points
import proofs.«124407_j40681930228297_2_alg».proof.Proof.KI.Share2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The distinct arrays behind the five windows of the third call. -/
theorem arrRefs2 : Finset.univ.image (Pipeline.arrRef spec2) = ({main_v23, main_v10, main_v24_0, main_v24_1} : Finset (Ref sig .tc)) := by
  decide

/-- A core's unscoped buffers are the buffers behind the third call's arrays and the rest. -/
theorem bufs2_split (c : Dev nD) (V : (b : Ref sig .tc) → Buf (Elt F) ((c : Thread nD τ).loc b)) :
    (unscopedBufs c V : sProp 𝕄) = iprop(Pipeline.arrBufs spec2 c V ∗ Pipeline.unscopedRest spec2 c V) := by
  classical
  have hA : Finset.univ.image (Pipeline.arrRef spec2) ⊆ Finset.univ.filter fun b : Ref sig .tc => ¬ b.isScoped := by
    rw [arrRefs2]; decide
  unfold unscopedBufs Pipeline.unscopedRest Pipeline.arrBufs
  rw [bigSep_sdiff_split hA]
  rfl

theorem arrays2_iff (c : Dev nD) (dat : Dat τ (Elt F) Unit ℕ (UR sig nD τ) ℕ cfg2 c) (hq : dat.q = q2)
    (V : (b : Ref sig .tc) → Buf (Elt F) ((c : Thread nD τ).loc b))
    (A : (w : Fin cfg2.W) → Buf (Elt F) ((cfg2.win w).arr.view.loc (c : Thread nD τ)))
    (hA : ∀ w, A w = V (Pipeline.arrRef spec2 w)) :
    (Pipeline.arrBufs spec2 c V : sProp 𝕄) ⊣⊢ dat.arrays A := by
  obtain rfl : A = fun w => V (Pipeline.arrRef spec2 w) := funext hA
  have hgen : dat.arrays (fun w => V (Pipeline.arrRef spec2 w)) = bigSep Finset.univ fun w => ((((c : Thread nD τ).loc (Pipeline.arrRef spec2 w)) ↦{dat.share w} V (Pipeline.arrRef spec2 w)) : sProp 𝕄) := by
    unfold Dat.arrays
    exact bigSep_congr fun w _ => by rw [(arr_whole2 w).set_eq_univ]
  rw [hgen]
  unfold Pipeline.arrBufs
  rw [arrRefs2, bigSep_W2, BI.bigSep_insert (by decide), BI.bigSep_insert (by decide), BI.bigSep_insert (by decide), BI.bigSep_singleton]
  have s0 : dat.share 0 = fullShare := by unfold Dat.share; rw [hq]; rfl
  have s1 : dat.share 1 = fullShare.left := by unfold Dat.share; rw [hq]; rfl
  have s2 : dat.share 2 = fullShare.right := by unfold Dat.share; rw [hq]; rfl
  have s3 : dat.share 3 = fullShare := by unfold Dat.share; rfl
  have s4 : dat.share 4 = fullShare := by unfold Dat.share; rfl
  rw [s0, s1, s2, s3, s4]
  show iprop((((c : Thread nD τ).loc main_v23) ↦{fullShare} V main_v23) ∗ (((c : Thread nD τ).loc main_v10) ↦{fullShare} V main_v10)
      ∗ (((c : Thread nD τ).loc main_v24_0) ↦{fullShare} V main_v24_0) ∗ (((c : Thread nD τ).loc main_v24_1) ↦{fullShare} V main_v24_1))
    ⊣⊢ (iprop((((c : Thread nD τ).loc main_v23) ↦{fullShare} V main_v23) ∗ (((c : Thread nD τ).loc main_v10) ↦{fullShare.left} V main_v10)
      ∗ (((c : Thread nD τ).loc main_v10) ↦{fullShare.right} V main_v10)
      ∗ (((c : Thread nD τ).loc main_v24_0) ↦{fullShare} V main_v24_0) ∗ (((c : Thread nD τ).loc main_v24_1) ↦{fullShare} V main_v24_1)) : sProp 𝕄)
  constructor
  · iintro ⟨H0, H1, H3, H4⟩
    ihave H1' := (pointsTo_share (PosShare.mem_left_op_right fullShare)).1 $$ H1
    icases H1' with ⟨H1, H2⟩
    isplitl [H0]; · iexact H0
    isplitl [H1]; · iexact H1
    isplitl [H2]; · iexact H2
    isplitl [H3]; · iexact H3
    iexact H4
  · iintro ⟨H0, H1, H2, H3, H4⟩
    ihave H1' := (pointsTo_share (PosShare.mem_left_op_right fullShare)).2 $$ [H1 H2]
    · isplitl [H1]; · iexact H1
      iexact H2
    isplitl [H0]; · iexact H0
    isplitl [H1']; · iexact H1'
    isplitl [H3]; · iexact H3
    iexact H4

end Cert.KernelIdeal.Gen

end
-- ==== Proof.KI.Run.lean ====
/-
  The run of the whole program: @main is seven stretches of host operations around six pallas_calls. The
  buffers' contents at every boundary are a fold from the launch memory — a host stretch applies its operations,
  a pallas_call leaves its output arrays at what its grid points' write-backs make of them and every other buffer
  as it found it — and every weakly fair execution terminates with every unscoped buffer at the fold's last
  valuation. The arguments are read back through the fold to their launch contents.
-/
import proofs.«124407_j40681930228297_2_alg».proof.Proof.Gen.KernelIdeal.Launch
import proofs.«124407_j40681930228297_2_alg».proof.Proof.Gen.KernelIdeal.Skeleton
import proofs.«124407_j40681930228297_2_alg».proof.Proof.Gen.KernelIdeal.Points
import proofs.«124407_j40681930228297_2_alg».proof.Proof.KI.Reg0
import proofs.«124407_j40681930228297_2_alg».proof.Proof.KI.Reg1
import proofs.«124407_j40681930228297_2_alg».proof.Proof.KI.Reg2
import proofs.«124407_j40681930228297_2_alg».proof.Proof.KI.Reg3
import proofs.«124407_j40681930228297_2_alg».proof.Proof.KI.Reg4
import proofs.«124407_j40681930228297_2_alg».proof.Proof.KI.Reg5
import proofs.«124407_j40681930228297_2_alg».proof.Proof.KI.Arr2
import proofs.«124407_j40681930228297_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)

/-- After the host stretch `hostOps0`: what region 0 is entered from. -/
abbrev W1 : Dev nD → Valuation τ sig (Elt F) := fun c => StableHlo.after hostOps0 (W0 m ρ c)
/-- The same read at the TensorCore's references. -/
abbrev U1 : (c : Dev nD) → (b : Ref sig .tc) → Buf (Elt F) ((c : Thread nD τ).loc b) := fun c b => W1 m ρ c b
/-- At region 0's exit: its arrays at what the write-backs leave, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the host stretch `hostOps1`: what region 1 is entered from. -/
abbrev W3 : Dev nD → Valuation τ sig (Elt F) := fun c => StableHlo.after hostOps1 (W2 m ρ c)
/-- The same read at the TensorCore's references. -/
abbrev U3 : (c : Dev nD) → (b : Ref sig .tc) → Buf (Elt F) ((c : Thread nD τ).loc b) := fun c b => W3 m ρ c b
/-- At region 1's exit: its arrays at what the write-backs leave, every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After the host stretch `hostOps2`: what region 2 is entered from. -/
abbrev W5 : Dev nD → Valuation τ sig (Elt F) := fun c => StableHlo.after hostOps2 (W4 m ρ c)
/-- The same read at the TensorCore's references. -/
abbrev U5 : (c : Dev nD) → (b : Ref sig .tc) → Buf (Elt F) ((c : Thread nD τ).loc b) := fun c b => W5 m ρ c b
/-- At region 2's exit: its two output arrays at what the write-backs leave, every other buffer as entered (two of
    its input windows read ONE array, so the exit contents are spelt at the two outputs directly). -/
def W6 (c : Dev nD) : Valuation τ sig (Elt F) :=
  Function.update (Function.update (W5 m ρ c) (Proc.devRef .tc main_v24_0) ((dat2 (U5 m ρ) c).arrAt 3 cfg2.N))
    (Proc.devRef .tc main_v24_1) ((dat2 (U5 m ρ) c).arrAt 4 cfg2.N)
theorem W6_of_ne (c : Dev nD) (b : Ref sig .tc) (h0 : b ≠ main_v24_0) (h1 : b ≠ main_v24_1) :
    W6 m ρ c (Proc.devRef .tc b) = W5 m ρ c (Proc.devRef .tc b) := by
  unfold W6
  rw [Function.update_of_ne (StableHlo.devRef_ne_of_ne h1), Function.update_of_ne (StableHlo.devRef_ne_of_ne h0)]
abbrev U6 : (c : Dev nD) → (b : Ref sig .tc) → Buf (Elt F) ((c : Thread nD τ).loc b) := fun c b => W6 m ρ c b
theorem hF2 (c : Dev nD) : ∀ w : Fin cfg2.W, (dat2 (U5 m ρ) c).arrAt w cfg2.N = U6 m ρ c (Pipeline.arrRef spec2 w)
  | ⟨0, _⟩ => (((dat2 (U5 m ρ) c).arrAt_in 0 rfl _).trans (A_eq2 (U5 m ρ) c 0)).trans (W6_of_ne m ρ c main_v23 (by decide) (by decide)).symm
  | ⟨1, _⟩ => (((dat2 (U5 m ρ) c).arrAt_in 1 rfl _).trans (A_eq2 (U5 m ρ) c 1)).trans (W6_of_ne m ρ c main_v10 (by decide) (by decide)).symm
  | ⟨2, _⟩ => (((dat2 (U5 m ρ) c).arrAt_in 2 rfl _).trans (A_eq2 (U5 m ρ) c 2)).trans (W6_of_ne m ρ c main_v10 (by decide) (by decide)).symm
  | ⟨3, _⟩ => by
    show _ = W6 m ρ c (Proc.devRef .tc main_v24_0)
    unfold W6
    rw [Function.update_of_ne (StableHlo.devRef_ne_of_ne (by decide : main_v24_0 ≠ main_v24_1)), Function.update_self]
    rfl
  | ⟨4, _⟩ => by
    show _ = W6 m ρ c (Proc.devRef .tc main_v24_1)
    unfold W6
    rw [Function.update_self]
    rfl
theorem hrest2 (c : Dev nD) : ∀ b, b ∉ Finset.univ.image (Pipeline.arrRef spec2) → U6 m ρ c b = U5 m ρ c b :=
  fun b hb => W6_of_ne m ρ c b (fun e => hb (by rw [arrRefs2, e]; decide)) (fun e => hb (by rw [arrRefs2, e]; decide))

/-- After the host stretch `hostOps3`: what region 3 is entered from. -/
abbrev W7 : Dev nD → Valuation τ sig (Elt F) := fun c => StableHlo.after hostOps3 (W6 m ρ c)
/-- The same read at the TensorCore's references. -/
abbrev U7 : (c : Dev nD) → (b : Ref sig .tc) → Buf (Elt F) ((c : Thread nD τ).loc b) := fun c b => W7 m ρ c b
/-- At region 3's exit: its arrays at what the write-backs leave, every other buffer as entered. -/
def W8 (c : Dev nD) : Valuation τ sig (Elt F) :=
  Pipeline.withArrays spec3 c (W7 m ρ c) fun w => (dat3 (U7 m ρ) c).arrAt w cfg3.N
theorem W8_arr (c : Dev nD) (w : Fin cfg3.W) :
    W8 m ρ c (Proc.devRef .tc (Pipeline.arrRef spec3 w)) = (dat3 (U7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev U8 : (c : Dev nD) → (b : Ref sig .tc) → Buf (Elt F) ((c : Thread nD τ).loc b) := fun c b => W8 m ρ c b
theorem hF3 (c : Dev nD) (w : Fin cfg3.W) : (dat3 (U7 m ρ) c).arrAt w cfg3.N = U8 m ρ c (Pipeline.arrRef spec3 w) :=
  (W8_arr m ρ c w).symm
theorem hrest3 (c : Dev nD) : ∀ b, b ∉ Finset.univ.image (Pipeline.arrRef spec3) → U8 m ρ c b = U7 m ρ c b :=
  fun b hb => W8_of_ne m ρ c b fun w e => hb (Finset.mem_image.mpr ⟨w, Finset.mem_univ _, e⟩)

/-- After the host stretch `hostOps4`: what region 4 is entered from. -/
abbrev W9 : Dev nD → Valuation τ sig (Elt F) := fun c => StableHlo.after hostOps4 (W8 m ρ c)
/-- The same read at the TensorCore's references. -/
abbrev U9 : (c : Dev nD) → (b : Ref sig .tc) → Buf (Elt F) ((c : Thread nD τ).loc b) := fun c b => W9 m ρ c b
/-- At region 4's exit: its arrays at what the write-backs leave, every other buffer as entered. -/
def W10 (c : Dev nD) : Valuation τ sig (Elt F) :=
  Pipeline.withArrays spec4 c (W9 m ρ c) fun w => (dat4 (U9 m ρ) c).arrAt w cfg4.N
theorem W10_arr (c : Dev nD) (w : Fin cfg4.W) :
    W10 m ρ c (Proc.devRef .tc (Pipeline.arrRef spec4 w)) = (dat4 (U9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev U10 : (c : Dev nD) → (b : Ref sig .tc) → Buf (Elt F) ((c : Thread nD τ).loc b) := fun c b => W10 m ρ c b
theorem hF4 (c : Dev nD) (w : Fin cfg4.W) : (dat4 (U9 m ρ) c).arrAt w cfg4.N = U10 m ρ c (Pipeline.arrRef spec4 w) :=
  (W10_arr m ρ c w).symm
theorem hrest4 (c : Dev nD) : ∀ b, b ∉ Finset.univ.image (Pipeline.arrRef spec4) → U10 m ρ c b = U9 m ρ c b :=
  fun b hb => W10_of_ne m ρ c b fun w e => hb (Finset.mem_image.mpr ⟨w, Finset.mem_univ _, e⟩)

/-- After the host stretch `hostOps5`: what region 5 is entered from. -/
abbrev W11 : Dev nD → Valuation τ sig (Elt F) := fun c => StableHlo.after hostOps5 (W10 m ρ c)
/-- The same read at the TensorCore's references. -/
abbrev U11 : (c : Dev nD) → (b : Ref sig .tc) → Buf (Elt F) ((c : Thread nD τ).loc b) := fun c b => W11 m ρ c b
/-- At region 5's exit: its arrays at what the write-backs leave, every other buffer as entered. -/
def W12 (c : Dev nD) : Valuation τ sig (Elt F) :=
  Pipeline.withArrays spec5 c (W11 m ρ c) fun w => (dat5 (U11 m ρ) c).arrAt w cfg5.N
theorem W12_arr (c : Dev nD) (w : Fin cfg5.W) :
    W12 m ρ c (Proc.devRef .tc (Pipeline.arrRef spec5 w)) = (dat5 (U11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev U12 : (c : Dev nD) → (b : Ref sig .tc) → Buf (Elt F) ((c : Thread nD τ).loc b) := fun c b => W12 m ρ c b
theorem hF5 (c : Dev nD) (w : Fin cfg5.W) : (dat5 (U11 m ρ) c).arrAt w cfg5.N = U12 m ρ c (Pipeline.arrRef spec5 w) :=
  (W12_arr m ρ c w).symm
theorem hrest5 (c : Dev nD) : ∀ b, b ∉ Finset.univ.image (Pipeline.arrRef spec5) → U12 m ρ c b = U11 m ρ c b :=
  fun b hb => W12_of_ne m ρ c b fun w e => hb (Finset.mem_image.mpr ⟨w, Finset.mem_univ _, e⟩)

/-- After the last host stretch: the two results are sliced out. -/
abbrev W13 : Dev nD → Valuation τ sig (Elt F) := fun c => StableHlo.after hostOps6 (W12 m ρ c)

/-! ## No stretch and no call writes an argument -/

theorem W13_main_arg0 (c : Dev nD) : W13 m ρ c (Proc.devRef .tc main_arg0) = m ((c : Thread nD τ).loc main_arg0) :=
  calc W13 m ρ c (Proc.devRef .tc main_arg0)
    _ = W12 m ρ c (Proc.devRef .tc main_arg0) := StableHlo.after_of_writes_sub hostOps6 _ hostOps6_writes (by decide)
    _ = W11 m ρ c (Proc.devRef .tc main_arg0) := W12_of_ne m ρ c main_arg0 (by decide)
    _ = W10 m ρ c (Proc.devRef .tc main_arg0) := StableHlo.after_of_writes_sub hostOps5 _ hostOps5_writes (by decide)
    _ = W9 m ρ c (Proc.devRef .tc main_arg0) := W10_of_ne m ρ c main_arg0 (by decide)
    _ = W8 m ρ c (Proc.devRef .tc main_arg0) := StableHlo.after_of_writes_sub hostOps4 _ hostOps4_writes (by decide)
    _ = W7 m ρ c (Proc.devRef .tc main_arg0) := W8_of_ne m ρ c main_arg0 (by decide)
    _ = W6 m ρ c (Proc.devRef .tc main_arg0) := StableHlo.after_of_writes_sub hostOps3 _ hostOps3_writes (by decide)
    _ = W5 m ρ c (Proc.devRef .tc main_arg0) := W6_of_ne m ρ c main_arg0 (by decide) (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W13_main_arg1 (c : Dev nD) : W13 m ρ c (Proc.devRef .tc main_arg1) = m ((c : Thread nD τ).loc main_arg1) :=
  calc W13 m ρ c (Proc.devRef .tc main_arg1)
    _ = W12 m ρ c (Proc.devRef .tc main_arg1) := StableHlo.after_of_writes_sub hostOps6 _ hostOps6_writes (by decide)
    _ = W11 m ρ c (Proc.devRef .tc main_arg1) := W12_of_ne m ρ c main_arg1 (by decide)
    _ = W10 m ρ c (Proc.devRef .tc main_arg1) := StableHlo.after_of_writes_sub hostOps5 _ hostOps5_writes (by decide)
    _ = W9 m ρ c (Proc.devRef .tc main_arg1) := W10_of_ne m ρ c main_arg1 (by decide)
    _ = W8 m ρ c (Proc.devRef .tc main_arg1) := StableHlo.after_of_writes_sub hostOps4 _ hostOps4_writes (by decide)
    _ = W7 m ρ c (Proc.devRef .tc main_arg1) := W8_of_ne m ρ c main_arg1 (by decide)
    _ = W6 m ρ c (Proc.devRef .tc main_arg1) := StableHlo.after_of_writes_sub hostOps3 _ hostOps3_writes (by decide)
    _ = W5 m ρ c (Proc.devRef .tc main_arg1) := W6_of_ne m ρ c main_arg1 (by decide) (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W13_main_arg2 (c : Dev nD) : W13 m ρ c (Proc.devRef .tc main_arg2) = m ((c : Thread nD τ).loc main_arg2) :=
  calc W13 m ρ c (Proc.devRef .tc main_arg2)
    _ = W12 m ρ c (Proc.devRef .tc main_arg2) := StableHlo.after_of_writes_sub hostOps6 _ hostOps6_writes (by decide)
    _ = W11 m ρ c (Proc.devRef .tc main_arg2) := W12_of_ne m ρ c main_arg2 (by decide)
    _ = W10 m ρ c (Proc.devRef .tc main_arg2) := StableHlo.after_of_writes_sub hostOps5 _ hostOps5_writes (by decide)
    _ = W9 m ρ c (Proc.devRef .tc main_arg2) := W10_of_ne m ρ c main_arg2 (by decide)
    _ = W8 m ρ c (Proc.devRef .tc main_arg2) := StableHlo.after_of_writes_sub hostOps4 _ hostOps4_writes (by decide)
    _ = W7 m ρ c (Proc.devRef .tc main_arg2) := W8_of_ne m ρ c main_arg2 (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide) (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W13_main_arg3 (c : Dev nD) : W13 m ρ c (Proc.devRef .tc main_arg3) = m ((c : Thread nD τ).loc main_arg3) :=
  calc W13 m ρ c (Proc.devRef .tc main_arg3)
    _ = W12 m ρ c (Proc.devRef .tc main_arg3) := StableHlo.after_of_writes_sub hostOps6 _ hostOps6_writes (by decide)
    _ = W11 m ρ c (Proc.devRef .tc main_arg3) := W12_of_ne m ρ c main_arg3 (by decide)
    _ = W10 m ρ c (Proc.devRef .tc main_arg3) := StableHlo.after_of_writes_sub hostOps5 _ hostOps5_writes (by decide)
    _ = W9 m ρ c (Proc.devRef .tc main_arg3) := W10_of_ne m ρ c main_arg3 (by decide)
    _ = W8 m ρ c (Proc.devRef .tc main_arg3) := StableHlo.after_of_writes_sub hostOps4 _ hostOps4_writes (by decide)
    _ = W7 m ρ c (Proc.devRef .tc main_arg3) := W8_of_ne m ρ c main_arg3 (by decide)
    _ = W6 m ρ c (Proc.devRef .tc main_arg3) := StableHlo.after_of_writes_sub hostOps3 _ hostOps3_writes (by decide)
    _ = W5 m ρ c (Proc.devRef .tc main_arg3) := W6_of_ne m ρ c main_arg3 (by decide) (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 0).trans (((dat0 (U1 m ρ) c).arrAt_in 0 rfl _).trans (A_eq0 (U1 m ρ) c 0))
    _ = W0 m ρ c (Proc.devRef .tc main_arg3) := StableHlo.after_of_writes_sub hostOps0 _ hostOps0_writes (by decide)
    _ = m ((c : Thread nD τ).loc main_arg3) := rfl

theorem W13_main_arg4 (c : Dev nD) : W13 m ρ c (Proc.devRef .tc main_arg4) = m ((c : Thread nD τ).loc main_arg4) :=
  calc W13 m ρ c (Proc.devRef .tc main_arg4)
    _ = W12 m ρ c (Proc.devRef .tc main_arg4) := StableHlo.after_of_writes_sub hostOps6 _ hostOps6_writes (by decide)
    _ = W11 m ρ c (Proc.devRef .tc main_arg4) := W12_of_ne m ρ c main_arg4 (by decide)
    _ = W10 m ρ c (Proc.devRef .tc main_arg4) := StableHlo.after_of_writes_sub hostOps5 _ hostOps5_writes (by decide)
    _ = W9 m ρ c (Proc.devRef .tc main_arg4) := W10_of_ne m ρ c main_arg4 (by decide)
    _ = W8 m ρ c (Proc.devRef .tc main_arg4) := StableHlo.after_of_writes_sub hostOps4 _ hostOps4_writes (by decide)
    _ = W7 m ρ c (Proc.devRef .tc main_arg4) := W8_of_ne m ρ c main_arg4 (by decide)
    _ = W6 m ρ c (Proc.devRef .tc main_arg4) := StableHlo.after_of_writes_sub hostOps3 _ hostOps3_writes (by decide)
    _ = W5 m ρ c (Proc.devRef .tc main_arg4) := W6_of_ne m ρ c main_arg4 (by decide) (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W13_main_arg5 (c : Dev nD) : W13 m ρ c (Proc.devRef .tc main_arg5) = m ((c : Thread nD τ).loc main_arg5) :=
  calc W13 m ρ c (Proc.devRef .tc main_arg5)
    _ = W12 m ρ c (Proc.devRef .tc main_arg5) := StableHlo.after_of_writes_sub hostOps6 _ hostOps6_writes (by decide)
    _ = W11 m ρ c (Proc.devRef .tc main_arg5) := W12_of_ne m ρ c main_arg5 (by decide)
    _ = W10 m ρ c (Proc.devRef .tc main_arg5) := StableHlo.after_of_writes_sub hostOps5 _ hostOps5_writes (by decide)
    _ = W9 m ρ c (Proc.devRef .tc main_arg5) := W10_of_ne m ρ c main_arg5 (by decide)
    _ = W8 m ρ c (Proc.devRef .tc main_arg5) := StableHlo.after_of_writes_sub hostOps4 _ hostOps4_writes (by decide)
    _ = W7 m ρ c (Proc.devRef .tc main_arg5) := W8_of_ne m ρ c main_arg5 (by decide)
    _ = W6 m ρ c (Proc.devRef .tc main_arg5) := StableHlo.after_of_writes_sub hostOps3 _ hostOps3_writes (by decide)
    _ = W5 m ρ c (Proc.devRef .tc main_arg5) := W6_of_ne m ρ c main_arg5 (by decide) (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W13_main_arg6 (c : Dev nD) : W13 m ρ c (Proc.devRef .tc main_arg6) = m ((c : Thread nD τ).loc main_arg6) :=
  calc W13 m ρ c (Proc.devRef .tc main_arg6)
    _ = W12 m ρ c (Proc.devRef .tc main_arg6) := StableHlo.after_of_writes_sub hostOps6 _ hostOps6_writes (by decide)
    _ = W11 m ρ c (Proc.devRef .tc main_arg6) := W12_of_ne m ρ c main_arg6 (by decide)
    _ = W10 m ρ c (Proc.devRef .tc main_arg6) := StableHlo.after_of_writes_sub hostOps5 _ hostOps5_writes (by decide)
    _ = W9 m ρ c (Proc.devRef .tc main_arg6) := W10_of_ne m ρ c main_arg6 (by decide)
    _ = W8 m ρ c (Proc.devRef .tc main_arg6) := StableHlo.after_of_writes_sub hostOps4 _ hostOps4_writes (by decide)
    _ = W7 m ρ c (Proc.devRef .tc main_arg6) := W8_of_ne m ρ c main_arg6 (by decide)
    _ = W6 m ρ c (Proc.devRef .tc main_arg6) := StableHlo.after_of_writes_sub hostOps3 _ hostOps3_writes (by decide)
    _ = W5 m ρ c (Proc.devRef .tc main_arg6) := W6_of_ne m ρ c main_arg6 (by decide) (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W13_main_arg7 (c : Dev nD) : W13 m ρ c (Proc.devRef .tc main_arg7) = m ((c : Thread nD τ).loc main_arg7) :=
  calc W13 m ρ c (Proc.devRef .tc main_arg7)
    _ = W12 m ρ c (Proc.devRef .tc main_arg7) := StableHlo.after_of_writes_sub hostOps6 _ hostOps6_writes (by decide)
    _ = W11 m ρ c (Proc.devRef .tc main_arg7) := W12_of_ne m ρ c main_arg7 (by decide)
    _ = W10 m ρ c (Proc.devRef .tc main_arg7) := StableHlo.after_of_writes_sub hostOps5 _ hostOps5_writes (by decide)
    _ = W9 m ρ c (Proc.devRef .tc main_arg7) := W10_of_ne m ρ c main_arg7 (by decide)
    _ = W8 m ρ c (Proc.devRef .tc main_arg7) := StableHlo.after_of_writes_sub hostOps4 _ hostOps4_writes (by decide)
    _ = W7 m ρ c (Proc.devRef .tc main_arg7) := W8_of_ne m ρ c main_arg7 (by decide)
    _ = W6 m ρ c (Proc.devRef .tc main_arg7) := StableHlo.after_of_writes_sub hostOps3 _ hostOps3_writes (by decide)
    _ = W5 m ρ c (Proc.devRef .tc main_arg7) := W6_of_ne m ρ c main_arg7 (by decide) (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W13_main_arg8 (c : Dev nD) : W13 m ρ c (Proc.devRef .tc main_arg8) = m ((c : Thread nD τ).loc main_arg8) :=
  calc W13 m ρ c (Proc.devRef .tc main_arg8)
    _ = W12 m ρ c (Proc.devRef .tc main_arg8) := StableHlo.after_of_writes_sub hostOps6 _ hostOps6_writes (by decide)
    _ = W11 m ρ c (Proc.devRef .tc main_arg8) := W12_of_ne m ρ c main_arg8 (by decide)
    _ = W10 m ρ c (Proc.devRef .tc main_arg8) := StableHlo.after_of_writes_sub hostOps5 _ hostOps5_writes (by decide)
    _ = W9 m ρ c (Proc.devRef .tc main_arg8) := W10_of_ne m ρ c main_arg8 (by decide)
    _ = W8 m ρ c (Proc.devRef .tc main_arg8) := StableHlo.after_of_writes_sub hostOps4 _ hostOps4_writes (by decide)
    _ = W7 m ρ c (Proc.devRef .tc main_arg8) := W8_of_ne m ρ c main_arg8 (by decide)
    _ = W6 m ρ c (Proc.devRef .tc main_arg8) := StableHlo.after_of_writes_sub hostOps3 _ hostOps3_writes (by decide)
    _ = W5 m ρ c (Proc.devRef .tc main_arg8) := W6_of_ne m ρ c main_arg8 (by decide) (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-! ## The proof data family and the thread state -/

/-- No pallas_call has a prefetched table. -/
abbrev adm : (p : Fin 6) → (pcfgs (F := F) p).Adm := fun p => (cfgs p).toPCfg_adm
/-- Every call's proof data at its entry contents, a literal match on the call's number. -/
def pdats : (p : Fin 6) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U5 m ρ) c
  | ⟨3, _⟩ => fun c => dat3 (U7 m ρ) c
  | ⟨4, _⟩ => fun c => dat4 (U9 m ρ) c
  | ⟨5, _⟩ => fun c => dat5 (U11 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev Rest (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W13 m ρ c) ∗ ∃ r, prngReg c r)

/-! ## The pallas_calls as segments -/

-- a library lemma stated over the pinned configuration unifies with the printed one only when unification may
-- unfold plain definitions in a metavariable's type
set_option backward.isDefEq.respectTransparency.types false in
/-- Region 0 over the thread state: entered with every unscoped buffer at `W1`, left with them at `W2`. Its arrays
    are split out of the unscoped buffers at entry and put back at the exit contents; the generator register goes
    into the region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ Rest c)
  post c := iprop(StableHlo.held (c : Thread nD τ) (Pipeline.ucRefs τ sig) (W2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 over the thread state: entered with every unscoped buffer at `W3`, left with them at `W4`. Its arrays
    are split out of the unscoped buffers at entry and put back at the exit contents; the generator register goes
    into the region's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ Rest c)
  post c := iprop(StableHlo.held (c : Thread nD τ) (Pipeline.ucRefs τ sig) (W4 m ρ c) ∗ Rest c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 2 over the thread state: entered with every unscoped buffer at `W5`, left with them at `W6`. Its arrays
    are split out of the unscoped buffers at entry and put back at the exit contents; the generator register goes
    into the region's invariant and comes out; nothing is owed; the kernel has no semaphore of its own. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (U5 m ρ) c).loose
  hwaits := Pipeline.hwaits_of_owed_zero _ _ _ _ L lv 2 fun _ _ => rfl
  pre c := iprop(StableHlo.held (c : Thread nD τ) (Pipeline.ucRefs τ sig) (W5 m ρ c) ∗ Rest c)
  post c := iprop(StableHlo.held (c : Thread nD τ) (Pipeline.ucRefs τ sig) (W6 m ρ c) ∗ Rest c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit : (unscopedBufs c (U5 m ρ c) : sProp 𝕄) ⊢ iprop((pdats m ρ 2 c).arrays ((pdats m ρ 2 c).arrAt · 0) ∗ Pipeline.unscopedRest spec2 c (U5 m ρ c)) := by
      rw [bufs2_split]
      exact sep_mono (arrays2_iff c (pdats m ρ 2 c) rfl (U5 m ρ c) _ fun _ => rfl).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · cfg2.N) ∗ Pipeline.unscopedRest spec2 c (U5 m ρ c)) ⊢ (unscopedBufs c (U6 m ρ c) : sProp 𝕄) := by
      rw [bufs2_split]
      refine sep_mono (arrays2_iff c (pdats m ρ 2 c) rfl (U6 m ρ c) _ (hF2 m ρ c)).2 (Entails.of_eq ?_)
      unfold Pipeline.unscopedRest
      exact bigSep_congr fun b hb => by rw [hrest2 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 3 over the thread state: entered with every unscoped buffer at `W7`, left with them at `W8`. Its arrays
    are split out of the unscoped buffers at entry and put back at the exit contents; the generator register goes
    into the region's invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U7 m ρ) c).loose
  hwaits := Pipeline.hwaits_of_owed_zero _ _ _ _ L lv 3 fun _ _ => rfl
  pre c := iprop(StableHlo.held (c : Thread nD τ) (Pipeline.ucRefs τ sig) (W7 m ρ c) ∗ Rest c)
  post c := iprop(StableHlo.held (c : Thread nD τ) (Pipeline.ucRefs τ sig) (W8 m ρ c) ∗ Rest c)
  X c := iprop(∃ r, prngReg c r)
  Y c := iprop(∃ r, prngReg c r)
  Z c := Pipeline.unscopedRest (Ix := Unit) (Name := ℕ) (U := UR sig nD τ) (Lvl := ℕ) spec3 c (U7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (U7 m ρ c) (U8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 4 over the thread state: entered with every unscoped buffer at `W9`, left with them at `W10`. Its arrays
    are split out of the unscoped buffers at entry and put back at the exit contents; the generator register goes
    into the region's invariant and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U9 m ρ) c).loose
  hwaits := Pipeline.hwaits_of_owed_zero _ _ _ _ L lv 4 fun _ _ => rfl
  pre c := iprop(StableHlo.held (c : Thread nD τ) (Pipeline.ucRefs τ sig) (W9 m ρ c) ∗ Rest c)
  post c := iprop(StableHlo.held (c : Thread nD τ) (Pipeline.ucRefs τ sig) (W10 m ρ c) ∗ Rest c)
  X c := iprop(∃ r, prngReg c r)
  Y c := iprop(∃ r, prngReg c r)
  Z c := Pipeline.unscopedRest (Ix := Unit) (Name := ℕ) (U := UR sig nD τ) (Lvl := ℕ) spec4 c (U9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (U9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (U9 m ρ c) (U10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 5 over the thread state: entered with every unscoped buffer at `W11`, left with them at `W12`. Its arrays
    are split out of the unscoped buffers at entry and put back at the exit contents; the generator register goes
    into the region's invariant and comes out; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (U11 m ρ) c).loose
  hwaits := Pipeline.hwaits_of_owed_zero _ _ _ _ L lv 5 fun _ _ => rfl
  pre c := iprop(StableHlo.held (c : Thread nD τ) (Pipeline.ucRefs τ sig) (W11 m ρ c) ∗ Rest c)
  post c := iprop(StableHlo.held (c : Thread nD τ) (Pipeline.ucRefs τ sig) (W12 m ρ c) ∗ Rest c)
  X c := iprop(∃ r, prngReg c r)
  Y c := iprop(∃ r, prngReg c r)
  Z c := Pipeline.unscopedRest (Ix := Unit) (Name := ℕ) (U := UR sig nD τ) (Lvl := ℕ) spec5 c (U11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (U11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (U11 m ρ c) (U12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)) ]

theorem main_run (c : Dev nD) : main (F := F) c = Pipeline.Seg.run (segs m ρ) := (main_chain c).trans (by chain_rfl)

set_option backward.isDefEq.respectTransparency.types false in
/-- Every weakly fair execution of @main from memory `m` with zero counters terminates, nothing faulting, and the
    final memory holds every unscoped buffer at the fold's last valuation. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rest c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
    (h c _ (mem_uc main_arg0 (by decide))).trans (W13_main_arg0 m ρ c),
    (h c _ (mem_uc main_arg1 (by decide))).trans (W13_main_arg1 m ρ c),
    (h c _ (mem_uc main_arg2 (by decide))).trans (W13_main_arg2 m ρ c),
    (h c _ (mem_uc main_arg3 (by decide))).trans (W13_main_arg3 m ρ c),
    (h c _ (mem_uc main_arg4 (by decide))).trans (W13_main_arg4 m ρ c),
    (h c _ (mem_uc main_arg5 (by decide))).trans (W13_main_arg5 m ρ c),
    (h c _ (mem_uc main_arg6 (by decide))).trans (W13_main_arg6 m ρ c),
    (h c _ (mem_uc main_arg7 (by decide))).trans (W13_main_arg7 m ρ c),
    (h c _ (mem_uc main_arg8 (by decide))).trans (W13_main_arg8 m ρ c)⟩) (run_all m ρ)

end Cert.KernelIdeal.Run

end
-- ==== Proof.V.Spec.lean ====
/-
  The mathematics of the layer-wise graph convolution, stated once, index by index, on the extended reals, over the
  literal array shapes; no program is imported. Two embeddings are built from the features,
    user row r:  fea[r, q] + Σ_k g[k, q]
    item row r:  tanh(Σ_k fea[r, k] · w[q, k] + b[q]) + Σ_k g[k, q],
  stacked into ego (150000 × 64). A layer takes the propagated array xn (any function `prop` of the current x; the
  sparse product, left abstract) and reweights each row by its cosine similarity with the same row of ego,
    c[r] = (Σ_d xn[r,d] · ego[r,d]) / (max(√(Σ_d xn[r,d]²), ε) · max(√(Σ_d ego[r,d]²), ε)),
    x'[r, q] = c[r] · xn[r, q],   acc'[r, q] = acc[r, q] + x'[r, q],
  ε the one float word both programs spell, never evaluated. Four layers from x = acc = ego; the result is acc cut
  into its first 100000 and last 50000 rows. The row formulas are stated for any number of rows, so a block of rows
  of an array and the array itself are read by one definition.
-/
import Idealize.ShloMosaic.PureOps.Ideal
import Idealize.ShloMosaic.Lib.ValueIdx

noncomputable section

open scoped BigOperators

namespace Cert.Val

open Idealize.ShloMosaic Idealize.ShloMosaic.ValueIdx

/-- An `a × b` array of extended reals (what a float array of that shape is at the ideal instance). -/
abbrev Mat (a b : Nat) : Type := (⟨2, ![a, b]⟩ : Shape).Idx → EReal
/-- A length-`a` array of extended reals. -/
abbrev Arr (a : Nat) : Type := (⟨1, ![a]⟩ : Shape).Idx → EReal

/-- The clamp ε of the two norms: the float word both programs print. -/
def eps : EReal := Ideal.ofBits .f32 0x322BCC77#32

/-! ## The two embeddings -/

/-- Column `q` of a three-row table summed over its rows. -/
def colSum3 (g : Mat 3 64) (q : Fin 64) : EReal := ∑ k : Fin 3, g (ix2 k q)

/-- A user row: the features plus the summed table. -/
def userEmb (fea : Mat 100000 64) (g : Mat 3 64) : Mat 100000 64 :=
  fun i => fea (ix2 (i 0) (i 1)) + colSum3 g (i 1)

theorem userEmb_ix2 (fea : Mat 100000 64) (g : Mat 3 64) (p : Fin 100000) (q : Fin 64) :
    userEmb fea g (ix2 p q) = fea (ix2 p q) + ∑ k : Fin 3, g (ix2 k q) := rfl

/-- An item row: `tanh` of the projected features plus the bias, plus the summed table (`w` is [64, 384]: the
    projection contracts both operands' second axis). -/
def itemEmb (fea : Mat 50000 384) (w : Mat 64 384) (b : Arr 64) (g : Mat 3 64) : Mat 50000 64 :=
  fun i => Ideal.tanh ((∑ k : Fin 384, fea (ix2 (i 0) k) * w (ix2 (i 1) k)) + b (ix1 (i 1))) + colSum3 g (i 1)

theorem itemEmb_ix2 (fea : Mat 50000 384) (w : Mat 64 384) (b : Arr 64) (g : Mat 3 64) (p : Fin 50000) (q : Fin 64) :
    itemEmb fea w b g (ix2 p q)
      = Ideal.tanh ((∑ k : Fin 384, fea (ix2 p k) * w (ix2 q k)) + b (ix1 q)) + ∑ k : Fin 3, g (ix2 k q) := rfl

/-- The stacked embedding: rows below 100000 are user rows, the others item rows. -/
def ego (u : Mat 100000 64) (v : Mat 50000 64) : Mat 150000 64 :=
  fun i => if h : (i 0).val < 100000 then u (ix2 ⟨(i 0).val, h⟩ (i 1))
    else v (ix2 ⟨(i 0).val - 100000, by have := (i 0).isLt; simp at this; omega⟩ (i 1))

theorem ego_user (u : Mat 100000 64) (v : Mat 50000 64) (p : Fin 100000) (q : Fin 64) (p' : Fin 150000)
    (hp : p'.val = p.val) : ego u v (ix2 p' q) = u (ix2 p q) := by
  unfold ego
  have h : (p' : Nat) < 100000 := by have := p.isLt; omega
  show (if h : (p' : Nat) < 100000 then u (ix2 ⟨p'.val, h⟩ q) else _) = _
  rw [dif_pos h]
  exact congrArg u (congrArg (ix2 · q) (Fin.ext hp))

theorem ego_item (u : Mat 100000 64) (v : Mat 50000 64) (p : Fin 50000) (q : Fin 64) (p' : Fin 150000)
    (hp : p'.val = 100000 + p.val) : ego u v (ix2 p' q) = v (ix2 p q) := by
  unfold ego
  have h : ¬ (p' : Nat) < 100000 := by omega
  show (if h : (p' : Nat) < 100000 then _ else v (ix2 ⟨p'.val - 100000, _⟩ q)) = _
  rw [dif_neg h]
  exact congrArg v (congrArg (ix2 · q) (Fin.ext (by show p'.val - 100000 = p.val; omega)))

/-! ## The reweighting of one row, for any number of rows -/

/-- The inner product of row `r` of two arrays. -/
def rowDot {n : Nat} (a b : Mat n 64) (r : Fin n) : EReal := ∑ d : Fin 64, a (ix2 r d) * b (ix2 r d)

/-- The clamped norm of row `r`. -/
def rowNorm {n : Nat} (a : Mat n 64) (r : Fin n) : EReal := max (Ideal.sqrt (rowDot a a r)) eps

/-- The cosine similarity of row `r` of `xn` with row `r` of `e`. -/
def rowCos {n : Nat} (xn e : Mat n 64) (r : Fin n) : EReal :=
  Ideal.div (rowDot xn e r) (rowNorm xn r * rowNorm e r)

/-- The reweighted array. -/
def rwX {n : Nat} (xn e : Mat n 64) : Mat n 64 := fun i => rowCos xn e (i 0) * xn (ix2 (i 0) (i 1))

/-- The accumulated array. -/
def rwAcc {n : Nat} (xn e acc : Mat n 64) : Mat n 64 := fun i => acc (ix2 (i 0) (i 1)) + rwX xn e (ix2 (i 0) (i 1))

theorem rwX_ix2 {n : Nat} (xn e : Mat n 64) (p : Fin n) (q : Fin 64) :
    rwX xn e (ix2 p q) = rowCos xn e p * xn (ix2 p q) := rfl

theorem rwAcc_ix2 {n : Nat} (xn e acc : Mat n 64) (p : Fin n) (q : Fin 64) :
    rwAcc xn e acc (ix2 p q) = acc (ix2 p q) + rowCos xn e p * xn (ix2 p q) := rfl

/-- The row formulas read only the row: two pairs of arrays that agree on row `r` (of one) and row `r'` (of the
    other) have the same cosine there. This is how a block of rows is read inside its array. -/
theorem rowCos_congr {n n' : Nat} (xn e : Mat n 64) (xn' e' : Mat n' 64) (r : Fin n) (r' : Fin n')
    (hx : ∀ d : Fin 64, xn (ix2 r d) = xn' (ix2 r' d)) (he : ∀ d : Fin 64, e (ix2 r d) = e' (ix2 r' d)) :
    rowCos xn e r = rowCos xn' e' r' := by
  unfold rowCos rowNorm rowDot
  simp only [hx, he]

/-! ## The four layers -/

/-- One layer on the pair (x, acc): propagate, reweight against `e`, accumulate. -/
def layer (prop : Mat 150000 64 → Mat 150000 64) (e : Mat 150000 64) (s : Mat 150000 64 × Mat 150000 64) :
    Mat 150000 64 × Mat 150000 64 :=
  (rwX (prop s.1) e, rwAcc (prop s.1) e s.2)

/-- The accumulated array after four layers from x = acc = e. -/
def acc4 (prop : Mat 150000 64 → Mat 150000 64) (e : Mat 150000 64) : Mat 150000 64 :=
  (layer prop e (layer prop e (layer prop e (layer prop e (e, e))))).2

/-- Its first 100000 rows. -/
def outUser (A : Mat 150000 64) : Mat 100000 64 :=
  fun i => A (ix2 ⟨(i 0).val, by have := (i 0).isLt; simp at this; omega⟩ (i 1))

/-- Its last 50000 rows. -/
def outItem (A : Mat 150000 64) : Mat 50000 64 :=
  fun i => A (ix2 ⟨100000 + (i 0).val, by have := (i 0).isLt; simp at this; omega⟩ (i 1))

end Cert.Val

end
-- ==== Proof.KI.Rows.lean ====
import proofs.«124407_j40681930228297_2_alg».proof.Proof.V.Spec

/-! # A block of rows read inside its array

The reweighting of a row reads only that row. So a block of 5000 consecutive rows of a 150000-row array, reweighted
as an array of its own, is the same block of the reweighted array: row `p` of block `T` is row `5000 * T + p`. -/

noncomputable section

namespace Cert.Val

open Idealize.ShloMosaic Idealize.ShloMosaic.ValueIdx

/-- The reweighted block is the block of the reweighted array. -/
theorem rwX_rows (X E : Mat 150000 64) (x e : Mat 5000 64) (T : Nat)
    (hx : ∀ (p : Fin 5000) (q : Fin 64) (P : Fin 150000), P.val = 5000 * T + p.val → x (ix2 p q) = X (ix2 P q))
    (he : ∀ (p : Fin 5000) (q : Fin 64) (P : Fin 150000), P.val = 5000 * T + p.val → e (ix2 p q) = E (ix2 P q))
    (p : Fin 5000) (q : Fin 64) (P : Fin 150000) (hP : P.val = 5000 * T + p.val) :
    rwX x e (ix2 p q) = rwX X E (ix2 P q) := by
  rw [rwX_ix2, rwX_ix2, rowCos_congr x e X E p P (fun d => hx p d P hP) (fun d => he p d P hP), hx p q P hP]

/-- The accumulated block is the block of the accumulated array. -/
theorem rwAcc_rows (X E A : Mat 150000 64) (x e a : Mat 5000 64) (T : Nat)
    (hx : ∀ (p : Fin 5000) (q : Fin 64) (P : Fin 150000), P.val = 5000 * T + p.val → x (ix2 p q) = X (ix2 P q))
    (he : ∀ (p : Fin 5000) (q : Fin 64) (P : Fin 150000), P.val = 5000 * T + p.val → e (ix2 p q) = E (ix2 P q))
    (ha : ∀ (p : Fin 5000) (q : Fin 64) (P : Fin 150000), P.val = 5000 * T + p.val → a (ix2 p q) = A (ix2 P q))
    (p : Fin 5000) (q : Fin 64) (P : Fin 150000) (hP : P.val = 5000 * T + p.val) :
    rwAcc x e a (ix2 p q) = rwAcc X E A (ix2 P q) := by
  rw [rwAcc_ix2, rwAcc_ix2, rowCos_congr x e X E p P (fun d => hx p d P hP) (fun d => he p d P hP), hx p q P hP,
    ha p q P hP]

end Cert.Val

end
-- ==== Proof.V.Pay2.lean ====
/-
  The reweighting kernel's two stored values, read at one entry (p, q) of a block of 5000 rows: the first is the
  row's cosine against the same row of the second operand times the entry, the second adds that to the third
  operand's entry. Every step is a pointwise operation read at the index, a column of row sums laid back along the
  lanes (a cast [5000] → [5000, 1] and a broadcast [5000, 1] → [5000, 64], read at an index below), or a lane sum,
  which at the ideal values is the sum over the 64 lanes.
-/
import proofs.«124407_j40681930228297_2_alg».proof.Proof.Gen.KernelIdeal.Skeleton
import proofs.«124407_j40681930228297_2_alg».proof.Proof.V.Spec
import Idealize.ShloMosaic.Lib.ValueLayout
import Idealize.ShloMosaic.PureOps.Ideal.Laws

noncomputable section

open scoped BigOperators

namespace Cert.Val

open Idealize.ShloMosaic Idealize.ShloMosaic.ValueIdx

/-! ## A column kept as a unit axis -/

/-- An `[a]` array cast to `[a, 1]` reads, at `(p, u)`, the operand at `p`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ## A lane sum -/

/-- The sum over the lanes of a `[5000, 64]` block, read at row `p`: the sum of the row's 64 entries. (The
    accumulator's proof is typed as the printed one is.) -/
theorem laneSum_apply (src : FVec Ideal Cert.KernelIdeal.S5000x64 .f32)
    (h : Cert.KernelIdeal.S5000x64.Reduces [1] Cert.KernelIdeal.S5000) (hφ : FKind.Formats .f32)
    (hacc : (0x00000000#32 : BitVec 32) = 0x00000000#32) (p : Fin 5000) :
    multiReduction (F := Ideal) .add [1] Cert.KernelIdeal.S5000 src 0x00000000#32 h hφ hacc (ix1 p)
      = ∑ d : Fin 64, src (ix2 p d) := by
  refine (Ideal.multiReduction_add_single src 0x00000000#32 h hφ hacc (ix1 p)).trans ?_
  refine Finset.sum_congr rfl fun d _ => congrArg src ?_
  funext a
  match a with
  | ⟨0, _⟩ => rfl
  | ⟨1, _⟩ => rfl

/-! ## The two payloads -/

/-- The first stored value at `(p, q)`: the row's cosine times the entry. -/
theorem k2_pay1_ix2 (x xe : Vec Ideal Cert.KernelIdeal.S5000x64 .f32) (p : Fin 5000) (q : Fin 64) :
    Cert.KernelIdeal.Gen.k2_pay1 (F := Ideal) x xe (ix2 p q) = rwX (n := 5000) x xe (ix2 p q) := by
  unfold Cert.KernelIdeal.Gen.k2_pay1
  simp only [shapeCast_self]
  rw [rwX_ix2, mulf_apply, broadcastTo_a1_ab_apply, divf_apply, mulf_apply, maximumf_apply, maximumf_apply,
    broadcast_apply]
  show Ideal.div (shapeCast _ _ _ (ix2 p (0 : Fin 1)))
      (max (Ideal.sqrt (shapeCast _ _ _ (ix2 p (0 : Fin 1)))) (Ideal.ofBits .f32 0x322BCC77#32)
        * max (Ideal.sqrt (shapeCast _ _ _ (ix2 p (0 : Fin 1)))) (Ideal.ofBits .f32 0x322BCC77#32)) * x (ix2 p q) = _
  rw [shapeCast_a_a1_apply, shapeCast_a_a1_apply, shapeCast_a_a1_apply, laneSum_apply, laneSum_apply, laneSum_apply]
  rfl

/-- The second stored value at `(p, q)`: the third operand's entry plus the first stored value. -/
theorem k2_pay2_ix2 (x xe acc : Vec Ideal Cert.KernelIdeal.S5000x64 .f32) (p : Fin 5000) (q : Fin 64) :
    Cert.KernelIdeal.Gen.k2_pay2 (F := Ideal) x xe acc (ix2 p q) = rwAcc (n := 5000) x xe acc (ix2 p q) := by
  unfold Cert.KernelIdeal.Gen.k2_pay2
  simp only [shapeCast_self]
  rw [rwAcc_ix2, addf_apply, k2_pay1_ix2, rwX_ix2]

/-- The two stored blocks as whole functions of the loaded blocks. -/
theorem k2_pay1_eq (x xe : Vec Ideal Cert.KernelIdeal.S5000x64 .f32) :
    Cert.KernelIdeal.Gen.k2_pay1 (F := Ideal) x xe = rwX (n := 5000) x xe := by
  funext j
  obtain ⟨p, q, rfl⟩ : ∃ (p : Fin 5000) (q : Fin 64), j = ix2 p q := ⟨j 0, j 1, eq_ix2 j⟩
  exact k2_pay1_ix2 x xe p q

theorem k2_pay2_eq (x xe acc : Vec Ideal Cert.KernelIdeal.S5000x64 .f32) :
    Cert.KernelIdeal.Gen.k2_pay2 (F := Ideal) x xe acc = rwAcc (n := 5000) x xe acc := by
  funext j
  obtain ⟨p, q, rfl⟩ : ∃ (p : Fin 5000) (q : Fin 64), j = ix2 p q := ⟨j 0, j 1, eq_ix2 j⟩
  exact k2_pay2_ix2 x xe acc p q

/-! ## The three later layers' kernels have the same body -/

section SameBody
variable {F : FTy → Type} [FloatOps F]

theorem k3_pay1_eq_k2 : Cert.KernelIdeal.Gen.k3_pay1 (F := F) = Cert.KernelIdeal.Gen.k2_pay1 := rfl
theorem k3_pay2_eq_k2 : Cert.KernelIdeal.Gen.k3_pay2 (F := F) = Cert.KernelIdeal.Gen.k2_pay2 := rfl
theorem k4_pay1_eq_k2 : Cert.KernelIdeal.Gen.k4_pay1 (F := F) = Cert.KernelIdeal.Gen.k2_pay1 := rfl
theorem k4_pay2_eq_k2 : Cert.KernelIdeal.Gen.k4_pay2 (F := F) = Cert.KernelIdeal.Gen.k2_pay2 := rfl
theorem k5_pay1_eq_k2 : Cert.KernelIdeal.Gen.k5_pay1 (F := F) = Cert.KernelIdeal.Gen.k2_pay1 := rfl
theorem k5_pay2_eq_k2 : Cert.KernelIdeal.Gen.k5_pay2 (F := F) = Cert.KernelIdeal.Gen.k2_pay2 := rfl

end SameBody

end Cert.Val

end
-- ==== Proof.KI.Fin2.lean ====
import proofs.«124407_j40681930228297_2_alg».proof.Proof.KI.Reg2
import proofs.«124407_j40681930228297_2_alg».proof.Proof.KI.Rows
import proofs.«124407_j40681930228297_2_alg».proof.Proof.V.Spec
import proofs.«124407_j40681930228297_2_alg».proof.Proof.V.Pay2
import Idealize.ShloMosaic.Lib.Pipeline.Value

/-! # Region 2: the two output arrays as whole functions of the input arrays

At the ideal values, with `V` the buffer contents when the region is entered. Every window of the call is a
block of 5000 rows and all 64 columns, and grid point `t` has block `t` of every window: rows `5000 t … 5000 t + 4999`.
The body's two stored values are the reweighting of the block's rows, which reads each row alone; so what point `t`
writes back is block `t` of the reweighting of the whole arrays, and the thirty blocks cover the array. -/

noncomputable section

namespace Cert.KernelIdeal.Gen

open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The whole-block rectangle starts at the origin. -/
theorem origin2 : (![0, 0] : Fin 2 → Nat) = fun _ => 0 := funext fun a => by fin_cases a <;> rfl

/-- Every window of the call moves down the rows with the grid point: block `t` along the rows, block 0 along the
    columns (decided over the thirty points). -/
theorem rowBlock2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-! ## Entry `(p, q)` of block `t` is entry `(5000 t + p, q)` of the array, window by window -/

theorem blkRow2_0 (t : Fin cfg2.N) (p : Fin 5000) (q : Fin 64) (P : Fin 150000) (hP : P.val = 5000 * t.val + p.val) :
    ((cfg2.win 0).blk t).view.emb (ix2 p q) = (ix2 P q : S150000x64.Idx) := by
  obtain ⟨e0, e1, -⟩ := rowBlock2 t
  funext a; apply Fin.ext
  match a with
  | ⟨0, _⟩ => show win2_0.index t (0 : Fin 2) * 5000 + 1 * p.val = P.val; omega
  | ⟨1, _⟩ => show win2_0.index t (1 : Fin 2) * 64 + 1 * q.val = q.val; omega

theorem blkRow2_1 (t : Fin cfg2.N) (p : Fin 5000) (q : Fin 64) (P : Fin 150000) (hP : P.val = 5000 * t.val + p.val) :
    ((cfg2.win 1).blk t).view.emb (ix2 p q) = (ix2 P q : S150000x64.Idx) := by
  obtain ⟨-, -, e0, e1, -⟩ := rowBlock2 t
  funext a; apply Fin.ext
  match a with
  | ⟨0, _⟩ => show win2_1.index t (0 : Fin 2) * 5000 + 1 * p.val = P.val; omega
  | ⟨1, _⟩ => show win2_1.index t (1 : Fin 2) * 64 + 1 * q.val = q.val; omega

theorem blkRow2_2 (t : Fin cfg2.N) (p : Fin 5000) (q : Fin 64) (P : Fin 150000) (hP : P.val = 5000 * t.val + p.val) :
    ((cfg2.win 2).blk t).view.emb (ix2 p q) = (ix2 P q : S150000x64.Idx) := by
  obtain ⟨-, -, -, -, e0, e1, -⟩ := rowBlock2 t
  funext a; apply Fin.ext
  match a with
  | ⟨0, _⟩ => show win2_2.index t (0 : Fin 2) * 5000 + 1 * p.val = P.val; omega
  | ⟨1, _⟩ => show win2_2.index t (1 : Fin 2) * 64 + 1 * q.val = q.val; omega

theorem blkRow2_3 (t : Fin cfg2.N) (p : Fin 5000) (q : Fin 64) (P : Fin 150000) (hP : P.val = 5000 * t.val + p.val) :
    ((cfg2.win 3).blk t).view.emb (ix2 p q) = (ix2 P q : S150000x64.Idx) := by
  obtain ⟨-, -, -, -, -, -, e0, e1, -⟩ := rowBlock2 t
  funext a; apply Fin.ext
  match a with
  | ⟨0, _⟩ => show win2_3.index t (0 : Fin 2) * 5000 + 1 * p.val = P.val; omega
  | ⟨1, _⟩ => show win2_3.index t (1 : Fin 2) * 64 + 1 * q.val = q.val; omega

theorem blkRow2_4 (t : Fin cfg2.N) (p : Fin 5000) (q : Fin 64) (P : Fin 150000) (hP : P.val = 5000 * t.val + p.val) :
    ((cfg2.win 4).blk t).view.emb (ix2 p q) = (ix2 P q : S150000x64.Idx) := by
  obtain ⟨-, -, -, -, -, -, -, -, e0, e1⟩ := rowBlock2 t
  funext a; apply Fin.ext
  match a with
  | ⟨0, _⟩ => show win2_4.index t (0 : Fin 2) * 5000 + 1 * p.val = P.val; omega
  | ⟨1, _⟩ => show win2_4.index t (1 : Fin 2) * 64 + 1 * q.val = q.val; omega

/-! ## The input blocks read inside their arrays -/

theorem iblk2_0_apply (c : Dev nD) (t : Fin cfg2.N) (p : Fin 5000) (q : Fin 64) (P : Fin 150000) (hP : P.val = 5000 * t.val + p.val) :
    (iblk2 V c 0 t : Cert.Val.Mat 5000 64) (ix2 p q) = (V c main_v23 : Cert.Val.Mat 150000 64) (ix2 P q) := by
  unfold iblk2
  rw [View.read_apply]
  show V c main_v23 (((cfg2.win 0).blk t).view.emb (ix2 p q)) = V c main_v23 (ix2 P q)
  exact congrArg (V c main_v23 : Cert.Val.Mat 150000 64) (blkRow2_0 t p q P hP)

theorem iblk2_1_apply (c : Dev nD) (t : Fin cfg2.N) (p : Fin 5000) (q : Fin 64) (P : Fin 150000) (hP : P.val = 5000 * t.val + p.val) :
    (iblk2 V c 1 t : Cert.Val.Mat 5000 64) (ix2 p q) = (V c main_v10 : Cert.Val.Mat 150000 64) (ix2 P q) := by
  unfold iblk2
  rw [View.read_apply]
  show V c main_v10 (((cfg2.win 1).blk t).view.emb (ix2 p q)) = V c main_v10 (ix2 P q)
  exact congrArg (V c main_v10 : Cert.Val.Mat 150000 64) (blkRow2_1 t p q P hP)

theorem iblk2_2_apply (c : Dev nD) (t : Fin cfg2.N) (p : Fin 5000) (q : Fin 64) (P : Fin 150000) (hP : P.val = 5000 * t.val + p.val) :
    (iblk2 V c 2 t : Cert.Val.Mat 5000 64) (ix2 p q) = (V c main_v10 : Cert.Val.Mat 150000 64) (ix2 P q) := by
  unfold iblk2
  rw [View.read_apply]
  show V c main_v10 (((cfg2.win 2).blk t).view.emb (ix2 p q)) = V c main_v10 (ix2 P q)
  exact congrArg (V c main_v10 : Cert.Val.Mat 150000 64) (blkRow2_2 t p q P hP)

/-- A grid point is below thirty, and a row of its block is a row of the array. -/
theorem rowLt2 (t : Fin cfg2.N) (p : Fin 5000) : 5000 * t.val + p.val < 150000 := by
  have h : t.val < cfg2.N := t.isLt
  have hN : cfg2.N = 30 := N_2
  have := p.isLt
  omega

/-! ## What a grid point writes back -/

/-- Point `t` writes block `t` of the reweighted array to window 3's array. -/
theorem flushed2_3_eq (c : Dev nD) (t : Fin cfg2.N) :
    (dat2 V c).flushed 3 t = ((cfg2.win 3).blk t).view.read (Elt Ideal)
      (Cert.Val.rwX (n := 150000) (V c main_v23) (V c main_v10) : S150000x64.Idx → EReal) := by
  show (cfg2.win 3).cut (grid2.coords t) ((dat2 V c).after 3 t) = _
  rw [after2_3]
  unfold out2_3
  rw [View.canon_unit_zero origin2]
  simp only [View.ld_unit_zero (S := S5000x64) origin2]
  rw [Cert.Val.k2_pay1_eq]
  funext j
  obtain ⟨p, q, rfl⟩ : ∃ (p : Fin 5000) (q : Fin 64), j = ix2 p q := ⟨j 0, j 1, eq_ix2 j⟩
  show Cert.Val.rwX (n := 5000) (iblk2 V c 0 t) (iblk2 V c 1 t) (ix2 p q)
    = Cert.Val.rwX (n := 150000) (V c main_v23) (V c main_v10) (((cfg2.win 3).blk t).view.emb (ix2 p q))
  refine (Cert.Val.rwX_rows (V c main_v23) (V c main_v10) (iblk2 V c 0 t) (iblk2 V c 1 t) t.val
    (fun p q P h => iblk2_0_apply V c t p q P h) (fun p q P h => iblk2_1_apply V c t p q P h)
    p q ⟨_, rowLt2 t p⟩ rfl).trans ?_
  exact congrArg (Cert.Val.rwX (n := 150000) (V c main_v23) (V c main_v10)) (blkRow2_3 t p q ⟨_, rowLt2 t p⟩ rfl).symm

/-- Point `t` writes block `t` of the accumulated array to window 4's array. -/
theorem flushed2_4_eq (c : Dev nD) (t : Fin cfg2.N) :
    (dat2 V c).flushed 4 t = ((cfg2.win 4).blk t).view.read (Elt Ideal)
      (Cert.Val.rwAcc (n := 150000) (V c main_v23) (V c main_v10) (V c main_v10) : S150000x64.Idx → EReal) := by
  show (cfg2.win 4).cut (grid2.coords t) ((dat2 V c).after 4 t) = _
  rw [after2_4]
  unfold out2_4
  rw [View.canon_unit_zero origin2]
  simp only [View.ld_unit_zero (S := S5000x64) origin2]
  rw [Cert.Val.k2_pay2_eq]
  funext j
  obtain ⟨p, q, rfl⟩ : ∃ (p : Fin 5000) (q : Fin 64), j = ix2 p q := ⟨j 0, j 1, eq_ix2 j⟩
  show Cert.Val.rwAcc (n := 5000) (iblk2 V c 0 t) (iblk2 V c 1 t) (iblk2 V c 2 t) (ix2 p q)
    = Cert.Val.rwAcc (n := 150000) (V c main_v23) (V c main_v10) (V c main_v10) (((cfg2.win 4).blk t).view.emb (ix2 p q))
  refine (Cert.Val.rwAcc_rows (V c main_v23) (V c main_v10) (V c main_v10) (iblk2 V c 0 t) (iblk2 V c 1 t) (iblk2 V c 2 t) t.val
    (fun p q P h => iblk2_0_apply V c t p q P h) (fun p q P h => iblk2_1_apply V c t p q P h)
    (fun p q P h => iblk2_2_apply V c t p q P h) p q ⟨_, rowLt2 t p⟩ rfl).trans ?_
  exact congrArg (Cert.Val.rwAcc (n := 150000) (V c main_v23) (V c main_v10) (V c main_v10)) (blkRow2_4 t p q ⟨_, rowLt2 t p⟩ rfl).symm

/-! ## The thirty blocks cover the array -/

/-- An index of window 3's array is in point `t`'s block iff each coordinate is in the block's range on its axis. -/
theorem mem_blk2_3 (t : Fin cfg2.N) (i : S150000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v24_0).slice (win2_3.rect t)).set ↔ _
  rw [View.set_slice_whole, Rect.mem_set_unit]
  exact Iff.rfl

/-- Row `r` is in the block of point `r / 5000`, which writes it back. -/
theorem rows2_3 (i : S150000x64.Idx) :
    ∃ t : Fin cfg2.N, (cfg2.win 3).flush t = true ∧ i ∈ ((cfg2.win 3).blk t).view.set := by
  have hi0 : (i 0).val < 150000 := (i 0).isLt
  have hi1 : (i 1).val < 64 := (i 1).isLt
  obtain ⟨t, ht⟩ : ∃ t : Fin cfg2.N, t.val = (i 0).val / 5000 :=
    ⟨⟨(i 0).val / 5000, by rw [show cfg2.N = 30 from N_2]; omega⟩, rfl⟩
  refine ⟨t, flush2_3 t, ?_⟩
  rw [mem_blk2_3]
  obtain ⟨-, -, -, -, -, -, e0, e1, -⟩ := rowBlock2 t
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- An index of window 4's array is in point `t`'s block iff each coordinate is in the block's range on its axis. -/
theorem mem_blk2_4 (t : Fin cfg2.N) (i : S150000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v24_1).slice (win2_4.rect t)).set ↔ _
  rw [View.set_slice_whole, Rect.mem_set_unit]
  exact Iff.rfl

/-- Row `r` is in the block of point `r / 5000`, which writes it back. -/
theorem rows2_4 (i : S150000x64.Idx) :
    ∃ t : Fin cfg2.N, (cfg2.win 4).flush t = true ∧ i ∈ ((cfg2.win 4).blk t).view.set := by
  have hi0 : (i 0).val < 150000 := (i 0).isLt
  have hi1 : (i 1).val < 64 := (i 1).isLt
  obtain ⟨t, ht⟩ : ∃ t : Fin cfg2.N, t.val = (i 0).val / 5000 :=
    ⟨⟨(i 0).val / 5000, by rw [show cfg2.N = 30 from N_2]; omega⟩, rfl⟩
  refine ⟨t, flush2_4 t, ?_⟩
  rw [mem_blk2_4]
  obtain ⟨-, -, -, -, -, -, -, -, e0, e1⟩ := rowBlock2 t
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-! ## The two arrays when the region is left -/

/-- Window 3's array ends at the reweighting of window 0's array against window 1's. -/
theorem final2_3 (c : Dev nD) : (dat2 V c).arrAt 3 cfg2.N
    = (Cert.Val.rwX (n := 150000) (V c main_v23) (V c main_v10) : S150000x64.Idx → EReal) :=
  (dat2 V c).arrAt_eq_of_cover 3 _ (fun t _ => flushed2_3_eq V c t) rows2_3

/-- Window 4's array ends at window 2's array plus that reweighting. -/
theorem final2_4 (c : Dev nD) : (dat2 V c).arrAt 4 cfg2.N
    = (Cert.Val.rwAcc (n := 150000) (V c main_v23) (V c main_v10) (V c main_v10) : S150000x64.Idx → EReal) :=
  (dat2 V c).arrAt_eq_of_cover 4 _ (fun t _ => flushed2_4_eq V c t) rows2_4

end Cert.KernelIdeal.Gen

end
-- ==== Proof.KI.Fin3.lean ====
import proofs.«124407_j40681930228297_2_alg».proof.Proof.KI.Reg3
import proofs.«124407_j40681930228297_2_alg».proof.Proof.KI.Rows
import proofs.«124407_j40681930228297_2_alg».proof.Proof.V.Spec
import proofs.«124407_j40681930228297_2_alg».proof.Proof.V.Pay2
import Idealize.ShloMosaic.Lib.Pipeline.Value

/-! # Region 3: the two output arrays as whole functions of the input arrays

At the ideal values, with `V` the buffer contents when the region is entered. Every window of the call is a
block of 5000 rows and all 64 columns, and grid point `t` has block `t` of every window: rows `5000 t … 5000 t + 4999`.
The body's two stored values are the reweighting of the block's rows, which reads each row alone; so what point `t`
writes back is block `t` of the reweighting of the whole arrays, and the thirty blocks cover the array. -/

noncomputable section

namespace Cert.KernelIdeal.Gen

open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The whole-block rectangle starts at the origin. -/
theorem origin3 : (![0, 0] : Fin 2 → Nat) = fun _ => 0 := funext fun a => by fin_cases a <;> rfl

/-- Every window of the call moves down the rows with the grid point: block `t` along the rows, block 0 along the
    columns (decided over the thirty points). -/
theorem rowBlock3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-! ## Entry `(p, q)` of block `t` is entry `(5000 t + p, q)` of the array, window by window -/

theorem blkRow3_0 (t : Fin cfg3.N) (p : Fin 5000) (q : Fin 64) (P : Fin 150000) (hP : P.val = 5000 * t.val + p.val) :
    ((cfg3.win 0).blk t).view.emb (ix2 p q) = (ix2 P q : S150000x64.Idx) := by
  obtain ⟨e0, e1, -⟩ := rowBlock3 t
  funext a; apply Fin.ext
  match a with
  | ⟨0, _⟩ => show win3_0.index t (0 : Fin 2) * 5000 + 1 * p.val = P.val; omega
  | ⟨1, _⟩ => show win3_0.index t (1 : Fin 2) * 64 + 1 * q.val = q.val; omega

theorem blkRow3_1 (t : Fin cfg3.N) (p : Fin 5000) (q : Fin 64) (P : Fin 150000) (hP : P.val = 5000 * t.val + p.val) :
    ((cfg3.win 1).blk t).view.emb (ix2 p q) = (ix2 P q : S150000x64.Idx) := by
  obtain ⟨-, -, e0, e1, -⟩ := rowBlock3 t
  funext a; apply Fin.ext
  match a with
  | ⟨0, _⟩ => show win3_1.index t (0 : Fin 2) * 5000 + 1 * p.val = P.val; omega
  | ⟨1, _⟩ => show win3_1.index t (1 : Fin 2) * 64 + 1 * q.val = q.val; omega

theorem blkRow3_2 (t : Fin cfg3.N) (p : Fin 5000) (q : Fin 64) (P : Fin 150000) (hP : P.val = 5000 * t.val + p.val) :
    ((cfg3.win 2).blk t).view.emb (ix2 p q) = (ix2 P q : S150000x64.Idx) := by
  obtain ⟨-, -, -, -, e0, e1, -⟩ := rowBlock3 t
  funext a; apply Fin.ext
  match a with
  | ⟨0, _⟩ => show win3_2.index t (0 : Fin 2) * 5000 + 1 * p.val = P.val; omega
  | ⟨1, _⟩ => show win3_2.index t (1 : Fin 2) * 64 + 1 * q.val = q.val; omega

theorem blkRow3_3 (t : Fin cfg3.N) (p : Fin 5000) (q : Fin 64) (P : Fin 150000) (hP : P.val = 5000 * t.val + p.val) :
    ((cfg3.win 3).blk t).view.emb (ix2 p q) = (ix2 P q : S150000x64.Idx) := by
  obtain ⟨-, -, -, -, -, -, e0, e1, -⟩ := rowBlock3 t
  funext a; apply Fin.ext
  match a with
  | ⟨0, _⟩ => show win3_3.index t (0 : Fin 2) * 5000 + 1 * p.val = P.val; omega
  | ⟨1, _⟩ => show win3_3.index t (1 : Fin 2) * 64 + 1 * q.val = q.val; omega

theorem blkRow3_4 (t : Fin cfg3.N) (p : Fin 5000) (q : Fin 64) (P : Fin 150000) (hP : P.val = 5000 * t.val + p.val) :
    ((cfg3.win 4).blk t).view.emb (ix2 p q) = (ix2 P q : S150000x64.Idx) := by
  obtain ⟨-, -, -, -, -, -, -, -, e0, e1⟩ := rowBlock3 t
  funext a; apply Fin.ext
  match a with
  | ⟨0, _⟩ => show win3_4.index t (0 : Fin 2) * 5000 + 1 * p.val = P.val; omega
  | ⟨1, _⟩ => show win3_4.index t (1 : Fin 2) * 64 + 1 * q.val = q.val; omega

/-! ## The input blocks read inside their arrays -/

theorem iblk3_0_apply (c : Dev nD) (t : Fin cfg3.N) (p : Fin 5000) (q : Fin 64) (P : Fin 150000) (hP : P.val = 5000 * t.val + p.val) :
    (iblk3 V c 0 t : Cert.Val.Mat 5000 64) (ix2 p q) = (V c main_v37 : Cert.Val.Mat 150000 64) (ix2 P q) := by
  unfold iblk3
  rw [View.read_apply]
  show V c main_v37 (((cfg3.win 0).blk t).view.emb (ix2 p q)) = V c main_v37 (ix2 P q)
  exact congrArg (V c main_v37 : Cert.Val.Mat 150000 64) (blkRow3_0 t p q P hP)

theorem iblk3_1_apply (c : Dev nD) (t : Fin cfg3.N) (p : Fin 5000) (q : Fin 64) (P : Fin 150000) (hP : P.val = 5000 * t.val + p.val) :
    (iblk3 V c 1 t : Cert.Val.Mat 5000 64) (ix2 p q) = (V c main_v10 : Cert.Val.Mat 150000 64) (ix2 P q) := by
  unfold iblk3
  rw [View.read_apply]
  show V c main_v10 (((cfg3.win 1).blk t).view.emb (ix2 p q)) = V c main_v10 (ix2 P q)
  exact congrArg (V c main_v10 : Cert.Val.Mat 150000 64) (blkRow3_1 t p q P hP)

theorem iblk3_2_apply (c : Dev nD) (t : Fin cfg3.N) (p : Fin 5000) (q : Fin 64) (P : Fin 150000) (hP : P.val = 5000 * t.val + p.val) :
    (iblk3 V c 2 t : Cert.Val.Mat 5000 64) (ix2 p q) = (V c main_v24_1 : Cert.Val.Mat 150000 64) (ix2 P q) := by
  unfold iblk3
  rw [View.read_apply]
  show V c main_v24_1 (((cfg3.win 2).blk t).view.emb (ix2 p q)) = V c main_v24_1 (ix2 P q)
  exact congrArg (V c main_v24_1 : Cert.Val.Mat 150000 64) (blkRow3_2 t p q P hP)

/-- A grid point is below thirty, and a row of its block is a row of the array. -/
theorem rowLt3 (t : Fin cfg3.N) (p : Fin 5000) : 5000 * t.val + p.val < 150000 := by
  have h : t.val < cfg3.N := t.isLt
  have hN : cfg3.N = 30 := N_3
  have := p.isLt
  omega

/-! ## What a grid point writes back -/

/-- Point `t` writes block `t` of the reweighted array to window 3's array. -/
theorem flushed3_3_eq (c : Dev nD) (t : Fin cfg3.N) :
    (dat3 V c).flushed 3 t = ((cfg3.win 3).blk t).view.read (Elt Ideal)
      (Cert.Val.rwX (n := 150000) (V c main_v37) (V c main_v10) : S150000x64.Idx → EReal) := by
  show (cfg3.win 3).cut (grid3.coords t) ((dat3 V c).after 3 t) = _
  rw [after3_3]
  unfold out3_3
  rw [View.canon_unit_zero origin3]
  simp only [View.ld_unit_zero (S := S5000x64) origin3]
  rw [Cert.Val.k3_pay1_eq_k2, Cert.Val.k2_pay1_eq]
  funext j
  obtain ⟨p, q, rfl⟩ : ∃ (p : Fin 5000) (q : Fin 64), j = ix2 p q := ⟨j 0, j 1, eq_ix2 j⟩
  show Cert.Val.rwX (n := 5000) (iblk3 V c 0 t) (iblk3 V c 1 t) (ix2 p q)
    = Cert.Val.rwX (n := 150000) (V c main_v37) (V c main_v10) (((cfg3.win 3).blk t).view.emb (ix2 p q))
  refine (Cert.Val.rwX_rows (V c main_v37) (V c main_v10) (iblk3 V c 0 t) (iblk3 V c 1 t) t.val
    (fun p q P h => iblk3_0_apply V c t p q P h) (fun p q P h => iblk3_1_apply V c t p q P h)
    p q ⟨_, rowLt3 t p⟩ rfl).trans ?_
  exact congrArg (Cert.Val.rwX (n := 150000) (V c main_v37) (V c main_v10)) (blkRow3_3 t p q ⟨_, rowLt3 t p⟩ rfl).symm

/-- Point `t` writes block `t` of the accumulated array to window 4's array. -/
theorem flushed3_4_eq (c : Dev nD) (t : Fin cfg3.N) :
    (dat3 V c).flushed 4 t = ((cfg3.win 4).blk t).view.read (Elt Ideal)
      (Cert.Val.rwAcc (n := 150000) (V c main_v37) (V c main_v10) (V c main_v24_1) : S150000x64.Idx → EReal) := by
  show (cfg3.win 4).cut (grid3.coords t) ((dat3 V c).after 4 t) = _
  rw [after3_4]
  unfold out3_4
  rw [View.canon_unit_zero origin3]
  simp only [View.ld_unit_zero (S := S5000x64) origin3]
  rw [Cert.Val.k3_pay2_eq_k2, Cert.Val.k2_pay2_eq]
  funext j
  obtain ⟨p, q, rfl⟩ : ∃ (p : Fin 5000) (q : Fin 64), j = ix2 p q := ⟨j 0, j 1, eq_ix2 j⟩
  show Cert.Val.rwAcc (n := 5000) (iblk3 V c 0 t) (iblk3 V c 1 t) (iblk3 V c 2 t) (ix2 p q)
    = Cert.Val.rwAcc (n := 150000) (V c main_v37) (V c main_v10) (V c main_v24_1) (((cfg3.win 4).blk t).view.emb (ix2 p q))
  refine (Cert.Val.rwAcc_rows (V c main_v37) (V c main_v10) (V c main_v24_1) (iblk3 V c 0 t) (iblk3 V c 1 t) (iblk3 V c 2 t) t.val
    (fun p q P h => iblk3_0_apply V c t p q P h) (fun p q P h => iblk3_1_apply V c t p q P h)
    (fun p q P h => iblk3_2_apply V c t p q P h) p q ⟨_, rowLt3 t p⟩ rfl).trans ?_
  exact congrArg (Cert.Val.rwAcc (n := 150000) (V c main_v37) (V c main_v10) (V c main_v24_1)) (blkRow3_4 t p q ⟨_, rowLt3 t p⟩ rfl).symm

/-! ## The thirty blocks cover the array -/

/-- An index of window 3's array is in point `t`'s block iff each coordinate is in the block's range on its axis. -/
theorem mem_blk3_3 (t : Fin cfg3.N) (i : S150000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v38_0).slice (win3_3.rect t)).set ↔ _
  rw [View.set_slice_whole, Rect.mem_set_unit]
  exact Iff.rfl

/-- Row `r` is in the block of point `r / 5000`, which writes it back. -/
theorem rows3_3 (i : S150000x64.Idx) :
    ∃ t : Fin cfg3.N, (cfg3.win 3).flush t = true ∧ i ∈ ((cfg3.win 3).blk t).view.set := by
  have hi0 : (i 0).val < 150000 := (i 0).isLt
  have hi1 : (i 1).val < 64 := (i 1).isLt
  obtain ⟨t, ht⟩ : ∃ t : Fin cfg3.N, t.val = (i 0).val / 5000 :=
    ⟨⟨(i 0).val / 5000, by rw [show cfg3.N = 30 from N_3]; omega⟩, rfl⟩
  refine ⟨t, flush3_3 t, ?_⟩
  rw [mem_blk3_3]
  obtain ⟨-, -, -, -, -, -, e0, e1, -⟩ := rowBlock3 t
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- An index of window 4's array is in point `t`'s block iff each coordinate is in the block's range on its axis. -/
theorem mem_blk3_4 (t : Fin cfg3.N) (i : S150000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v38_1).slice (win3_4.rect t)).set ↔ _
  rw [View.set_slice_whole, Rect.mem_set_unit]
  exact Iff.rfl

/-- Row `r` is in the block of point `r / 5000`, which writes it back. -/
theorem rows3_4 (i : S150000x64.Idx) :
    ∃ t : Fin cfg3.N, (cfg3.win 4).flush t = true ∧ i ∈ ((cfg3.win 4).blk t).view.set := by
  have hi0 : (i 0).val < 150000 := (i 0).isLt
  have hi1 : (i 1).val < 64 := (i 1).isLt
  obtain ⟨t, ht⟩ : ∃ t : Fin cfg3.N, t.val = (i 0).val / 5000 :=
    ⟨⟨(i 0).val / 5000, by rw [show cfg3.N = 30 from N_3]; omega⟩, rfl⟩
  refine ⟨t, flush3_4 t, ?_⟩
  rw [mem_blk3_4]
  obtain ⟨-, -, -, -, -, -, -, -, e0, e1⟩ := rowBlock3 t
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 64 ≤ (i 1).val ∧ (i 1).val < win3_4.index t (1 : Fin 2) * 64 + 64; omega

/-! ## The two arrays when the region is left -/

/-- Window 3's array ends at the reweighting of window 0's array against window 1's. -/
theorem final3_3 (c : Dev nD) : (dat3 V c).arrAt 3 cfg3.N
    = (Cert.Val.rwX (n := 150000) (V c main_v37) (V c main_v10) : S150000x64.Idx → EReal) :=
  (dat3 V c).arrAt_eq_of_cover 3 _ (fun t _ => flushed3_3_eq V c t) rows3_3

/-- Window 4's array ends at window 2's array plus that reweighting. -/
theorem final3_4 (c : Dev nD) : (dat3 V c).arrAt 4 cfg3.N
    = (Cert.Val.rwAcc (n := 150000) (V c main_v37) (V c main_v10) (V c main_v24_1) : S150000x64.Idx → EReal) :=
  (dat3 V c).arrAt_eq_of_cover 4 _ (fun t _ => flushed3_4_eq V c t) rows3_4

end Cert.KernelIdeal.Gen

end
-- ==== Proof.KI.Fin4.lean ====
import proofs.«124407_j40681930228297_2_alg».proof.Proof.KI.Reg4
import proofs.«124407_j40681930228297_2_alg».proof.Proof.KI.Rows
import proofs.«124407_j40681930228297_2_alg».proof.Proof.V.Spec
import proofs.«124407_j40681930228297_2_alg».proof.Proof.V.Pay2
import Idealize.ShloMosaic.Lib.Pipeline.Value

/-! # Region 4: the two output arrays as whole functions of the input arrays

At the ideal values, with `V` the buffer contents when the region is entered. Every window of the call is a
block of 5000 rows and all 64 columns, and grid point `t` has block `t` of every window: rows `5000 t … 5000 t + 4999`.
The body's two stored values are the reweighting of the block's rows, which reads each row alone; so what point `t`
writes back is block `t` of the reweighting of the whole arrays, and the thirty blocks cover the array. -/

noncomputable section

namespace Cert.KernelIdeal.Gen

open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The whole-block rectangle starts at the origin. -/
theorem origin4 : (![0, 0] : Fin 2 → Nat) = fun _ => 0 := funext fun a => by fin_cases a <;> rfl

/-- Every window of the call moves down the rows with the grid point: block `t` along the rows, block 0 along the
    columns (decided over the thirty points). -/
theorem rowBlock4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-! ## Entry `(p, q)` of block `t` is entry `(5000 t + p, q)` of the array, window by window -/

theorem blkRow4_0 (t : Fin cfg4.N) (p : Fin 5000) (q : Fin 64) (P : Fin 150000) (hP : P.val = 5000 * t.val + p.val) :
    ((cfg4.win 0).blk t).view.emb (ix2 p q) = (ix2 P q : S150000x64.Idx) := by
  obtain ⟨e0, e1, -⟩ := rowBlock4 t
  funext a; apply Fin.ext
  match a with
  | ⟨0, _⟩ => show win4_0.index t (0 : Fin 2) * 5000 + 1 * p.val = P.val; omega
  | ⟨1, _⟩ => show win4_0.index t (1 : Fin 2) * 64 + 1 * q.val = q.val; omega

theorem blkRow4_1 (t : Fin cfg4.N) (p : Fin 5000) (q : Fin 64) (P : Fin 150000) (hP : P.val = 5000 * t.val + p.val) :
    ((cfg4.win 1).blk t).view.emb (ix2 p q) = (ix2 P q : S150000x64.Idx) := by
  obtain ⟨-, -, e0, e1, -⟩ := rowBlock4 t
  funext a; apply Fin.ext
  match a with
  | ⟨0, _⟩ => show win4_1.index t (0 : Fin 2) * 5000 + 1 * p.val = P.val; omega
  | ⟨1, _⟩ => show win4_1.index t (1 : Fin 2) * 64 + 1 * q.val = q.val; omega

theorem blkRow4_2 (t : Fin cfg4.N) (p : Fin 5000) (q : Fin 64) (P : Fin 150000) (hP : P.val = 5000 * t.val + p.val) :
    ((cfg4.win 2).blk t).view.emb (ix2 p q) = (ix2 P q : S150000x64.Idx) := by
  obtain ⟨-, -, -, -, e0, e1, -⟩ := rowBlock4 t
  funext a; apply Fin.ext
  match a with
  | ⟨0, _⟩ => show win4_2.index t (0 : Fin 2) * 5000 + 1 * p.val = P.val; omega
  | ⟨1, _⟩ => show win4_2.index t (1 : Fin 2) * 64 + 1 * q.val = q.val; omega

theorem blkRow4_3 (t : Fin cfg4.N) (p : Fin 5000) (q : Fin 64) (P : Fin 150000) (hP : P.val = 5000 * t.val + p.val) :
    ((cfg4.win 3).blk t).view.emb (ix2 p q) = (ix2 P q : S150000x64.Idx) := by
  obtain ⟨-, -, -, -, -, -, e0, e1, -⟩ := rowBlock4 t
  funext a; apply Fin.ext
  match a with
  | ⟨0, _⟩ => show win4_3.index t (0 : Fin 2) * 5000 + 1 * p.val = P.val; omega
  | ⟨1, _⟩ => show win4_3.index t (1 : Fin 2) * 64 + 1 * q.val = q.val; omega

theorem blkRow4_4 (t : Fin cfg4.N) (p : Fin 5000) (q : Fin 64) (P : Fin 150000) (hP : P.val = 5000 * t.val + p.val) :
    ((cfg4.win 4).blk t).view.emb (ix2 p q) = (ix2 P q : S150000x64.Idx) := by
  obtain ⟨-, -, -, -, -, -, -, -, e0, e1⟩ := rowBlock4 t
  funext a; apply Fin.ext
  match a with
  | ⟨0, _⟩ => show win4_4.index t (0 : Fin 2) * 5000 + 1 * p.val = P.val; omega
  | ⟨1, _⟩ => show win4_4.index t (1 : Fin 2) * 64 + 1 * q.val = q.val; omega

/-! ## The input blocks read inside their arrays -/

theorem iblk4_0_apply (c : Dev nD) (t : Fin cfg4.N) (p : Fin 5000) (q : Fin 64) (P : Fin 150000) (hP : P.val = 5000 * t.val + p.val) :
    (iblk4 V c 0 t : Cert.Val.Mat 5000 64) (ix2 p q) = (V c main_v51 : Cert.Val.Mat 150000 64) (ix2 P q) := by
  unfold iblk4
  rw [View.read_apply]
  show V c main_v51 (((cfg4.win 0).blk t).view.emb (ix2 p q)) = V c main_v51 (ix2 P q)
  exact congrArg (V c main_v51 : Cert.Val.Mat 150000 64) (blkRow4_0 t p q P hP)

theorem iblk4_1_apply (c : Dev nD) (t : Fin cfg4.N) (p : Fin 5000) (q : Fin 64) (P : Fin 150000) (hP : P.val = 5000 * t.val + p.val) :
    (iblk4 V c 1 t : Cert.Val.Mat 5000 64) (ix2 p q) = (V c main_v10 : Cert.Val.Mat 150000 64) (ix2 P q) := by
  unfold iblk4
  rw [View.read_apply]
  show V c main_v10 (((cfg4.win 1).blk t).view.emb (ix2 p q)) = V c main_v10 (ix2 P q)
  exact congrArg (V c main_v10 : Cert.Val.Mat 150000 64) (blkRow4_1 t p q P hP)

theorem iblk4_2_apply (c : Dev nD) (t : Fin cfg4.N) (p : Fin 5000) (q : Fin 64) (P : Fin 150000) (hP : P.val = 5000 * t.val + p.val) :
    (iblk4 V c 2 t : Cert.Val.Mat 5000 64) (ix2 p q) = (V c main_v38_1 : Cert.Val.Mat 150000 64) (ix2 P q) := by
  unfold iblk4
  rw [View.read_apply]
  show V c main_v38_1 (((cfg4.win 2).blk t).view.emb (ix2 p q)) = V c main_v38_1 (ix2 P q)
  exact congrArg (V c main_v38_1 : Cert.Val.Mat 150000 64) (blkRow4_2 t p q P hP)

/-- A grid point is below thirty, and a row of its block is a row of the array. -/
theorem rowLt4 (t : Fin cfg4.N) (p : Fin 5000) : 5000 * t.val + p.val < 150000 := by
  have h : t.val < cfg4.N := t.isLt
  have hN : cfg4.N = 30 := N_4
  have := p.isLt
  omega

/-! ## What a grid point writes back -/

/-- Point `t` writes block `t` of the reweighted array to window 3's array. -/
theorem flushed4_3_eq (c : Dev nD) (t : Fin cfg4.N) :
    (dat4 V c).flushed 3 t = ((cfg4.win 3).blk t).view.read (Elt Ideal)
      (Cert.Val.rwX (n := 150000) (V c main_v51) (V c main_v10) : S150000x64.Idx → EReal) := by
  show (cfg4.win 3).cut (grid4.coords t) ((dat4 V c).after 3 t) = _
  rw [after4_3]
  unfold out4_3
  rw [View.canon_unit_zero origin4]
  simp only [View.ld_unit_zero (S := S5000x64) origin4]
  rw [Cert.Val.k4_pay1_eq_k2, Cert.Val.k2_pay1_eq]
  funext j
  obtain ⟨p, q, rfl⟩ : ∃ (p : Fin 5000) (q : Fin 64), j = ix2 p q := ⟨j 0, j 1, eq_ix2 j⟩
  show Cert.Val.rwX (n := 5000) (iblk4 V c 0 t) (iblk4 V c 1 t) (ix2 p q)
    = Cert.Val.rwX (n := 150000) (V c main_v51) (V c main_v10) (((cfg4.win 3).blk t).view.emb (ix2 p q))
  refine (Cert.Val.rwX_rows (V c main_v51) (V c main_v10) (iblk4 V c 0 t) (iblk4 V c 1 t) t.val
    (fun p q P h => iblk4_0_apply V c t p q P h) (fun p q P h => iblk4_1_apply V c t p q P h)
    p q ⟨_, rowLt4 t p⟩ rfl).trans ?_
  exact congrArg (Cert.Val.rwX (n := 150000) (V c main_v51) (V c main_v10)) (blkRow4_3 t p q ⟨_, rowLt4 t p⟩ rfl).symm

/-- Point `t` writes block `t` of the accumulated array to window 4's array. -/
theorem flushed4_4_eq (c : Dev nD) (t : Fin cfg4.N) :
    (dat4 V c).flushed 4 t = ((cfg4.win 4).blk t).view.read (Elt Ideal)
      (Cert.Val.rwAcc (n := 150000) (V c main_v51) (V c main_v10) (V c main_v38_1) : S150000x64.Idx → EReal) := by
  show (cfg4.win 4).cut (grid4.coords t) ((dat4 V c).after 4 t) = _
  rw [after4_4]
  unfold out4_4
  rw [View.canon_unit_zero origin4]
  simp only [View.ld_unit_zero (S := S5000x64) origin4]
  rw [Cert.Val.k4_pay2_eq_k2, Cert.Val.k2_pay2_eq]
  funext j
  obtain ⟨p, q, rfl⟩ : ∃ (p : Fin 5000) (q : Fin 64), j = ix2 p q := ⟨j 0, j 1, eq_ix2 j⟩
  show Cert.Val.rwAcc (n := 5000) (iblk4 V c 0 t) (iblk4 V c 1 t) (iblk4 V c 2 t) (ix2 p q)
    = Cert.Val.rwAcc (n := 150000) (V c main_v51) (V c main_v10) (V c main_v38_1) (((cfg4.win 4).blk t).view.emb (ix2 p q))
  refine (Cert.Val.rwAcc_rows (V c main_v51) (V c main_v10) (V c main_v38_1) (iblk4 V c 0 t) (iblk4 V c 1 t) (iblk4 V c 2 t) t.val
    (fun p q P h => iblk4_0_apply V c t p q P h) (fun p q P h => iblk4_1_apply V c t p q P h)
    (fun p q P h => iblk4_2_apply V c t p q P h) p q ⟨_, rowLt4 t p⟩ rfl).trans ?_
  exact congrArg (Cert.Val.rwAcc (n := 150000) (V c main_v51) (V c main_v10) (V c main_v38_1)) (blkRow4_4 t p q ⟨_, rowLt4 t p⟩ rfl).symm

/-! ## The thirty blocks cover the array -/

/-- An index of window 3's array is in point `t`'s block iff each coordinate is in the block's range on its axis. -/
theorem mem_blk4_3 (t : Fin cfg4.N) (i : S150000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v52_0).slice (win4_3.rect t)).set ↔ _
  rw [View.set_slice_whole, Rect.mem_set_unit]
  exact Iff.rfl

/-- Row `r` is in the block of point `r / 5000`, which writes it back. -/
theorem rows4_3 (i : S150000x64.Idx) :
    ∃ t : Fin cfg4.N, (cfg4.win 3).flush t = true ∧ i ∈ ((cfg4.win 3).blk t).view.set := by
  have hi0 : (i 0).val < 150000 := (i 0).isLt
  have hi1 : (i 1).val < 64 := (i 1).isLt
  obtain ⟨t, ht⟩ : ∃ t : Fin cfg4.N, t.val = (i 0).val / 5000 :=
    ⟨⟨(i 0).val / 5000, by rw [show cfg4.N = 30 from N_4]; omega⟩, rfl⟩
  refine ⟨t, flush4_3 t, ?_⟩
  rw [mem_blk4_3]
  obtain ⟨-, -, -, -, -, -, e0, e1, -⟩ := rowBlock4 t
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 64 ≤ (i 1).val ∧ (i 1).val < win4_3.index t (1 : Fin 2) * 64 + 64; omega

/-- An index of window 4's array is in point `t`'s block iff each coordinate is in the block's range on its axis. -/
theorem mem_blk4_4 (t : Fin cfg4.N) (i : S150000x64.Idx) :
    i ∈ ((cfg4.win 4).blk t).view.set ↔ ∀ a : Fin 2, win4_4.index t a * S5000x64.size a ≤ (i a).val ∧ (i a).val < win4_4.index t a * S5000x64.size a + S5000x64.size a := by
  show i ∈ ((View.whole main_v52_1).slice (win4_4.rect t)).set ↔ _
  rw [View.set_slice_whole, Rect.mem_set_unit]
  exact Iff.rfl

/-- Row `r` is in the block of point `r / 5000`, which writes it back. -/
theorem rows4_4 (i : S150000x64.Idx) :
    ∃ t : Fin cfg4.N, (cfg4.win 4).flush t = true ∧ i ∈ ((cfg4.win 4).blk t).view.set := by
  have hi0 : (i 0).val < 150000 := (i 0).isLt
  have hi1 : (i 1).val < 64 := (i 1).isLt
  obtain ⟨t, ht⟩ : ∃ t : Fin cfg4.N, t.val = (i 0).val / 5000 :=
    ⟨⟨(i 0).val / 5000, by rw [show cfg4.N = 30 from N_4]; omega⟩, rfl⟩
  refine ⟨t, flush4_4 t, ?_⟩
  rw [mem_blk4_4]
  obtain ⟨-, -, -, -, -, -, -, -, e0, e1⟩ := rowBlock4 t
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 64 ≤ (i 1).val ∧ (i 1).val < win4_4.index t (1 : Fin 2) * 64 + 64; omega

/-! ## The two arrays when the region is left -/

/-- Window 3's array ends at the reweighting of window 0's array against window 1's. -/
theorem final4_3 (c : Dev nD) : (dat4 V c).arrAt 3 cfg4.N
    = (Cert.Val.rwX (n := 150000) (V c main_v51) (V c main_v10) : S150000x64.Idx → EReal) :=
  (dat4 V c).arrAt_eq_of_cover 3 _ (fun t _ => flushed4_3_eq V c t) rows4_3

/-- Window 4's array ends at window 2's array plus that reweighting. -/
theorem final4_4 (c : Dev nD) : (dat4 V c).arrAt 4 cfg4.N
    = (Cert.Val.rwAcc (n := 150000) (V c main_v51) (V c main_v10) (V c main_v38_1) : S150000x64.Idx → EReal) :=
  (dat4 V c).arrAt_eq_of_cover 4 _ (fun t _ => flushed4_4_eq V c t) rows4_4

end Cert.KernelIdeal.Gen

end
-- ==== Proof.KI.Fin5.lean ====
import proofs.«124407_j40681930228297_2_alg».proof.Proof.KI.Reg5
import proofs.«124407_j40681930228297_2_alg».proof.Proof.KI.Rows
import proofs.«124407_j40681930228297_2_alg».proof.Proof.V.Spec
import proofs.«124407_j40681930228297_2_alg».proof.Proof.V.Pay2
import Idealize.ShloMosaic.Lib.Pipeline.Value

/-! # Region 5: the two output arrays as whole functions of the input arrays

At the ideal values, with `V` the buffer contents when the region is entered. Every window of the call is a
block of 5000 rows and all 64 columns, and grid point `t` has block `t` of every window: rows `5000 t … 5000 t + 4999`.
The body's two stored values are the reweighting of the block's rows, which reads each row alone; so what point `t`
writes back is block `t` of the reweighting of the whole arrays, and the thirty blocks cover the array. -/

noncomputable section

namespace Cert.KernelIdeal.Gen

open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The whole-block rectangle starts at the origin. -/
theorem origin5 : (![0, 0] : Fin 2 → Nat) = fun _ => 0 := funext fun a => by fin_cases a <;> rfl

/-- Every window of the call moves down the rows with the grid point: block `t` along the rows, block 0 along the
    columns (decided over the thirty points). -/
theorem rowBlock5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

/-! ## Entry `(p, q)` of block `t` is entry `(5000 t + p, q)` of the array, window by window -/

theorem blkRow5_0 (t : Fin cfg5.N) (p : Fin 5000) (q : Fin 64) (P : Fin 150000) (hP : P.val = 5000 * t.val + p.val) :
    ((cfg5.win 0).blk t).view.emb (ix2 p q) = (ix2 P q : S150000x64.Idx) := by
  obtain ⟨e0, e1, -⟩ := rowBlock5 t
  funext a; apply Fin.ext
  match a with
  | ⟨0, _⟩ => show win5_0.index t (0 : Fin 2) * 5000 + 1 * p.val = P.val; omega
  | ⟨1, _⟩ => show win5_0.index t (1 : Fin 2) * 64 + 1 * q.val = q.val; omega

theorem blkRow5_1 (t : Fin cfg5.N) (p : Fin 5000) (q : Fin 64) (P : Fin 150000) (hP : P.val = 5000 * t.val + p.val) :
    ((cfg5.win 1).blk t).view.emb (ix2 p q) = (ix2 P q : S150000x64.Idx) := by
  obtain ⟨-, -, e0, e1, -⟩ := rowBlock5 t
  funext a; apply Fin.ext
  match a with
  | ⟨0, _⟩ => show win5_1.index t (0 : Fin 2) * 5000 + 1 * p.val = P.val; omega
  | ⟨1, _⟩ => show win5_1.index t (1 : Fin 2) * 64 + 1 * q.val = q.val; omega

theorem blkRow5_2 (t : Fin cfg5.N) (p : Fin 5000) (q : Fin 64) (P : Fin 150000) (hP : P.val = 5000 * t.val + p.val) :
    ((cfg5.win 2).blk t).view.emb (ix2 p q) = (ix2 P q : S150000x64.Idx) := by
  obtain ⟨-, -, -, -, e0, e1, -⟩ := rowBlock5 t
  funext a; apply Fin.ext
  match a with
  | ⟨0, _⟩ => show win5_2.index t (0 : Fin 2) * 5000 + 1 * p.val = P.val; omega
  | ⟨1, _⟩ => show win5_2.index t (1 : Fin 2) * 64 + 1 * q.val = q.val; omega

theorem blkRow5_3 (t : Fin cfg5.N) (p : Fin 5000) (q : Fin 64) (P : Fin 150000) (hP : P.val = 5000 * t.val + p.val) :
    ((cfg5.win 3).blk t).view.emb (ix2 p q) = (ix2 P q : S150000x64.Idx) := by
  obtain ⟨-, -, -, -, -, -, e0, e1, -⟩ := rowBlock5 t
  funext a; apply Fin.ext
  match a with
  | ⟨0, _⟩ => show win5_3.index t (0 : Fin 2) * 5000 + 1 * p.val = P.val; omega
  | ⟨1, _⟩ => show win5_3.index t (1 : Fin 2) * 64 + 1 * q.val = q.val; omega

theorem blkRow5_4 (t : Fin cfg5.N) (p : Fin 5000) (q : Fin 64) (P : Fin 150000) (hP : P.val = 5000 * t.val + p.val) :
    ((cfg5.win 4).blk t).view.emb (ix2 p q) = (ix2 P q : S150000x64.Idx) := by
  obtain ⟨-, -, -, -, -, -, -, -, e0, e1⟩ := rowBlock5 t
  funext a; apply Fin.ext
  match a with
  | ⟨0, _⟩ => show win5_4.index t (0 : Fin 2) * 5000 + 1 * p.val = P.val; omega
  | ⟨1, _⟩ => show win5_4.index t (1 : Fin 2) * 64 + 1 * q.val = q.val; omega

/-! ## The input blocks read inside their arrays -/

theorem iblk5_0_apply (c : Dev nD) (t : Fin cfg5.N) (p : Fin 5000) (q : Fin 64) (P : Fin 150000) (hP : P.val = 5000 * t.val + p.val) :
    (iblk5 V c 0 t : Cert.Val.Mat 5000 64) (ix2 p q) = (V c main_v65 : Cert.Val.Mat 150000 64) (ix2 P q) := by
  unfold iblk5
  rw [View.read_apply]
  show V c main_v65 (((cfg5.win 0).blk t).view.emb (ix2 p q)) = V c main_v65 (ix2 P q)
  exact congrArg (V c main_v65 : Cert.Val.Mat 150000 64) (blkRow5_0 t p q P hP)

theorem iblk5_1_apply (c : Dev nD) (t : Fin cfg5.N) (p : Fin 5000) (q : Fin 64) (P : Fin 150000) (hP : P.val = 5000 * t.val + p.val) :
    (iblk5 V c 1 t : Cert.Val.Mat 5000 64) (ix2 p q) = (V c main_v10 : Cert.Val.Mat 150000 64) (ix2 P q) := by
  unfold iblk5
  rw [View.read_apply]
  show V c main_v10 (((cfg5.win 1).blk t).view.emb (ix2 p q)) = V c main_v10 (ix2 P q)
  exact congrArg (V c main_v10 : Cert.Val.Mat 150000 64) (blkRow5_1 t p q P hP)

theorem iblk5_2_apply (c : Dev nD) (t : Fin cfg5.N) (p : Fin 5000) (q : Fin 64) (P : Fin 150000) (hP : P.val = 5000 * t.val + p.val) :
    (iblk5 V c 2 t : Cert.Val.Mat 5000 64) (ix2 p q) = (V c main_v52_1 : Cert.Val.Mat 150000 64) (ix2 P q) := by
  unfold iblk5
  rw [View.read_apply]
  show V c main_v52_1 (((cfg5.win 2).blk t).view.emb (ix2 p q)) = V c main_v52_1 (ix2 P q)
  exact congrArg (V c main_v52_1 : Cert.Val.Mat 150000 64) (blkRow5_2 t p q P hP)

/-- A grid point is below thirty, and a row of its block is a row of the array. -/
theorem rowLt5 (t : Fin cfg5.N) (p : Fin 5000) : 5000 * t.val + p.val < 150000 := by
  have h : t.val < cfg5.N := t.isLt
  have hN : cfg5.N = 30 := N_5
  have := p.isLt
  omega

/-! ## What a grid point writes back -/

/-- Point `t` writes block `t` of the reweighted array to window 3's array. -/
theorem flushed5_3_eq (c : Dev nD) (t : Fin cfg5.N) :
    (dat5 V c).flushed 3 t = ((cfg5.win 3).blk t).view.read (Elt Ideal)
      (Cert.Val.rwX (n := 150000) (V c main_v65) (V c main_v10) : S150000x64.Idx → EReal) := by
  show (cfg5.win 3).cut (grid5.coords t) ((dat5 V c).after 3 t) = _
  rw [after5_3]
  unfold out5_3
  rw [View.canon_unit_zero origin5]
  simp only [View.ld_unit_zero (S := S5000x64) origin5]
  rw [Cert.Val.k5_pay1_eq_k2, Cert.Val.k2_pay1_eq]
  funext j
  obtain ⟨p, q, rfl⟩ : ∃ (p : Fin 5000) (q : Fin 64), j = ix2 p q := ⟨j 0, j 1, eq_ix2 j⟩
  show Cert.Val.rwX (n := 5000) (iblk5 V c 0 t) (iblk5 V c 1 t) (ix2 p q)
    = Cert.Val.rwX (n := 150000) (V c main_v65) (V c main_v10) (((cfg5.win 3).blk t).view.emb (ix2 p q))
  refine (Cert.Val.rwX_rows (V c main_v65) (V c main_v10) (iblk5 V c 0 t) (iblk5 V c 1 t) t.val
    (fun p q P h => iblk5_0_apply V c t p q P h) (fun p q P h => iblk5_1_apply V c t p q P h)
    p q ⟨_, rowLt5 t p⟩ rfl).trans ?_
  exact congrArg (Cert.Val.rwX (n := 150000) (V c main_v65) (V c main_v10)) (blkRow5_3 t p q ⟨_, rowLt5 t p⟩ rfl).symm

/-- Point `t` writes block `t` of the accumulated array to window 4's array. -/
theorem flushed5_4_eq (c : Dev nD) (t : Fin cfg5.N) :
    (dat5 V c).flushed 4 t = ((cfg5.win 4).blk t).view.read (Elt Ideal)
      (Cert.Val.rwAcc (n := 150000) (V c main_v65) (V c main_v10) (V c main_v52_1) : S150000x64.Idx → EReal) := by
  show (cfg5.win 4).cut (grid5.coords t) ((dat5 V c).after 4 t) = _
  rw [after5_4]
  unfold out5_4
  rw [View.canon_unit_zero origin5]
  simp only [View.ld_unit_zero (S := S5000x64) origin5]
  rw [Cert.Val.k5_pay2_eq_k2, Cert.Val.k2_pay2_eq]
  funext j
  obtain ⟨p, q, rfl⟩ : ∃ (p : Fin 5000) (q : Fin 64), j = ix2 p q := ⟨j 0, j 1, eq_ix2 j⟩
  show Cert.Val.rwAcc (n := 5000) (iblk5 V c 0 t) (iblk5 V c 1 t) (iblk5 V c 2 t) (ix2 p q)
    = Cert.Val.rwAcc (n := 150000) (V c main_v65) (V c main_v10) (V c main_v52_1) (((cfg5.win 4).blk t).view.emb (ix2 p q))
  refine (Cert.Val.rwAcc_rows (V c main_v65) (V c main_v10) (V c main_v52_1) (iblk5 V c 0 t) (iblk5 V c 1 t) (iblk5 V c 2 t) t.val
    (fun p q P h => iblk5_0_apply V c t p q P h) (fun p q P h => iblk5_1_apply V c t p q P h)
    (fun p q P h => iblk5_2_apply V c t p q P h) p q ⟨_, rowLt5 t p⟩ rfl).trans ?_
  exact congrArg (Cert.Val.rwAcc (n := 150000) (V c main_v65) (V c main_v10) (V c main_v52_1)) (blkRow5_4 t p q ⟨_, rowLt5 t p⟩ rfl).symm

/-! ## The thirty blocks cover the array -/

/-- An index of window 3's array is in point `t`'s block iff each coordinate is in the block's range on its axis. -/
theorem mem_blk5_3 (t : Fin cfg5.N) (i : S150000x64.Idx) :
    i ∈ ((cfg5.win 3).blk t).view.set ↔ ∀ a : Fin 2, win5_3.index t a * S5000x64.size a ≤ (i a).val ∧ (i a).val < win5_3.index t a * S5000x64.size a + S5000x64.size a := by
  show i ∈ ((View.whole main_v66_0).slice (win5_3.rect t)).set ↔ _
  rw [View.set_slice_whole, Rect.mem_set_unit]
  exact Iff.rfl

/-- Row `r` is in the block of point `r / 5000`, which writes it back. -/
theorem rows5_3 (i : S150000x64.Idx) :
    ∃ t : Fin cfg5.N, (cfg5.win 3).flush t = true ∧ i ∈ ((cfg5.win 3).blk t).view.set := by
  have hi0 : (i 0).val < 150000 := (i 0).isLt
  have hi1 : (i 1).val < 64 := (i 1).isLt
  obtain ⟨t, ht⟩ : ∃ t : Fin cfg5.N, t.val = (i 0).val / 5000 :=
    ⟨⟨(i 0).val / 5000, by rw [show cfg5.N = 30 from N_5]; omega⟩, rfl⟩
  refine ⟨t, flush5_3 t, ?_⟩
  rw [mem_blk5_3]
  obtain ⟨-, -, -, -, -, -, e0, e1, -⟩ := rowBlock5 t
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 64 ≤ (i 1).val ∧ (i 1).val < win5_3.index t (1 : Fin 2) * 64 + 64; omega

/-- An index of window 4's array is in point `t`'s block iff each coordinate is in the block's range on its axis. -/
theorem mem_blk5_4 (t : Fin cfg5.N) (i : S150000x64.Idx) :
    i ∈ ((cfg5.win 4).blk t).view.set ↔ ∀ a : Fin 2, win5_4.index t a * S5000x64.size a ≤ (i a).val ∧ (i a).val < win5_4.index t a * S5000x64.size a + S5000x64.size a := by
  show i ∈ ((View.whole main_v66_1).slice (win5_4.rect t)).set ↔ _
  rw [View.set_slice_whole, Rect.mem_set_unit]
  exact Iff.rfl

/-- Row `r` is in the block of point `r / 5000`, which writes it back. -/
theorem rows5_4 (i : S150000x64.Idx) :
    ∃ t : Fin cfg5.N, (cfg5.win 4).flush t = true ∧ i ∈ ((cfg5.win 4).blk t).view.set := by
  have hi0 : (i 0).val < 150000 := (i 0).isLt
  have hi1 : (i 1).val < 64 := (i 1).isLt
  obtain ⟨t, ht⟩ : ∃ t : Fin cfg5.N, t.val = (i 0).val / 5000 :=
    ⟨⟨(i 0).val / 5000, by rw [show cfg5.N = 30 from N_5]; omega⟩, rfl⟩
  refine ⟨t, flush5_4 t, ?_⟩
  rw [mem_blk5_4]
  obtain ⟨-, -, -, -, -, -, -, -, e0, e1⟩ := rowBlock5 t
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 64 ≤ (i 1).val ∧ (i 1).val < win5_4.index t (1 : Fin 2) * 64 + 64; omega

/-! ## The two arrays when the region is left -/

/-- Window 3's array ends at the reweighting of window 0's array against window 1's. -/
theorem final5_3 (c : Dev nD) : (dat5 V c).arrAt 3 cfg5.N
    = (Cert.Val.rwX (n := 150000) (V c main_v65) (V c main_v10) : S150000x64.Idx → EReal) :=
  (dat5 V c).arrAt_eq_of_cover 3 _ (fun t _ => flushed5_3_eq V c t) rows5_3

/-- Window 4's array ends at window 2's array plus that reweighting. -/
theorem final5_4 (c : Dev nD) : (dat5 V c).arrAt 4 cfg5.N
    = (Cert.Val.rwAcc (n := 150000) (V c main_v65) (V c main_v10) (V c main_v52_1) : S150000x64.Idx → EReal) :=
  (dat5 V c).arrAt_eq_of_cover 4 _ (fun t _ => flushed5_4_eq V c t) rows5_4

end Cert.KernelIdeal.Gen

end
-- ==== Proof.V.RefFns.lean ====
/-
  The reference's host operations, composed into the few functions its layers repeat, at the ideal values: the user
  rows, the item rows, their stacking, the sparse propagation (an index select, a row gather, a scaling by the edge
  weights and a scatter-add, kept as one function and never opened), the reweighting of a propagated array against
  the stacked embedding, the accumulation, and the two cuts of the result. Each is spelt as the printed program
  applies its operations, over the same shape facts and dimension records.
-/
import proofs.«124407_j40681930228297_2_alg».proof.Proof.Gen.ReferenceIdeal
import Idealize.ShloMosaic.PureOps.Ideal

noncomputable section

namespace Cert.Val

open Cert.ReferenceIdeal Cert.ReferenceIdeal.Gen Idealize.ShloMosaic

/-- The user rows: the features plus the table's column sums laid along every row. -/
def refUser (a3 : FVec Ideal S100000x64 .f32) (a5 : FVec Ideal S3x64 .f32) : FVec Ideal S100000x64 .f32 :=
  addf a3 (broadcastInDim S100000x64 ![0, 1] bcast_S1x64_S100000x64_0_1 (broadcastInDim S1x64 ![1] bcast_S64_S1x64_1
    (Host.reduceAdd (F := Ideal) a5 (constant (F := Ideal) S_ .f32 0x00000000#32) reducesTo_S3x64_S64_d0 h_S_)))

/-- The item rows: `tanh` of the projected features plus the bias, plus the second table's column sums. -/
def refItem (a4 : FVec Ideal S50000x384 .f32) (a6 : FVec Ideal S3x64 .f32) (a7 : FVec Ideal S64x384 .f32)
    (a8 : FVec Ideal S64 .f32) : FVec Ideal S50000x64 .f32 :=
  addf
    (Host.tanh (F := Ideal)
      (addf
        (Host.dotGeneral (F := Ideal) dot_S50000x384_S384x64_S50000x64_1_0_0_1_n_n none a4
          (transpose S384x64 [1, 0] a7 transposes_S64x384_S384x64_1_0))
        (broadcastInDim S50000x64 ![0, 1] bcast_S1x64_S50000x64_0_1 (broadcastInDim S1x64 ![1] bcast_S64_S1x64_1 a8))))
    (broadcastInDim S50000x64 ![0, 1] bcast_S1x64_S50000x64_0_1 (broadcastInDim S1x64 ![1] bcast_S64_S1x64_1
      (Host.reduceAdd (F := Ideal) a6 (constant (F := Ideal) S_ .f32 0x00000000#32) reducesTo_S3x64_S64_d0 h_S_)))

/-- The stacked embedding: user rows, then item rows. -/
def refEgo (u : FVec Ideal S100000x64 .f32) (v : FVec Ideal S50000x64 .f32) : FVec Ideal S150000x64 .f32 :=
  concatenate S150000x64 0 [⟨S100000x64, u⟩, ⟨S50000x64, v⟩] concatenates_S100000x64_S50000x64_S150000x64_d0

/-- The sparse propagation of `x` along the edges (`a0` the target rows, `a1` the source rows, negative ones
    wrapped, `a2` the weights): gather the source rows, scale, scatter-add into zeros. -/
def refProp (a0 a1 : IVec S1200000 32) (a2 : FVec Ideal S1200000 .f32) (x : FVec Ideal S150000x64 .f32) :
    FVec Ideal S150000x64 .f32 :=
  Host.scatterAdd (F := Ideal) scatter_S150000x64_S1200000x1_S1200000x64_1_0_0_1
    (broadcastInDim S150000x64 ![] bcast_S_S150000x64 (constant (F := Ideal) S_ .f32 0x00000000#32))
    (broadcastInDim S1200000x1 ![0] bcast_S1200000_S1200000x1_0 a0)
    (mulf
      (broadcastInDim S1200000x64 ![0, 1] bcast_S1200000x1_S1200000x64_0_1
        (broadcastInDim S1200000x1 ![0] bcast_S1200000_S1200000x1_0 a2))
      (Host.gather gather_S150000x64_S1200000x1_S1200000x64_1_0_n_n_0_1_164 x
        (broadcastInDim S1200000x1 ![0] bcast_S1200000_S1200000x1_0
          (select (cmpi .slt a1 (broadcastInDim S1200000 ![] bcast_S_S1200000 (constantI S_ 32 0#32)))
            (addi a1 (broadcastInDim S1200000 ![] bcast_S_S1200000 (constantI S_ 32 150000#32))) a1))))

/-- The clamped row norms of an array. -/
def refNorm (a : FVec Ideal S150000x64 .f32) : FVec Ideal S150000 .f32 :=
  maximumf
    (Host.sqrt (F := Ideal)
      (Host.reduceAdd (F := Ideal) (mulf a a) (constant (F := Ideal) S_ .f32 0x00000000#32) reducesTo_S150000x64_S150000_d1 h_S_))
    (broadcastInDim S150000 ![] bcast_S_S150000 (constant (F := Ideal) S_ .f32 0x322BCC77#32))

/-- A propagated array `P` reweighted against `e`: each row scaled by its cosine with the same row of `e`. -/
def refRw (P e : FVec Ideal S150000x64 .f32) : FVec Ideal S150000x64 .f32 :=
  mulf
    (broadcastInDim S150000x64 ![0, 1] bcast_S150000x1_S150000x64_0_1
      (broadcastInDim S150000x1 ![0] bcast_S150000_S150000x1_0
        (Host.divf (F := Ideal)
          (Host.reduceAdd (F := Ideal) (mulf P e) (constant (F := Ideal) S_ .f32 0x00000000#32) reducesTo_S150000x64_S150000_d1 h_S_)
          (mulf (refNorm P) (refNorm e)))))
    P

/-- One layer's new `x`: propagate, then reweight against the stacked embedding. -/
def refX (a0 a1 : IVec S1200000 32) (a2 : FVec Ideal S1200000 .f32) (e x : FVec Ideal S150000x64 .f32) :
    FVec Ideal S150000x64 .f32 :=
  refRw (refProp a0 a1 a2 x) e

/-- One layer's new accumulator. -/
def refAcc (acc xnew : FVec Ideal S150000x64 .f32) : FVec Ideal S150000x64 .f32 := addf acc xnew

/-- The first 100000 rows. -/
def refOutU (A : FVec Ideal S150000x64 .f32) : FVec Ideal S100000x64 .f32 :=
  extractStridedSlice S100000x64 ![0, 0] A slices_S150000x64_S100000x64_0_0

/-- The last 50000 rows. -/
def refOutI (A : FVec Ideal S150000x64 .f32) : FVec Ideal S50000x64 .f32 :=
  extractStridedSlice S50000x64 ![100000, 0] A slices_S150000x64_S50000x64_100000_0

end Cert.Val

end
-- ==== Proof.V.RefSpec.lean ====
/-
  The reference's composed host operations are the specification: read at an index (p, q), each stage is the
  formula of Spec.lean. A column sum is the host's sum from a zero initial value; a row of length 64 laid along every
  row, and a column laid along every lane, are two broadcasts each; the projection is the host's product with the
  transposed weights, a sum over the 384 contracted coordinates; the host's square root, quotient and `tanh` are
  the ideal instance's; the stacking takes a row from the first piece below row 100000 and from the second above;
  the two cuts read rows from 0 and from 100000.
-/
import proofs.«124407_j40681930228297_2_alg».proof.Proof.V.RefFns
import proofs.«124407_j40681930228297_2_alg».proof.Proof.V.Spec
import Idealize.ShloMosaic.Lib.ValueLayout
import Idealize.ShloMosaic.PureOps.Ideal.Laws

noncomputable section

open scoped BigOperators

namespace Cert.Val

open Cert.ReferenceIdeal Cert.ReferenceIdeal.Gen Idealize.ShloMosaic Idealize.ShloMosaic.ValueIdx

/-! ## Broadcasts read at an index -/

/-- A vector laid as the one row of a `[1, n]` array. -/
theorem bcast_vec_row_apply {α : Type} {n : ℕ} (h : (⟨1, ![n]⟩ : Shape).BroadcastsInDim ⟨2, ![1, n]⟩ ![1])
    (v : (⟨1, ![n]⟩ : Shape).Idx → α) (u : Fin 1) (q : Fin n) :
    broadcastInDim ⟨2, ![1, n]⟩ ![1] h v (ix2 u q) = v (ix1 q) := by
  refine broadcastInDim_apply ![1] h v (ix2 u q) (ix1 q) fun a => ?_
  match a with
  | ⟨0, _⟩ =>
    show q.val = if n = 1 then 0 else q.val
    split
    · have := q.isLt; omega
    · rfl

/-- A one-row array laid along `m` rows. -/
theorem bcast_row_rows_apply {α : Type} {m n : ℕ} (h : (⟨2, ![1, n]⟩ : Shape).BroadcastsInDim ⟨2, ![m, n]⟩ ![0, 1])
    (y : (⟨2, ![1, n]⟩ : Shape).Idx → α) (r : Fin m) (t : Fin n) :
    broadcastInDim ⟨2, ![m, n]⟩ ![0, 1] h y (ix2 r t) = y (ix2 (0 : Fin 1) t) := by
  refine broadcastInDim_apply ![0, 1] h y (ix2 r t) (ix2 (0 : Fin 1) t) fun a => ?_
  match a with
  | ⟨0, _⟩ =>
    show (0 : ℕ) = if (1 : ℕ) = 1 then 0 else r.val
    rw [if_pos rfl]
  | ⟨1, _⟩ =>
    show t.val = if n = 1 then 0 else t.val
    split
    · have := t.isLt; omega
    · rfl

/-- A vector laid as the one column of an `[m, 1]` array. -/
theorem bcast_vec_col_apply {α : Type} {m : ℕ} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A one-column array laid along `n` lanes. -/
theorem bcast_col_lanes_apply {α : Type} {m n : ℕ} (h : (⟨2, ![m, 1]⟩ : Shape).BroadcastsInDim ⟨2, ![m, n]⟩ ![0, 1])
    (y : (⟨2, ![m, 1]⟩ : Shape).Idx → α) (r : Fin m) (t : Fin n) :
    broadcastInDim ⟨2, ![m, n]⟩ ![0, 1] h y (ix2 r t) = y (ix2 r (0 : Fin 1)) := by
  refine broadcastInDim_apply ![0, 1] h y (ix2 r t) (ix2 r (0 : Fin 1)) fun a => ?_
  match a with
  | ⟨0, _⟩ =>
    show r.val = if m = 1 then 0 else r.val
    split
    · have := r.isLt; omega
    · rfl
  | ⟨1, _⟩ =>
    show (0 : ℕ) = if (1 : ℕ) = 1 then 0 else t.val
    rw [if_pos rfl]

/-- A scalar laid along a vector. -/
theorem bcast_scalar_apply {α : Type} {m : ℕ} (h : (⟨0, ![]⟩ : Shape).BroadcastsInDim ⟨1, ![m]⟩ ![])
    (y : (⟨0, ![]⟩ : Shape).Idx → α) (i : (⟨1, ![m]⟩ : Shape).Idx) :
    broadcastInDim ⟨1, ![m]⟩ ![] h y i = y ix0 :=
  broadcastInDim_apply ![] h y i ix0 fun a => a.elim0

/-! ## The host's sums -/

/-- A column of the three-row table summed by the host from zero. -/
theorem hostColSum3_apply (g : FVec Ideal S3x64 .f32) (q : Fin 64) :
    Host.reduceAdd (F := Ideal) g (constant (F := Ideal) S_ .f32 0x00000000#32) reducesTo_S3x64_S64_d0 h_S_ (ix1 q)
      = colSum3 g q := by
  simp only [Host.reduceAdd, Ideal.hostReduceAdd_def]
  rw [Ideal.hostReduceAdd_single reducesTo_S3x64_S64_d0 (by decide)]
  show Ideal.ofBits .f32 0x00000000#32 + _ = _
  rw [Ideal.ofBits_zero_f32, zero_add]
  unfold colSum3
  refine Finset.sum_congr rfl fun k _ => congrArg g ?_
  funext a
  match a with
  | ⟨0, _⟩ => rfl
  | ⟨1, _⟩ => rfl

/-- A row's inner product summed by the host from zero. -/
theorem hostRowDot_apply (a b : FVec Ideal S150000x64 .f32) (r : Fin 150000) :
    Host.reduceAdd (F := Ideal) (mulf a b) (constant (F := Ideal) S_ .f32 0x00000000#32)
        reducesTo_S150000x64_S150000_d1 h_S_ (ix1 r)
      = rowDot (n := 150000) a b r := by
  simp only [Host.reduceAdd, Ideal.hostReduceAdd_def]
  rw [Ideal.hostReduceAdd_single reducesTo_S150000x64_S150000_d1 (by decide)]
  show Ideal.ofBits .f32 0x00000000#32 + _ = _
  rw [Ideal.ofBits_zero_f32, zero_add]
  unfold rowDot
  refine Finset.sum_congr rfl fun k _ => ?_
  show a _ * b _ = _
  have e : (by decide : S150000x64.Reduces [1] S150000).lift (ix1 r) k = ix2 r k := by
    funext c
    match c with
    | ⟨0, _⟩ => rfl
    | ⟨1, _⟩ => rfl
  exact congrArg (fun i => a i * b i) e

/-! ## The reference's projection -/

/-- The reference's contraction: rows of the features against columns of the transposed weights. -/
abbrev refDot := Cert.ReferenceIdeal.dot_S50000x384_S384x64_S50000x64_1_0_0_1_n_n

theorem refDot_lhs0 (i : S50000x64.Idx) (k : refDot.contr.Idx) : (refDot.lhsIdx i k 0).val = (i 0).val := by
  unfold DotDims.lhsIdx
  rw [dif_neg (show ¬(0 : Fin S50000x384.rank) ∈ refDot.lhsBatch by decide),
    dif_pos (show (0 : Fin S50000x384.rank) ∈ refDot.lhsNonContracting by decide)]
  rfl

theorem refDot_lhs1 (i : S50000x64.Idx) (k : refDot.contr.Idx) :
    (refDot.lhsIdx i k 1).val = (k ⟨0, by decide⟩).val :=
  refDot.lhsIdx_val_of_single rfl i k

theorem refDot_rhs0 (i : S50000x64.Idx) (k : refDot.contr.Idx) :
    (refDot.rhsIdx i k 0).val = (k ⟨0, by decide⟩).val :=
  refDot.rhsIdx_val_of_single rfl i k

theorem refDot_rhs1 (i : S50000x64.Idx) (k : refDot.contr.Idx) : (refDot.rhsIdx i k 1).val = (i 1).val := by
  unfold DotDims.rhsIdx
  rw [dif_neg (show ¬(1 : Fin S384x64.rank) ∈ refDot.rhsBatch by decide),
    dif_pos (show (1 : Fin S384x64.rank) ∈ refDot.rhsNonContracting by decide)]
  rfl

/-- The host's product at `(p, q)`: the sum over the contracted coordinate. -/
theorem refDot_apply (l : FVec Ideal S50000x384 .f32) (r : FVec Ideal S384x64 .f32) (p : Fin 50000) (q : Fin 64) :
    Host.dotGeneral (F := Ideal) refDot none l r (ix2 p q) = ∑ k : Fin 384, l (ix2 p k) * r (ix2 k q) := by
  simp only [Host.dotGeneral]
  rw [Ideal.dotGeneral_apply, ← Equiv.sum_comp (contrEquiv1 refDot 384 rfl rfl).symm]
  refine Finset.sum_congr rfl fun k _ => ?_
  have hk := contrEquiv1_symm_val refDot 384 rfl rfl k
  have el : refDot.lhsIdx (ix2 p q) ((contrEquiv1 refDot 384 rfl rfl).symm k) = ix2 p k :=
    funext fun a => Fin.ext (by
      match a with
      | ⟨0, _⟩ => exact refDot_lhs0 _ _
      | ⟨1, _⟩ => exact (refDot_lhs1 _ _).trans hk)
  have er : refDot.rhsIdx (ix2 p q) ((contrEquiv1 refDot 384 rfl rfl).symm k) = ix2 k q :=
    funext fun a => Fin.ext (by
      match a with
      | ⟨0, _⟩ => exact (refDot_rhs0 _ _).trans hk
      | ⟨1, _⟩ => exact refDot_rhs1 _ _)
  rw [el, er]

/-! ## The stages -/

/-- The host's `tanh` and square root of a vector at an index, at the ideal values. -/
theorem hostTanh_apply {s : Shape} {φ : FTy} (a : FVec Ideal s φ) (i : s.Idx) :
    Host.tanh (F := Ideal) a i = Ideal.tanh (a i) := rfl
theorem hostSqrt_apply {s : Shape} {φ : FTy} (a : FVec Ideal s φ) (i : s.Idx) :
    Host.sqrt (F := Ideal) a i = Ideal.sqrt (a i) := rfl
theorem hostDivf_apply {s : Shape} {φ : FTy} (a b : FVec Ideal s φ) (i : s.Idx) :
    Host.divf (F := Ideal) a b i = Ideal.div (a i) (b i) := rfl

theorem refUser_eq (a3 : FVec Ideal S100000x64 .f32) (a5 : FVec Ideal S3x64 .f32) :
    refUser a3 a5 = userEmb a3 a5 := by
  funext j
  obtain ⟨p, q, rfl⟩ : ∃ (p : Fin 100000) (q : Fin 64), j = ix2 p q := ⟨j 0, j 1, eq_ix2 j⟩
  unfold refUser
  rw [userEmb_ix2, addf_apply, bcast_row_rows_apply, bcast_vec_row_apply, hostColSum3_apply]
  rfl

theorem refItem_eq (a4 : FVec Ideal S50000x384 .f32) (a6 : FVec Ideal S3x64 .f32) (a7 : FVec Ideal S64x384 .f32)
    (a8 : FVec Ideal S64 .f32) : refItem a4 a6 a7 a8 = itemEmb a4 a7 a8 a6 := by
  funext j
  obtain ⟨p, q, rfl⟩ : ∃ (p : Fin 50000) (q : Fin 64), j = ix2 p q := ⟨j 0, j 1, eq_ix2 j⟩
  unfold refItem
  rw [itemEmb_ix2, addf_apply, bcast_row_rows_apply, bcast_vec_row_apply, hostColSum3_apply, hostTanh_apply,
    addf_apply, bcast_row_rows_apply, bcast_vec_row_apply, refDot_apply]
  have ht : ∀ k : Fin 384, transpose S384x64 [1, 0] a7 transposes_S64x384_S384x64_1_0 (ix2 k q) = a7 (ix2 q k) :=
    fun k => transpose_ix2_apply a7 transposes_S64x384_S384x64_1_0 k q
  simp only [ht]
  rfl

theorem refEgo_eq (u : FVec Ideal S100000x64 .f32) (v : FVec Ideal S50000x64 .f32) : refEgo u v = ego u v := by
  funext j
  obtain ⟨p, q, rfl⟩ : ∃ (p : Fin 150000) (q : Fin 64), j = ix2 p q := ⟨j 0, j 1, eq_ix2 j⟩
  unfold refEgo
  by_cases h : p.val < 100000
  · rw [ego_user u v ⟨p.val, h⟩ q p rfl]
    exact concatenate_pair_apply_left (0 : Fin S150000x64.rank) u v
      concatenates_S100000x64_S50000x64_S150000x64_d0 (ix2 p q) rfl (ix2 ⟨p.val, h⟩ q)
      (fun b => match b with | ⟨0, _⟩ => rfl | ⟨1, _⟩ => rfl)
  · have hp : p.val - 100000 < 50000 := by have := p.isLt; omega
    rw [ego_item u v ⟨p.val - 100000, hp⟩ q p (by show p.val = 100000 + (p.val - 100000); omega)]
    exact concatenate_pair_apply_right (0 : Fin S150000x64.rank) u v
      concatenates_S100000x64_S50000x64_S150000x64_d0 (ix2 p q) rfl rfl (ix2 ⟨p.val - 100000, hp⟩ q)
      (fun b hb => by
        obtain ⟨bv, hbv⟩ := b
        match bv, hbv, hb with
        | 0, _, hb => exact absurd rfl hb
        | 1, _, _ => rfl
        | n + 2, hbv, _ => exact absurd hbv (by show ¬ n + 2 < 2; omega))
      (by show p.val - 100000 + 100000 = p.val; omega)

/-- The clamped norm of row `r`. -/
theorem refNorm_apply (a : FVec Ideal S150000x64 .f32) (r : Fin 150000) :
    refNorm a (ix1 r) = rowNorm (n := 150000) a r := by
  unfold refNorm
  rw [maximumf_apply, hostSqrt_apply, hostRowDot_apply, bcast_scalar_apply, constant_apply]
  rfl

/-- The reweighting at `(p, q)`. -/
theorem refRw_eq (P e : FVec Ideal S150000x64 .f32) : refRw P e = rwX (n := 150000) P e := by
  funext j
  obtain ⟨p, q, rfl⟩ : ∃ (p : Fin 150000) (q : Fin 64), j = ix2 p q := ⟨j 0, j 1, eq_ix2 j⟩
  unfold refRw
  rw [rwX_ix2, mulf_apply, bcast_col_lanes_apply, bcast_vec_col_apply, hostDivf_apply, hostRowDot_apply, mulf_apply,
    refNorm_apply, refNorm_apply]
  rfl

theorem refX_eq (a0 a1 : IVec S1200000 32) (a2 : FVec Ideal S1200000 .f32) (e x : FVec Ideal S150000x64 .f32) :
    refX a0 a1 a2 e x = rwX (n := 150000) (refProp a0 a1 a2 x) e := by
  unfold refX
  exact refRw_eq _ _

theorem refAcc_rw_eq (acc P e : FVec Ideal S150000x64 .f32) :
    refAcc acc (refRw P e) = rwAcc (n := 150000) P e acc := by
  funext j
  obtain ⟨p, q, rfl⟩ : ∃ (p : Fin 150000) (q : Fin 64), j = ix2 p q := ⟨j 0, j 1, eq_ix2 j⟩
  unfold refAcc
  rw [addf_apply, refRw_eq, rwAcc_ix2, rwX_ix2]

theorem refAcc_eq (a0 a1 : IVec S1200000 32) (a2 : FVec Ideal S1200000 .f32) (e x acc : FVec Ideal S150000x64 .f32) :
    refAcc acc (refX a0 a1 a2 e x) = rwAcc (n := 150000) (refProp a0 a1 a2 x) e acc := by
  unfold refX
  exact refAcc_rw_eq _ _ _

theorem refOutU_eq (A : FVec Ideal S150000x64 .f32) : refOutU A = outUser A := by
  funext j
  obtain ⟨p, q, rfl⟩ : ∃ (p : Fin 100000) (q : Fin 64), j = ix2 p q := ⟨j 0, j 1, eq_ix2 j⟩
  unfold refOutU
  rw [slice2_axis0_eq]
  exact congrArg A (congrArg (ix2 · q) (Fin.ext (by show 0 + p.val = p.val; omega)))

theorem refOutI_eq (A : FVec Ideal S150000x64 .f32) : refOutI A = outItem A := by
  funext j
  obtain ⟨p, q, rfl⟩ : ∃ (p : Fin 50000) (q : Fin 64), j = ix2 p q := ⟨j 0, j 1, eq_ix2 j⟩
  unfold refOutI
  rw [slice2_axis0_eq]
  rfl

end Cert.Val

end
-- ==== Proof.V.PropSame.lean ====
/-
  The kernel program's host stretches are the reference's: its propagation (the same index select, row gather,
  scaling and scatter-add, over shape facts and dimension records that are the same data), its stacking of the two
  embeddings and its two cuts of the result compose the same functions, so each is the specification's.
-/
import proofs.«124407_j40681930228297_2_alg».proof.Proof.Gen.KernelIdeal
import proofs.«124407_j40681930228297_2_alg».proof.Proof.V.RefSpec

noncomputable section

namespace Cert.Val

open Idealize.ShloMosaic Idealize.ShloMosaic.ValueIdx

section
open Cert.KernelIdeal Cert.KernelIdeal.Gen

/-- The kernel program's sparse propagation of `x` along the edges, as it prints it before each reweighting. -/
def kerProp (a0 a1 : IVec S1200000 32) (a2 : FVec Ideal S1200000 .f32) (x : FVec Ideal S150000x64 .f32) :
    FVec Ideal S150000x64 .f32 :=
  Host.scatterAdd (F := Ideal) scatter_S150000x64_S1200000x1_S1200000x64_1_0_0_1
    (broadcastInDim S150000x64 ![] bcast_S_S150000x64 (constant (F := Ideal) S_ .f32 0x00000000#32))
    (broadcastInDim S1200000x1 ![0] bcast_S1200000_S1200000x1_0 a0)
    (mulf
      (broadcastInDim S1200000x64 ![0, 1] bcast_S1200000x1_S1200000x64_0_1
        (broadcastInDim S1200000x1 ![0] bcast_S1200000_S1200000x1_0 a2))
      (Host.gather gather_S150000x64_S1200000x1_S1200000x64_1_0_n_n_0_1_164 x
        (broadcastInDim S1200000x1 ![0] bcast_S1200000_S1200000x1_0
          (select (cmpi .slt a1 (broadcastInDim S1200000 ![] bcast_S_S1200000 (constantI S_ 32 0#32)))
            (addi a1 (broadcastInDim S1200000 ![] bcast_S_S1200000 (constantI S_ 32 150000#32))) a1))))

/-- Its stacking of the two embeddings. -/
def kerEgo (u : FVec Ideal S100000x64 .f32) (v : FVec Ideal S50000x64 .f32) : FVec Ideal S150000x64 .f32 :=
  concatenate S150000x64 0 [⟨S100000x64, u⟩, ⟨S50000x64, v⟩] concatenates_S100000x64_S50000x64_S150000x64_d0

/-- Its two cuts of the accumulated array. -/
def kerOutU (A : FVec Ideal S150000x64 .f32) : FVec Ideal S100000x64 .f32 :=
  extractStridedSlice S100000x64 ![0, 0] A slices_S150000x64_S100000x64_0_0
def kerOutI (A : FVec Ideal S150000x64 .f32) : FVec Ideal S50000x64 .f32 :=
  extractStridedSlice S50000x64 ![100000, 0] A slices_S150000x64_S50000x64_100000_0

end

theorem kerProp_eq (a0 a1 : IVec Cert.KernelIdeal.S1200000 32) (a2 : FVec Ideal Cert.KernelIdeal.S1200000 .f32)
    (x : FVec Ideal Cert.KernelIdeal.S150000x64 .f32) : kerProp a0 a1 a2 x = refProp a0 a1 a2 x := rfl

theorem kerEgo_eq (u : FVec Ideal Cert.KernelIdeal.S100000x64 .f32) (v : FVec Ideal Cert.KernelIdeal.S50000x64 .f32) :
    kerEgo u v = ego u v :=
  (show kerEgo u v = refEgo u v from rfl).trans (refEgo_eq u v)

theorem kerOutU_eq (A : FVec Ideal Cert.KernelIdeal.S150000x64 .f32) : kerOutU A = outUser A :=
  (show kerOutU A = refOutU A from rfl).trans (refOutU_eq A)

theorem kerOutI_eq (A : FVec Ideal Cert.KernelIdeal.S150000x64 .f32) : kerOutI A = outItem A :=
  (show kerOutI A = refOutI A from rfl).trans (refOutI_eq A)

end Cert.Val

end
-- ==== Proof.KI.Host.lean ====
/-
  The kernel program's host stretches read as functions of the buffers they start from: before the first
  reweighting call the two tables are joined and the propagate step (gather the rows the edges name, scale by the
  edge weights, sum into the rows the edges point at) runs on the joined table; before each later call it runs on
  the previous call's update; after the last call the running sum is cut into its two results. The propagate step
  is carried as ONE function, never opened.
-/
import proofs.«124407_j40681930228297_2_alg».proof.Proof.Gen.KernelIdeal.Launch
import proofs.«124407_j40681930228297_2_alg».proof.Proof.V.PropSame
import Idealize.ShloMosaic.Lib.StableHlo.Run

set_option maxRecDepth 16384

noncomputable section

namespace Cert.KernelIdeal.Run

open Cert.KernelIdeal Cert.KernelIdeal.Gen Cert.Val
open Idealize.ShloMosaic Idealize.ShloMosaic.TcCoe Idealize.SL.Sem

set_option maxHeartbeats 1000000 in
/-- The host stretch before call 2: the two tables joined into the embedding table, and the propagate step of layer 1. -/
theorem host2_ego (W : Valuation τ sig (Elt Ideal)) : StableHlo.after hostOps2 W (Proc.devRef .tc main_v10)
    = kerEgo (W (Proc.devRef .tc main_v3)) (W (Proc.devRef .tc main_v9)) := by
  after_results_simp
  unfold kerEgo
  rfl
set_option maxHeartbeats 1000000 in
theorem host2_x (W : Valuation τ sig (Elt Ideal)) : StableHlo.after hostOps2 W (Proc.devRef .tc main_v23)
    = kerProp (W (Proc.devRef .tc main_arg0)) (W (Proc.devRef .tc main_arg1)) (W (Proc.devRef .tc main_arg2)) (kerEgo (W (Proc.devRef .tc main_v3)) (W (Proc.devRef .tc main_v9))) := by
  after_results_simp
  unfold kerProp kerEgo
  rfl

set_option maxHeartbeats 1000000 in
/-- The host stretch before call 3: the propagate step of layer 2, from ANY contents of the buffers it starts from. -/
theorem host3_x (W : Valuation τ sig (Elt Ideal)) : StableHlo.after hostOps3 W (Proc.devRef .tc main_v37)
    = kerProp (W (Proc.devRef .tc main_arg0)) (W (Proc.devRef .tc main_arg1)) (W (Proc.devRef .tc main_arg2)) (W (Proc.devRef .tc main_v24_0)) := by
  after_results_simp
  unfold kerProp
  rfl

set_option maxHeartbeats 1000000 in
/-- The host stretch before call 4: the propagate step of layer 3, from ANY contents of the buffers it starts from. -/
theorem host4_x (W : Valuation τ sig (Elt Ideal)) : StableHlo.after hostOps4 W (Proc.devRef .tc main_v51)
    = kerProp (W (Proc.devRef .tc main_arg0)) (W (Proc.devRef .tc main_arg1)) (W (Proc.devRef .tc main_arg2)) (W (Proc.devRef .tc main_v38_0)) := by
  after_results_simp
  unfold kerProp
  rfl

set_option maxHeartbeats 1000000 in
/-- The host stretch before call 5: the propagate step of layer 4, from ANY contents of the buffers it starts from. -/
theorem host5_x (W : Valuation τ sig (Elt Ideal)) : StableHlo.after hostOps5 W (Proc.devRef .tc main_v65)
    = kerProp (W (Proc.devRef .tc main_arg0)) (W (Proc.devRef .tc main_arg1)) (W (Proc.devRef .tc main_arg2)) (W (Proc.devRef .tc main_v52_0)) := by
  after_results_simp
  unfold kerProp
  rfl

set_option maxHeartbeats 1000000 in
/-- The last host stretch: the two slices. -/
theorem host6_out (W : Valuation τ sig (Elt Ideal)) :
    StableHlo.after hostOps6 W (Proc.devRef .tc main_v67) = kerOutU (W (Proc.devRef .tc main_v66_1))
    ∧ StableHlo.after hostOps6 W (Proc.devRef .tc main_v68) = kerOutI (W (Proc.devRef .tc main_v66_1)) := by
  refine ⟨?_, ?_⟩ <;> after_results_simp <;> rfl

end Cert.KernelIdeal.Run

end
-- ==== Proof.KI.Args.lean ====
/-
  The nine arguments at every boundary of the run: no host stretch writes one, and no pallas_call changes one
  (the first call reads `main_arg3` through an input window, which ends as it began).
-/
import proofs.«124407_j40681930228297_2_alg».proof.Proof.Gen.KernelIdeal.Launch
import proofs.«124407_j40681930228297_2_alg».proof.Proof.Gen.KernelIdeal.Skeleton
import proofs.«124407_j40681930228297_2_alg».proof.Proof.Gen.KernelIdeal.Points
import proofs.«124407_j40681930228297_2_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

theorem W0_arg0 : W0 m ρ c (Proc.devRef .tc main_arg0) = m ((c : Thread nD τ).loc main_arg0) := rfl
theorem W1_arg0 : W1 m ρ c (Proc.devRef .tc main_arg0) = m ((c : Thread nD τ).loc main_arg0) := (StableHlo.after_of_writes_sub hostOps0 _ hostOps0_writes (by decide)).trans (W0_arg0 m ρ c)
theorem W2_arg0 : W2 m ρ c (Proc.devRef .tc main_arg0) = m ((c : Thread nD τ).loc main_arg0) := (W2_of_ne m ρ c main_arg0 (by decide)).trans (W1_arg0 m ρ c)
theorem W3_arg0 : W3 m ρ c (Proc.devRef .tc main_arg0) = m ((c : Thread nD τ).loc main_arg0) := (StableHlo.after_of_writes_sub hostOps1 _ hostOps1_writes (by decide)).trans (W2_arg0 m ρ c)
theorem W4_arg0 : W4 m ρ c (Proc.devRef .tc main_arg0) = m ((c : Thread nD τ).loc main_arg0) := (W4_of_ne m ρ c main_arg0 (by decide)).trans (W3_arg0 m ρ c)
theorem W5_arg0 : W5 m ρ c (Proc.devRef .tc main_arg0) = m ((c : Thread nD τ).loc main_arg0) := (StableHlo.after_of_writes_sub hostOps2 _ hostOps2_writes (by decide)).trans (W4_arg0 m ρ c)
theorem W6_arg0 : W6 m ρ c (Proc.devRef .tc main_arg0) = m ((c : Thread nD τ).loc main_arg0) := (W6_of_ne m ρ c main_arg0 (by decide) (by decide)).trans (W5_arg0 m ρ c)
theorem W7_arg0 : W7 m ρ c (Proc.devRef .tc main_arg0) = m ((c : Thread nD τ).loc main_arg0) := (StableHlo.after_of_writes_sub hostOps3 _ hostOps3_writes (by decide)).trans (W6_arg0 m ρ c)
theorem W8_arg0 : W8 m ρ c (Proc.devRef .tc main_arg0) = m ((c : Thread nD τ).loc main_arg0) := (W8_of_ne m ρ c main_arg0 (by decide)).trans (W7_arg0 m ρ c)
theorem W9_arg0 : W9 m ρ c (Proc.devRef .tc main_arg0) = m ((c : Thread nD τ).loc main_arg0) := (StableHlo.after_of_writes_sub hostOps4 _ hostOps4_writes (by decide)).trans (W8_arg0 m ρ c)
theorem W10_arg0 : W10 m ρ c (Proc.devRef .tc main_arg0) = m ((c : Thread nD τ).loc main_arg0) := (W10_of_ne m ρ c main_arg0 (by decide)).trans (W9_arg0 m ρ c)
theorem W11_arg0 : W11 m ρ c (Proc.devRef .tc main_arg0) = m ((c : Thread nD τ).loc main_arg0) := (StableHlo.after_of_writes_sub hostOps5 _ hostOps5_writes (by decide)).trans (W10_arg0 m ρ c)
theorem W12_arg0 : W12 m ρ c (Proc.devRef .tc main_arg0) = m ((c : Thread nD τ).loc main_arg0) := (W12_of_ne m ρ c main_arg0 (by decide)).trans (W11_arg0 m ρ c)
theorem W0_arg1 : W0 m ρ c (Proc.devRef .tc main_arg1) = m ((c : Thread nD τ).loc main_arg1) := rfl
theorem W1_arg1 : W1 m ρ c (Proc.devRef .tc main_arg1) = m ((c : Thread nD τ).loc main_arg1) := (StableHlo.after_of_writes_sub hostOps0 _ hostOps0_writes (by decide)).trans (W0_arg1 m ρ c)
theorem W2_arg1 : W2 m ρ c (Proc.devRef .tc main_arg1) = m ((c : Thread nD τ).loc main_arg1) := (W2_of_ne m ρ c main_arg1 (by decide)).trans (W1_arg1 m ρ c)
theorem W3_arg1 : W3 m ρ c (Proc.devRef .tc main_arg1) = m ((c : Thread nD τ).loc main_arg1) := (StableHlo.after_of_writes_sub hostOps1 _ hostOps1_writes (by decide)).trans (W2_arg1 m ρ c)
theorem W4_arg1 : W4 m ρ c (Proc.devRef .tc main_arg1) = m ((c : Thread nD τ).loc main_arg1) := (W4_of_ne m ρ c main_arg1 (by decide)).trans (W3_arg1 m ρ c)
theorem W5_arg1 : W5 m ρ c (Proc.devRef .tc main_arg1) = m ((c : Thread nD τ).loc main_arg1) := (StableHlo.after_of_writes_sub hostOps2 _ hostOps2_writes (by decide)).trans (W4_arg1 m ρ c)
theorem W6_arg1 : W6 m ρ c (Proc.devRef .tc main_arg1) = m ((c : Thread nD τ).loc main_arg1) := (W6_of_ne m ρ c main_arg1 (by decide) (by decide)).trans (W5_arg1 m ρ c)
theorem W7_arg1 : W7 m ρ c (Proc.devRef .tc main_arg1) = m ((c : Thread nD τ).loc main_arg1) := (StableHlo.after_of_writes_sub hostOps3 _ hostOps3_writes (by decide)).trans (W6_arg1 m ρ c)
theorem W8_arg1 : W8 m ρ c (Proc.devRef .tc main_arg1) = m ((c : Thread nD τ).loc main_arg1) := (W8_of_ne m ρ c main_arg1 (by decide)).trans (W7_arg1 m ρ c)
theorem W9_arg1 : W9 m ρ c (Proc.devRef .tc main_arg1) = m ((c : Thread nD τ).loc main_arg1) := (StableHlo.after_of_writes_sub hostOps4 _ hostOps4_writes (by decide)).trans (W8_arg1 m ρ c)
theorem W10_arg1 : W10 m ρ c (Proc.devRef .tc main_arg1) = m ((c : Thread nD τ).loc main_arg1) := (W10_of_ne m ρ c main_arg1 (by decide)).trans (W9_arg1 m ρ c)
theorem W11_arg1 : W11 m ρ c (Proc.devRef .tc main_arg1) = m ((c : Thread nD τ).loc main_arg1) := (StableHlo.after_of_writes_sub hostOps5 _ hostOps5_writes (by decide)).trans (W10_arg1 m ρ c)
theorem W12_arg1 : W12 m ρ c (Proc.devRef .tc main_arg1) = m ((c : Thread nD τ).loc main_arg1) := (W12_of_ne m ρ c main_arg1 (by decide)).trans (W11_arg1 m ρ c)
theorem W0_arg2 : W0 m ρ c (Proc.devRef .tc main_arg2) = m ((c : Thread nD τ).loc main_arg2) := rfl
theorem W1_arg2 : W1 m ρ c (Proc.devRef .tc main_arg2) = m ((c : Thread nD τ).loc main_arg2) := (StableHlo.after_of_writes_sub hostOps0 _ hostOps0_writes (by decide)).trans (W0_arg2 m ρ c)
theorem W2_arg2 : W2 m ρ c (Proc.devRef .tc main_arg2) = m ((c : Thread nD τ).loc main_arg2) := (W2_of_ne m ρ c main_arg2 (by decide)).trans (W1_arg2 m ρ c)
theorem W3_arg2 : W3 m ρ c (Proc.devRef .tc main_arg2) = m ((c : Thread nD τ).loc main_arg2) := (StableHlo.after_of_writes_sub hostOps1 _ hostOps1_writes (by decide)).trans (W2_arg2 m ρ c)
theorem W4_arg2 : W4 m ρ c (Proc.devRef .tc main_arg2) = m ((c : Thread nD τ).loc main_arg2) := (W4_of_ne m ρ c main_arg2 (by decide)).trans (W3_arg2 m ρ c)
theorem W5_arg2 : W5 m ρ c (Proc.devRef .tc main_arg2) = m ((c : Thread nD τ).loc main_arg2) := (StableHlo.after_of_writes_sub hostOps2 _ hostOps2_writes (by decide)).trans (W4_arg2 m ρ c)
theorem W6_arg2 : W6 m ρ c (Proc.devRef .tc main_arg2) = m ((c : Thread nD τ).loc main_arg2) := (W6_of_ne m ρ c main_arg2 (by decide) (by decide)).trans (W5_arg2 m ρ c)
theorem W7_arg2 : W7 m ρ c (Proc.devRef .tc main_arg2) = m ((c : Thread nD τ).loc main_arg2) := (StableHlo.after_of_writes_sub hostOps3 _ hostOps3_writes (by decide)).trans (W6_arg2 m ρ c)
theorem W8_arg2 : W8 m ρ c (Proc.devRef .tc main_arg2) = m ((c : Thread nD τ).loc main_arg2) := (W8_of_ne m ρ c main_arg2 (by decide)).trans (W7_arg2 m ρ c)
theorem W9_arg2 : W9 m ρ c (Proc.devRef .tc main_arg2) = m ((c : Thread nD τ).loc main_arg2) := (StableHlo.after_of_writes_sub hostOps4 _ hostOps4_writes (by decide)).trans (W8_arg2 m ρ c)
theorem W10_arg2 : W10 m ρ c (Proc.devRef .tc main_arg2) = m ((c : Thread nD τ).loc main_arg2) := (W10_of_ne m ρ c main_arg2 (by decide)).trans (W9_arg2 m ρ c)
theorem W11_arg2 : W11 m ρ c (Proc.devRef .tc main_arg2) = m ((c : Thread nD τ).loc main_arg2) := (StableHlo.after_of_writes_sub hostOps5 _ hostOps5_writes (by decide)).trans (W10_arg2 m ρ c)
theorem W12_arg2 : W12 m ρ c (Proc.devRef .tc main_arg2) = m ((c : Thread nD τ).loc main_arg2) := (W12_of_ne m ρ c main_arg2 (by decide)).trans (W11_arg2 m ρ c)
theorem W0_arg3 : W0 m ρ c (Proc.devRef .tc main_arg3) = m ((c : Thread nD τ).loc main_arg3) := rfl
theorem W1_arg3 : W1 m ρ c (Proc.devRef .tc main_arg3) = m ((c : Thread nD τ).loc main_arg3) := (StableHlo.after_of_writes_sub hostOps0 _ hostOps0_writes (by decide)).trans (W0_arg3 m ρ c)
theorem W2_arg3 : W2 m ρ c (Proc.devRef .tc main_arg3) = m ((c : Thread nD τ).loc main_arg3) := ((W2_arr m ρ c 0).trans (((dat0 (U1 m ρ) c).arrAt_in 0 rfl _).trans (A_eq0 (U1 m ρ) c 0))).trans (W1_arg3 m ρ c)
theorem W3_arg3 : W3 m ρ c (Proc.devRef .tc main_arg3) = m ((c : Thread nD τ).loc main_arg3) := (StableHlo.after_of_writes_sub hostOps1 _ hostOps1_writes (by decide)).trans (W2_arg3 m ρ c)
theorem W4_arg3 : W4 m ρ c (Proc.devRef .tc main_arg3) = m ((c : Thread nD τ).loc main_arg3) := (W4_of_ne m ρ c main_arg3 (by decide)).trans (W3_arg3 m ρ c)
theorem W5_arg3 : W5 m ρ c (Proc.devRef .tc main_arg3) = m ((c : Thread nD τ).loc main_arg3) := (StableHlo.after_of_writes_sub hostOps2 _ hostOps2_writes (by decide)).trans (W4_arg3 m ρ c)
theorem W6_arg3 : W6 m ρ c (Proc.devRef .tc main_arg3) = m ((c : Thread nD τ).loc main_arg3) := (W6_of_ne m ρ c main_arg3 (by decide) (by decide)).trans (W5_arg3 m ρ c)
theorem W7_arg3 : W7 m ρ c (Proc.devRef .tc main_arg3) = m ((c : Thread nD τ).loc main_arg3) := (StableHlo.after_of_writes_sub hostOps3 _ hostOps3_writes (by decide)).trans (W6_arg3 m ρ c)
theorem W8_arg3 : W8 m ρ c (Proc.devRef .tc main_arg3) = m ((c : Thread nD τ).loc main_arg3) := (W8_of_ne m ρ c main_arg3 (by decide)).trans (W7_arg3 m ρ c)
theorem W9_arg3 : W9 m ρ c (Proc.devRef .tc main_arg3) = m ((c : Thread nD τ).loc main_arg3) := (StableHlo.after_of_writes_sub hostOps4 _ hostOps4_writes (by decide)).trans (W8_arg3 m ρ c)
theorem W10_arg3 : W10 m ρ c (Proc.devRef .tc main_arg3) = m ((c : Thread nD τ).loc main_arg3) := (W10_of_ne m ρ c main_arg3 (by decide)).trans (W9_arg3 m ρ c)
theorem W11_arg3 : W11 m ρ c (Proc.devRef .tc main_arg3) = m ((c : Thread nD τ).loc main_arg3) := (StableHlo.after_of_writes_sub hostOps5 _ hostOps5_writes (by decide)).trans (W10_arg3 m ρ c)
theorem W12_arg3 : W12 m ρ c (Proc.devRef .tc main_arg3) = m ((c : Thread nD τ).loc main_arg3) := (W12_of_ne m ρ c main_arg3 (by decide)).trans (W11_arg3 m ρ c)
theorem W0_arg4 : W0 m ρ c (Proc.devRef .tc main_arg4) = m ((c : Thread nD τ).loc main_arg4) := rfl
theorem W1_arg4 : W1 m ρ c (Proc.devRef .tc main_arg4) = m ((c : Thread nD τ).loc main_arg4) := (StableHlo.after_of_writes_sub hostOps0 _ hostOps0_writes (by decide)).trans (W0_arg4 m ρ c)
theorem W2_arg4 : W2 m ρ c (Proc.devRef .tc main_arg4) = m ((c : Thread nD τ).loc main_arg4) := (W2_of_ne m ρ c main_arg4 (by decide)).trans (W1_arg4 m ρ c)
theorem W3_arg4 : W3 m ρ c (Proc.devRef .tc main_arg4) = m ((c : Thread nD τ).loc main_arg4) := (StableHlo.after_of_writes_sub hostOps1 _ hostOps1_writes (by decide)).trans (W2_arg4 m ρ c)
theorem W4_arg4 : W4 m ρ c (Proc.devRef .tc main_arg4) = m ((c : Thread nD τ).loc main_arg4) := (W4_of_ne m ρ c main_arg4 (by decide)).trans (W3_arg4 m ρ c)
theorem W5_arg4 : W5 m ρ c (Proc.devRef .tc main_arg4) = m ((c : Thread nD τ).loc main_arg4) := (StableHlo.after_of_writes_sub hostOps2 _ hostOps2_writes (by decide)).trans (W4_arg4 m ρ c)
theorem W6_arg4 : W6 m ρ c (Proc.devRef .tc main_arg4) = m ((c : Thread nD τ).loc main_arg4) := (W6_of_ne m ρ c main_arg4 (by decide) (by decide)).trans (W5_arg4 m ρ c)
theorem W7_arg4 : W7 m ρ c (Proc.devRef .tc main_arg4) = m ((c : Thread nD τ).loc main_arg4) := (StableHlo.after_of_writes_sub hostOps3 _ hostOps3_writes (by decide)).trans (W6_arg4 m ρ c)
theorem W8_arg4 : W8 m ρ c (Proc.devRef .tc main_arg4) = m ((c : Thread nD τ).loc main_arg4) := (W8_of_ne m ρ c main_arg4 (by decide)).trans (W7_arg4 m ρ c)
theorem W9_arg4 : W9 m ρ c (Proc.devRef .tc main_arg4) = m ((c : Thread nD τ).loc main_arg4) := (StableHlo.after_of_writes_sub hostOps4 _ hostOps4_writes (by decide)).trans (W8_arg4 m ρ c)
theorem W10_arg4 : W10 m ρ c (Proc.devRef .tc main_arg4) = m ((c : Thread nD τ).loc main_arg4) := (W10_of_ne m ρ c main_arg4 (by decide)).trans (W9_arg4 m ρ c)
theorem W11_arg4 : W11 m ρ c (Proc.devRef .tc main_arg4) = m ((c : Thread nD τ).loc main_arg4) := (StableHlo.after_of_writes_sub hostOps5 _ hostOps5_writes (by decide)).trans (W10_arg4 m ρ c)
theorem W12_arg4 : W12 m ρ c (Proc.devRef .tc main_arg4) = m ((c : Thread nD τ).loc main_arg4) := (W12_of_ne m ρ c main_arg4 (by decide)).trans (W11_arg4 m ρ c)
theorem W0_arg5 : W0 m ρ c (Proc.devRef .tc main_arg5) = m ((c : Thread nD τ).loc main_arg5) := rfl
theorem W1_arg5 : W1 m ρ c (Proc.devRef .tc main_arg5) = m ((c : Thread nD τ).loc main_arg5) := (StableHlo.after_of_writes_sub hostOps0 _ hostOps0_writes (by decide)).trans (W0_arg5 m ρ c)
theorem W2_arg5 : W2 m ρ c (Proc.devRef .tc main_arg5) = m ((c : Thread nD τ).loc main_arg5) := (W2_of_ne m ρ c main_arg5 (by decide)).trans (W1_arg5 m ρ c)
theorem W3_arg5 : W3 m ρ c (Proc.devRef .tc main_arg5) = m ((c : Thread nD τ).loc main_arg5) := (StableHlo.after_of_writes_sub hostOps1 _ hostOps1_writes (by decide)).trans (W2_arg5 m ρ c)
theorem W4_arg5 : W4 m ρ c (Proc.devRef .tc main_arg5) = m ((c : Thread nD τ).loc main_arg5) := (W4_of_ne m ρ c main_arg5 (by decide)).trans (W3_arg5 m ρ c)
theorem W5_arg5 : W5 m ρ c (Proc.devRef .tc main_arg5) = m ((c : Thread nD τ).loc main_arg5) := (StableHlo.after_of_writes_sub hostOps2 _ hostOps2_writes (by decide)).trans (W4_arg5 m ρ c)
theorem W6_arg5 : W6 m ρ c (Proc.devRef .tc main_arg5) = m ((c : Thread nD τ).loc main_arg5) := (W6_of_ne m ρ c main_arg5 (by decide) (by decide)).trans (W5_arg5 m ρ c)
theorem W7_arg5 : W7 m ρ c (Proc.devRef .tc main_arg5) = m ((c : Thread nD τ).loc main_arg5) := (StableHlo.after_of_writes_sub hostOps3 _ hostOps3_writes (by decide)).trans (W6_arg5 m ρ c)
theorem W8_arg5 : W8 m ρ c (Proc.devRef .tc main_arg5) = m ((c : Thread nD τ).loc main_arg5) := (W8_of_ne m ρ c main_arg5 (by decide)).trans (W7_arg5 m ρ c)
theorem W9_arg5 : W9 m ρ c (Proc.devRef .tc main_arg5) = m ((c : Thread nD τ).loc main_arg5) := (StableHlo.after_of_writes_sub hostOps4 _ hostOps4_writes (by decide)).trans (W8_arg5 m ρ c)
theorem W10_arg5 : W10 m ρ c (Proc.devRef .tc main_arg5) = m ((c : Thread nD τ).loc main_arg5) := (W10_of_ne m ρ c main_arg5 (by decide)).trans (W9_arg5 m ρ c)
theorem W11_arg5 : W11 m ρ c (Proc.devRef .tc main_arg5) = m ((c : Thread nD τ).loc main_arg5) := (StableHlo.after_of_writes_sub hostOps5 _ hostOps5_writes (by decide)).trans (W10_arg5 m ρ c)
theorem W12_arg5 : W12 m ρ c (Proc.devRef .tc main_arg5) = m ((c : Thread nD τ).loc main_arg5) := (W12_of_ne m ρ c main_arg5 (by decide)).trans (W11_arg5 m ρ c)
theorem W0_arg6 : W0 m ρ c (Proc.devRef .tc main_arg6) = m ((c : Thread nD τ).loc main_arg6) := rfl
theorem W1_arg6 : W1 m ρ c (Proc.devRef .tc main_arg6) = m ((c : Thread nD τ).loc main_arg6) := (StableHlo.after_of_writes_sub hostOps0 _ hostOps0_writes (by decide)).trans (W0_arg6 m ρ c)
theorem W2_arg6 : W2 m ρ c (Proc.devRef .tc main_arg6) = m ((c : Thread nD τ).loc main_arg6) := (W2_of_ne m ρ c main_arg6 (by decide)).trans (W1_arg6 m ρ c)
theorem W3_arg6 : W3 m ρ c (Proc.devRef .tc main_arg6) = m ((c : Thread nD τ).loc main_arg6) := (StableHlo.after_of_writes_sub hostOps1 _ hostOps1_writes (by decide)).trans (W2_arg6 m ρ c)
theorem W4_arg6 : W4 m ρ c (Proc.devRef .tc main_arg6) = m ((c : Thread nD τ).loc main_arg6) := (W4_of_ne m ρ c main_arg6 (by decide)).trans (W3_arg6 m ρ c)
theorem W5_arg6 : W5 m ρ c (Proc.devRef .tc main_arg6) = m ((c : Thread nD τ).loc main_arg6) := (StableHlo.after_of_writes_sub hostOps2 _ hostOps2_writes (by decide)).trans (W4_arg6 m ρ c)
theorem W6_arg6 : W6 m ρ c (Proc.devRef .tc main_arg6) = m ((c : Thread nD τ).loc main_arg6) := (W6_of_ne m ρ c main_arg6 (by decide) (by decide)).trans (W5_arg6 m ρ c)
theorem W7_arg6 : W7 m ρ c (Proc.devRef .tc main_arg6) = m ((c : Thread nD τ).loc main_arg6) := (StableHlo.after_of_writes_sub hostOps3 _ hostOps3_writes (by decide)).trans (W6_arg6 m ρ c)
theorem W8_arg6 : W8 m ρ c (Proc.devRef .tc main_arg6) = m ((c : Thread nD τ).loc main_arg6) := (W8_of_ne m ρ c main_arg6 (by decide)).trans (W7_arg6 m ρ c)
theorem W9_arg6 : W9 m ρ c (Proc.devRef .tc main_arg6) = m ((c : Thread nD τ).loc main_arg6) := (StableHlo.after_of_writes_sub hostOps4 _ hostOps4_writes (by decide)).trans (W8_arg6 m ρ c)
theorem W10_arg6 : W10 m ρ c (Proc.devRef .tc main_arg6) = m ((c : Thread nD τ).loc main_arg6) := (W10_of_ne m ρ c main_arg6 (by decide)).trans (W9_arg6 m ρ c)
theorem W11_arg6 : W11 m ρ c (Proc.devRef .tc main_arg6) = m ((c : Thread nD τ).loc main_arg6) := (StableHlo.after_of_writes_sub hostOps5 _ hostOps5_writes (by decide)).trans (W10_arg6 m ρ c)
theorem W12_arg6 : W12 m ρ c (Proc.devRef .tc main_arg6) = m ((c : Thread nD τ).loc main_arg6) := (W12_of_ne m ρ c main_arg6 (by decide)).trans (W11_arg6 m ρ c)
theorem W0_arg7 : W0 m ρ c (Proc.devRef .tc main_arg7) = m ((c : Thread nD τ).loc main_arg7) := rfl
theorem W1_arg7 : W1 m ρ c (Proc.devRef .tc main_arg7) = m ((c : Thread nD τ).loc main_arg7) := (StableHlo.after_of_writes_sub hostOps0 _ hostOps0_writes (by decide)).trans (W0_arg7 m ρ c)
theorem W2_arg7 : W2 m ρ c (Proc.devRef .tc main_arg7) = m ((c : Thread nD τ).loc main_arg7) := (W2_of_ne m ρ c main_arg7 (by decide)).trans (W1_arg7 m ρ c)
theorem W3_arg7 : W3 m ρ c (Proc.devRef .tc main_arg7) = m ((c : Thread nD τ).loc main_arg7) := (StableHlo.after_of_writes_sub hostOps1 _ hostOps1_writes (by decide)).trans (W2_arg7 m ρ c)
theorem W4_arg7 : W4 m ρ c (Proc.devRef .tc main_arg7) = m ((c : Thread nD τ).loc main_arg7) := (W4_of_ne m ρ c main_arg7 (by decide)).trans (W3_arg7 m ρ c)
theorem W5_arg7 : W5 m ρ c (Proc.devRef .tc main_arg7) = m ((c : Thread nD τ).loc main_arg7) := (StableHlo.after_of_writes_sub hostOps2 _ hostOps2_writes (by decide)).trans (W4_arg7 m ρ c)
theorem W6_arg7 : W6 m ρ c (Proc.devRef .tc main_arg7) = m ((c : Thread nD τ).loc main_arg7) := (W6_of_ne m ρ c main_arg7 (by decide) (by decide)).trans (W5_arg7 m ρ c)
theorem W7_arg7 : W7 m ρ c (Proc.devRef .tc main_arg7) = m ((c : Thread nD τ).loc main_arg7) := (StableHlo.after_of_writes_sub hostOps3 _ hostOps3_writes (by decide)).trans (W6_arg7 m ρ c)
theorem W8_arg7 : W8 m ρ c (Proc.devRef .tc main_arg7) = m ((c : Thread nD τ).loc main_arg7) := (W8_of_ne m ρ c main_arg7 (by decide)).trans (W7_arg7 m ρ c)
theorem W9_arg7 : W9 m ρ c (Proc.devRef .tc main_arg7) = m ((c : Thread nD τ).loc main_arg7) := (StableHlo.after_of_writes_sub hostOps4 _ hostOps4_writes (by decide)).trans (W8_arg7 m ρ c)
theorem W10_arg7 : W10 m ρ c (Proc.devRef .tc main_arg7) = m ((c : Thread nD τ).loc main_arg7) := (W10_of_ne m ρ c main_arg7 (by decide)).trans (W9_arg7 m ρ c)
theorem W11_arg7 : W11 m ρ c (Proc.devRef .tc main_arg7) = m ((c : Thread nD τ).loc main_arg7) := (StableHlo.after_of_writes_sub hostOps5 _ hostOps5_writes (by decide)).trans (W10_arg7 m ρ c)
theorem W12_arg7 : W12 m ρ c (Proc.devRef .tc main_arg7) = m ((c : Thread nD τ).loc main_arg7) := (W12_of_ne m ρ c main_arg7 (by decide)).trans (W11_arg7 m ρ c)
theorem W0_arg8 : W0 m ρ c (Proc.devRef .tc main_arg8) = m ((c : Thread nD τ).loc main_arg8) := rfl
theorem W1_arg8 : W1 m ρ c (Proc.devRef .tc main_arg8) = m ((c : Thread nD τ).loc main_arg8) := (StableHlo.after_of_writes_sub hostOps0 _ hostOps0_writes (by decide)).trans (W0_arg8 m ρ c)
theorem W2_arg8 : W2 m ρ c (Proc.devRef .tc main_arg8) = m ((c : Thread nD τ).loc main_arg8) := (W2_of_ne m ρ c main_arg8 (by decide)).trans (W1_arg8 m ρ c)
theorem W3_arg8 : W3 m ρ c (Proc.devRef .tc main_arg8) = m ((c : Thread nD τ).loc main_arg8) := (StableHlo.after_of_writes_sub hostOps1 _ hostOps1_writes (by decide)).trans (W2_arg8 m ρ c)
theorem W4_arg8 : W4 m ρ c (Proc.devRef .tc main_arg8) = m ((c : Thread nD τ).loc main_arg8) := (W4_of_ne m ρ c main_arg8 (by decide)).trans (W3_arg8 m ρ c)
theorem W5_arg8 : W5 m ρ c (Proc.devRef .tc main_arg8) = m ((c : Thread nD τ).loc main_arg8) := (StableHlo.after_of_writes_sub hostOps2 _ hostOps2_writes (by decide)).trans (W4_arg8 m ρ c)
theorem W6_arg8 : W6 m ρ c (Proc.devRef .tc main_arg8) = m ((c : Thread nD τ).loc main_arg8) := (W6_of_ne m ρ c main_arg8 (by decide) (by decide)).trans (W5_arg8 m ρ c)
theorem W7_arg8 : W7 m ρ c (Proc.devRef .tc main_arg8) = m ((c : Thread nD τ).loc main_arg8) := (StableHlo.after_of_writes_sub hostOps3 _ hostOps3_writes (by decide)).trans (W6_arg8 m ρ c)
theorem W8_arg8 : W8 m ρ c (Proc.devRef .tc main_arg8) = m ((c : Thread nD τ).loc main_arg8) := (W8_of_ne m ρ c main_arg8 (by decide)).trans (W7_arg8 m ρ c)
theorem W9_arg8 : W9 m ρ c (Proc.devRef .tc main_arg8) = m ((c : Thread nD τ).loc main_arg8) := (StableHlo.after_of_writes_sub hostOps4 _ hostOps4_writes (by decide)).trans (W8_arg8 m ρ c)
theorem W10_arg8 : W10 m ρ c (Proc.devRef .tc main_arg8) = m ((c : Thread nD τ).loc main_arg8) := (W10_of_ne m ρ c main_arg8 (by decide)).trans (W9_arg8 m ρ c)
theorem W11_arg8 : W11 m ρ c (Proc.devRef .tc main_arg8) = m ((c : Thread nD τ).loc main_arg8) := (StableHlo.after_of_writes_sub hostOps5 _ hostOps5_writes (by decide)).trans (W10_arg8 m ρ c)
theorem W12_arg8 : W12 m ρ c (Proc.devRef .tc main_arg8) = m ((c : Thread nD τ).loc main_arg8) := (W12_of_ne m ρ c main_arg8 (by decide)).trans (W11_arg8 m ρ c)

end Cert.KernelIdeal.Run

end
-- ==== Proof.KI.Fold.lean ====
/-
  The kernel's two results as functions of its arguments. The fold of the run is read back stage by stage: a host
  stretch applies its operations — the propagate step (gather, scale, scatter-add) is carried as ONE function
  `kerProp`, never opened —, a reweighting call leaves in its two output arrays, row by row, the cosine-weighted
  update and the running sum. Four layers from the embedding table, then the two slices.
-/
import proofs.«124407_j40681930228297_2_alg».proof.Proof.Gen.KernelIdeal.Launch
import proofs.«124407_j40681930228297_2_alg».proof.Proof.Gen.KernelIdeal.Skeleton
import proofs.«124407_j40681930228297_2_alg».proof.Proof.Gen.KernelIdeal.Points
import proofs.«124407_j40681930228297_2_alg».proof.Proof.KI.Run
import proofs.«124407_j40681930228297_2_alg».proof.Proof.KI.Fin2
import proofs.«124407_j40681930228297_2_alg».proof.Proof.KI.Fin3
import proofs.«124407_j40681930228297_2_alg».proof.Proof.KI.Fin4
import proofs.«124407_j40681930228297_2_alg».proof.Proof.KI.Fin5
import proofs.«124407_j40681930228297_2_alg».proof.Proof.V.Spec
import proofs.«124407_j40681930228297_2_alg».proof.Proof.V.PropSame
import proofs.«124407_j40681930228297_2_alg».proof.Proof.KI.Host
import proofs.«124407_j40681930228297_2_alg».proof.Proof.KI.Args
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen Cert.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg) (c : Dev nD)

/-! ### Layer 1 (call 2) -/

theorem ego_at5 : W5 m ρ c (Proc.devRef .tc main_v10) = W5 m ρ c (Proc.devRef .tc main_v10) := rfl
theorem ego_at6 : W6 m ρ c (Proc.devRef .tc main_v10) = W5 m ρ c (Proc.devRef .tc main_v10) := (W6_of_ne m ρ c main_v10 (by decide) (by decide)).trans (ego_at5 m ρ c)
theorem xnew_at5 : W5 m ρ c (Proc.devRef .tc main_v23) = kerProp (m ((c : Thread nD τ).loc main_arg0)) (m ((c : Thread nD τ).loc main_arg1)) (m ((c : Thread nD τ).loc main_arg2)) (W5 m ρ c (Proc.devRef .tc main_v10)) := by
  rw [show W5 m ρ c (Proc.devRef .tc main_v10) = kerEgo (W4 m ρ c (Proc.devRef .tc main_v3)) (W4 m ρ c (Proc.devRef .tc main_v9)) from host2_ego (W4 m ρ c)]
  exact (host2_x (W4 m ρ c)).trans (by rw [W4_arg0, W4_arg1, W4_arg2])
theorem x_at6 : W6 m ρ c (Proc.devRef .tc main_v24_0) = (rwX (n := 150000) (W5 m ρ c (Proc.devRef .tc main_v23)) (W5 m ρ c (Proc.devRef .tc main_v10)) : S150000x64.Idx → EReal) :=
  ((hF2 m ρ c 3).symm).trans (final2_3 (U5 m ρ) c)
theorem a_at6 : W6 m ρ c (Proc.devRef .tc main_v24_1) = (rwAcc (n := 150000) (W5 m ρ c (Proc.devRef .tc main_v23)) (W5 m ρ c (Proc.devRef .tc main_v10)) (W5 m ρ c (Proc.devRef .tc main_v10)) : S150000x64.Idx → EReal) :=
  ((hF2 m ρ c 4).symm).trans (final2_4 (U5 m ρ) c)

/-! ### Layer 2 (call 3) -/

theorem ego_at7 : W7 m ρ c (Proc.devRef .tc main_v10) = W5 m ρ c (Proc.devRef .tc main_v10) := (StableHlo.after_of_writes_sub hostOps3 _ hostOps3_writes (by decide)).trans (ego_at6 m ρ c)
theorem ego_at8 : W8 m ρ c (Proc.devRef .tc main_v10) = W5 m ρ c (Proc.devRef .tc main_v10) := ((W8_arr m ρ c 1).trans (((dat3 (U7 m ρ) c).arrAt_in 1 rfl _).trans (A_eq3 (U7 m ρ) c 1))).trans (ego_at7 m ρ c)
theorem acc_at7 : W7 m ρ c (Proc.devRef .tc main_v24_1) = W6 m ρ c (Proc.devRef .tc main_v24_1) := StableHlo.after_of_writes_sub hostOps3 _ hostOps3_writes (by decide)
theorem xnew_at7 : W7 m ρ c (Proc.devRef .tc main_v37) = kerProp (m ((c : Thread nD τ).loc main_arg0)) (m ((c : Thread nD τ).loc main_arg1)) (m ((c : Thread nD τ).loc main_arg2)) (W6 m ρ c (Proc.devRef .tc main_v24_0)) := by
  exact (host3_x (W6 m ρ c)).trans (by rw [W6_arg0, W6_arg1, W6_arg2])
theorem x_at8 : W8 m ρ c (Proc.devRef .tc main_v38_0) = (rwX (n := 150000) (W7 m ρ c (Proc.devRef .tc main_v37)) (W7 m ρ c (Proc.devRef .tc main_v10)) : S150000x64.Idx → EReal) :=
  ((W8_arr m ρ c 3)).trans (final3_3 (U7 m ρ) c)
theorem a_at8 : W8 m ρ c (Proc.devRef .tc main_v38_1) = (rwAcc (n := 150000) (W7 m ρ c (Proc.devRef .tc main_v37)) (W7 m ρ c (Proc.devRef .tc main_v10)) (W7 m ρ c (Proc.devRef .tc main_v24_1)) : S150000x64.Idx → EReal) :=
  ((W8_arr m ρ c 4)).trans (final3_4 (U7 m ρ) c)

/-! ### Layer 3 (call 4) -/

theorem ego_at9 : W9 m ρ c (Proc.devRef .tc main_v10) = W5 m ρ c (Proc.devRef .tc main_v10) := (StableHlo.after_of_writes_sub hostOps4 _ hostOps4_writes (by decide)).trans (ego_at8 m ρ c)
theorem ego_at10 : W10 m ρ c (Proc.devRef .tc main_v10) = W5 m ρ c (Proc.devRef .tc main_v10) := ((W10_arr m ρ c 1).trans (((dat4 (U9 m ρ) c).arrAt_in 1 rfl _).trans (A_eq4 (U9 m ρ) c 1))).trans (ego_at9 m ρ c)
theorem acc_at9 : W9 m ρ c (Proc.devRef .tc main_v38_1) = W8 m ρ c (Proc.devRef .tc main_v38_1) := StableHlo.after_of_writes_sub hostOps4 _ hostOps4_writes (by decide)
theorem xnew_at9 : W9 m ρ c (Proc.devRef .tc main_v51) = kerProp (m ((c : Thread nD τ).loc main_arg0)) (m ((c : Thread nD τ).loc main_arg1)) (m ((c : Thread nD τ).loc main_arg2)) (W8 m ρ c (Proc.devRef .tc main_v38_0)) := by
  exact (host4_x (W8 m ρ c)).trans (by rw [W8_arg0, W8_arg1, W8_arg2])
theorem x_at10 : W10 m ρ c (Proc.devRef .tc main_v52_0) = (rwX (n := 150000) (W9 m ρ c (Proc.devRef .tc main_v51)) (W9 m ρ c (Proc.devRef .tc main_v10)) : S150000x64.Idx → EReal) :=
  ((W10_arr m ρ c 3)).trans (final4_3 (U9 m ρ) c)
theorem a_at10 : W10 m ρ c (Proc.devRef .tc main_v52_1) = (rwAcc (n := 150000) (W9 m ρ c (Proc.devRef .tc main_v51)) (W9 m ρ c (Proc.devRef .tc main_v10)) (W9 m ρ c (Proc.devRef .tc main_v38_1)) : S150000x64.Idx → EReal) :=
  ((W10_arr m ρ c 4)).trans (final4_4 (U9 m ρ) c)

/-! ### Layer 4 (call 5) -/

theorem ego_at11 : W11 m ρ c (Proc.devRef .tc main_v10) = W5 m ρ c (Proc.devRef .tc main_v10) := (StableHlo.after_of_writes_sub hostOps5 _ hostOps5_writes (by decide)).trans (ego_at10 m ρ c)
theorem ego_at12 : W12 m ρ c (Proc.devRef .tc main_v10) = W5 m ρ c (Proc.devRef .tc main_v10) := ((W12_arr m ρ c 1).trans (((dat5 (U11 m ρ) c).arrAt_in 1 rfl _).trans (A_eq5 (U11 m ρ) c 1))).trans (ego_at11 m ρ c)
theorem acc_at11 : W11 m ρ c (Proc.devRef .tc main_v52_1) = W10 m ρ c (Proc.devRef .tc main_v52_1) := StableHlo.after_of_writes_sub hostOps5 _ hostOps5_writes (by decide)
theorem xnew_at11 : W11 m ρ c (Proc.devRef .tc main_v65) = kerProp (m ((c : Thread nD τ).loc main_arg0)) (m ((c : Thread nD τ).loc main_arg1)) (m ((c : Thread nD τ).loc main_arg2)) (W10 m ρ c (Proc.devRef .tc main_v52_0)) := by
  exact (host5_x (W10 m ρ c)).trans (by rw [W10_arg0, W10_arg1, W10_arg2])
theorem x_at12 : W12 m ρ c (Proc.devRef .tc main_v66_0) = (rwX (n := 150000) (W11 m ρ c (Proc.devRef .tc main_v65)) (W11 m ρ c (Proc.devRef .tc main_v10)) : S150000x64.Idx → EReal) :=
  ((W12_arr m ρ c 3)).trans (final5_3 (U11 m ρ) c)
theorem a_at12 : W12 m ρ c (Proc.devRef .tc main_v66_1) = (rwAcc (n := 150000) (W11 m ρ c (Proc.devRef .tc main_v65)) (W11 m ρ c (Proc.devRef .tc main_v10)) (W11 m ρ c (Proc.devRef .tc main_v52_1)) : S150000x64.Idx → EReal) :=
  ((W12_arr m ρ c 4)).trans (final5_4 (U11 m ρ) c)

theorem layer1 : ((W6 m ρ c (Proc.devRef .tc main_v24_0), W6 m ρ c (Proc.devRef .tc main_v24_1)) : (S150000x64.Idx → EReal) × (S150000x64.Idx → EReal))
    = layer (kerProp (m ((c : Thread nD τ).loc main_arg0)) (m ((c : Thread nD τ).loc main_arg1)) (m ((c : Thread nD τ).loc main_arg2)))
        (W5 m ρ c (Proc.devRef .tc main_v10)) (W5 m ρ c (Proc.devRef .tc main_v10), W5 m ρ c (Proc.devRef .tc main_v10)) := by
  rw [x_at6, a_at6, xnew_at5, ego_at5]
  rfl

theorem layer2 : ((W8 m ρ c (Proc.devRef .tc main_v38_0), W8 m ρ c (Proc.devRef .tc main_v38_1)) : (S150000x64.Idx → EReal) × (S150000x64.Idx → EReal))
    = layer (kerProp (m ((c : Thread nD τ).loc main_arg0)) (m ((c : Thread nD τ).loc main_arg1)) (m ((c : Thread nD τ).loc main_arg2)))
        (W5 m ρ c (Proc.devRef .tc main_v10)) (W6 m ρ c (Proc.devRef .tc main_v24_0), W6 m ρ c (Proc.devRef .tc main_v24_1)) := by
  rw [x_at8, a_at8, xnew_at7, ego_at7, acc_at7]
  rfl

theorem layer3 : ((W10 m ρ c (Proc.devRef .tc main_v52_0), W10 m ρ c (Proc.devRef .tc main_v52_1)) : (S150000x64.Idx → EReal) × (S150000x64.Idx → EReal))
    = layer (kerProp (m ((c : Thread nD τ).loc main_arg0)) (m ((c : Thread nD τ).loc main_arg1)) (m ((c : Thread nD τ).loc main_arg2)))
        (W5 m ρ c (Proc.devRef .tc main_v10)) (W8 m ρ c (Proc.devRef .tc main_v38_0), W8 m ρ c (Proc.devRef .tc main_v38_1)) := by
  rw [x_at10, a_at10, xnew_at9, ego_at9, acc_at9]
  rfl

theorem layer4 : ((W12 m ρ c (Proc.devRef .tc main_v66_0), W12 m ρ c (Proc.devRef .tc main_v66_1)) : (S150000x64.Idx → EReal) × (S150000x64.Idx → EReal))
    = layer (kerProp (m ((c : Thread nD τ).loc main_arg0)) (m ((c : Thread nD τ).loc main_arg1)) (m ((c : Thread nD τ).loc main_arg2)))
        (W5 m ρ c (Proc.devRef .tc main_v10)) (W10 m ρ c (Proc.devRef .tc main_v52_0), W10 m ρ c (Proc.devRef .tc main_v52_1)) := by
  rw [x_at12, a_at12, xnew_at11, ego_at11, acc_at11]
  rfl

/-- After the four layers the running sum is the specification's, from the embedding table. -/
theorem acc_final : W12 m ρ c (Proc.devRef .tc main_v66_1)
    = acc4 (kerProp (m ((c : Thread nD τ).loc main_arg0)) (m ((c : Thread nD τ).loc main_arg1)) (m ((c : Thread nD τ).loc main_arg2)))
        (W5 m ρ c (Proc.devRef .tc main_v10)) :=
  (congrArg Prod.snd (layer4 m ρ c)).trans (by rw [layer3 m ρ c, layer2 m ρ c, layer1 m ρ c]; rfl)

end Cert.KernelIdeal.Run

end
-- ==== Proof.V.Pay0.lean ====
/-
  The user kernel's stored value, read at one entry (p, q) of a block of 10000 rows: the feature entry plus entry q
  of the one-row operand, which the body lays along every row.
-/
import proofs.«124407_j40681930228297_2_alg».proof.Proof.Gen.KernelIdeal.Skeleton
import proofs.«124407_j40681930228297_2_alg».proof.Proof.V.Spec
import Idealize.ShloMosaic.Lib.ValueLayout
import Idealize.ShloMosaic.PureOps.Ideal.Laws

noncomputable section

open scoped BigOperators

namespace Cert.Val

open Idealize.ShloMosaic Idealize.ShloMosaic.ValueIdx

/-- The stored value at `(p, q)`. -/
theorem k0_pay1_ix2 (x0 : Vec Ideal Cert.KernelIdeal.S10000x64 .f32) (x1 : Vec Ideal Cert.KernelIdeal.S1x64 .f32)
    (p : Fin 10000) (q : Fin 64) :
    Cert.KernelIdeal.Gen.k0_pay1 (F := Ideal) x0 x1 (ix2 p q) = x0 (ix2 p q) + x1 (ix2 (0 : Fin 1) q) := by
  unfold Cert.KernelIdeal.Gen.k0_pay1
  simp only [shapeCast_self]
  rw [addf_apply, broadcastTo_1b_ab_apply]

end Cert.Val

end
-- ==== Proof.V.Pay1.lean ====
/-
  The item kernel's stored value, read at one entry (p, q) of a block of 10000 rows: `tanh` of the row's product
  with column q of the second operand (a sum over the 384 contracted coordinates, accumulated from zero) plus entry
  q of the bias row, plus entry q of the fourth operand's row.
-/
import proofs.«124407_j40681930228297_2_alg».proof.Proof.Gen.KernelIdeal.Skeleton
import proofs.«124407_j40681930228297_2_alg».proof.Proof.V.Spec
import Idealize.ShloMosaic.Lib.ValueLayout
import Idealize.ShloMosaic.PureOps.Ideal.Laws

noncomputable section

open scoped BigOperators

namespace Cert.Val

open Idealize.ShloMosaic Idealize.ShloMosaic.ValueIdx

/-- The kernel's contraction: rows of the first operand against columns of the second. -/
abbrev itemDot := Cert.KernelIdeal.dot_S10000x384_S384x64_S10000x64_1_0_0_1_n_n

theorem itemDot_lhs0 (i : Cert.KernelIdeal.S10000x64.Idx) (k : itemDot.contr.Idx) :
    (itemDot.lhsIdx i k 0).val = (i 0).val := by
  unfold DotDims.lhsIdx
  rw [dif_neg (show ¬(0 : Fin Cert.KernelIdeal.S10000x384.rank) ∈ itemDot.lhsBatch by decide),
    dif_pos (show (0 : Fin Cert.KernelIdeal.S10000x384.rank) ∈ itemDot.lhsNonContracting by decide)]
  rfl

theorem itemDot_lhs1 (i : Cert.KernelIdeal.S10000x64.Idx) (k : itemDot.contr.Idx) :
    (itemDot.lhsIdx i k 1).val = (k ⟨0, by decide⟩).val :=
  itemDot.lhsIdx_val_of_single rfl i k

theorem itemDot_rhs0 (i : Cert.KernelIdeal.S10000x64.Idx) (k : itemDot.contr.Idx) :
    (itemDot.rhsIdx i k 0).val = (k ⟨0, by decide⟩).val :=
  itemDot.rhsIdx_val_of_single rfl i k

theorem itemDot_rhs1 (i : Cert.KernelIdeal.S10000x64.Idx) (k : itemDot.contr.Idx) :
    (itemDot.rhsIdx i k 1).val = (i 1).val := by
  unfold DotDims.rhsIdx
  rw [dif_neg (show ¬(1 : Fin Cert.KernelIdeal.S384x64.rank) ∈ itemDot.rhsBatch by decide),
    dif_pos (show (1 : Fin Cert.KernelIdeal.S384x64.rank) ∈ itemDot.rhsNonContracting by decide)]
  rfl

/-- The product accumulated from zero, at `(p, q)`: the sum over the contracted coordinate. -/
theorem itemDot_apply (l : FVec Ideal Cert.KernelIdeal.S10000x384 .bf16) (r : FVec Ideal Cert.KernelIdeal.S384x64 .bf16)
    (p : Fin 10000) (q : Fin 64) :
    matmul (F := Ideal) itemDot none l r (constant Cert.KernelIdeal.S10000x64 .f32 0x00000000#32) (ix2 p q)
      = ∑ k : Fin 384, l (ix2 p k) * r (ix2 k q) := by
  simp only [matmul]
  rw [Ideal.matmul_constant_zero_apply, ← Equiv.sum_comp (contrEquiv1 itemDot 384 rfl rfl).symm]
  refine Finset.sum_congr rfl fun k _ => ?_
  have hk := contrEquiv1_symm_val itemDot 384 rfl rfl k
  have el : itemDot.lhsIdx (ix2 p q) ((contrEquiv1 itemDot 384 rfl rfl).symm k) = ix2 p k :=
    funext fun a => Fin.ext (by
      match a with
      | ⟨0, _⟩ => exact itemDot_lhs0 _ _
      | ⟨1, _⟩ => exact (itemDot_lhs1 _ _).trans hk)
  have er : itemDot.rhsIdx (ix2 p q) ((contrEquiv1 itemDot 384 rfl rfl).symm k) = ix2 k q :=
    funext fun a => Fin.ext (by
      match a with
      | ⟨0, _⟩ => exact (itemDot_rhs0 _ _).trans hk
      | ⟨1, _⟩ => exact itemDot_rhs1 _ _)
  rw [el, er]

/-- `math.tanh` of a vector at an index, at the ideal values. -/
theorem tanh_apply {s : Shape} {φ : FTy} (a : FVec Ideal s φ) (i : s.Idx) : tanh a i = Ideal.tanh (a i) := rfl

/-- The stored value at `(p, q)`. -/
theorem k1_pay1_ix2 (v0 : Vec Ideal Cert.KernelIdeal.S10000x384 .bf16) (v2 : Vec Ideal Cert.KernelIdeal.S384x64 .bf16)
    (v5 v11 : Vec Ideal Cert.KernelIdeal.S1x64 .f32) (p : Fin 10000) (q : Fin 64) :
    Cert.KernelIdeal.Gen.k1_pay1 (F := Ideal) v0 v2 v5 v11 (ix2 p q)
      = Ideal.tanh ((∑ k : Fin 384, v0 (ix2 p k) * v2 (ix2 k q)) + v5 (ix2 (0 : Fin 1) q)) + v11 (ix2 (0 : Fin 1) q) := by
  unfold Cert.KernelIdeal.Gen.k1_pay1
  simp only [shapeCast_self]
  rw [addf_apply, broadcastTo_1b_ab_apply]
  rw [tanh_apply, addf_apply, broadcastTo_1b_ab_apply, itemDot_apply]

end Cert.Val

end
-- ==== Proof.V.Blocks.lean ====
/-
  A row of a block is a row of the array: each kernel's stored value at entry (p, q) of a block, given only that the
  block's row p holds row r of the array(s) it was cut from, is the specification at (r, q). The first two kernels
  take operands the host prepared — the summed table reshaped to one row, the weights transposed (and narrowed, the
  identity at the ideal values), the bias reshaped to one row — read here at an index.
-/
import proofs.«124407_j40681930228297_2_alg».proof.Proof.V.Pay0
import proofs.«124407_j40681930228297_2_alg».proof.Proof.V.Pay1
import proofs.«124407_j40681930228297_2_alg».proof.Proof.V.Pay2

noncomputable section

open scoped BigOperators

namespace Cert.Val

open Cert.KernelIdeal Cert.KernelIdeal.Gen Idealize.ShloMosaic Idealize.ShloMosaic.ValueIdx

/-! ## The operands the host prepares -/

/-- The three-row table summed over its rows, as a one-row array. -/
def kerGsum (g : FVec Ideal S3x64 .f32) : FVec Ideal S1x64 .f32 :=
  shapeCast S1x64
    (Host.reduceAdd (F := Ideal) g (constant (F := Ideal) S_ .f32 0x00000000#32) reducesTo_S3x64_S64_d0 h_S_)
    shapeCasts_S64_S1x64

theorem kerGsum_apply (g : FVec Ideal S3x64 .f32) (u : Fin 1) (q : Fin 64) : kerGsum g (ix2 u q) = colSum3 g q := by
  unfold kerGsum
  rw [shapeCast_a_1a_apply]
  simp only [Host.reduceAdd, Ideal.hostReduceAdd_def]
  rw [Ideal.hostReduceAdd_single reducesTo_S3x64_S64_d0 (by decide)]
  show Ideal.ofBits .f32 0x00000000#32 + _ = _
  rw [Ideal.ofBits_zero_f32, zero_add]
  unfold colSum3
  refine Finset.sum_congr rfl fun k _ => congrArg g ?_
  funext a
  match a with
  | ⟨0, _⟩ => rfl
  | ⟨1, _⟩ => rfl

/-- The weights transposed and narrowed. -/
def kerWT (w : FVec Ideal S64x384 .f32) : FVec Ideal S384x64 .bf16 :=
  truncf .bf16 (transpose S384x64 [1, 0] w transposes_S64x384_S384x64_1_0) bitsLt_bf16_f32

theorem kerWT_apply (w : FVec Ideal S64x384 .f32) (k : Fin 384) (q : Fin 64) : kerWT w (ix2 k q) = w (ix2 q k) := by
  unfold kerWT
  rw [truncf_apply]
  exact transpose_ix2_apply w transposes_S64x384_S384x64_1_0 k q

/-- The bias as a one-row array. -/
def kerBias (b : FVec Ideal S64 .f32) : FVec Ideal S1x64 .f32 := shapeCast S1x64 b shapeCasts_S64_S1x64

theorem kerBias_apply (b : FVec Ideal S64 .f32) (u : Fin 1) (q : Fin 64) : kerBias b (ix2 u q) = b (ix1 q) := by
  unfold kerBias
  rw [shapeCast_a_1a_apply]

/-- The item features narrowed: the identity at the ideal values. -/
def kerFea (a : FVec Ideal S50000x384 .f32) : FVec Ideal S50000x384 .bf16 := truncf .bf16 a bitsLt_bf16_f32

theorem kerFea_apply (a : FVec Ideal S50000x384 .f32) (i : S50000x384.Idx) : kerFea a i = a i := rfl

/-! ## A block's row is the array's row -/

/-- The user kernel at `(p, q)` of a block whose entry there is the features' entry `(r, q)`. -/
theorem user_row (fea : Mat 100000 64) (g : Mat 3 64) (x0 : Vec Ideal S10000x64 .f32) (p : Fin 10000) (q : Fin 64)
    (r : Fin 100000) (h0 : x0 (ix2 p q) = fea (ix2 r q)) :
    k0_pay1 (F := Ideal) x0 (kerGsum g) (ix2 p q) = userEmb fea g (ix2 r q) := by
  rw [k0_pay1_ix2, kerGsum_apply, userEmb_ix2, h0]
  rfl

/-- The item kernel at `(p, q)` of a block whose row `p` is the features' row `r`. -/
theorem item_row (fea : Mat 50000 384) (w : Mat 64 384) (b : Arr 64) (g : Mat 3 64) (v0 : Vec Ideal S10000x384 .bf16)
    (p : Fin 10000) (q : Fin 64) (r : Fin 50000) (h0 : ∀ k : Fin 384, v0 (ix2 p k) = fea (ix2 r k)) :
    k1_pay1 (F := Ideal) v0 (kerWT w) (kerBias b) (kerGsum g) (ix2 p q) = itemEmb fea w b g (ix2 r q) := by
  rw [k1_pay1_ix2, itemEmb_ix2, kerBias_apply, kerGsum_apply]
  simp only [h0, kerWT_apply]
  rfl

/-- The reweighting kernel's first stored value at `(p, q)` of blocks whose rows `p` are the arrays' rows `r`. -/
theorem rw_row (X E : Mat 150000 64) (x xe : Vec Ideal S5000x64 .f32) (p : Fin 5000) (q : Fin 64) (r : Fin 150000)
    (hx : ∀ d : Fin 64, x (ix2 p d) = X (ix2 r d)) (he : ∀ d : Fin 64, xe (ix2 p d) = E (ix2 r d)) :
    k2_pay1 (F := Ideal) x xe (ix2 p q) = rwX X E (ix2 r q) := by
  rw [k2_pay1_ix2, rwX_ix2, rwX_ix2, rowCos_congr x xe X E p r hx he, hx q]

/-- Its second stored value likewise. -/
theorem acc_row (X E A : Mat 150000 64) (x xe acc : Vec Ideal S5000x64 .f32) (p : Fin 5000) (q : Fin 64)
    (r : Fin 150000) (hx : ∀ d : Fin 64, x (ix2 p d) = X (ix2 r d)) (he : ∀ d : Fin 64, xe (ix2 p d) = E (ix2 r d))
    (ha : acc (ix2 p q) = A (ix2 r q)) :
    k2_pay2 (F := Ideal) x xe acc (ix2 p q) = rwAcc X E A (ix2 r q) := by
  rw [k2_pay2_ix2, rwAcc_ix2, rwAcc_ix2, rowCos_congr x xe X E p r hx he, hx q, ha]

end Cert.Val

end
-- ==== Proof.KI.HostPrep.lean ====
import proofs.«124407_j40681930228297_2_alg».proof.Proof.Gen.KernelIdeal.Launch
import proofs.«124407_j40681930228297_2_alg».proof.Proof.V.Blocks
import Idealize.ShloMosaic.Lib.StableHlo.Run

/-! # The operands the first two host stretches prepare

Read as functions of the buffers the stretch starts from, whatever those hold: the first stretch sums each of the
two three-row tables over its rows and lays the first sum out as one row; the second narrows the item features,
transposes and narrows the weights, and lays the bias and the second sum out as one row each. -/

set_option maxRecDepth 16384

noncomputable section

namespace Cert.KernelIdeal.Run

open Cert.KernelIdeal Cert.KernelIdeal.Gen Cert.Val
open Idealize.ShloMosaic Idealize.ShloMosaic.TcCoe Idealize.SL.Sem

set_option maxHeartbeats 1000000 in
/-- The first table summed over its rows, as one row. -/
theorem host0_v2 (W : Valuation τ sig (Elt Ideal)) : StableHlo.after hostOps0 W (Proc.devRef .tc main_v2)
    = kerGsum (W (Proc.devRef .tc main_arg5)) := by
  after_results_simp
  unfold kerGsum
  rfl

set_option maxHeartbeats 1000000 in
/-- The second table summed over its rows. -/
theorem host0_v1 (W : Valuation τ sig (Elt Ideal)) : StableHlo.after hostOps0 W (Proc.devRef .tc main_v1)
    = Host.reduceAdd (F := Ideal) (W (Proc.devRef .tc main_arg6)) (constant (F := Ideal) S_ .f32 0x00000000#32)
        reducesTo_S3x64_S64_d0 h_S_ := by
  after_results_simp

set_option maxHeartbeats 1000000 in
/-- The item features narrowed. -/
theorem host1_v4 (W : Valuation τ sig (Elt Ideal)) : StableHlo.after hostOps1 W (Proc.devRef .tc main_v4)
    = kerFea (W (Proc.devRef .tc main_arg4)) := by
  after_results_simp
  unfold kerFea
  rfl

set_option maxHeartbeats 1000000 in
/-- The weights transposed and narrowed. -/
theorem host1_v6 (W : Valuation τ sig (Elt Ideal)) : StableHlo.after hostOps1 W (Proc.devRef .tc main_v6)
    = kerWT (W (Proc.devRef .tc main_arg7)) := by
  after_results_simp
  unfold kerWT
  rfl

set_option maxHeartbeats 1000000 in
/-- The bias as one row. -/
theorem host1_v7 (W : Valuation τ sig (Elt Ideal)) : StableHlo.after hostOps1 W (Proc.devRef .tc main_v7)
    = kerBias (W (Proc.devRef .tc main_arg8)) := by
  after_results_simp
  unfold kerBias
  rfl

set_option maxHeartbeats 1000000 in
/-- The second table's sum as one row. -/
theorem host1_v8 (W : Valuation τ sig (Elt Ideal)) : StableHlo.after hostOps1 W (Proc.devRef .tc main_v8)
    = shapeCast S1x64 (W (Proc.devRef .tc main_v1)) shapeCasts_S64_S1x64 := by
  after_results_simp
  rfl

end Cert.KernelIdeal.Run

end
-- ==== Proof.KI.Fin0.lean ====
import proofs.«124407_j40681930228297_2_alg».proof.Proof.KI.Reg0
import proofs.«124407_j40681930228297_2_alg».proof.Proof.V.Spec
import proofs.«124407_j40681930228297_2_alg».proof.Proof.V.Pay0
import Idealize.ShloMosaic.Lib.Pipeline.Value

/-! # Region 0: the output array entry by entry

At the ideal values, with `V` the buffer contents when the region is entered. Window 0 (the features) and window 2
(the output) are blocks of 10000 rows and all 64 columns, block `t` at grid point `t`; window 1 is the one-row
operand, the same block at every point. The body stores the feature entry plus the entry of the one-row operand in
the same column; so what point `t` writes back is block `t` of that sum over the whole arrays, and the ten blocks
cover the array. -/

noncomputable section

open scoped BigOperators

namespace Cert.KernelIdeal.Gen

open Idealize.ShloMosaic Idealize.ShloMosaic.TcCoe Idealize.SL.Sem Idealize.ShloMosaic.ValueIdx
open Idealize.ShloMosaic.Pipeline (Dat)
open Cert.Val (Mat)

variable (V : (c : Dev nD) → (b : Ref sig .tc) → Buf (Elt Ideal) ((c : Thread nD τ).loc b))

/-- The whole-block rectangles start at the origin. -/
theorem origin0 : (![0, 0] : Fin 2 → Nat) = fun _ => 0 := funext fun a => by fin_cases a <;> rfl

/-- Windows 0 and 2 move down the rows with the grid point, window 1 stays (decided over the ten points). -/
theorem rowBlock0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## Entry `(p, q)` of a block inside its array, window by window -/

theorem blkRow0_0 (t : Fin cfg0.N) (p : Fin 10000) (q : Fin 64) (P : Fin 100000) (hP : P.val = 10000 * t.val + p.val) :
    ((cfg0.win 0).blk t).view.emb (ix2 p q) = (ix2 P q : S100000x64.Idx) := by
  obtain ⟨e0, e1, -⟩ := rowBlock0 t
  funext a; apply Fin.ext
  match a with
  | ⟨0, _⟩ => show win0_0.index t (0 : Fin 2) * 10000 + 1 * p.val = P.val; omega
  | ⟨1, _⟩ => show win0_0.index t (1 : Fin 2) * 64 + 1 * q.val = q.val; omega

theorem blkRow0_1 (t : Fin cfg0.N) (p : Fin 1) (q : Fin 64) :
    ((cfg0.win 1).blk t).view.emb (ix2 p q) = (ix2 p q : S1x64.Idx) := by
  obtain ⟨-, -, e0, e1, -⟩ := rowBlock0 t
  funext a; apply Fin.ext
  match a with
  | ⟨0, _⟩ => show win0_1.index t (0 : Fin 2) * 1 + 1 * p.val = p.val; omega
  | ⟨1, _⟩ => show win0_1.index t (1 : Fin 2) * 64 + 1 * q.val = q.val; omega

theorem blkRow0_2 (t : Fin cfg0.N) (p : Fin 10000) (q : Fin 64) (P : Fin 100000) (hP : P.val = 10000 * t.val + p.val) :
    ((cfg0.win 2).blk t).view.emb (ix2 p q) = (ix2 P q : S100000x64.Idx) := by
  obtain ⟨-, -, -, -, e0, e1⟩ := rowBlock0 t
  funext a; apply Fin.ext
  match a with
  | ⟨0, _⟩ => show win0_2.index t (0 : Fin 2) * 10000 + 1 * p.val = P.val; omega
  | ⟨1, _⟩ => show win0_2.index t (1 : Fin 2) * 64 + 1 * q.val = q.val; omega

/-! ## The input blocks read inside their arrays -/

theorem iblk0_0_apply (c : Dev nD) (t : Fin cfg0.N) (p : Fin 10000) (q : Fin 64) (P : Fin 100000) (hP : P.val = 10000 * t.val + p.val) :
    (iblk0 V c 0 t : Mat 10000 64) (ix2 p q) = (V c main_arg3 : Mat 100000 64) (ix2 P q) := by
  unfold iblk0
  rw [View.read_apply]
  show V c main_arg3 (((cfg0.win 0).blk t).view.emb (ix2 p q)) = V c main_arg3 (ix2 P q)
  exact congrArg (V c main_arg3 : Mat 100000 64) (blkRow0_0 t p q P hP)

theorem iblk0_1_apply (c : Dev nD) (t : Fin cfg0.N) (p : Fin 1) (q : Fin 64) :
    (iblk0 V c 1 t : Mat 1 64) (ix2 p q) = (V c main_v2 : Mat 1 64) (ix2 p q) := by
  unfold iblk0
  rw [View.read_apply]
  show V c main_v2 (((cfg0.win 1).blk t).view.emb (ix2 p q)) = V c main_v2 (ix2 p q)
  exact congrArg (V c main_v2 : Mat 1 64) (blkRow0_1 t p q)

/-- A grid point is below 10, and a row of its block is a row of the array. -/
theorem rowLt0 (t : Fin cfg0.N) (p : Fin 10000) : 10000 * t.val + p.val < 100000 := by
  have h : t.val < cfg0.N := t.isLt
  have hN : cfg0.N = 10 := N_0
  have := p.isLt
  omega

/-! ## What a grid point writes back -/

/-- The features plus a one-row operand laid along every row. -/
def userOut0 (fea : Mat 100000 64) (g : Mat 1 64) : Mat 100000 64 :=
  fun i => fea (ix2 (i 0) (i 1)) + g (ix2 (0 : Fin 1) (i 1))

theorem userOut0_ix2 (fea : Mat 100000 64) (g : Mat 1 64) (p : Fin 100000) (q : Fin 64) :
    userOut0 fea g (ix2 p q) = fea (ix2 p q) + g (ix2 (0 : Fin 1) q) := rfl

/-- A block of 10000 rows plus the one-row operand is the block of the whole array plus it. -/
theorem userOut0_rows (X : Mat 100000 64) (G : Mat 1 64) (x : Mat 10000 64) (g : Mat 1 64) (T : Nat)
    (hx : ∀ (p : Fin 10000) (q : Fin 64) (P : Fin 100000), P.val = 10000 * T + p.val → x (ix2 p q) = X (ix2 P q))
    (hg : ∀ q : Fin 64, g (ix2 (0 : Fin 1) q) = G (ix2 (0 : Fin 1) q))
    (p : Fin 10000) (q : Fin 64) (P : Fin 100000) (hP : P.val = 10000 * T + p.val) :
    x (ix2 p q) + g (ix2 (0 : Fin 1) q) = userOut0 X G (ix2 P q) := by
  rw [userOut0_ix2, hx p q P hP, hg q]

/-- Point `t` writes block `t` of the array. -/
theorem flushed0_2_eq (c : Dev nD) (t : Fin cfg0.N) :
    (dat0 V c).flushed 2 t = ((cfg0.win 2).blk t).view.read (Elt Ideal)
      (userOut0 (V c main_arg3) (V c main_v2) : S100000x64.Idx → EReal) := by
  show (cfg0.win 2).cut (grid0.coords t) ((dat0 V c).after 2 t) = _
  rw [after0_2]
  unfold out0_2
  rw [View.canon_unit_zero origin0]
  simp only [View.ld_unit_zero (S := S10000x64) origin0, View.ld_unit_zero (S := S1x64) origin0]
  funext j
  obtain ⟨p, q, rfl⟩ : ∃ (p : Fin 10000) (q : Fin 64), j = ix2 p q := ⟨j 0, j 1, eq_ix2 j⟩
  show k0_pay1 (F := Ideal) (iblk0 V c 0 t) (iblk0 V c 1 t) (ix2 p q)
    = userOut0 (V c main_arg3) (V c main_v2) (((cfg0.win 2).blk t).view.emb (ix2 p q))
  refine (Cert.Val.k0_pay1_ix2 _ _ p q).trans ?_
  refine (userOut0_rows (V c main_arg3) (V c main_v2) (iblk0 V c 0 t) (iblk0 V c 1 t) t.val
    (fun p q P h => iblk0_0_apply V c t p q P h) (fun q => iblk0_1_apply V c t (0 : Fin 1) q)
    p q ⟨_, rowLt0 t p⟩ rfl).trans ?_
  exact (congrArg (userOut0 (V c main_arg3) (V c main_v2)) (blkRow0_2 t p q ⟨_, rowLt0 t p⟩ rfl)).symm

/-! ## The blocks cover the array -/

/-- An index of window 2's array is in point `t`'s block iff each coordinate is in the block's range on its axis. -/
theorem mem_blk0_2 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v3).slice (win0_2.rect t)).set ↔ _
  rw [View.set_slice_whole, Rect.mem_set_unit]
  exact Iff.rfl

/-- Row `r` is in the block of point `r / 10000`, which writes it back. -/
theorem rows0_2 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 10000 :=
    ⟨⟨(i 0).val / 10000, by rw [show cfg0.N = 10 from N_0]; omega⟩, rfl⟩
  refine ⟨t, flush0_2 t, ?_⟩
  rw [mem_blk0_2]
  obtain ⟨-, -, -, -, e0, e1⟩ := rowBlock0 t
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-! ## The array when the region is left -/

/-- Window 2's array as one function. -/
theorem final0_2_all (c : Dev nD) : (dat0 V c).arrAt 2 cfg0.N
    = (userOut0 (V c main_arg3) (V c main_v2) : S100000x64.Idx → EReal) :=
  (dat0 V c).arrAt_eq_of_cover 2 _ (fun t _ => flushed0_2_eq V c t) rows0_2

/-- Entry by entry. -/
theorem final0_2 (c : Dev nD) (p : Fin 100000) (q : Fin 64) :
    (dat0 V c).arrAt 2 cfg0.N (ix2 p q) = userOut0 (V c main_arg3) (V c main_v2) (ix2 p q) :=
  congrFun (final0_2_all V c) (ix2 p q)

end Cert.KernelIdeal.Gen

end
-- ==== Proof.KI.Fin1.lean ====
import proofs.«124407_j40681930228297_2_alg».proof.Proof.KI.Reg1
import proofs.«124407_j40681930228297_2_alg».proof.Proof.V.Spec
import proofs.«124407_j40681930228297_2_alg».proof.Proof.V.Pay1
import Idealize.ShloMosaic.Lib.Pipeline.Value

/-! # Region 1: the output array entry by entry

At the ideal values, with `V` the buffer contents when the region is entered. Window 0 (the features, 384 columns)
and window 4 (the output, 64 columns) are blocks of 10000 rows and all their columns, block `t` at grid point `t`;
windows 1, 2 and 3 (the projection and the two one-row operands) are whole, the same block at every point. The body
stores `tanh` of the row's product with a column of the projection plus the first one-row operand, plus the second;
so what point `t` writes back is block `t` of that expression over the whole arrays, and the five blocks cover the
array. -/

noncomputable section

open scoped BigOperators

namespace Cert.KernelIdeal.Gen

open Idealize.ShloMosaic Idealize.ShloMosaic.TcCoe Idealize.SL.Sem Idealize.ShloMosaic.ValueIdx
open Idealize.ShloMosaic.Pipeline (Dat)
open Cert.Val (Mat)

variable (V : (c : Dev nD) → (b : Ref sig .tc) → Buf (Elt Ideal) ((c : Thread nD τ).loc b))

/-- The whole-block rectangles start at the origin. -/
theorem origin1 : (![0, 0] : Fin 2 → Nat) = fun _ => 0 := funext fun a => by fin_cases a <;> rfl

/-- Windows 0 and 4 move down the rows with the grid point, windows 1, 2 and 3 stay (decided over the five points). -/
theorem rowBlock1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-! ## Entry `(p, q)` of a block inside its array, window by window -/

theorem blkRow1_0 (t : Fin cfg1.N) (p : Fin 10000) (q : Fin 384) (P : Fin 50000) (hP : P.val = 10000 * t.val + p.val) :
    ((cfg1.win 0).blk t).view.emb (ix2 p q) = (ix2 P q : S50000x384.Idx) := by
  obtain ⟨e0, e1, -⟩ := rowBlock1 t
  funext a; apply Fin.ext
  match a with
  | ⟨0, _⟩ => show win1_0.index t (0 : Fin 2) * 10000 + 1 * p.val = P.val; omega
  | ⟨1, _⟩ => show win1_0.index t (1 : Fin 2) * 384 + 1 * q.val = q.val; omega

theorem blkRow1_1 (t : Fin cfg1.N) (p : Fin 384) (q : Fin 64) :
    ((cfg1.win 1).blk t).view.emb (ix2 p q) = (ix2 p q : S384x64.Idx) := by
  obtain ⟨-, -, e0, e1, -⟩ := rowBlock1 t
  funext a; apply Fin.ext
  match a with
  | ⟨0, _⟩ => show win1_1.index t (0 : Fin 2) * 384 + 1 * p.val = p.val; omega
  | ⟨1, _⟩ => show win1_1.index t (1 : Fin 2) * 64 + 1 * q.val = q.val; omega

theorem blkRow1_2 (t : Fin cfg1.N) (p : Fin 1) (q : Fin 64) :
    ((cfg1.win 2).blk t).view.emb (ix2 p q) = (ix2 p q : S1x64.Idx) := by
  obtain ⟨-, -, -, -, e0, e1, -⟩ := rowBlock1 t
  funext a; apply Fin.ext
  match a with
  | ⟨0, _⟩ => show win1_2.index t (0 : Fin 2) * 1 + 1 * p.val = p.val; omega
  | ⟨1, _⟩ => show win1_2.index t (1 : Fin 2) * 64 + 1 * q.val = q.val; omega

theorem blkRow1_3 (t : Fin cfg1.N) (p : Fin 1) (q : Fin 64) :
    ((cfg1.win 3).blk t).view.emb (ix2 p q) = (ix2 p q : S1x64.Idx) := by
  obtain ⟨-, -, -, -, -, -, e0, e1, -⟩ := rowBlock1 t
  funext a; apply Fin.ext
  match a with
  | ⟨0, _⟩ => show win1_3.index t (0 : Fin 2) * 1 + 1 * p.val = p.val; omega
  | ⟨1, _⟩ => show win1_3.index t (1 : Fin 2) * 64 + 1 * q.val = q.val; omega

theorem blkRow1_4 (t : Fin cfg1.N) (p : Fin 10000) (q : Fin 64) (P : Fin 50000) (hP : P.val = 10000 * t.val + p.val) :
    ((cfg1.win 4).blk t).view.emb (ix2 p q) = (ix2 P q : S50000x64.Idx) := by
  obtain ⟨-, -, -, -, -, -, -, -, e0, e1⟩ := rowBlock1 t
  funext a; apply Fin.ext
  match a with
  | ⟨0, _⟩ => show win1_4.index t (0 : Fin 2) * 10000 + 1 * p.val = P.val; omega
  | ⟨1, _⟩ => show win1_4.index t (1 : Fin 2) * 64 + 1 * q.val = q.val; omega

/-! ## The input blocks read inside their arrays -/

theorem iblk1_0_apply (c : Dev nD) (t : Fin cfg1.N) (p : Fin 10000) (q : Fin 384) (P : Fin 50000) (hP : P.val = 10000 * t.val + p.val) :
    (iblk1 V c 0 t : Mat 10000 384) (ix2 p q) = (V c main_v4 : Mat 50000 384) (ix2 P q) := by
  unfold iblk1
  rw [View.read_apply]
  show V c main_v4 (((cfg1.win 0).blk t).view.emb (ix2 p q)) = V c main_v4 (ix2 P q)
  exact congrArg (V c main_v4 : Mat 50000 384) (blkRow1_0 t p q P hP)

theorem iblk1_1_apply (c : Dev nD) (t : Fin cfg1.N) (p : Fin 384) (q : Fin 64) :
    (iblk1 V c 1 t : Mat 384 64) (ix2 p q) = (V c main_v6 : Mat 384 64) (ix2 p q) := by
  unfold iblk1
  rw [View.read_apply]
  show V c main_v6 (((cfg1.win 1).blk t).view.emb (ix2 p q)) = V c main_v6 (ix2 p q)
  exact congrArg (V c main_v6 : Mat 384 64) (blkRow1_1 t p q)

theorem iblk1_2_apply (c : Dev nD) (t : Fin cfg1.N) (p : Fin 1) (q : Fin 64) :
    (iblk1 V c 2 t : Mat 1 64) (ix2 p q) = (V c main_v7 : Mat 1 64) (ix2 p q) := by
  unfold iblk1
  rw [View.read_apply]
  show V c main_v7 (((cfg1.win 2).blk t).view.emb (ix2 p q)) = V c main_v7 (ix2 p q)
  exact congrArg (V c main_v7 : Mat 1 64) (blkRow1_2 t p q)

theorem iblk1_3_apply (c : Dev nD) (t : Fin cfg1.N) (p : Fin 1) (q : Fin 64) :
    (iblk1 V c 3 t : Mat 1 64) (ix2 p q) = (V c main_v8 : Mat 1 64) (ix2 p q) := by
  unfold iblk1
  rw [View.read_apply]
  show V c main_v8 (((cfg1.win 3).blk t).view.emb (ix2 p q)) = V c main_v8 (ix2 p q)
  exact congrArg (V c main_v8 : Mat 1 64) (blkRow1_3 t p q)

/-- A grid point is below 5, and a row of its block is a row of the array. -/
theorem rowLt1 (t : Fin cfg1.N) (p : Fin 10000) : 10000 * t.val + p.val < 50000 := by
  have h : t.val < cfg1.N := t.isLt
  have hN : cfg1.N = 5 := N_1
  have := p.isLt
  omega

/-! ## What a grid point writes back -/

/-- `tanh` of the projected features plus a one-row operand, plus a second one-row operand. -/
def itemOut1 (fea : Mat 50000 384) (w : Mat 384 64) (b g : Mat 1 64) : Mat 50000 64 :=
  fun i => Ideal.tanh ((∑ k : Fin 384, fea (ix2 (i 0) k) * w (ix2 k (i 1))) + b (ix2 (0 : Fin 1) (i 1)))
    + g (ix2 (0 : Fin 1) (i 1))

theorem itemOut1_ix2 (fea : Mat 50000 384) (w : Mat 384 64) (b g : Mat 1 64) (p : Fin 50000) (q : Fin 64) :
    itemOut1 fea w b g (ix2 p q)
      = Ideal.tanh ((∑ k : Fin 384, fea (ix2 p k) * w (ix2 k q)) + b (ix2 (0 : Fin 1) q)) + g (ix2 (0 : Fin 1) q) := rfl

/-- The expression on a block of 10000 rows is the block of the expression on the whole array. -/
theorem itemOut1_rows (X : Mat 50000 384) (W : Mat 384 64) (B G : Mat 1 64)
    (x : Mat 10000 384) (w : Mat 384 64) (b g : Mat 1 64) (T : Nat)
    (hx : ∀ (p : Fin 10000) (k : Fin 384) (P : Fin 50000), P.val = 10000 * T + p.val → x (ix2 p k) = X (ix2 P k))
    (hw : ∀ (k : Fin 384) (q : Fin 64), w (ix2 k q) = W (ix2 k q))
    (hb : ∀ q : Fin 64, b (ix2 (0 : Fin 1) q) = B (ix2 (0 : Fin 1) q))
    (hg : ∀ q : Fin 64, g (ix2 (0 : Fin 1) q) = G (ix2 (0 : Fin 1) q))
    (p : Fin 10000) (q : Fin 64) (P : Fin 50000) (hP : P.val = 10000 * T + p.val) :
    Ideal.tanh ((∑ k : Fin 384, x (ix2 p k) * w (ix2 k q)) + b (ix2 (0 : Fin 1) q)) + g (ix2 (0 : Fin 1) q)
      = itemOut1 X W B G (ix2 P q) := by
  have hx' : ∀ k : Fin 384, x (ix2 p k) = X (ix2 P k) := fun k => hx p k P hP
  rw [itemOut1_ix2]
  simp only [hx', hw, hb, hg]

/-- Point `t` writes block `t` of the array. -/
theorem flushed1_4_eq (c : Dev nD) (t : Fin cfg1.N) :
    (dat1 V c).flushed 4 t = ((cfg1.win 4).blk t).view.read (Elt Ideal)
      (itemOut1 (V c main_v4) (V c main_v6) (V c main_v7) (V c main_v8) : S50000x64.Idx → EReal) := by
  show (cfg1.win 4).cut (grid1.coords t) ((dat1 V c).after 4 t) = _
  rw [after1_4]
  unfold out1_4
  rw [View.canon_unit_zero origin1]
  simp only [View.ld_unit_zero (S := S10000x384) origin1, View.ld_unit_zero (S := S384x64) origin1,
    View.ld_unit_zero (S := S1x64) origin1]
  funext j
  obtain ⟨p, q, rfl⟩ : ∃ (p : Fin 10000) (q : Fin 64), j = ix2 p q := ⟨j 0, j 1, eq_ix2 j⟩
  show k1_pay1 (F := Ideal) (iblk1 V c 0 t) (iblk1 V c 1 t) (iblk1 V c 2 t) (iblk1 V c 3 t) (ix2 p q)
    = itemOut1 (V c main_v4) (V c main_v6) (V c main_v7) (V c main_v8) (((cfg1.win 4).blk t).view.emb (ix2 p q))
  refine (Cert.Val.k1_pay1_ix2 _ _ _ _ p q).trans ?_
  refine (itemOut1_rows (V c main_v4) (V c main_v6) (V c main_v7) (V c main_v8)
    (iblk1 V c 0 t) (iblk1 V c 1 t) (iblk1 V c 2 t) (iblk1 V c 3 t) t.val
    (fun p k P h => iblk1_0_apply V c t p k P h) (fun k q => iblk1_1_apply V c t k q)
    (fun q => iblk1_2_apply V c t (0 : Fin 1) q) (fun q => iblk1_3_apply V c t (0 : Fin 1) q)
    p q ⟨_, rowLt1 t p⟩ rfl).trans ?_
  exact (congrArg (itemOut1 (V c main_v4) (V c main_v6) (V c main_v7) (V c main_v8))
    (blkRow1_4 t p q ⟨_, rowLt1 t p⟩ rfl)).symm

/-! ## The blocks cover the array -/

/-- An index of window 4's array is in point `t`'s block iff each coordinate is in the block's range on its axis. -/
theorem mem_blk1_4 (t : Fin cfg1.N) (i : S50000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v9).slice (win1_4.rect t)).set ↔ _
  rw [View.set_slice_whole, Rect.mem_set_unit]
  exact Iff.rfl

/-- Row `r` is in the block of point `r / 10000`, which writes it back. -/
theorem rows1_4 (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ : ∃ t : Fin cfg1.N, t.val = (i 0).val / 10000 :=
    ⟨⟨(i 0).val / 10000, by rw [show cfg1.N = 5 from N_1]; omega⟩, rfl⟩
  refine ⟨t, flush1_4 t, ?_⟩
  rw [mem_blk1_4]
  obtain ⟨-, -, -, -, -, -, -, -, e0, e1⟩ := rowBlock1 t
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 64 ≤ (i 1).val ∧ (i 1).val < win1_4.index t (1 : Fin 2) * 64 + 64; omega

/-! ## The array when the region is left -/

/-- Window 4's array as one function. -/
theorem final1_4_all (c : Dev nD) : (dat1 V c).arrAt 4 cfg1.N
    = (itemOut1 (V c main_v4) (V c main_v6) (V c main_v7) (V c main_v8) : S50000x64.Idx → EReal) :=
  (dat1 V c).arrAt_eq_of_cover 4 _ (fun t _ => flushed1_4_eq V c t) rows1_4

/-- Entry by entry. -/
theorem final1_4 (c : Dev nD) (p : Fin 50000) (q : Fin 64) :
    (dat1 V c).arrAt 4 cfg1.N (ix2 p q)
      = itemOut1 (V c main_v4) (V c main_v6) (V c main_v7) (V c main_v8) (ix2 p q) :=
  congrFun (final1_4_all V c) (ix2 p q)

end Cert.KernelIdeal.Gen

end
-- ==== Proof.KI.Ego.lean ====
import proofs.«124407_j40681930228297_2_alg».proof.Proof.KI.Run
import proofs.«124407_j40681930228297_2_alg».proof.Proof.KI.Args
import proofs.«124407_j40681930228297_2_alg».proof.Proof.KI.Host
import proofs.«124407_j40681930228297_2_alg».proof.Proof.KI.HostPrep
import proofs.«124407_j40681930228297_2_alg».proof.Proof.KI.Fin0
import proofs.«124407_j40681930228297_2_alg».proof.Proof.KI.Fin1
import proofs.«124407_j40681930228297_2_alg».proof.Proof.V.Blocks
import proofs.«124407_j40681930228297_2_alg».proof.Proof.V.PropSame

/-! # The embedding table the first reweighting call is entered with

At the ideal values. The first pallas_call leaves the user embedding (the features plus the first table summed
over its rows), the second the item embedding (`tanh` of the projected features plus the bias, plus the second
table's sum); the host stretch before the third call stacks the two. Each call's output array is read as one
function of its input arrays, the operands the host prepared are read at an index, and the arguments are read back
to the launch memory. -/

set_option maxRecDepth 16384

noncomputable section

open scoped BigOperators

namespace Cert.KernelIdeal.Run

open Cert.KernelIdeal Cert.KernelIdeal.Gen Cert.Val
open Idealize.ShloMosaic Idealize.ShloMosaic.TcCoe Idealize.SL.Sem Idealize.ShloMosaic.ValueIdx

/-! ## The two calls' formulas on the prepared operands are the two embeddings -/

/-- The features plus the summed table laid along every row is the user embedding. -/
theorem userOut0_prepared (fea : Mat 100000 64) (g : Mat 3 64) : userOut0 fea (kerGsum g) = userEmb fea g := by
  funext i
  obtain ⟨p, q, rfl⟩ : ∃ (p : Fin 100000) (q : Fin 64), i = ix2 p q := ⟨i 0, i 1, eq_ix2 i⟩
  rw [userOut0_ix2, kerGsum_apply, userEmb_ix2]
  rfl

/-- The item call's formula on the narrowed features, the transposed weights, the bias row and the summed table's
    row is the item embedding. -/
theorem itemOut1_prepared (fea : Mat 50000 384) (w : Mat 64 384) (b : Arr 64) (g : Mat 3 64) :
    itemOut1 (kerFea fea) (kerWT w) (kerBias b) (kerGsum g) = itemEmb fea w b g := by
  funext i
  obtain ⟨p, q, rfl⟩ : ∃ (p : Fin 50000) (q : Fin 64), i = ix2 p q := ⟨i 0, i 1, eq_ix2 i⟩
  rw [itemOut1_ix2, itemEmb_ix2, kerBias_apply, kerGsum_apply]
  simp only [kerFea_apply, kerWT_apply]
  rfl

variable (m : (ℓ : Loc nD τ sig) → Buf (Elt Ideal) ℓ) (ρ : Dev nD → PrngReg) (c : Dev nD)

/-! ## The first call's operands and output -/

/-- The one-row operand the first call is entered with. -/
theorem W1_v2 : W1 m ρ c (Proc.devRef .tc main_v2) = kerGsum (m ((c : Thread nD τ).loc main_arg5)) :=
  host0_v2 (W0 m ρ c)

/-- The second table's sum after the first host stretch. -/
theorem W1_v1 : W1 m ρ c (Proc.devRef .tc main_v1)
    = Host.reduceAdd (F := Ideal) (m ((c : Thread nD τ).loc main_arg6)) (constant (F := Ideal) S_ .f32 0x00000000#32)
        reducesTo_S3x64_S64_d0 h_S_ :=
  host0_v1 (W0 m ρ c)

/-- The first call leaves the user embedding. -/
theorem W2_v3 : W2 m ρ c (Proc.devRef .tc main_v3)
    = userEmb (m ((c : Thread nD τ).loc main_arg3)) (m ((c : Thread nD τ).loc main_arg5)) := by
  refine (W2_arr m ρ c 2).trans ?_
  refine (final0_2_all (U1 m ρ) c).trans ?_
  rw [show U1 m ρ c main_arg3 = m ((c : Thread nD τ).loc main_arg3) from W1_arg3 m ρ c,
    show U1 m ρ c main_v2 = kerGsum (m ((c : Thread nD τ).loc main_arg5)) from W1_v2 m ρ c]
  exact userOut0_prepared _ _

/-! ## The second call's operands and output -/

theorem W3_v4 : W3 m ρ c (Proc.devRef .tc main_v4) = kerFea (m ((c : Thread nD τ).loc main_arg4)) :=
  (host1_v4 (W2 m ρ c)).trans (congrArg kerFea (W2_arg4 m ρ c))

theorem W3_v6 : W3 m ρ c (Proc.devRef .tc main_v6) = kerWT (m ((c : Thread nD τ).loc main_arg7)) :=
  (host1_v6 (W2 m ρ c)).trans (congrArg kerWT (W2_arg7 m ρ c))

theorem W3_v7 : W3 m ρ c (Proc.devRef .tc main_v7) = kerBias (m ((c : Thread nD τ).loc main_arg8)) :=
  (host1_v7 (W2 m ρ c)).trans (congrArg kerBias (W2_arg8 m ρ c))

/-- The first call does not write the second table's sum. -/
theorem W2_v1 : W2 m ρ c (Proc.devRef .tc main_v1)
    = Host.reduceAdd (F := Ideal) (m ((c : Thread nD τ).loc main_arg6)) (constant (F := Ideal) S_ .f32 0x00000000#32)
        reducesTo_S3x64_S64_d0 h_S_ :=
  (W2_of_ne m ρ c main_v1 (by decide)).trans (W1_v1 m ρ c)

theorem W3_v8 : W3 m ρ c (Proc.devRef .tc main_v8) = kerGsum (m ((c : Thread nD τ).loc main_arg6)) := by
  refine (host1_v8 (W2 m ρ c)).trans ?_
  rw [W2_v1 m ρ c]
  rfl

/-- The second call leaves the item embedding. -/
theorem W4_v9 : W4 m ρ c (Proc.devRef .tc main_v9)
    = itemEmb (m ((c : Thread nD τ).loc main_arg4)) (m ((c : Thread nD τ).loc main_arg7))
        (m ((c : Thread nD τ).loc main_arg8)) (m ((c : Thread nD τ).loc main_arg6)) := by
  refine (W4_arr m ρ c 4).trans ?_
  refine (final1_4_all (U3 m ρ) c).trans ?_
  rw [show U3 m ρ c main_v4 = kerFea (m ((c : Thread nD τ).loc main_arg4)) from W3_v4 m ρ c,
    show U3 m ρ c main_v6 = kerWT (m ((c : Thread nD τ).loc main_arg7)) from W3_v6 m ρ c,
    show U3 m ρ c main_v7 = kerBias (m ((c : Thread nD τ).loc main_arg8)) from W3_v7 m ρ c,
    show U3 m ρ c main_v8 = kerGsum (m ((c : Thread nD τ).loc main_arg6)) from W3_v8 m ρ c]
  exact itemOut1_prepared _ _ _ _

/-- The user embedding is still there when the second call is left. -/
theorem W4_v3 : W4 m ρ c (Proc.devRef .tc main_v3)
    = userEmb (m ((c : Thread nD τ).loc main_arg3)) (m ((c : Thread nD τ).loc main_arg5)) :=
  ((W4_of_ne m ρ c main_v3 (by decide)).trans
    (StableHlo.after_of_writes_sub hostOps1 _ hostOps1_writes (by decide))).trans (W2_v3 m ρ c)

/-! ## The stacked table -/

/-- The embedding table the third call is entered with: the user embedding stacked on the item embedding. -/
theorem ego_eq : W5 m ρ c (Proc.devRef .tc main_v10)
    = ego (userEmb (m ((c : Thread nD τ).loc main_arg3)) (m ((c : Thread nD τ).loc main_arg5)))
        (itemEmb (m ((c : Thread nD τ).loc main_arg4)) (m ((c : Thread nD τ).loc main_arg7))
          (m ((c : Thread nD τ).loc main_arg8)) (m ((c : Thread nD τ).loc main_arg6))) := by
  refine (host2_ego (W4 m ρ c)).trans ?_
  rw [W4_v3 m ρ c, W4_v9 m ρ c]
  exact kerEgo_eq _ _

end Cert.KernelIdeal.Run

end
-- ==== Proof.KI.Result.lean ====
/-
  The kernel's two results are the specification's: the running sum after four layers from the embedding table,
  cut at row 100000.
-/
import proofs.«124407_j40681930228297_2_alg».proof.Proof.Gen.KernelIdeal.Launch
import proofs.«124407_j40681930228297_2_alg».proof.Proof.Gen.KernelIdeal.Skeleton
import proofs.«124407_j40681930228297_2_alg».proof.Proof.Gen.KernelIdeal.Points
import proofs.«124407_j40681930228297_2_alg».proof.Proof.KI.Fold
import proofs.«124407_j40681930228297_2_alg».proof.Proof.KI.Ego
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen Cert.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg) (c : Dev nD)

/-- The kernel's propagate step is the reference's, as one function. -/
theorem kerProp_fun (a0 a1 : IVec S1200000 32) (a2 : FVec Ideal S1200000 .f32) : kerProp a0 a1 a2 = refProp a0 a1 a2 :=
  funext fun x => kerProp_eq a0 a1 a2 x

/-- The running sum after the fourth layer. -/
theorem acc_spec : W12 m ρ c (Proc.devRef .tc main_v66_1) = (acc4 (refProp (m ((c : Thread nD τ).loc main_arg0)) (m ((c : Thread nD τ).loc main_arg1)) (m ((c : Thread nD τ).loc main_arg2))) (ego (userEmb (m ((c : Thread nD τ).loc main_arg3)) (m ((c : Thread nD τ).loc main_arg5))) (itemEmb (m ((c : Thread nD τ).loc main_arg4)) (m ((c : Thread nD τ).loc main_arg7)) (m ((c : Thread nD τ).loc main_arg8)) (m ((c : Thread nD τ).loc main_arg6))))) := by
  rw [acc_final m ρ c, ego_eq m ρ c, kerProp_fun]

theorem kernel_v67 : W13 m ρ c (Proc.devRef .tc main_v67) = outUser (acc4 (refProp (m ((c : Thread nD τ).loc main_arg0)) (m ((c : Thread nD τ).loc main_arg1)) (m ((c : Thread nD τ).loc main_arg2))) (ego (userEmb (m ((c : Thread nD τ).loc main_arg3)) (m ((c : Thread nD τ).loc main_arg5))) (itemEmb (m ((c : Thread nD τ).loc main_arg4)) (m ((c : Thread nD τ).loc main_arg7)) (m ((c : Thread nD τ).loc main_arg8)) (m ((c : Thread nD τ).loc main_arg6))))) :=
  ((host6_out (W12 m ρ c)).1.trans (kerOutU_eq _)).trans (congrArg outUser (acc_spec m ρ c))

theorem kernel_v68 : W13 m ρ c (Proc.devRef .tc main_v68) = outItem (acc4 (refProp (m ((c : Thread nD τ).loc main_arg0)) (m ((c : Thread nD τ).loc main_arg1)) (m ((c : Thread nD τ).loc main_arg2))) (ego (userEmb (m ((c : Thread nD τ).loc main_arg3)) (m ((c : Thread nD τ).loc main_arg5))) (itemEmb (m ((c : Thread nD τ).loc main_arg4)) (m ((c : Thread nD τ).loc main_arg7)) (m ((c : Thread nD τ).loc main_arg8)) (m ((c : Thread nD τ).loc main_arg6))))) :=
  ((host6_out (W12 m ρ c)).2.trans (kerOutI_eq _)).trans (congrArg outItem (acc_spec m ρ c))

end Cert.KernelIdeal.Run

end
-- ==== Proof.V.RefFrame.lean ====
/-
  The reference leaves its nine arguments as launched: no operation of @main writes one.
-/
import proofs.«124407_j40681930228297_2_alg».proof.Proof.RefRunP

set_option maxRecDepth 16384

noncomputable section

namespace Cert.Val

open Cert.ReferenceIdeal Cert.ReferenceIdeal.Gen Cert.ReferenceIdeal.ValueP
open Idealize.ShloMosaic Idealize.ShloMosaic.TcCoe Idealize.SL.Sem Idealize.ShloMosaic.StableHlo

set_option maxHeartbeats 4000000 in
theorem ref_keep0 {F : FTy → Type} [FloatOps F] (V : Valuation τ sig (Elt F)) :
    after (ops (F := F)) V (Proc.devRef .tc main_arg0) = V (Proc.devRef .tc main_arg0) := by
  after_results_simp

set_option maxHeartbeats 4000000 in
theorem ref_keep1 {F : FTy → Type} [FloatOps F] (V : Valuation τ sig (Elt F)) :
    after (ops (F := F)) V (Proc.devRef .tc main_arg1) = V (Proc.devRef .tc main_arg1) := by
  after_results_simp

set_option maxHeartbeats 4000000 in
theorem ref_keep2 {F : FTy → Type} [FloatOps F] (V : Valuation τ sig (Elt F)) :
    after (ops (F := F)) V (Proc.devRef .tc main_arg2) = V (Proc.devRef .tc main_arg2) := by
  after_results_simp

set_option maxHeartbeats 4000000 in
theorem ref_keep3 {F : FTy → Type} [FloatOps F] (V : Valuation τ sig (Elt F)) :
    after (ops (F := F)) V (Proc.devRef .tc main_arg3) = V (Proc.devRef .tc main_arg3) := by
  after_results_simp

set_option maxHeartbeats 4000000 in
theorem ref_keep4 {F : FTy → Type} [FloatOps F] (V : Valuation τ sig (Elt F)) :
    after (ops (F := F)) V (Proc.devRef .tc main_arg4) = V (Proc.devRef .tc main_arg4) := by
  after_results_simp

set_option maxHeartbeats 4000000 in
theorem ref_keep5 {F : FTy → Type} [FloatOps F] (V : Valuation τ sig (Elt F)) :
    after (ops (F := F)) V (Proc.devRef .tc main_arg5) = V (Proc.devRef .tc main_arg5) := by
  after_results_simp

set_option maxHeartbeats 4000000 in
theorem ref_keep6 {F : FTy → Type} [FloatOps F] (V : Valuation τ sig (Elt F)) :
    after (ops (F := F)) V (Proc.devRef .tc main_arg6) = V (Proc.devRef .tc main_arg6) := by
  after_results_simp

set_option maxHeartbeats 4000000 in
theorem ref_keep7 {F : FTy → Type} [FloatOps F] (V : Valuation τ sig (Elt F)) :
    after (ops (F := F)) V (Proc.devRef .tc main_arg7) = V (Proc.devRef .tc main_arg7) := by
  after_results_simp

set_option maxHeartbeats 4000000 in
theorem ref_keep8 {F : FTy → Type} [FloatOps F] (V : Valuation τ sig (Elt F)) :
    after (ops (F := F)) V (Proc.devRef .tc main_arg8) = V (Proc.devRef .tc main_arg8) := by
  after_results_simp

/-- The reference's frame: every weakly fair execution terminates with the arguments as launched. -/
theorem ref_frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c main_arg0).trans (ref_keep0 _), (h c main_arg1).trans (ref_keep1 _), (h c main_arg2).trans (ref_keep2 _), (h c main_arg3).trans (ref_keep3 _), (h c main_arg4).trans (ref_keep4 _), (h c main_arg5).trans (ref_keep5 _), (h c main_arg6).trans (ref_keep6 _), (h c main_arg7).trans (ref_keep7 _), (h c main_arg8).trans (ref_keep8 _)⟩) (run m ρ)

end Cert.Val

end
-- ==== Proof.V.RefEval0.lean ====
/-
  The reference's 175 host operations, cut into stretches that are each read over ABSTRACT contents of the buffers
  they start from, so that no stretch's term nests another's: a prologue (the two embeddings and their stacking),
  per layer the propagation, the two clamped norms and the reweighting with the accumulation, and the two cuts. This
  module has the cut, the prologue and the cuts; the layers' stretches follow, one module per layer.
-/
import proofs.«124407_j40681930228297_2_alg».proof.Proof.RefRunP
import proofs.«124407_j40681930228297_2_alg».proof.Proof.V.RefFns

set_option maxRecDepth 16384

noncomputable section

namespace Cert.Val

open Cert.ReferenceIdeal Cert.ReferenceIdeal.Gen Cert.ReferenceIdeal.ValueP
open Idealize.ShloMosaic Idealize.ShloMosaic.TcCoe Idealize.SL.Sem Idealize.ShloMosaic.StableHlo

/-- Running two stretches of operations one after the other. -/
theorem after_append' {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The reference's operations at the ideal instance. -/
abbrev refOps : List (HloOp τ sig (Elt Ideal)) := ops (F := Ideal)

/-- The prologue: both embeddings and their stacking. -/
def c0 : List (HloOp τ sig (Elt Ideal)) := refOps.take 17
/-- Layer 1: the propagation, the propagated array's norms, the embedding's norms, the reweighting and accumulation. -/
def sA1 : List (HloOp τ sig (Elt Ideal)) := (refOps.drop 17).take 16
def sB1 : List (HloOp τ sig (Elt Ideal)) := (refOps.drop 33).take 7
def sC1 : List (HloOp τ sig (Elt Ideal)) := (refOps.drop 40).take 7
def sD1 : List (HloOp τ sig (Elt Ideal)) := (refOps.drop 47).take 9
/-- Layer 2: the propagation, the propagated array's norms, the embedding's norms, the reweighting and accumulation. -/
def sA2 : List (HloOp τ sig (Elt Ideal)) := (refOps.drop 56).take 16
def sB2 : List (HloOp τ sig (Elt Ideal)) := (refOps.drop 72).take 7
def sC2 : List (HloOp τ sig (Elt Ideal)) := (refOps.drop 79).take 7
def sD2 : List (HloOp τ sig (Elt Ideal)) := (refOps.drop 86).take 9
/-- Layer 3: the propagation, the propagated array's norms, the embedding's norms, the reweighting and accumulation. -/
def sA3 : List (HloOp τ sig (Elt Ideal)) := (refOps.drop 95).take 16
def sB3 : List (HloOp τ sig (Elt Ideal)) := (refOps.drop 111).take 7
def sC3 : List (HloOp τ sig (Elt Ideal)) := (refOps.drop 118).take 7
def sD3 : List (HloOp τ sig (Elt Ideal)) := (refOps.drop 125).take 9
/-- Layer 4: the propagation, the propagated array's norms, the embedding's norms, the reweighting and accumulation. -/
def sA4 : List (HloOp τ sig (Elt Ideal)) := (refOps.drop 134).take 16
def sB4 : List (HloOp τ sig (Elt Ideal)) := (refOps.drop 150).take 7
def sC4 : List (HloOp τ sig (Elt Ideal)) := (refOps.drop 157).take 7
def sD4 : List (HloOp τ sig (Elt Ideal)) := (refOps.drop 164).take 9
/-- The epilogue: the two cuts. -/
def c5 : List (HloOp τ sig (Elt Ideal)) := refOps.drop 173

theorem refOps_split : refOps = c0 ++ (sA1 ++ (sB1 ++ (sC1 ++ (sD1 ++ (sA2 ++ (sB2 ++ (sC2 ++ (sD2 ++ (sA3 ++ (sB3 ++ (sC3 ++ (sD3 ++ (sA4 ++ (sB4 ++ (sC4 ++ (sD4 ++ (c5))))))))))))))))) := by
  unfold c0 sA1 sB1 sC1 sD1 sA2 sB2 sC2 sD2 sA3 sB3 sC3 sD3 sA4 sB4 sC4 sD4 c5
  simp only [refOps, ops, List.drop_succ_cons, List.drop_zero, List.take_succ_cons, List.take_zero, List.cons_append, List.nil_append]

/-- The reweighting over given norms: `refRw` with its two clamped norms named. -/
def refRwOf (P e : FVec Ideal S150000x64 .f32) (na nb : FVec Ideal S150000 .f32) : FVec Ideal S150000x64 .f32 :=
  mulf
    (broadcastInDim S150000x64 ![0, 1] bcast_S150000x1_S150000x64_0_1
      (broadcastInDim S150000x1 ![0] bcast_S150000_S150000x1_0
        (Host.divf (F := Ideal)
          (Host.reduceAdd (F := Ideal) (mulf P e) (constant (F := Ideal) S_ .f32 0x00000000#32) reducesTo_S150000x64_S150000_d1 h_S_)
          (mulf na nb))))
    P

theorem refRw_of (P e : FVec Ideal S150000x64 .f32) : refRw P e = refRwOf P e (refNorm P) (refNorm e) := rfl

/-! ## The prologue -/

theorem c0_ego (V : Valuation τ sig (Elt Ideal)) : after c0 V (Proc.devRef .tc main_v14)
    = refEgo (refUser (V (Proc.devRef .tc main_arg3)) (V (Proc.devRef .tc main_arg5)))
        (refItem (V (Proc.devRef .tc main_arg4)) (V (Proc.devRef .tc main_arg6)) (V (Proc.devRef .tc main_arg7)) (V (Proc.devRef .tc main_arg8))) := by
  simp only [c0, refOps, ops, List.drop_succ_cons, List.drop_zero, List.take_succ_cons, List.take_zero]
  after_results_simp
  unfold refEgo refUser refItem
  rfl

theorem c0_keep (V : Valuation τ sig (Elt Ideal)) :
    after c0 V (Proc.devRef .tc main_arg0) = V (Proc.devRef .tc main_arg0)
    ∧ after c0 V (Proc.devRef .tc main_arg1) = V (Proc.devRef .tc main_arg1)
    ∧ after c0 V (Proc.devRef .tc main_arg2) = V (Proc.devRef .tc main_arg2)
    ∧ after c0 V (Proc.devRef .tc main_arg3) = V (Proc.devRef .tc main_arg3)
    ∧ after c0 V (Proc.devRef .tc main_arg4) = V (Proc.devRef .tc main_arg4)
    ∧ after c0 V (Proc.devRef .tc main_arg5) = V (Proc.devRef .tc main_arg5)
    ∧ after c0 V (Proc.devRef .tc main_arg6) = V (Proc.devRef .tc main_arg6)
    ∧ after c0 V (Proc.devRef .tc main_arg7) = V (Proc.devRef .tc main_arg7)
    ∧ after c0 V (Proc.devRef .tc main_arg8) = V (Proc.devRef .tc main_arg8) := by
  simp only [c0, refOps, ops, List.drop_succ_cons, List.drop_zero, List.take_succ_cons, List.take_zero]
  refine ⟨?_, ?_, ?_, ?_, ?_, ?_, ?_, ?_, ?_⟩ <;> after_results_simp

/-! ## The two cuts -/

theorem c5_out (W : Valuation τ sig (Elt Ideal)) :
    after c5 W (Proc.devRef .tc main_v123) = refOutU (W (Proc.devRef .tc main_v122))
    ∧ after c5 W (Proc.devRef .tc main_v124) = refOutI (W (Proc.devRef .tc main_v122)) := by
  simp only [c5, refOps, ops, List.drop_succ_cons, List.drop_zero]
  refine ⟨?_, ?_⟩ <;> after_results_simp <;> rfl

theorem c5_keep (W : Valuation τ sig (Elt Ideal)) :
    after c5 W (Proc.devRef .tc main_arg0) = W (Proc.devRef .tc main_arg0)
    ∧ after c5 W (Proc.devRef .tc main_arg1) = W (Proc.devRef .tc main_arg1)
    ∧ after c5 W (Proc.devRef .tc main_arg2) = W (Proc.devRef .tc main_arg2)
    ∧ after c5 W (Proc.devRef .tc main_arg3) = W (Proc.devRef .tc main_arg3)
    ∧ after c5 W (Proc.devRef .tc main_arg4) = W (Proc.devRef .tc main_arg4)
    ∧ after c5 W (Proc.devRef .tc main_arg5) = W (Proc.devRef .tc main_arg5)
    ∧ after c5 W (Proc.devRef .tc main_arg6) = W (Proc.devRef .tc main_arg6)
    ∧ after c5 W (Proc.devRef .tc main_arg7) = W (Proc.devRef .tc main_arg7)
    ∧ after c5 W (Proc.devRef .tc main_arg8) = W (Proc.devRef .tc main_arg8) := by
  simp only [c5, refOps, ops, List.drop_succ_cons, List.drop_zero]
  refine ⟨?_, ?_, ?_, ?_, ?_, ?_, ?_, ?_, ?_⟩ <;> after_results_simp

end Cert.Val

end
-- ==== Proof.V.RefEvalL1.lean ====
/-
  Layer 1 of the reference, stretch by stretch over abstract contents: the propagation leaves the propagated
  array; the next two stretches its clamped row norms and the stacked embedding's (the called norm function's
  operations carry transports along type equalities that hold by computation: they are removed); the last the
  reweighted array and the new accumulator. Composed, the layer's thirty-nine operations take the running pair to
  the next one and leave the stacked embedding and the nine arguments alone.
-/
import proofs.«124407_j40681930228297_2_alg».proof.Proof.V.RefEval0

set_option maxRecDepth 16384

noncomputable section

namespace Cert.Val

open Cert.ReferenceIdeal Cert.ReferenceIdeal.Gen Cert.ReferenceIdeal.ValueP
open Idealize.ShloMosaic Idealize.ShloMosaic.TcCoe Idealize.SL.Sem Idealize.ShloMosaic.StableHlo

/-! ## The propagation -/

theorem sA1_out (W : Valuation τ sig (Elt Ideal)) :
    after sA1 W (Proc.devRef .tc main_v27) = refProp (W (Proc.devRef .tc main_arg0)) (W (Proc.devRef .tc main_arg1)) (W (Proc.devRef .tc main_arg2)) (W (Proc.devRef .tc main_v14)) := by
  simp only [sA1, refOps, ops, List.drop_succ_cons, List.drop_zero, List.take_succ_cons, List.take_zero]
  after_results_simp
  unfold refProp
  rfl

theorem sA1_keep (W : Valuation τ sig (Elt Ideal)) :
    after sA1 W (Proc.devRef .tc main_v14) = W (Proc.devRef .tc main_v14)
    ∧ after sA1 W (Proc.devRef .tc main_arg0) = W (Proc.devRef .tc main_arg0)
    ∧ after sA1 W (Proc.devRef .tc main_arg1) = W (Proc.devRef .tc main_arg1)
    ∧ after sA1 W (Proc.devRef .tc main_arg2) = W (Proc.devRef .tc main_arg2)
    ∧ after sA1 W (Proc.devRef .tc main_arg3) = W (Proc.devRef .tc main_arg3)
    ∧ after sA1 W (Proc.devRef .tc main_arg4) = W (Proc.devRef .tc main_arg4)
    ∧ after sA1 W (Proc.devRef .tc main_arg5) = W (Proc.devRef .tc main_arg5)
    ∧ after sA1 W (Proc.devRef .tc main_arg6) = W (Proc.devRef .tc main_arg6)
    ∧ after sA1 W (Proc.devRef .tc main_arg7) = W (Proc.devRef .tc main_arg7)
    ∧ after sA1 W (Proc.devRef .tc main_arg8) = W (Proc.devRef .tc main_arg8) := by
  simp only [sA1, refOps, ops, List.drop_succ_cons, List.drop_zero, List.take_succ_cons, List.take_zero]
  refine ⟨?_, ?_, ?_, ?_, ?_, ?_, ?_, ?_, ?_, ?_⟩ <;> after_results_simp

/-! ## The propagated array's clamped norms -/

theorem sB1_out (W : Valuation τ sig (Elt Ideal)) :
    after sB1 W (Proc.devRef .tc main_v30) = refNorm (W (Proc.devRef .tc main_v27)) := by
  simp only [sB1, refOps, ops, List.drop_succ_cons, List.drop_zero, List.take_succ_cons, List.take_zero]
  after_results_simp
  simp only [TRef.toBuf, TRef.ofBuf, cast_cast, cast_eq]
  unfold refNorm
  rfl

theorem sB1_keep (W : Valuation τ sig (Elt Ideal)) :
    after sB1 W (Proc.devRef .tc main_v27) = W (Proc.devRef .tc main_v27)
    ∧ after sB1 W (Proc.devRef .tc main_v14) = W (Proc.devRef .tc main_v14)
    ∧ after sB1 W (Proc.devRef .tc main_arg0) = W (Proc.devRef .tc main_arg0)
    ∧ after sB1 W (Proc.devRef .tc main_arg1) = W (Proc.devRef .tc main_arg1)
    ∧ after sB1 W (Proc.devRef .tc main_arg2) = W (Proc.devRef .tc main_arg2)
    ∧ after sB1 W (Proc.devRef .tc main_arg3) = W (Proc.devRef .tc main_arg3)
    ∧ after sB1 W (Proc.devRef .tc main_arg4) = W (Proc.devRef .tc main_arg4)
    ∧ after sB1 W (Proc.devRef .tc main_arg5) = W (Proc.devRef .tc main_arg5)
    ∧ after sB1 W (Proc.devRef .tc main_arg6) = W (Proc.devRef .tc main_arg6)
    ∧ after sB1 W (Proc.devRef .tc main_arg7) = W (Proc.devRef .tc main_arg7)
    ∧ after sB1 W (Proc.devRef .tc main_arg8) = W (Proc.devRef .tc main_arg8) := by
  simp only [sB1, refOps, ops, List.drop_succ_cons, List.drop_zero, List.take_succ_cons, List.take_zero]
  refine ⟨?_, ?_, ?_, ?_, ?_, ?_, ?_, ?_, ?_, ?_, ?_⟩ <;> after_results_simp

/-! ## The stacked embedding's clamped norms -/

theorem sC1_out (W : Valuation τ sig (Elt Ideal)) :
    after sC1 W (Proc.devRef .tc main_v33) = refNorm (W (Proc.devRef .tc main_v14)) := by
  simp only [sC1, refOps, ops, List.drop_succ_cons, List.drop_zero, List.take_succ_cons, List.take_zero]
  after_results_simp
  simp only [TRef.toBuf, TRef.ofBuf, cast_cast, cast_eq]
  unfold refNorm
  rfl

theorem sC1_keep (W : Valuation τ sig (Elt Ideal)) :
    after sC1 W (Proc.devRef .tc main_v27) = W (Proc.devRef .tc main_v27)
    ∧ after sC1 W (Proc.devRef .tc main_v30) = W (Proc.devRef .tc main_v30)
    ∧ after sC1 W (Proc.devRef .tc main_v14) = W (Proc.devRef .tc main_v14)
    ∧ after sC1 W (Proc.devRef .tc main_arg0) = W (Proc.devRef .tc main_arg0)
    ∧ after sC1 W (Proc.devRef .tc main_arg1) = W (Proc.devRef .tc main_arg1)
    ∧ after sC1 W (Proc.devRef .tc main_arg2) = W (Proc.devRef .tc main_arg2)
    ∧ after sC1 W (Proc.devRef .tc main_arg3) = W (Proc.devRef .tc main_arg3)
    ∧ after sC1 W (Proc.devRef .tc main_arg4) = W (Proc.devRef .tc main_arg4)
    ∧ after sC1 W (Proc.devRef .tc main_arg5) = W (Proc.devRef .tc main_arg5)
    ∧ after sC1 W (Proc.devRef .tc main_arg6) = W (Proc.devRef .tc main_arg6)
    ∧ after sC1 W (Proc.devRef .tc main_arg7) = W (Proc.devRef .tc main_arg7)
    ∧ after sC1 W (Proc.devRef .tc main_arg8) = W (Proc.devRef .tc main_arg8) := by
  simp only [sC1, refOps, ops, List.drop_succ_cons, List.drop_zero, List.take_succ_cons, List.take_zero]
  refine ⟨?_, ?_, ?_, ?_, ?_, ?_, ?_, ?_, ?_, ?_, ?_, ?_⟩ <;> after_results_simp

/-! ## The reweighting and the accumulation -/

theorem sD1_x (W : Valuation τ sig (Elt Ideal)) :
    after sD1 W (Proc.devRef .tc main_v40)
      = refRwOf (W (Proc.devRef .tc main_v27)) (W (Proc.devRef .tc main_v14)) (W (Proc.devRef .tc main_v30)) (W (Proc.devRef .tc main_v33)) := by
  simp only [sD1, refOps, ops, List.drop_succ_cons, List.drop_zero, List.take_succ_cons, List.take_zero]
  after_results_simp
  unfold refRwOf
  rfl

theorem sD1_acc (W : Valuation τ sig (Elt Ideal)) :
    after sD1 W (Proc.devRef .tc main_v41)
      = refAcc (W (Proc.devRef .tc main_v14)) (refRwOf (W (Proc.devRef .tc main_v27)) (W (Proc.devRef .tc main_v14)) (W (Proc.devRef .tc main_v30)) (W (Proc.devRef .tc main_v33))) := by
  simp only [sD1, refOps, ops, List.drop_succ_cons, List.drop_zero, List.take_succ_cons, List.take_zero]
  after_results_simp
  unfold refAcc refRwOf
  rfl

theorem sD1_keep (W : Valuation τ sig (Elt Ideal)) :
    after sD1 W (Proc.devRef .tc main_v14) = W (Proc.devRef .tc main_v14)
    ∧ after sD1 W (Proc.devRef .tc main_arg0) = W (Proc.devRef .tc main_arg0)
    ∧ after sD1 W (Proc.devRef .tc main_arg1) = W (Proc.devRef .tc main_arg1)
    ∧ after sD1 W (Proc.devRef .tc main_arg2) = W (Proc.devRef .tc main_arg2)
    ∧ after sD1 W (Proc.devRef .tc main_arg3) = W (Proc.devRef .tc main_arg3)
    ∧ after sD1 W (Proc.devRef .tc main_arg4) = W (Proc.devRef .tc main_arg4)
    ∧ after sD1 W (Proc.devRef .tc main_arg5) = W (Proc.devRef .tc main_arg5)
    ∧ after sD1 W (Proc.devRef .tc main_arg6) = W (Proc.devRef .tc main_arg6)
    ∧ after sD1 W (Proc.devRef .tc main_arg7) = W (Proc.devRef .tc main_arg7)
    ∧ after sD1 W (Proc.devRef .tc main_arg8) = W (Proc.devRef .tc main_arg8) := by
  simp only [sD1, refOps, ops, List.drop_succ_cons, List.drop_zero, List.take_succ_cons, List.take_zero]
  refine ⟨?_, ?_, ?_, ?_, ?_, ?_, ?_, ?_, ?_, ?_⟩ <;> after_results_simp

/-! ## The layer -/

/-- The layer's four stretches in order. -/
def sL1 : List (HloOp τ sig (Elt Ideal)) := sA1 ++ (sB1 ++ (sC1 ++ sD1))

theorem sL1_x (W : Valuation τ sig (Elt Ideal)) :
    after sL1 W (Proc.devRef .tc main_v40) = refX (W (Proc.devRef .tc main_arg0)) (W (Proc.devRef .tc main_arg1)) (W (Proc.devRef .tc main_arg2)) (W (Proc.devRef .tc main_v14)) (W (Proc.devRef .tc main_v14)) := by
  unfold sL1
  simp only [after_append']
  obtain ⟨hC0, hC1, hC2, hC3, hC4, hC5, hC6, hC7, hC8, hC9, hC10, hC11⟩ := sC1_keep (after sB1 (after sA1 W))
  obtain ⟨hB0, hB1, hB2, hB3, hB4, hB5, hB6, hB7, hB8, hB9, hB10⟩ := sB1_keep (after sA1 W)
  obtain ⟨hA0, hA1, hA2, hA3, hA4, hA5, hA6, hA7, hA8, hA9⟩ := sA1_keep W
  rw [sD1_x]
  simp only [hC0, hC1, hC2, hC3, hC4, hC5, hC6, hC7, hC8, hC9, hC10, hC11, hB0, hB1, hB2, hB3, hB4, hB5, hB6, hB7, hB8, hB9, hB10, hA0, hA1, hA2, hA3, hA4, hA5, hA6, hA7, hA8, hA9]
  rw [sC1_out, sB1_out, sA1_out]
  simp only [hC0, hC1, hC2, hC3, hC4, hC5, hC6, hC7, hC8, hC9, hC10, hC11, hB0, hB1, hB2, hB3, hB4, hB5, hB6, hB7, hB8, hB9, hB10, hA0, hA1, hA2, hA3, hA4, hA5, hA6, hA7, hA8, hA9]
  unfold refX
  rw [refRw_of]

theorem sL1_acc (W : Valuation τ sig (Elt Ideal)) :
    after sL1 W (Proc.devRef .tc main_v41)
      = refAcc (W (Proc.devRef .tc main_v14)) (refX (W (Proc.devRef .tc main_arg0)) (W (Proc.devRef .tc main_arg1)) (W (Proc.devRef .tc main_arg2)) (W (Proc.devRef .tc main_v14)) (W (Proc.devRef .tc main_v14))) := by
  unfold sL1
  simp only [after_append']
  obtain ⟨hC0, hC1, hC2, hC3, hC4, hC5, hC6, hC7, hC8, hC9, hC10, hC11⟩ := sC1_keep (after sB1 (after sA1 W))
  obtain ⟨hB0, hB1, hB2, hB3, hB4, hB5, hB6, hB7, hB8, hB9, hB10⟩ := sB1_keep (after sA1 W)
  obtain ⟨hA0, hA1, hA2, hA3, hA4, hA5, hA6, hA7, hA8, hA9⟩ := sA1_keep W
  rw [sD1_acc]
  simp only [hC0, hC1, hC2, hC3, hC4, hC5, hC6, hC7, hC8, hC9, hC10, hC11, hB0, hB1, hB2, hB3, hB4, hB5, hB6, hB7, hB8, hB9, hB10, hA0, hA1, hA2, hA3, hA4, hA5, hA6, hA7, hA8, hA9]
  rw [sC1_out, sB1_out, sA1_out]
  simp only [hC0, hC1, hC2, hC3, hC4, hC5, hC6, hC7, hC8, hC9, hC10, hC11, hB0, hB1, hB2, hB3, hB4, hB5, hB6, hB7, hB8, hB9, hB10, hA0, hA1, hA2, hA3, hA4, hA5, hA6, hA7, hA8, hA9]
  unfold refX
  rw [refRw_of]

theorem sL1_keep (W : Valuation τ sig (Elt Ideal)) :
    after sL1 W (Proc.devRef .tc main_v14) = W (Proc.devRef .tc main_v14)
    ∧ after sL1 W (Proc.devRef .tc main_arg0) = W (Proc.devRef .tc main_arg0)
    ∧ after sL1 W (Proc.devRef .tc main_arg1) = W (Proc.devRef .tc main_arg1)
    ∧ after sL1 W (Proc.devRef .tc main_arg2) = W (Proc.devRef .tc main_arg2)
    ∧ after sL1 W (Proc.devRef .tc main_arg3) = W (Proc.devRef .tc main_arg3)
    ∧ after sL1 W (Proc.devRef .tc main_arg4) = W (Proc.devRef .tc main_arg4)
    ∧ after sL1 W (Proc.devRef .tc main_arg5) = W (Proc.devRef .tc main_arg5)
    ∧ after sL1 W (Proc.devRef .tc main_arg6) = W (Proc.devRef .tc main_arg6)
    ∧ after sL1 W (Proc.devRef .tc main_arg7) = W (Proc.devRef .tc main_arg7)
    ∧ after sL1 W (Proc.devRef .tc main_arg8) = W (Proc.devRef .tc main_arg8) := by
  unfold sL1
  simp only [after_append']
  obtain ⟨hD0, hD1, hD2, hD3, hD4, hD5, hD6, hD7, hD8, hD9⟩ := sD1_keep (after sC1 (after sB1 (after sA1 W)))
  obtain ⟨hC0, hC1, hC2, hC3, hC4, hC5, hC6, hC7, hC8, hC9, hC10, hC11⟩ := sC1_keep (after sB1 (after sA1 W))
  obtain ⟨hB0, hB1, hB2, hB3, hB4, hB5, hB6, hB7, hB8, hB9, hB10⟩ := sB1_keep (after sA1 W)
  obtain ⟨hA0, hA1, hA2, hA3, hA4, hA5, hA6, hA7, hA8, hA9⟩ := sA1_keep W
  exact ⟨hD0.trans ((hC2).trans ((hB1).trans hA0)),
    hD1.trans ((hC3).trans ((hB2).trans hA1)),
    hD2.trans ((hC4).trans ((hB3).trans hA2)),
    hD3.trans ((hC5).trans ((hB4).trans hA3)),
    hD4.trans ((hC6).trans ((hB5).trans hA4)),
    hD5.trans ((hC7).trans ((hB6).trans hA5)),
    hD6.trans ((hC8).trans ((hB7).trans hA6)),
    hD7.trans ((hC9).trans ((hB8).trans hA7)),
    hD8.trans ((hC10).trans ((hB9).trans hA8)),
    hD9.trans ((hC11).trans ((hB10).trans hA9))⟩

end Cert.Val

end
-- ==== Proof.V.RefEvalL2.lean ====
/-
  Layer 2 of the reference, stretch by stretch over abstract contents: the propagation leaves the propagated
  array; the next two stretches its clamped row norms and the stacked embedding's (the called norm function's
  operations carry transports along type equalities that hold by computation: they are removed); the last the
  reweighted array and the new accumulator. Composed, the layer's thirty-nine operations take the running pair to
  the next one and leave the stacked embedding and the nine arguments alone.
-/
import proofs.«124407_j40681930228297_2_alg».proof.Proof.V.RefEval0

set_option maxRecDepth 16384

noncomputable section

namespace Cert.Val

open Cert.ReferenceIdeal Cert.ReferenceIdeal.Gen Cert.ReferenceIdeal.ValueP
open Idealize.ShloMosaic Idealize.ShloMosaic.TcCoe Idealize.SL.Sem Idealize.ShloMosaic.StableHlo

/-! ## The propagation -/

theorem sA2_out (W : Valuation τ sig (Elt Ideal)) :
    after sA2 W (Proc.devRef .tc main_v54) = refProp (W (Proc.devRef .tc main_arg0)) (W (Proc.devRef .tc main_arg1)) (W (Proc.devRef .tc main_arg2)) (W (Proc.devRef .tc main_v40)) := by
  simp only [sA2, refOps, ops, List.drop_succ_cons, List.drop_zero, List.take_succ_cons, List.take_zero]
  after_results_simp
  unfold refProp
  rfl

theorem sA2_keep (W : Valuation τ sig (Elt Ideal)) :
    after sA2 W (Proc.devRef .tc main_v14) = W (Proc.devRef .tc main_v14)
    ∧ after sA2 W (Proc.devRef .tc main_v41) = W (Proc.devRef .tc main_v41)
    ∧ after sA2 W (Proc.devRef .tc main_arg0) = W (Proc.devRef .tc main_arg0)
    ∧ after sA2 W (Proc.devRef .tc main_arg1) = W (Proc.devRef .tc main_arg1)
    ∧ after sA2 W (Proc.devRef .tc main_arg2) = W (Proc.devRef .tc main_arg2)
    ∧ after sA2 W (Proc.devRef .tc main_arg3) = W (Proc.devRef .tc main_arg3)
    ∧ after sA2 W (Proc.devRef .tc main_arg4) = W (Proc.devRef .tc main_arg4)
    ∧ after sA2 W (Proc.devRef .tc main_arg5) = W (Proc.devRef .tc main_arg5)
    ∧ after sA2 W (Proc.devRef .tc main_arg6) = W (Proc.devRef .tc main_arg6)
    ∧ after sA2 W (Proc.devRef .tc main_arg7) = W (Proc.devRef .tc main_arg7)
    ∧ after sA2 W (Proc.devRef .tc main_arg8) = W (Proc.devRef .tc main_arg8) := by
  simp only [sA2, refOps, ops, List.drop_succ_cons, List.drop_zero, List.take_succ_cons, List.take_zero]
  refine ⟨?_, ?_, ?_, ?_, ?_, ?_, ?_, ?_, ?_, ?_, ?_⟩ <;> after_results_simp

/-! ## The propagated array's clamped norms -/

theorem sB2_out (W : Valuation τ sig (Elt Ideal)) :
    after sB2 W (Proc.devRef .tc main_v57) = refNorm (W (Proc.devRef .tc main_v54)) := by
  simp only [sB2, refOps, ops, List.drop_succ_cons, List.drop_zero, List.take_succ_cons, List.take_zero]
  after_results_simp
  simp only [TRef.toBuf, TRef.ofBuf, cast_cast, cast_eq]
  unfold refNorm
  rfl

theorem sB2_keep (W : Valuation τ sig (Elt Ideal)) :
    after sB2 W (Proc.devRef .tc main_v54) = W (Proc.devRef .tc main_v54)
    ∧ after sB2 W (Proc.devRef .tc main_v14) = W (Proc.devRef .tc main_v14)
    ∧ after sB2 W (Proc.devRef .tc main_v41) = W (Proc.devRef .tc main_v41)
    ∧ after sB2 W (Proc.devRef .tc main_arg0) = W (Proc.devRef .tc main_arg0)
    ∧ after sB2 W (Proc.devRef .tc main_arg1) = W (Proc.devRef .tc main_arg1)
    ∧ after sB2 W (Proc.devRef .tc main_arg2) = W (Proc.devRef .tc main_arg2)
    ∧ after sB2 W (Proc.devRef .tc main_arg3) = W (Proc.devRef .tc main_arg3)
    ∧ after sB2 W (Proc.devRef .tc main_arg4) = W (Proc.devRef .tc main_arg4)
    ∧ after sB2 W (Proc.devRef .tc main_arg5) = W (Proc.devRef .tc main_arg5)
    ∧ after sB2 W (Proc.devRef .tc main_arg6) = W (Proc.devRef .tc main_arg6)
    ∧ after sB2 W (Proc.devRef .tc main_arg7) = W (Proc.devRef .tc main_arg7)
    ∧ after sB2 W (Proc.devRef .tc main_arg8) = W (Proc.devRef .tc main_arg8) := by
  simp only [sB2, refOps, ops, List.drop_succ_cons, List.drop_zero, List.take_succ_cons, List.take_zero]
  refine ⟨?_, ?_, ?_, ?_, ?_, ?_, ?_, ?_, ?_, ?_, ?_, ?_⟩ <;> after_results_simp

/-! ## The stacked embedding's clamped norms -/

theorem sC2_out (W : Valuation τ sig (Elt Ideal)) :
    after sC2 W (Proc.devRef .tc main_v60) = refNorm (W (Proc.devRef .tc main_v14)) := by
  simp only [sC2, refOps, ops, List.drop_succ_cons, List.drop_zero, List.take_succ_cons, List.take_zero]
  after_results_simp
  simp only [TRef.toBuf, TRef.ofBuf, cast_cast, cast_eq]
  unfold refNorm
  rfl

theorem sC2_keep (W : Valuation τ sig (Elt Ideal)) :
    after sC2 W (Proc.devRef .tc main_v54) = W (Proc.devRef .tc main_v54)
    ∧ after sC2 W (Proc.devRef .tc main_v57) = W (Proc.devRef .tc main_v57)
    ∧ after sC2 W (Proc.devRef .tc main_v14) = W (Proc.devRef .tc main_v14)
    ∧ after sC2 W (Proc.devRef .tc main_v41) = W (Proc.devRef .tc main_v41)
    ∧ after sC2 W (Proc.devRef .tc main_arg0) = W (Proc.devRef .tc main_arg0)
    ∧ after sC2 W (Proc.devRef .tc main_arg1) = W (Proc.devRef .tc main_arg1)
    ∧ after sC2 W (Proc.devRef .tc main_arg2) = W (Proc.devRef .tc main_arg2)
    ∧ after sC2 W (Proc.devRef .tc main_arg3) = W (Proc.devRef .tc main_arg3)
    ∧ after sC2 W (Proc.devRef .tc main_arg4) = W (Proc.devRef .tc main_arg4)
    ∧ after sC2 W (Proc.devRef .tc main_arg5) = W (Proc.devRef .tc main_arg5)
    ∧ after sC2 W (Proc.devRef .tc main_arg6) = W (Proc.devRef .tc main_arg6)
    ∧ after sC2 W (Proc.devRef .tc main_arg7) = W (Proc.devRef .tc main_arg7)
    ∧ after sC2 W (Proc.devRef .tc main_arg8) = W (Proc.devRef .tc main_arg8) := by
  simp only [sC2, refOps, ops, List.drop_succ_cons, List.drop_zero, List.take_succ_cons, List.take_zero]
  refine ⟨?_, ?_, ?_, ?_, ?_, ?_, ?_, ?_, ?_, ?_, ?_, ?_, ?_⟩ <;> after_results_simp

/-! ## The reweighting and the accumulation -/

theorem sD2_x (W : Valuation τ sig (Elt Ideal)) :
    after sD2 W (Proc.devRef .tc main_v67)
      = refRwOf (W (Proc.devRef .tc main_v54)) (W (Proc.devRef .tc main_v14)) (W (Proc.devRef .tc main_v57)) (W (Proc.devRef .tc main_v60)) := by
  simp only [sD2, refOps, ops, List.drop_succ_cons, List.drop_zero, List.take_succ_cons, List.take_zero]
  after_results_simp
  unfold refRwOf
  rfl

theorem sD2_acc (W : Valuation τ sig (Elt Ideal)) :
    after sD2 W (Proc.devRef .tc main_v68)
      = refAcc (W (Proc.devRef .tc main_v41)) (refRwOf (W (Proc.devRef .tc main_v54)) (W (Proc.devRef .tc main_v14)) (W (Proc.devRef .tc main_v57)) (W (Proc.devRef .tc main_v60))) := by
  simp only [sD2, refOps, ops, List.drop_succ_cons, List.drop_zero, List.take_succ_cons, List.take_zero]
  after_results_simp
  unfold refAcc refRwOf
  rfl

theorem sD2_keep (W : Valuation τ sig (Elt Ideal)) :
    after sD2 W (Proc.devRef .tc main_v14) = W (Proc.devRef .tc main_v14)
    ∧ after sD2 W (Proc.devRef .tc main_arg0) = W (Proc.devRef .tc main_arg0)
    ∧ after sD2 W (Proc.devRef .tc main_arg1) = W (Proc.devRef .tc main_arg1)
    ∧ after sD2 W (Proc.devRef .tc main_arg2) = W (Proc.devRef .tc main_arg2)
    ∧ after sD2 W (Proc.devRef .tc main_arg3) = W (Proc.devRef .tc main_arg3)
    ∧ after sD2 W (Proc.devRef .tc main_arg4) = W (Proc.devRef .tc main_arg4)
    ∧ after sD2 W (Proc.devRef .tc main_arg5) = W (Proc.devRef .tc main_arg5)
    ∧ after sD2 W (Proc.devRef .tc main_arg6) = W (Proc.devRef .tc main_arg6)
    ∧ after sD2 W (Proc.devRef .tc main_arg7) = W (Proc.devRef .tc main_arg7)
    ∧ after sD2 W (Proc.devRef .tc main_arg8) = W (Proc.devRef .tc main_arg8) := by
  simp only [sD2, refOps, ops, List.drop_succ_cons, List.drop_zero, List.take_succ_cons, List.take_zero]
  refine ⟨?_, ?_, ?_, ?_, ?_, ?_, ?_, ?_, ?_, ?_⟩ <;> after_results_simp

/-! ## The layer -/

/-- The layer's four stretches in order. -/
def sL2 : List (HloOp τ sig (Elt Ideal)) := sA2 ++ (sB2 ++ (sC2 ++ sD2))

theorem sL2_x (W : Valuation τ sig (Elt Ideal)) :
    after sL2 W (Proc.devRef .tc main_v67) = refX (W (Proc.devRef .tc main_arg0)) (W (Proc.devRef .tc main_arg1)) (W (Proc.devRef .tc main_arg2)) (W (Proc.devRef .tc main_v14)) (W (Proc.devRef .tc main_v40)) := by
  unfold sL2
  simp only [after_append']
  obtain ⟨hC0, hC1, hC2, hC3, hC4, hC5, hC6, hC7, hC8, hC9, hC10, hC11, hC12⟩ := sC2_keep (after sB2 (after sA2 W))
  obtain ⟨hB0, hB1, hB2, hB3, hB4, hB5, hB6, hB7, hB8, hB9, hB10, hB11⟩ := sB2_keep (after sA2 W)
  obtain ⟨hA0, hA1, hA2, hA3, hA4, hA5, hA6, hA7, hA8, hA9, hA10⟩ := sA2_keep W
  rw [sD2_x]
  simp only [hC0, hC1, hC2, hC3, hC4, hC5, hC6, hC7, hC8, hC9, hC10, hC11, hC12, hB0, hB1, hB2, hB3, hB4, hB5, hB6, hB7, hB8, hB9, hB10, hB11, hA0, hA1, hA2, hA3, hA4, hA5, hA6, hA7, hA8, hA9, hA10]
  rw [sC2_out, sB2_out, sA2_out]
  simp only [hC0, hC1, hC2, hC3, hC4, hC5, hC6, hC7, hC8, hC9, hC10, hC11, hC12, hB0, hB1, hB2, hB3, hB4, hB5, hB6, hB7, hB8, hB9, hB10, hB11, hA0, hA1, hA2, hA3, hA4, hA5, hA6, hA7, hA8, hA9, hA10]
  unfold refX
  rw [refRw_of]

theorem sL2_acc (W : Valuation τ sig (Elt Ideal)) :
    after sL2 W (Proc.devRef .tc main_v68)
      = refAcc (W (Proc.devRef .tc main_v41)) (refX (W (Proc.devRef .tc main_arg0)) (W (Proc.devRef .tc main_arg1)) (W (Proc.devRef .tc main_arg2)) (W (Proc.devRef .tc main_v14)) (W (Proc.devRef .tc main_v40))) := by
  unfold sL2
  simp only [after_append']
  obtain ⟨hC0, hC1, hC2, hC3, hC4, hC5, hC6, hC7, hC8, hC9, hC10, hC11, hC12⟩ := sC2_keep (after sB2 (after sA2 W))
  obtain ⟨hB0, hB1, hB2, hB3, hB4, hB5, hB6, hB7, hB8, hB9, hB10, hB11⟩ := sB2_keep (after sA2 W)
  obtain ⟨hA0, hA1, hA2, hA3, hA4, hA5, hA6, hA7, hA8, hA9, hA10⟩ := sA2_keep W
  rw [sD2_acc]
  simp only [hC0, hC1, hC2, hC3, hC4, hC5, hC6, hC7, hC8, hC9, hC10, hC11, hC12, hB0, hB1, hB2, hB3, hB4, hB5, hB6, hB7, hB8, hB9, hB10, hB11, hA0, hA1, hA2, hA3, hA4, hA5, hA6, hA7, hA8, hA9, hA10]
  rw [sC2_out, sB2_out, sA2_out]
  simp only [hC0, hC1, hC2, hC3, hC4, hC5, hC6, hC7, hC8, hC9, hC10, hC11, hC12, hB0, hB1, hB2, hB3, hB4, hB5, hB6, hB7, hB8, hB9, hB10, hB11, hA0, hA1, hA2, hA3, hA4, hA5, hA6, hA7, hA8, hA9, hA10]
  unfold refX
  rw [refRw_of]

theorem sL2_keep (W : Valuation τ sig (Elt Ideal)) :
    after sL2 W (Proc.devRef .tc main_v14) = W (Proc.devRef .tc main_v14)
    ∧ after sL2 W (Proc.devRef .tc main_arg0) = W (Proc.devRef .tc main_arg0)
    ∧ after sL2 W (Proc.devRef .tc main_arg1) = W (Proc.devRef .tc main_arg1)
    ∧ after sL2 W (Proc.devRef .tc main_arg2) = W (Proc.devRef .tc main_arg2)
    ∧ after sL2 W (Proc.devRef .tc main_arg3) = W (Proc.devRef .tc main_arg3)
    ∧ after sL2 W (Proc.devRef .tc main_arg4) = W (Proc.devRef .tc main_arg4)
    ∧ after sL2 W (Proc.devRef .tc main_arg5) = W (Proc.devRef .tc main_arg5)
    ∧ after sL2 W (Proc.devRef .tc main_arg6) = W (Proc.devRef .tc main_arg6)
    ∧ after sL2 W (Proc.devRef .tc main_arg7) = W (Proc.devRef .tc main_arg7)
    ∧ after sL2 W (Proc.devRef .tc main_arg8) = W (Proc.devRef .tc main_arg8) := by
  unfold sL2
  simp only [after_append']
  obtain ⟨hD0, hD1, hD2, hD3, hD4, hD5, hD6, hD7, hD8, hD9⟩ := sD2_keep (after sC2 (after sB2 (after sA2 W)))
  obtain ⟨hC0, hC1, hC2, hC3, hC4, hC5, hC6, hC7, hC8, hC9, hC10, hC11, hC12⟩ := sC2_keep (after sB2 (after sA2 W))
  obtain ⟨hB0, hB1, hB2, hB3, hB4, hB5, hB6, hB7, hB8, hB9, hB10, hB11⟩ := sB2_keep (after sA2 W)
  obtain ⟨hA0, hA1, hA2, hA3, hA4, hA5, hA6, hA7, hA8, hA9, hA10⟩ := sA2_keep W
  exact ⟨hD0.trans ((hC2).trans ((hB1).trans hA0)),
    hD1.trans ((hC4).trans ((hB3).trans hA2)),
    hD2.trans ((hC5).trans ((hB4).trans hA3)),
    hD3.trans ((hC6).trans ((hB5).trans hA4)),
    hD4.trans ((hC7).trans ((hB6).trans hA5)),
    hD5.trans ((hC8).trans ((hB7).trans hA6)),
    hD6.trans ((hC9).trans ((hB8).trans hA7)),
    hD7.trans ((hC10).trans ((hB9).trans hA8)),
    hD8.trans ((hC11).trans ((hB10).trans hA9)),
    hD9.trans ((hC12).trans ((hB11).trans hA10))⟩

end Cert.Val

end
-- ==== Proof.V.RefEvalL3.lean ====
/-
  Layer 3 of the reference, stretch by stretch over abstract contents: the propagation leaves the propagated
  array; the next two stretches its clamped row norms and the stacked embedding's (the called norm function's
  operations carry transports along type equalities that hold by computation: they are removed); the last the
  reweighted array and the new accumulator. Composed, the layer's thirty-nine operations take the running pair to
  the next one and leave the stacked embedding and the nine arguments alone.
-/
import proofs.«124407_j40681930228297_2_alg».proof.Proof.V.RefEval0

set_option maxRecDepth 16384

noncomputable section

namespace Cert.Val

open Cert.ReferenceIdeal Cert.ReferenceIdeal.Gen Cert.ReferenceIdeal.ValueP
open Idealize.ShloMosaic Idealize.ShloMosaic.TcCoe Idealize.SL.Sem Idealize.ShloMosaic.StableHlo

/-! ## The propagation -/

theorem sA3_out (W : Valuation τ sig (Elt Ideal)) :
    after sA3 W (Proc.devRef .tc main_v81) = refProp (W (Proc.devRef .tc main_arg0)) (W (Proc.devRef .tc main_arg1)) (W (Proc.devRef .tc main_arg2)) (W (Proc.devRef .tc main_v67)) := by
  simp only [sA3, refOps, ops, List.drop_succ_cons, List.drop_zero, List.take_succ_cons, List.take_zero]
  after_results_simp
  unfold refProp
  rfl

theorem sA3_keep (W : Valuation τ sig (Elt Ideal)) :
    after sA3 W (Proc.devRef .tc main_v14) = W (Proc.devRef .tc main_v14)
    ∧ after sA3 W (Proc.devRef .tc main_v68) = W (Proc.devRef .tc main_v68)
    ∧ after sA3 W (Proc.devRef .tc main_arg0) = W (Proc.devRef .tc main_arg0)
    ∧ after sA3 W (Proc.devRef .tc main_arg1) = W (Proc.devRef .tc main_arg1)
    ∧ after sA3 W (Proc.devRef .tc main_arg2) = W (Proc.devRef .tc main_arg2)
    ∧ after sA3 W (Proc.devRef .tc main_arg3) = W (Proc.devRef .tc main_arg3)
    ∧ after sA3 W (Proc.devRef .tc main_arg4) = W (Proc.devRef .tc main_arg4)
    ∧ after sA3 W (Proc.devRef .tc main_arg5) = W (Proc.devRef .tc main_arg5)
    ∧ after sA3 W (Proc.devRef .tc main_arg6) = W (Proc.devRef .tc main_arg6)
    ∧ after sA3 W (Proc.devRef .tc main_arg7) = W (Proc.devRef .tc main_arg7)
    ∧ after sA3 W (Proc.devRef .tc main_arg8) = W (Proc.devRef .tc main_arg8) := by
  simp only [sA3, refOps, ops, List.drop_succ_cons, List.drop_zero, List.take_succ_cons, List.take_zero]
  refine ⟨?_, ?_, ?_, ?_, ?_, ?_, ?_, ?_, ?_, ?_, ?_⟩ <;> after_results_simp

/-! ## The propagated array's clamped norms -/

theorem sB3_out (W : Valuation τ sig (Elt Ideal)) :
    after sB3 W (Proc.devRef .tc main_v84) = refNorm (W (Proc.devRef .tc main_v81)) := by
  simp only [sB3, refOps, ops, List.drop_succ_cons, List.drop_zero, List.take_succ_cons, List.take_zero]
  after_results_simp
  simp only [TRef.toBuf, TRef.ofBuf, cast_cast, cast_eq]
  unfold refNorm
  rfl

theorem sB3_keep (W : Valuation τ sig (Elt Ideal)) :
    after sB3 W (Proc.devRef .tc main_v81) = W (Proc.devRef .tc main_v81)
    ∧ after sB3 W (Proc.devRef .tc main_v14) = W (Proc.devRef .tc main_v14)
    ∧ after sB3 W (Proc.devRef .tc main_v68) = W (Proc.devRef .tc main_v68)
    ∧ after sB3 W (Proc.devRef .tc main_arg0) = W (Proc.devRef .tc main_arg0)
    ∧ after sB3 W (Proc.devRef .tc main_arg1) = W (Proc.devRef .tc main_arg1)
    ∧ after sB3 W (Proc.devRef .tc main_arg2) = W (Proc.devRef .tc main_arg2)
    ∧ after sB3 W (Proc.devRef .tc main_arg3) = W (Proc.devRef .tc main_arg3)
    ∧ after sB3 W (Proc.devRef .tc main_arg4) = W (Proc.devRef .tc main_arg4)
    ∧ after sB3 W (Proc.devRef .tc main_arg5) = W (Proc.devRef .tc main_arg5)
    ∧ after sB3 W (Proc.devRef .tc main_arg6) = W (Proc.devRef .tc main_arg6)
    ∧ after sB3 W (Proc.devRef .tc main_arg7) = W (Proc.devRef .tc main_arg7)
    ∧ after sB3 W (Proc.devRef .tc main_arg8) = W (Proc.devRef .tc main_arg8) := by
  simp only [sB3, refOps, ops, List.drop_succ_cons, List.drop_zero, List.take_succ_cons, List.take_zero]
  refine ⟨?_, ?_, ?_, ?_, ?_, ?_, ?_, ?_, ?_, ?_, ?_, ?_⟩ <;> after_results_simp

/-! ## The stacked embedding's clamped norms -/

theorem sC3_out (W : Valuation τ sig (Elt Ideal)) :
    after sC3 W (Proc.devRef .tc main_v87) = refNorm (W (Proc.devRef .tc main_v14)) := by
  simp only [sC3, refOps, ops, List.drop_succ_cons, List.drop_zero, List.take_succ_cons, List.take_zero]
  after_results_simp
  simp only [TRef.toBuf, TRef.ofBuf, cast_cast, cast_eq]
  unfold refNorm
  rfl

theorem sC3_keep (W : Valuation τ sig (Elt Ideal)) :
    after sC3 W (Proc.devRef .tc main_v81) = W (Proc.devRef .tc main_v81)
    ∧ after sC3 W (Proc.devRef .tc main_v84) = W (Proc.devRef .tc main_v84)
    ∧ after sC3 W (Proc.devRef .tc main_v14) = W (Proc.devRef .tc main_v14)
    ∧ after sC3 W (Proc.devRef .tc main_v68) = W (Proc.devRef .tc main_v68)
    ∧ after sC3 W (Proc.devRef .tc main_arg0) = W (Proc.devRef .tc main_arg0)
    ∧ after sC3 W (Proc.devRef .tc main_arg1) = W (Proc.devRef .tc main_arg1)
    ∧ after sC3 W (Proc.devRef .tc main_arg2) = W (Proc.devRef .tc main_arg2)
    ∧ after sC3 W (Proc.devRef .tc main_arg3) = W (Proc.devRef .tc main_arg3)
    ∧ after sC3 W (Proc.devRef .tc main_arg4) = W (Proc.devRef .tc main_arg4)
    ∧ after sC3 W (Proc.devRef .tc main_arg5) = W (Proc.devRef .tc main_arg5)
    ∧ after sC3 W (Proc.devRef .tc main_arg6) = W (Proc.devRef .tc main_arg6)
    ∧ after sC3 W (Proc.devRef .tc main_arg7) = W (Proc.devRef .tc main_arg7)
    ∧ after sC3 W (Proc.devRef .tc main_arg8) = W (Proc.devRef .tc main_arg8) := by
  simp only [sC3, refOps, ops, List.drop_succ_cons, List.drop_zero, List.take_succ_cons, List.take_zero]
  refine ⟨?_, ?_, ?_, ?_, ?_, ?_, ?_, ?_, ?_, ?_, ?_, ?_, ?_⟩ <;> after_results_simp

/-! ## The reweighting and the accumulation -/

theorem sD3_x (W : Valuation τ sig (Elt Ideal)) :
    after sD3 W (Proc.devRef .tc main_v94)
      = refRwOf (W (Proc.devRef .tc main_v81)) (W (Proc.devRef .tc main_v14)) (W (Proc.devRef .tc main_v84)) (W (Proc.devRef .tc main_v87)) := by
  simp only [sD3, refOps, ops, List.drop_succ_cons, List.drop_zero, List.take_succ_cons, List.take_zero]
  after_results_simp
  unfold refRwOf
  rfl

theorem sD3_acc (W : Valuation τ sig (Elt Ideal)) :
    after sD3 W (Proc.devRef .tc main_v95)
      = refAcc (W (Proc.devRef .tc main_v68)) (refRwOf (W (Proc.devRef .tc main_v81)) (W (Proc.devRef .tc main_v14)) (W (Proc.devRef .tc main_v84)) (W (Proc.devRef .tc main_v87))) := by
  simp only [sD3, refOps, ops, List.drop_succ_cons, List.drop_zero, List.take_succ_cons, List.take_zero]
  after_results_simp
  unfold refAcc refRwOf
  rfl

theorem sD3_keep (W : Valuation τ sig (Elt Ideal)) :
    after sD3 W (Proc.devRef .tc main_v14) = W (Proc.devRef .tc main_v14)
    ∧ after sD3 W (Proc.devRef .tc main_arg0) = W (Proc.devRef .tc main_arg0)
    ∧ after sD3 W (Proc.devRef .tc main_arg1) = W (Proc.devRef .tc main_arg1)
    ∧ after sD3 W (Proc.devRef .tc main_arg2) = W (Proc.devRef .tc main_arg2)
    ∧ after sD3 W (Proc.devRef .tc main_arg3) = W (Proc.devRef .tc main_arg3)
    ∧ after sD3 W (Proc.devRef .tc main_arg4) = W (Proc.devRef .tc main_arg4)
    ∧ after sD3 W (Proc.devRef .tc main_arg5) = W (Proc.devRef .tc main_arg5)
    ∧ after sD3 W (Proc.devRef .tc main_arg6) = W (Proc.devRef .tc main_arg6)
    ∧ after sD3 W (Proc.devRef .tc main_arg7) = W (Proc.devRef .tc main_arg7)
    ∧ after sD3 W (Proc.devRef .tc main_arg8) = W (Proc.devRef .tc main_arg8) := by
  simp only [sD3, refOps, ops, List.drop_succ_cons, List.drop_zero, List.take_succ_cons, List.take_zero]
  refine ⟨?_, ?_, ?_, ?_, ?_, ?_, ?_, ?_, ?_, ?_⟩ <;> after_results_simp

/-! ## The layer -/

/-- The layer's four stretches in order. -/
def sL3 : List (HloOp τ sig (Elt Ideal)) := sA3 ++ (sB3 ++ (sC3 ++ sD3))

theorem sL3_x (W : Valuation τ sig (Elt Ideal)) :
    after sL3 W (Proc.devRef .tc main_v94) = refX (W (Proc.devRef .tc main_arg0)) (W (Proc.devRef .tc main_arg1)) (W (Proc.devRef .tc main_arg2)) (W (Proc.devRef .tc main_v14)) (W (Proc.devRef .tc main_v67)) := by
  unfold sL3
  simp only [after_append']
  obtain ⟨hC0, hC1, hC2, hC3, hC4, hC5, hC6, hC7, hC8, hC9, hC10, hC11, hC12⟩ := sC3_keep (after sB3 (after sA3 W))
  obtain ⟨hB0, hB1, hB2, hB3, hB4, hB5, hB6, hB7, hB8, hB9, hB10, hB11⟩ := sB3_keep (after sA3 W)
  obtain ⟨hA0, hA1, hA2, hA3, hA4, hA5, hA6, hA7, hA8, hA9, hA10⟩ := sA3_keep W
  rw [sD3_x]
  simp only [hC0, hC1, hC2, hC3, hC4, hC5, hC6, hC7, hC8, hC9, hC10, hC11, hC12, hB0, hB1, hB2, hB3, hB4, hB5, hB6, hB7, hB8, hB9, hB10, hB11, hA0, hA1, hA2, hA3, hA4, hA5, hA6, hA7, hA8, hA9, hA10]
  rw [sC3_out, sB3_out, sA3_out]
  simp only [hC0, hC1, hC2, hC3, hC4, hC5, hC6, hC7, hC8, hC9, hC10, hC11, hC12, hB0, hB1, hB2, hB3, hB4, hB5, hB6, hB7, hB8, hB9, hB10, hB11, hA0, hA1, hA2, hA3, hA4, hA5, hA6, hA7, hA8, hA9, hA10]
  unfold refX
  rw [refRw_of]

theorem sL3_acc (W : Valuation τ sig (Elt Ideal)) :
    after sL3 W (Proc.devRef .tc main_v95)
      = refAcc (W (Proc.devRef .tc main_v68)) (refX (W (Proc.devRef .tc main_arg0)) (W (Proc.devRef .tc main_arg1)) (W (Proc.devRef .tc main_arg2)) (W (Proc.devRef .tc main_v14)) (W (Proc.devRef .tc main_v67))) := by
  unfold sL3
  simp only [after_append']
  obtain ⟨hC0, hC1, hC2, hC3, hC4, hC5, hC6, hC7, hC8, hC9, hC10, hC11, hC12⟩ := sC3_keep (after sB3 (after sA3 W))
  obtain ⟨hB0, hB1, hB2, hB3, hB4, hB5, hB6, hB7, hB8, hB9, hB10, hB11⟩ := sB3_keep (after sA3 W)
  obtain ⟨hA0, hA1, hA2, hA3, hA4, hA5, hA6, hA7, hA8, hA9, hA10⟩ := sA3_keep W
  rw [sD3_acc]
  simp only [hC0, hC1, hC2, hC3, hC4, hC5, hC6, hC7, hC8, hC9, hC10, hC11, hC12, hB0, hB1, hB2, hB3, hB4, hB5, hB6, hB7, hB8, hB9, hB10, hB11, hA0, hA1, hA2, hA3, hA4, hA5, hA6, hA7, hA8, hA9, hA10]
  rw [sC3_out, sB3_out, sA3_out]
  simp only [hC0, hC1, hC2, hC3, hC4, hC5, hC6, hC7, hC8, hC9, hC10, hC11, hC12, hB0, hB1, hB2, hB3, hB4, hB5, hB6, hB7, hB8, hB9, hB10, hB11, hA0, hA1, hA2, hA3, hA4, hA5, hA6, hA7, hA8, hA9, hA10]
  unfold refX
  rw [refRw_of]

theorem sL3_keep (W : Valuation τ sig (Elt Ideal)) :
    after sL3 W (Proc.devRef .tc main_v14) = W (Proc.devRef .tc main_v14)
    ∧ after sL3 W (Proc.devRef .tc main_arg0) = W (Proc.devRef .tc main_arg0)
    ∧ after sL3 W (Proc.devRef .tc main_arg1) = W (Proc.devRef .tc main_arg1)
    ∧ after sL3 W (Proc.devRef .tc main_arg2) = W (Proc.devRef .tc main_arg2)
    ∧ after sL3 W (Proc.devRef .tc main_arg3) = W (Proc.devRef .tc main_arg3)
    ∧ after sL3 W (Proc.devRef .tc main_arg4) = W (Proc.devRef .tc main_arg4)
    ∧ after sL3 W (Proc.devRef .tc main_arg5) = W (Proc.devRef .tc main_arg5)
    ∧ after sL3 W (Proc.devRef .tc main_arg6) = W (Proc.devRef .tc main_arg6)
    ∧ after sL3 W (Proc.devRef .tc main_arg7) = W (Proc.devRef .tc main_arg7)
    ∧ after sL3 W (Proc.devRef .tc main_arg8) = W (Proc.devRef .tc main_arg8) := by
  unfold sL3
  simp only [after_append']
  obtain ⟨hD0, hD1, hD2, hD3, hD4, hD5, hD6, hD7, hD8, hD9⟩ := sD3_keep (after sC3 (after sB3 (after sA3 W)))
  obtain ⟨hC0, hC1, hC2, hC3, hC4, hC5, hC6, hC7, hC8, hC9, hC10, hC11, hC12⟩ := sC3_keep (after sB3 (after sA3 W))
  obtain ⟨hB0, hB1, hB2, hB3, hB4, hB5, hB6, hB7, hB8, hB9, hB10, hB11⟩ := sB3_keep (after sA3 W)
  obtain ⟨hA0, hA1, hA2, hA3, hA4, hA5, hA6, hA7, hA8, hA9, hA10⟩ := sA3_keep W
  exact ⟨hD0.trans ((hC2).trans ((hB1).trans hA0)),
    hD1.trans ((hC4).trans ((hB3).trans hA2)),
    hD2.trans ((hC5).trans ((hB4).trans hA3)),
    hD3.trans ((hC6).trans ((hB5).trans hA4)),
    hD4.trans ((hC7).trans ((hB6).trans hA5)),
    hD5.trans ((hC8).trans ((hB7).trans hA6)),
    hD6.trans ((hC9).trans ((hB8).trans hA7)),
    hD7.trans ((hC10).trans ((hB9).trans hA8)),
    hD8.trans ((hC11).trans ((hB10).trans hA9)),
    hD9.trans ((hC12).trans ((hB11).trans hA10))⟩

end Cert.Val

end
-- ==== Proof.V.RefEvalL4.lean ====
/-
  Layer 4 of the reference, stretch by stretch over abstract contents: the propagation leaves the propagated
  array; the next two stretches its clamped row norms and the stacked embedding's (the called norm function's
  operations carry transports along type equalities that hold by computation: they are removed); the last the
  reweighted array and the new accumulator. Composed, the layer's thirty-nine operations take the running pair to
  the next one and leave the stacked embedding and the nine arguments alone.
-/
import proofs.«124407_j40681930228297_2_alg».proof.Proof.V.RefEval0

set_option maxRecDepth 16384

noncomputable section

namespace Cert.Val

open Cert.ReferenceIdeal Cert.ReferenceIdeal.Gen Cert.ReferenceIdeal.ValueP
open Idealize.ShloMosaic Idealize.ShloMosaic.TcCoe Idealize.SL.Sem Idealize.ShloMosaic.StableHlo

/-! ## The propagation -/

theorem sA4_out (W : Valuation τ sig (Elt Ideal)) :
    after sA4 W (Proc.devRef .tc main_v108) = refProp (W (Proc.devRef .tc main_arg0)) (W (Proc.devRef .tc main_arg1)) (W (Proc.devRef .tc main_arg2)) (W (Proc.devRef .tc main_v94)) := by
  simp only [sA4, refOps, ops, List.drop_succ_cons, List.drop_zero, List.take_succ_cons, List.take_zero]
  after_results_simp
  unfold refProp
  rfl

theorem sA4_keep (W : Valuation τ sig (Elt Ideal)) :
    after sA4 W (Proc.devRef .tc main_v14) = W (Proc.devRef .tc main_v14)
    ∧ after sA4 W (Proc.devRef .tc main_v95) = W (Proc.devRef .tc main_v95)
    ∧ after sA4 W (Proc.devRef .tc main_arg0) = W (Proc.devRef .tc main_arg0)
    ∧ after sA4 W (Proc.devRef .tc main_arg1) = W (Proc.devRef .tc main_arg1)
    ∧ after sA4 W (Proc.devRef .tc main_arg2) = W (Proc.devRef .tc main_arg2)
    ∧ after sA4 W (Proc.devRef .tc main_arg3) = W (Proc.devRef .tc main_arg3)
    ∧ after sA4 W (Proc.devRef .tc main_arg4) = W (Proc.devRef .tc main_arg4)
    ∧ after sA4 W (Proc.devRef .tc main_arg5) = W (Proc.devRef .tc main_arg5)
    ∧ after sA4 W (Proc.devRef .tc main_arg6) = W (Proc.devRef .tc main_arg6)
    ∧ after sA4 W (Proc.devRef .tc main_arg7) = W (Proc.devRef .tc main_arg7)
    ∧ after sA4 W (Proc.devRef .tc main_arg8) = W (Proc.devRef .tc main_arg8) := by
  simp only [sA4, refOps, ops, List.drop_succ_cons, List.drop_zero, List.take_succ_cons, List.take_zero]
  refine ⟨?_, ?_, ?_, ?_, ?_, ?_, ?_, ?_, ?_, ?_, ?_⟩ <;> after_results_simp

/-! ## The propagated array's clamped norms -/

theorem sB4_out (W : Valuation τ sig (Elt Ideal)) :
    after sB4 W (Proc.devRef .tc main_v111) = refNorm (W (Proc.devRef .tc main_v108)) := by
  simp only [sB4, refOps, ops, List.drop_succ_cons, List.drop_zero, List.take_succ_cons, List.take_zero]
  after_results_simp
  simp only [TRef.toBuf, TRef.ofBuf, cast_cast, cast_eq]
  unfold refNorm
  rfl

theorem sB4_keep (W : Valuation τ sig (Elt Ideal)) :
    after sB4 W (Proc.devRef .tc main_v108) = W (Proc.devRef .tc main_v108)
    ∧ after sB4 W (Proc.devRef .tc main_v14) = W (Proc.devRef .tc main_v14)
    ∧ after sB4 W (Proc.devRef .tc main_v95) = W (Proc.devRef .tc main_v95)
    ∧ after sB4 W (Proc.devRef .tc main_arg0) = W (Proc.devRef .tc main_arg0)
    ∧ after sB4 W (Proc.devRef .tc main_arg1) = W (Proc.devRef .tc main_arg1)
    ∧ after sB4 W (Proc.devRef .tc main_arg2) = W (Proc.devRef .tc main_arg2)
    ∧ after sB4 W (Proc.devRef .tc main_arg3) = W (Proc.devRef .tc main_arg3)
    ∧ after sB4 W (Proc.devRef .tc main_arg4) = W (Proc.devRef .tc main_arg4)
    ∧ after sB4 W (Proc.devRef .tc main_arg5) = W (Proc.devRef .tc main_arg5)
    ∧ after sB4 W (Proc.devRef .tc main_arg6) = W (Proc.devRef .tc main_arg6)
    ∧ after sB4 W (Proc.devRef .tc main_arg7) = W (Proc.devRef .tc main_arg7)
    ∧ after sB4 W (Proc.devRef .tc main_arg8) = W (Proc.devRef .tc main_arg8) := by
  simp only [sB4, refOps, ops, List.drop_succ_cons, List.drop_zero, List.take_succ_cons, List.take_zero]
  refine ⟨?_, ?_, ?_, ?_, ?_, ?_, ?_, ?_, ?_, ?_, ?_, ?_⟩ <;> after_results_simp

/-! ## The stacked embedding's clamped norms -/

theorem sC4_out (W : Valuation τ sig (Elt Ideal)) :
    after sC4 W (Proc.devRef .tc main_v114) = refNorm (W (Proc.devRef .tc main_v14)) := by
  simp only [sC4, refOps, ops, List.drop_succ_cons, List.drop_zero, List.take_succ_cons, List.take_zero]
  after_results_simp
  simp only [TRef.toBuf, TRef.ofBuf, cast_cast, cast_eq]
  unfold refNorm
  rfl

theorem sC4_keep (W : Valuation τ sig (Elt Ideal)) :
    after sC4 W (Proc.devRef .tc main_v108) = W (Proc.devRef .tc main_v108)
    ∧ after sC4 W (Proc.devRef .tc main_v111) = W (Proc.devRef .tc main_v111)
    ∧ after sC4 W (Proc.devRef .tc main_v14) = W (Proc.devRef .tc main_v14)
    ∧ after sC4 W (Proc.devRef .tc main_v95) = W (Proc.devRef .tc main_v95)
    ∧ after sC4 W (Proc.devRef .tc main_arg0) = W (Proc.devRef .tc main_arg0)
    ∧ after sC4 W (Proc.devRef .tc main_arg1) = W (Proc.devRef .tc main_arg1)
    ∧ after sC4 W (Proc.devRef .tc main_arg2) = W (Proc.devRef .tc main_arg2)
    ∧ after sC4 W (Proc.devRef .tc main_arg3) = W (Proc.devRef .tc main_arg3)
    ∧ after sC4 W (Proc.devRef .tc main_arg4) = W (Proc.devRef .tc main_arg4)
    ∧ after sC4 W (Proc.devRef .tc main_arg5) = W (Proc.devRef .tc main_arg5)
    ∧ after sC4 W (Proc.devRef .tc main_arg6) = W (Proc.devRef .tc main_arg6)
    ∧ after sC4 W (Proc.devRef .tc main_arg7) = W (Proc.devRef .tc main_arg7)
    ∧ after sC4 W (Proc.devRef .tc main_arg8) = W (Proc.devRef .tc main_arg8) := by
  simp only [sC4, refOps, ops, List.drop_succ_cons, List.drop_zero, List.take_succ_cons, List.take_zero]
  refine ⟨?_, ?_, ?_, ?_, ?_, ?_, ?_, ?_, ?_, ?_, ?_, ?_, ?_⟩ <;> after_results_simp

/-! ## The reweighting and the accumulation -/

theorem sD4_x (W : Valuation τ sig (Elt Ideal)) :
    after sD4 W (Proc.devRef .tc main_v121)
      = refRwOf (W (Proc.devRef .tc main_v108)) (W (Proc.devRef .tc main_v14)) (W (Proc.devRef .tc main_v111)) (W (Proc.devRef .tc main_v114)) := by
  simp only [sD4, refOps, ops, List.drop_succ_cons, List.drop_zero, List.take_succ_cons, List.take_zero]
  after_results_simp
  unfold refRwOf
  rfl

theorem sD4_acc (W : Valuation τ sig (Elt Ideal)) :
    after sD4 W (Proc.devRef .tc main_v122)
      = refAcc (W (Proc.devRef .tc main_v95)) (refRwOf (W (Proc.devRef .tc main_v108)) (W (Proc.devRef .tc main_v14)) (W (Proc.devRef .tc main_v111)) (W (Proc.devRef .tc main_v114))) := by
  simp only [sD4, refOps, ops, List.drop_succ_cons, List.drop_zero, List.take_succ_cons, List.take_zero]
  after_results_simp
  unfold refAcc refRwOf
  rfl

theorem sD4_keep (W : Valuation τ sig (Elt Ideal)) :
    after sD4 W (Proc.devRef .tc main_v14) = W (Proc.devRef .tc main_v14)
    ∧ after sD4 W (Proc.devRef .tc main_arg0) = W (Proc.devRef .tc main_arg0)
    ∧ after sD4 W (Proc.devRef .tc main_arg1) = W (Proc.devRef .tc main_arg1)
    ∧ after sD4 W (Proc.devRef .tc main_arg2) = W (Proc.devRef .tc main_arg2)
    ∧ after sD4 W (Proc.devRef .tc main_arg3) = W (Proc.devRef .tc main_arg3)
    ∧ after sD4 W (Proc.devRef .tc main_arg4) = W (Proc.devRef .tc main_arg4)
    ∧ after sD4 W (Proc.devRef .tc main_arg5) = W (Proc.devRef .tc main_arg5)
    ∧ after sD4 W (Proc.devRef .tc main_arg6) = W (Proc.devRef .tc main_arg6)
    ∧ after sD4 W (Proc.devRef .tc main_arg7) = W (Proc.devRef .tc main_arg7)
    ∧ after sD4 W (Proc.devRef .tc main_arg8) = W (Proc.devRef .tc main_arg8) := by
  simp only [sD4, refOps, ops, List.drop_succ_cons, List.drop_zero, List.take_succ_cons, List.take_zero]
  refine ⟨?_, ?_, ?_, ?_, ?_, ?_, ?_, ?_, ?_, ?_⟩ <;> after_results_simp

/-! ## The layer -/

/-- The layer's four stretches in order. -/
def sL4 : List (HloOp τ sig (Elt Ideal)) := sA4 ++ (sB4 ++ (sC4 ++ sD4))

theorem sL4_x (W : Valuation τ sig (Elt Ideal)) :
    after sL4 W (Proc.devRef .tc main_v121) = refX (W (Proc.devRef .tc main_arg0)) (W (Proc.devRef .tc main_arg1)) (W (Proc.devRef .tc main_arg2)) (W (Proc.devRef .tc main_v14)) (W (Proc.devRef .tc main_v94)) := by
  unfold sL4
  simp only [after_append']
  obtain ⟨hC0, hC1, hC2, hC3, hC4, hC5, hC6, hC7, hC8, hC9, hC10, hC11, hC12⟩ := sC4_keep (after sB4 (after sA4 W))
  obtain ⟨hB0, hB1, hB2, hB3, hB4, hB5, hB6, hB7, hB8, hB9, hB10, hB11⟩ := sB4_keep (after sA4 W)
  obtain ⟨hA0, hA1, hA2, hA3, hA4, hA5, hA6, hA7, hA8, hA9, hA10⟩ := sA4_keep W
  rw [sD4_x]
  simp only [hC0, hC1, hC2, hC3, hC4, hC5, hC6, hC7, hC8, hC9, hC10, hC11, hC12, hB0, hB1, hB2, hB3, hB4, hB5, hB6, hB7, hB8, hB9, hB10, hB11, hA0, hA1, hA2, hA3, hA4, hA5, hA6, hA7, hA8, hA9, hA10]
  rw [sC4_out, sB4_out, sA4_out]
  simp only [hC0, hC1, hC2, hC3, hC4, hC5, hC6, hC7, hC8, hC9, hC10, hC11, hC12, hB0, hB1, hB2, hB3, hB4, hB5, hB6, hB7, hB8, hB9, hB10, hB11, hA0, hA1, hA2, hA3, hA4, hA5, hA6, hA7, hA8, hA9, hA10]
  unfold refX
  rw [refRw_of]

theorem sL4_acc (W : Valuation τ sig (Elt Ideal)) :
    after sL4 W (Proc.devRef .tc main_v122)
      = refAcc (W (Proc.devRef .tc main_v95)) (refX (W (Proc.devRef .tc main_arg0)) (W (Proc.devRef .tc main_arg1)) (W (Proc.devRef .tc main_arg2)) (W (Proc.devRef .tc main_v14)) (W (Proc.devRef .tc main_v94))) := by
  unfold sL4
  simp only [after_append']
  obtain ⟨hC0, hC1, hC2, hC3, hC4, hC5, hC6, hC7, hC8, hC9, hC10, hC11, hC12⟩ := sC4_keep (after sB4 (after sA4 W))
  obtain ⟨hB0, hB1, hB2, hB3, hB4, hB5, hB6, hB7, hB8, hB9, hB10, hB11⟩ := sB4_keep (after sA4 W)
  obtain ⟨hA0, hA1, hA2, hA3, hA4, hA5, hA6, hA7, hA8, hA9, hA10⟩ := sA4_keep W
  rw [sD4_acc]
  simp only [hC0, hC1, hC2, hC3, hC4, hC5, hC6, hC7, hC8, hC9, hC10, hC11, hC12, hB0, hB1, hB2, hB3, hB4, hB5, hB6, hB7, hB8, hB9, hB10, hB11, hA0, hA1, hA2, hA3, hA4, hA5, hA6, hA7, hA8, hA9, hA10]
  rw [sC4_out, sB4_out, sA4_out]
  simp only [hC0, hC1, hC2, hC3, hC4, hC5, hC6, hC7, hC8, hC9, hC10, hC11, hC12, hB0, hB1, hB2, hB3, hB4, hB5, hB6, hB7, hB8, hB9, hB10, hB11, hA0, hA1, hA2, hA3, hA4, hA5, hA6, hA7, hA8, hA9, hA10]
  unfold refX
  rw [refRw_of]

theorem sL4_keep (W : Valuation τ sig (Elt Ideal)) :
    after sL4 W (Proc.devRef .tc main_v14) = W (Proc.devRef .tc main_v14)
    ∧ after sL4 W (Proc.devRef .tc main_arg0) = W (Proc.devRef .tc main_arg0)
    ∧ after sL4 W (Proc.devRef .tc main_arg1) = W (Proc.devRef .tc main_arg1)
    ∧ after sL4 W (Proc.devRef .tc main_arg2) = W (Proc.devRef .tc main_arg2)
    ∧ after sL4 W (Proc.devRef .tc main_arg3) = W (Proc.devRef .tc main_arg3)
    ∧ after sL4 W (Proc.devRef .tc main_arg4) = W (Proc.devRef .tc main_arg4)
    ∧ after sL4 W (Proc.devRef .tc main_arg5) = W (Proc.devRef .tc main_arg5)
    ∧ after sL4 W (Proc.devRef .tc main_arg6) = W (Proc.devRef .tc main_arg6)
    ∧ after sL4 W (Proc.devRef .tc main_arg7) = W (Proc.devRef .tc main_arg7)
    ∧ after sL4 W (Proc.devRef .tc main_arg8) = W (Proc.devRef .tc main_arg8) := by
  unfold sL4
  simp only [after_append']
  obtain ⟨hD0, hD1, hD2, hD3, hD4, hD5, hD6, hD7, hD8, hD9⟩ := sD4_keep (after sC4 (after sB4 (after sA4 W)))
  obtain ⟨hC0, hC1, hC2, hC3, hC4, hC5, hC6, hC7, hC8, hC9, hC10, hC11, hC12⟩ := sC4_keep (after sB4 (after sA4 W))
  obtain ⟨hB0, hB1, hB2, hB3, hB4, hB5, hB6, hB7, hB8, hB9, hB10, hB11⟩ := sB4_keep (after sA4 W)
  obtain ⟨hA0, hA1, hA2, hA3, hA4, hA5, hA6, hA7, hA8, hA9, hA10⟩ := sA4_keep W
  exact ⟨hD0.trans ((hC2).trans ((hB1).trans hA0)),
    hD1.trans ((hC4).trans ((hB3).trans hA2)),
    hD2.trans ((hC5).trans ((hB4).trans hA3)),
    hD3.trans ((hC6).trans ((hB5).trans hA4)),
    hD4.trans ((hC7).trans ((hB6).trans hA5)),
    hD5.trans ((hC8).trans ((hB7).trans hA6)),
    hD6.trans ((hC9).trans ((hB8).trans hA7)),
    hD7.trans ((hC10).trans ((hB9).trans hA8)),
    hD8.trans ((hC11).trans ((hB10).trans hA9)),
    hD9.trans ((hC12).trans ((hB11).trans hA10))⟩

end Cert.Val

end
-- ==== Proof.V.RefChain.lean ====
/-
  The reference's four layers, folded: one layer of host operations on the pair (x, acc) is one layer of the
  specification over the propagation the host operations compose, so four of them from x = acc = e give the
  specification's accumulated array, and the two cuts of it the two results.
-/
import proofs.«124407_j40681930228297_2_alg».proof.Proof.V.RefSpec

noncomputable section

namespace Cert.Val

open Cert.ReferenceIdeal Cert.ReferenceIdeal.Gen Idealize.ShloMosaic Idealize.ShloMosaic.ValueIdx

/-- One layer of the reference on the pair (x, acc). -/
def refLayer (a0 a1 : IVec S1200000 32) (a2 : FVec Ideal S1200000 .f32) (e : FVec Ideal S150000x64 .f32)
    (s : FVec Ideal S150000x64 .f32 × FVec Ideal S150000x64 .f32) :
    FVec Ideal S150000x64 .f32 × FVec Ideal S150000x64 .f32 :=
  (refX a0 a1 a2 e s.1, refAcc s.2 (refX a0 a1 a2 e s.1))

theorem refLayer_eq (a0 a1 : IVec S1200000 32) (a2 : FVec Ideal S1200000 .f32) (e : FVec Ideal S150000x64 .f32)
    (s : FVec Ideal S150000x64 .f32 × FVec Ideal S150000x64 .f32) :
    refLayer a0 a1 a2 e s = layer (refProp a0 a1 a2) e s :=
  Prod.ext (refX_eq a0 a1 a2 e s.1) (refAcc_eq a0 a1 a2 e s.1 s.2)

/-- The reference's accumulated array after its four layers from x = acc = e. -/
def refAcc4 (a0 a1 : IVec S1200000 32) (a2 : FVec Ideal S1200000 .f32) (e : FVec Ideal S150000x64 .f32) :
    FVec Ideal S150000x64 .f32 :=
  (refLayer a0 a1 a2 e (refLayer a0 a1 a2 e (refLayer a0 a1 a2 e (refLayer a0 a1 a2 e (e, e))))).2

theorem refAcc4_eq (a0 a1 : IVec S1200000 32) (a2 : FVec Ideal S1200000 .f32) (e : FVec Ideal S150000x64 .f32) :
    refAcc4 a0 a1 a2 e = acc4 (refProp a0 a1 a2) e := by
  unfold refAcc4 acc4
  rw [refLayer_eq, refLayer_eq, refLayer_eq, refLayer_eq]

/-- The reference's first result is the specification's. -/
theorem refResultU_eq (a0 a1 : IVec S1200000 32) (a2 : FVec Ideal S1200000 .f32) (a3 : FVec Ideal S100000x64 .f32)
    (a4 : FVec Ideal S50000x384 .f32) (a5 a6 : FVec Ideal S3x64 .f32) (a7 : FVec Ideal S64x384 .f32)
    (a8 : FVec Ideal S64 .f32) :
    refOutU (refAcc4 a0 a1 a2 (refEgo (refUser a3 a5) (refItem a4 a6 a7 a8)))
      = outUser (acc4 (refProp a0 a1 a2) (ego (userEmb a3 a5) (itemEmb a4 a7 a8 a6))) := by
  rw [refOutU_eq, refAcc4_eq, refEgo_eq, refUser_eq, refItem_eq]

/-- The reference's second result is the specification's. -/
theorem refResultI_eq (a0 a1 : IVec S1200000 32) (a2 : FVec Ideal S1200000 .f32) (a3 : FVec Ideal S100000x64 .f32)
    (a4 : FVec Ideal S50000x384 .f32) (a5 a6 : FVec Ideal S3x64 .f32) (a7 : FVec Ideal S64x384 .f32)
    (a8 : FVec Ideal S64 .f32) :
    refOutI (refAcc4 a0 a1 a2 (refEgo (refUser a3 a5) (refItem a4 a6 a7 a8)))
      = outItem (acc4 (refProp a0 a1 a2) (ego (userEmb a3 a5) (itemEmb a4 a7 a8 a6))) := by
  rw [refOutI_eq, refAcc4_eq, refEgo_eq, refUser_eq, refItem_eq]

end Cert.Val

end
-- ==== Proof.V.RefEval.lean ====
/-
  The reference's run, evaluated: the 175 operations are the prologue, the four layers and the two cuts in order,
  so from any contents of the buffers the two results are the cuts of the four-layer accumulation over the stacked
  embedding of the arguments, and the nine arguments are as they were.
-/
import proofs.«124407_j40681930228297_2_alg».proof.Proof.V.RefEvalL1
import proofs.«124407_j40681930228297_2_alg».proof.Proof.V.RefEvalL2
import proofs.«124407_j40681930228297_2_alg».proof.Proof.V.RefEvalL3
import proofs.«124407_j40681930228297_2_alg».proof.Proof.V.RefEvalL4
import proofs.«124407_j40681930228297_2_alg».proof.Proof.V.RefChain

noncomputable section

namespace Cert.Val

open Cert.ReferenceIdeal Cert.ReferenceIdeal.Gen Cert.ReferenceIdeal.ValueP
open Idealize.ShloMosaic Idealize.ShloMosaic.TcCoe Idealize.SL.Sem Idealize.ShloMosaic.StableHlo

/-- The operations are the prologue, the four layers and the two cuts, in order. -/
theorem refOps_layers : refOps = c0 ++ (sL1 ++ (sL2 ++ (sL3 ++ (sL4 ++ c5)))) := by
  rw [refOps_split]
  unfold sL1 sL2 sL3 sL4
  simp only [List.append_assoc]

/-- The reference's two results and its nine arguments after the run, from any contents `V`. -/
theorem ref_results (V : Valuation τ sig (Elt Ideal)) :
    after (Cert.ReferenceIdeal.ValueP.ops (F := Ideal)) V (Proc.devRef .tc main_v123) = refOutU (refAcc4 (V (Proc.devRef .tc main_arg0)) (V (Proc.devRef .tc main_arg1)) (V (Proc.devRef .tc main_arg2)) (refEgo (refUser (V (Proc.devRef .tc main_arg3)) (V (Proc.devRef .tc main_arg5))) (refItem (V (Proc.devRef .tc main_arg4)) (V (Proc.devRef .tc main_arg6)) (V (Proc.devRef .tc main_arg7)) (V (Proc.devRef .tc main_arg8)))))
    ∧ after (Cert.ReferenceIdeal.ValueP.ops (F := Ideal)) V (Proc.devRef .tc main_v124) = refOutI (refAcc4 (V (Proc.devRef .tc main_arg0)) (V (Proc.devRef .tc main_arg1)) (V (Proc.devRef .tc main_arg2)) (refEgo (refUser (V (Proc.devRef .tc main_arg3)) (V (Proc.devRef .tc main_arg5))) (refItem (V (Proc.devRef .tc main_arg4)) (V (Proc.devRef .tc main_arg6)) (V (Proc.devRef .tc main_arg7)) (V (Proc.devRef .tc main_arg8)))))
    ∧ after (Cert.ReferenceIdeal.ValueP.ops (F := Ideal)) V (Proc.devRef .tc main_arg0) = V (Proc.devRef .tc main_arg0)
    ∧ after (Cert.ReferenceIdeal.ValueP.ops (F := Ideal)) V (Proc.devRef .tc main_arg1) = V (Proc.devRef .tc main_arg1)
    ∧ after (Cert.ReferenceIdeal.ValueP.ops (F := Ideal)) V (Proc.devRef .tc main_arg2) = V (Proc.devRef .tc main_arg2)
    ∧ after (Cert.ReferenceIdeal.ValueP.ops (F := Ideal)) V (Proc.devRef .tc main_arg3) = V (Proc.devRef .tc main_arg3)
    ∧ after (Cert.ReferenceIdeal.ValueP.ops (F := Ideal)) V (Proc.devRef .tc main_arg4) = V (Proc.devRef .tc main_arg4)
    ∧ after (Cert.ReferenceIdeal.ValueP.ops (F := Ideal)) V (Proc.devRef .tc main_arg5) = V (Proc.devRef .tc main_arg5)
    ∧ after (Cert.ReferenceIdeal.ValueP.ops (F := Ideal)) V (Proc.devRef .tc main_arg6) = V (Proc.devRef .tc main_arg6)
    ∧ after (Cert.ReferenceIdeal.ValueP.ops (F := Ideal)) V (Proc.devRef .tc main_arg7) = V (Proc.devRef .tc main_arg7)
    ∧ after (Cert.ReferenceIdeal.ValueP.ops (F := Ideal)) V (Proc.devRef .tc main_arg8) = V (Proc.devRef .tc main_arg8) := by
  show after refOps V _ = _ ∧ after refOps V _ = _ ∧ after refOps V _ = _ ∧ after refOps V _ = _ ∧ after refOps V _ = _ ∧ after refOps V _ = _ ∧ after refOps V _ = _ ∧ after refOps V _ = _ ∧ after refOps V _ = _ ∧ after refOps V _ = _ ∧ after refOps V _ = _
  rw [refOps_layers]
  simp only [after_append']
  have e0 := c0_ego V
  have k0 := c0_keep V
  have x1 := sL1_x (after c0 V)
  have a1 := sL1_acc (after c0 V)
  have k1 := sL1_keep (after c0 V)
  have x2 := sL2_x (after sL1 (after c0 V))
  have a2 := sL2_acc (after sL1 (after c0 V))
  have k2 := sL2_keep (after sL1 (after c0 V))
  have x3 := sL3_x (after sL2 (after sL1 (after c0 V)))
  have a3 := sL3_acc (after sL2 (after sL1 (after c0 V)))
  have k3 := sL3_keep (after sL2 (after sL1 (after c0 V)))
  have x4 := sL4_x (after sL3 (after sL2 (after sL1 (after c0 V))))
  have a4 := sL4_acc (after sL3 (after sL2 (after sL1 (after c0 V))))
  have k4 := sL4_keep (after sL3 (after sL2 (after sL1 (after c0 V))))
  have o5 := c5_out (after sL4 (after sL3 (after sL2 (after sL1 (after c0 V)))))
  have k5 := c5_keep (after sL4 (after sL3 (after sL2 (after sL1 (after c0 V)))))
  refine ⟨?_, ?_, ?_, ?_, ?_, ?_, ?_, ?_, ?_, ?_, ?_⟩
  · simp only [o5, k5, a4, x4, k4, a3, x3, k3, a2, x2, k2, a1, x1, k1, e0, k0]
    simp only [refAcc4, refLayer]
  · simp only [o5, k5, a4, x4, k4, a3, x3, k3, a2, x2, k2, a1, x1, k1, e0, k0]
    simp only [refAcc4, refLayer]
  all_goals simp only [o5, k5, a4, x4, k4, a3, x3, k3, a2, x2, k2, a1, x1, k1, e0, k0]

end Cert.Val

end
-- ==== Proof.lean ====
/-
  The certificate of a message-passing kernel against its jnp reference: two embedding tables (a row plus the
  column sums of a 3-row table; the tanh of a 384-term product plus such a row) are joined into one table of
  150000 rows, and four times over the rows are propagated along the edges (gather, scale, scatter-add), each row
  is scaled by its cosine against the table's row (norms floored at a small constant) and added into a running
  sum; the results are the running sum cut at row 100000.
  The kernel computes the two tables and the four reweightings in six pallas_calls, row block by row block; every
  row of a block depends on that row of the operands alone, so each call's output array is one function of its
  input arrays, row by row, and the host operations between the calls are the reference's own. At the ideal
  instance both programs therefore compute one function of the arguments, index by index; no law of the extended
  reals beyond reading sums and products at an index is used, and the precondition is never opened.
  The three frames: the two kernel programs run as thirteen segments (seven host stretches, six calls), the
  arguments read back through the fold of the buffers' contents; the reference is a straight line of host
  operations none of which writes an argument.
-/
import proofs.«124407_j40681930228297_2_alg».proof.Defs
import proofs.«124407_j40681930228297_2_alg».proof.Proof.Gen.Kernel
import proofs.«124407_j40681930228297_2_alg».proof.Proof.Gen.KernelIdeal
import proofs.«124407_j40681930228297_2_alg».proof.Proof.Gen.ReferenceIdeal
import proofs.«124407_j40681930228297_2_alg».proof.Proof.Gen.Pre_finite_inputs
import proofs.«124407_j40681930228297_2_alg».proof.Proof.K.Run
import proofs.«124407_j40681930228297_2_alg».proof.Proof.KI.Run
import proofs.«124407_j40681930228297_2_alg».proof.Proof.KI.Result
import proofs.«124407_j40681930228297_2_alg».proof.Proof.V.RefFrame
import proofs.«124407_j40681930228297_2_alg».proof.Proof.V.RefEval
import proofs.«124407_j40681930228297_2_alg».proof.Proof.V.RefChain
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Run.frame m ρ

theorem frame_ki : Cert.frame_KernelIdeal (hKernelIdeal := Cert.KernelIdeal.Gen.facts) (hPre_finite_inputs := Cert.Pre_finite_inputs.Gen.facts) :=
  fun m ρ _ => Cert.KernelIdeal.Run.frame m ρ

theorem frame_ri : Cert.frame_ReferenceIdeal (hReferenceIdeal := Cert.ReferenceIdeal.Gen.facts) (hPre_finite_inputs := Cert.Pre_finite_inputs.Gen.facts) :=
  fun m ρ _ => Cert.Val.ref_frame m ρ

/-- The ideal pass rewrote nothing. -/
theorem preserves : Cert.preserves_Kernel_KernelIdeal := trivial

/-- Both programs end at the specification's two arrays of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Val.outUser (Cert.Val.acc4 (Cert.Val.refProp (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (Cert.Val.ego (Cert.Val.userEmb (m ((c.tc : Thread Cert.KernelIdeal.nD Cert.KernelIdeal.τ).loc Cert.KernelIdeal.main_arg3)) (m ((c.tc : Thread Cert.KernelIdeal.nD Cert.KernelIdeal.τ).loc Cert.KernelIdeal.main_arg5))) (Cert.Val.itemEmb (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg6))))), fun c => Cert.Val.outItem (Cert.Val.acc4 (Cert.Val.refProp (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (Cert.Val.ego (Cert.Val.userEmb (m ((c.tc : Thread Cert.KernelIdeal.nD Cert.KernelIdeal.τ).loc Cert.KernelIdeal.main_arg3)) (m ((c.tc : Thread Cert.KernelIdeal.nD Cert.KernelIdeal.τ).loc Cert.KernelIdeal.main_arg5))) (Cert.Val.itemEmb (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg6))))), ?_, ?_⟩
  · exact (θ_run (Cert.KernelIdeal.defs (F := Ideal)) _ _).mono (fun r h c => ⟨
      (h c _ (Cert.KernelIdeal.Run.mem_uc Cert.KernelIdeal.main_v67 (by decide))).trans (Cert.KernelIdeal.Run.kernel_v67 m ρ c),
      (h c _ (Cert.KernelIdeal.Run.mem_uc Cert.KernelIdeal.main_v68 (by decide))).trans (Cert.KernelIdeal.Run.kernel_v68 m ρ c),
      (h c _ (Cert.KernelIdeal.Run.mem_uc Cert.KernelIdeal.main_arg0 (by decide))).trans (Cert.KernelIdeal.Run.W13_main_arg0 m ρ c),
      (h c _ (Cert.KernelIdeal.Run.mem_uc Cert.KernelIdeal.main_arg1 (by decide))).trans (Cert.KernelIdeal.Run.W13_main_arg1 m ρ c),
      (h c _ (Cert.KernelIdeal.Run.mem_uc Cert.KernelIdeal.main_arg2 (by decide))).trans (Cert.KernelIdeal.Run.W13_main_arg2 m ρ c),
      (h c _ (Cert.KernelIdeal.Run.mem_uc Cert.KernelIdeal.main_arg3 (by decide))).trans (Cert.KernelIdeal.Run.W13_main_arg3 m ρ c),
      (h c _ (Cert.KernelIdeal.Run.mem_uc Cert.KernelIdeal.main_arg4 (by decide))).trans (Cert.KernelIdeal.Run.W13_main_arg4 m ρ c),
      (h c _ (Cert.KernelIdeal.Run.mem_uc Cert.KernelIdeal.main_arg5 (by decide))).trans (Cert.KernelIdeal.Run.W13_main_arg5 m ρ c),
      (h c _ (Cert.KernelIdeal.Run.mem_uc Cert.KernelIdeal.main_arg6 (by decide))).trans (Cert.KernelIdeal.Run.W13_main_arg6 m ρ c),
      (h c _ (Cert.KernelIdeal.Run.mem_uc Cert.KernelIdeal.main_arg7 (by decide))).trans (Cert.KernelIdeal.Run.W13_main_arg7 m ρ c),
      (h c _ (Cert.KernelIdeal.Run.mem_uc Cert.KernelIdeal.main_arg8 (by decide))).trans (Cert.KernelIdeal.Run.W13_main_arg8 m ρ c)⟩)
      (Cert.KernelIdeal.Run.run_all m ρ)
  · refine (θ_run (Cert.ReferenceIdeal.defs (F := Ideal)) _ _).mono (fun r h c => ?_) (Cert.ReferenceIdeal.ValueP.run (F := Ideal) m' ρ')
    obtain ⟨e0, e1, e2, e3, e4, e5, e6, e7, e8⟩ := hagree c
    have hres := Cert.Val.ref_results (StableHlo.launchContents m' c)
    refine ⟨(h c _).trans (hres.1.trans ?_), (h c _).trans (hres.2.1.trans ?_),
      (h c _).trans (Cert.Val.ref_keep0 _), (h c _).trans (Cert.Val.ref_keep1 _), (h c _).trans (Cert.Val.ref_keep2 _), (h c _).trans (Cert.Val.ref_keep3 _), (h c _).trans (Cert.Val.ref_keep4 _), (h c _).trans (Cert.Val.ref_keep5 _), (h c _).trans (Cert.Val.ref_keep6 _), (h c _).trans (Cert.Val.ref_keep7 _), (h c _).trans (Cert.Val.ref_keep8 _)⟩
    · rw [Cert.Val.refResultU_eq]
      show Cert.Val.outUser (Cert.Val.acc4 (Cert.Val.refProp (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))) (Cert.Val.ego (Cert.Val.userEmb (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5))) (Cert.Val.itemEmb (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg6))))) = _
      rw [e0, e1, e2, e3, e4, e5, e6, e7, e8]
    · rw [Cert.Val.refResultI_eq]
      show Cert.Val.outItem (Cert.Val.acc4 (Cert.Val.refProp (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))) (Cert.Val.ego (Cert.Val.userEmb (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5))) (Cert.Val.itemEmb (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg6))))) = _
      rw [e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
